-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x256 : Shape := ⟨2, ![512, 256]⟩
abbrev S256x40 : Shape := ⟨2, ![256, 40]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x256 : S_.BroadcastsInDim S512x256 (![] : Fin 0 → Fin S512x256.rank)
  reducesTo_S512x256_S_d0_1 : S512x256.ReducesTo [0, 1] S_
  bcast_S_S256x40 : S_.BroadcastsInDim S256x40 (![] : Fin 0 → Fin S256x40.rank)
  reducesTo_S256x40_S_d0_1 : S256x40.ReducesTo [0, 1] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .ogt main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x512 .f32) (main_arg1 : FVec F S8192x8192 .f32) (main_arg2 : FVec F S512x256 .f32) (main_arg3 : FVec F S256x40 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x40 .f32 := Host.absf main_arg3
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg1 main_v13 main_v16
-- ==== Kernel.lean ====
abbrev S8192x512 : Shape := ⟨2, ![8192, 512]⟩
abbrev S8192x8192 : Shape := ⟨2, ![8192, 8192]⟩
abbrev S512x256 : Shape := ⟨2, ![512, 256]⟩
abbrev S256x40 : Shape := ⟨2, ![256, 40]⟩
abbrev S8192x1 : Shape := ⟨2, ![8192, 1]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩
abbrev S8192x256 : Shape := ⟨2, ![8192, 256]⟩
abbrev S1024x512 : Shape := ⟨2, ![1024, 512]⟩
abbrev S1024x256 : Shape := ⟨2, ![1024, 256]⟩
abbrev S8192x40 : Shape := ⟨2, ![8192, 40]⟩
abbrev S1024x40 : Shape := ⟨2, ![1024, 40]⟩

abbrev nBuf : Space → Nat
  | .hbm => 19
  | .vmem => 31
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x40, .f32⟩
  | .hbm, ⟨4, _⟩ => ⟨S8192x1, .f32⟩
  | .hbm, ⟨5, _⟩ => ⟨S8192x8192, .bf16⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x512, .f32⟩
  | .hbm, ⟨14, _⟩ => ⟨S8192x512, .f32⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x40, .f32⟩
  | .local _ .vmem, ⟨0, _⟩ => ⟨S1024x1024, .f32⟩
  | .local _ .vmem, ⟨1, _⟩ => ⟨S1024x1024, .f32⟩
  | .local _ .vmem, ⟨2, _⟩ => ⟨S1024x1, .f32⟩
  | .local _ .vmem, ⟨3, _⟩ => ⟨S1024x1, .f32⟩
  | .local _ .vmem, ⟨4, _⟩ => ⟨S1024x1024, .bf16⟩
  | .local _ .vmem, ⟨5, _⟩ => ⟨S1024x1024, .bf16⟩
  | .local _ .vmem, ⟨6, _⟩ => ⟨S1024x1, .f32⟩
  | .local _ .vmem, ⟨7, _⟩ => ⟨S1024x1024, .bf16⟩
  | .local _ .vmem, ⟨8, _⟩ => ⟨S1024x1024, .bf16⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x1, .f32⟩
  | .local _ .vmem, ⟨14, _⟩ => ⟨S1024x1, .f32⟩
  | .local _ .vmem, ⟨15, _⟩ => ⟨S512x256, .f32⟩
  | .local _ .vmem, ⟨16, _⟩ => ⟨S1024x256, .f32⟩
  | .local _ .vmem, ⟨17, _⟩ => ⟨S1024x256, .f32⟩
  | .local _ .vmem, ⟨18, _⟩ => ⟨S1024x512, .f32⟩
  | .local _ .vmem, ⟨19, _⟩ => ⟨S1024x1024, .bf16⟩
  | .local _ .vmem, ⟨20, _⟩ => ⟨S1024x1024, .bf16⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x1, .f32⟩
  | .local _ .vmem, ⟨26, _⟩ => ⟨S1024x1, .f32⟩
  | .local _ .vmem, ⟨27, _⟩ => ⟨S256x40, .f32⟩
  | .local _ .vmem, ⟨28, _⟩ => ⟨S1024x40, .f32⟩
  | .local _ .vmem, ⟨29, _⟩ => ⟨S1024x40, .f32⟩
  | .local _ .vmem, ⟨30, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem5_1 : DmaSem sig := 27

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S512x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S256x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1024x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x1024_S1024x1024 : S1024x1024.ShapeCasts S1024x1024
  broadcasts_S1024x1_S1024x512 : S1024x1.Broadcasts S1024x512
  inb_S512x256_S512x256_0_0 : ∀ a, (![0, 0] : Fin 2 → Nat) a + S512x256.size a ≤ S512x256.size a
  h_S512x256 : 0 < S512x256.numel
  inb_S1024x256_S1024x256_0_0 : ∀ a, (![0, 0] : Fin 2 → Nat) a + S1024x256.size a ≤ S1024x256.size a
  h_S1024x256 : 0 < S1024x256.numel
  bcast_S8192x1_S8192x256_0_1 : S8192x1.BroadcastsInDim S8192x256 (![0, 1] : Fin 2 → Fin S8192x256.rank)
  shapeCasts_S1024x256_S1024x256 : S1024x256.ShapeCasts S1024x256
  broadcasts_S1024x1_S1024x256 : S1024x1.Broadcasts S1024x256
  inb_S256x40_S256x40_0_0 : ∀ a, (![0, 0] : Fin 2 → Nat) a + S256x40.size a ≤ S256x40.size a
  h_S256x40 : 0 < S256x40.numel
  reduces_S1024x40_S1024 : S1024x40.Reduces [1] S1024
  broadcasts_S1024x1_S1024x40 : S1024x1.Broadcasts S1024x40
  inb_S1024x40_S1024x40_0_0 : ∀ a, (![0, 0] : Fin 2 → Nat) a + S1024x40.size a ≤ S1024x40.size a
  h_S1024x40 : 0 < S1024x40.numel
  dot_S1024x1024_S1024x512_S1024x512_1_0_0_1_n_n_wf : DotDims.WF S1024x1024 S1024x512 S1024x512 [1] [0] [0] [1] [] []
  dot_S1024x512_S512x256_S1024x256_1_0_0_1_n_n_wf : DotDims.WF S1024x512 S512x256 S1024x256 [1] [0] [0] [1] [] []
  dot_S1024x1024_S1024x256_S1024x256_1_0_0_1_n_n_wf : DotDims.WF S1024x1024 S1024x256 S1024x256 [1] [0] [0] [1] [] []
  dot_S1024x256_S256x40_S1024x40_1_0_0_1_n_n_wf : DotDims.WF S1024x256 S256x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x8192.size a
  hwx0_0 : ∀ i : grid0.Coords, EltTy.bits .f32 = 32 ∨ (Rect.block (s := S8192x8192) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .bf16 = 32 ∨ (Rect.block (s := S8192x8192) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x8192.size a
  hwx1_0 : ∀ i : grid1.Coords, EltTy.bits .bf16 = 32 ∨ (Rect.block (s := S8192x8192) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S8192x512.size a
  hwx1_1 : ∀ i : grid1.Coords, EltTy.bits .f32 = 32 ∨ (Rect.block (s := S8192x512) S1024x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512x256.size a ≤ S512x256.size a
  hwx1_4 : ∀ i : grid1.Coords, EltTy.bits .f32 = 32 ∨ (Rect.block (s := S512x256) S512x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S8192x256.size a
  hwx1_5 : ∀ i : grid1.Coords, EltTy.bits .f32 = 32 ∨ (Rect.block (s := S8192x256) S1024x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x8192.size a
  hwx2_0 : ∀ i : grid2.Coords, EltTy.bits .bf16 = 32 ∨ (Rect.block (s := S8192x8192) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S8192x256.size a
  hwx2_1 : ∀ i : grid2.Coords, EltTy.bits .f32 = 32 ∨ (Rect.block (s := S8192x256) S1024x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S8192x256.size a
  hwx2_2 : ∀ i : grid2.Coords, EltTy.bits .f32 = 32 ∨ (Rect.block (s := S8192x256) S1024x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S8192x1.size a
  hwx2_3 : ∀ i : grid2.Coords, EltTy.bits .f32 = 32 ∨ (Rect.block (s := S8192x1) S1024x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x40.size a ≤ S256x40.size a
  hwx2_4 : ∀ i : grid2.Coords, EltTy.bits .f32 = 32 ∨ (Rect.block (s := S256x40) S256x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x40.size a ≤ S8192x40.size a
  hwx2_5 : ∀ i : grid2.Coords, EltTy.bits .f32 = 32 ∨ (Rect.block (s := S8192x40) S1024x40.size (cc2_transform_5 i) (hinb2_5 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x40_S1024x40_1_0_0_1_n_n : DotDims S1024x256 S256x40 S1024x40 where
  lhsContracting := [1]
  rhsContracting := [0]
  lhsNonContracting := [0]
  rhsNonContracting := [1]
  lhsBatch := []
  rhsBatch := []
  wf := dot_S1024x256_S256x40_S1024x40_1_0_0_1_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1024x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun _ => false | ⟨_ + 3, h⟩ => absurd h (Nat.not_lt.2 (Nat.le_add_left _ _))

abbrev win1_0 : Pipeline.Window sig grid1 :=
  Pipeline.Window.ofSpec (Memref.whole main_v0_1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S512x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v0_1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1024x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S256x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S1024x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x256 : Shape := ⟨2, ![512, 256]⟩
abbrev S256x40 : Shape := ⟨2, ![256, 40]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x256 : Shape := ⟨2, ![8192, 256]⟩
abbrev S8192x40 : Shape := ⟨2, ![8192, 40]⟩

abbrev nBuf : Space → Nat
  | .hbm => 48
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S512x256, .f32⟩
  | .hbm, ⟨3, _⟩ => ⟨S256x40, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S8192x1, .f32⟩
  | .hbm, ⟨18, _⟩ => ⟨S8192x8192, .f32⟩
  | .hbm, ⟨19, _⟩ => ⟨S8192x8192, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x512, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x40, .f32⟩
  | .hbm, ⟨30, _⟩ => ⟨S_, .f32⟩
  | .hbm, ⟨31, _⟩ => ⟨S8192x40, .f32⟩
  | .hbm, ⟨32, _⟩ => ⟨S8192x40, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x40, .f32⟩
  | .hbm, ⟨40, _⟩ => ⟨S8192x40, .f32⟩
  | .hbm, ⟨41, _⟩ => ⟨S8192x40, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1, .f32⟩
  | .hbm, ⟨46, _⟩ => ⟨S8192x40, .f32⟩
  | .hbm, ⟨47, _⟩ => ⟨S8192x40, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_cst : Ref sig .tc := ⟨.hbm, 25, rfl⟩
abbrev main_call0_v0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call1_cst : Ref sig .tc := ⟨.hbm, 30, rfl⟩
abbrev main_call1_v0 : Ref sig .tc := ⟨.hbm, 31, rfl⟩
abbrev main_v21 : Ref sig .tc := ⟨.hbm, 32, rfl⟩
abbrev main_call2_cst : Ref sig .tc := ⟨.hbm, 33, rfl⟩
abbrev main_call2_v0 : Ref sig .tc := ⟨.hbm, 34, rfl⟩
abbrev main_call2_cst_0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_v6 : Ref sig .tc := ⟨.hbm, 41, rfl⟩
abbrev main_call2_cst_1 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_v22 : Ref sig .tc := ⟨.hbm, 47, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S_S8192x256 : S_.BroadcastsInDim S8192x256 (![] : Fin 0 → Fin S8192x256.rank)
  bcast_S_S8192x40 : S_.BroadcastsInDim S8192x40 (![] : Fin 0 → Fin S8192x40.rank)
  reducesTo_S8192x40_S8192_d1 : S8192x40.ReducesTo [1] S8192
  bcast_S8192x1_S8192x40_0_1 : S8192x1.BroadcastsInDim S8192x40 (![0, 1] : Fin 2 → Fin S8192x40.rank)
  dot_S8192x8192_S8192x512_S8192x512_1_0_0_1_n_n_wf : DotDims.WF S8192x8192 S8192x512 S8192x512 [1] [0] [0] [1] [] []
  dot_S8192x512_S512x256_S8192x256_1_0_0_1_n_n_wf : DotDims.WF S8192x512 S512x256 S8192x256 [1] [0] [0] [1] [] []
  dot_S8192x8192_S8192x256_S8192x256_1_0_0_1_n_n_wf : DotDims.WF S8192x8192 S8192x256 S8192x256 [1] [0] [0] [1] [] []
  dot_S8192x256_S256x40_S8192x40_1_0_0_1_n_n_wf : DotDims.WF S8192x256 S256x40 S8192x40 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x256_S256x40_S8192x40_1_0_0_1_n_n : DotDims S8192x256 S256x40 S8192x40 where
  lhsContracting := [1]
  rhsContracting := [0]
  lhsNonContracting := [0]
  rhsNonContracting := [1]
  lhsBatch := []
  rhsBatch := []
  wf := dot_S8192x256_S256x40_S8192x40_1_0_0_1_n_n_wf

class Facts : Prop extends Facts₀ where

variable [Facts]
-- ==== Proof.K.SharedArr.lean ====
/-
  Regions 1 and 2 read the scaled features through TWO windows (the block a grid point contracts over, and the block of
  the point's own rows for the self-loop term), so five distinct buffers stand behind their six windows. At a region's
  entry each buffer is held whole; the feature array is dealt to its two windows in the left and right halves of the
  full share, and at the exit the halves are joined again.
-/
import proofs.«152435_j1984274891532_2_alg».proof.Proof.Gen.Kernel.Regions
import Idealize.ShloMosaic.Lib.Pipeline.Kit

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 1's arrays as points-tos of the buffers behind them, window by window, each at its share (every array is a whole buffer). -/
theorem arrays_eq_share1 {c : Dev nD} (dat : Dat τ (Elt F) Unit ℕ (UR sig nD τ) ℕ cfg1 c)
    (G : (w : Fin cfg1.W) → Buf (Elt F) ((cfg1.win w).arr.view.loc (c.tc : Thread nD τ))) :
    dat.arrays G = bigSep Finset.univ fun w => (((c.tc : Thread nD τ).loc (Pipeline.arrRef spec1 w)) ↦{dat.share w} G w : sProp 𝕄) := by
  unfold Dat.arrays
  exact bigSep_congr fun w _ => by rw [(arr_whole1 w).set_eq_univ]

/-- The five distinct buffers behind region 1's six windows, one by one. -/
theorem arrBufs1_eq (c : Dev nD) (V : (b : Ref sig .tc) → Buf (Elt F) ((c.tc : Thread nD τ).loc b)) :
    (Pipeline.arrBufs spec1 c V : sProp 𝕄)
      = iprop((((c.tc : Thread nD τ).loc main_v0_1) ↦{fullShare} V main_v0_1) ∗ (((c.tc : Thread nD τ).loc main_v7) ↦{fullShare} V main_v7)
          ∗ (((c.tc : Thread nD τ).loc main_v5) ↦{fullShare} V main_v5) ∗ (((c.tc : Thread nD τ).loc main_arg2) ↦{fullShare} V main_arg2)
          ∗ (((c.tc : Thread nD τ).loc main_v8) ↦{fullShare} V main_v8)) := by
  unfold Pipeline.arrBufs
  rw [bigSep_eq_bigSepL_of_eq [main_v0_1, main_v7, main_v5, main_arg2, main_v8] (by decide) (by decide)]
  rfl

/-- ENTRY of region 1: the buffers behind the arrays, each whole, dealt to the windows — the feature array, read through
    windows 1 and 2, in two halves. -/
theorem arrays_of_arrBufs1 {c : Dev nD} (V : (b : Ref sig .tc) → Buf (Elt F) ((c.tc : Thread nD τ).loc b))
    (dat : Dat τ (Elt F) Unit ℕ (UR sig nD τ) ℕ cfg1 c)
    (hs0 : dat.share 0 = fullShare) (hs1 : dat.share 1 = fullShare.left) (hs2 : dat.share 2 = fullShare.right)
    (hs3 : dat.share 3 = fullShare) (hs4 : dat.share 4 = fullShare) (hs5 : dat.share 5 = fullShare)
    (G : (w : Fin cfg1.W) → Buf (Elt F) ((cfg1.win w).arr.view.loc (c.tc : Thread nD τ)))
    (hG : ∀ w, G w = V (Pipeline.arrRef spec1 w)) :
    (Pipeline.arrBufs spec1 c V : sProp 𝕄) ⊢ dat.arrays G := by
  rw [arrays_eq_share1 dat G, bigSep_W1, arrBufs1_eq, hs0, hs1, hs2, hs3, hs4, hs5, hG 0, hG 1, hG 2, hG 3, hG 4, hG 5]
  iintro ⟨H0, H1, H3, H4, H5⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H3]; · iexact H3
  isplitl [H4]; · iexact H4
  iexact H5

/-- EXIT of region 1: the windows' arrays joined into the buffers behind them again. -/
theorem arrBufs_of_arrays1 {c : Dev nD} (V : (b : Ref sig .tc) → Buf (Elt F) ((c.tc : Thread nD τ).loc b))
    (dat : Dat τ (Elt F) Unit ℕ (UR sig nD τ) ℕ cfg1 c)
    (hs0 : dat.share 0 = fullShare) (hs1 : dat.share 1 = fullShare.left) (hs2 : dat.share 2 = fullShare.right)
    (hs3 : dat.share 3 = fullShare) (hs4 : dat.share 4 = fullShare) (hs5 : dat.share 5 = fullShare)
    (G : (w : Fin cfg1.W) → Buf (Elt F) ((cfg1.win w).arr.view.loc (c.tc : Thread nD τ)))
    (hG : ∀ w, G w = V (Pipeline.arrRef spec1 w)) :
    dat.arrays G ⊢ (Pipeline.arrBufs spec1 c V : sProp 𝕄) := by
  rw [arrays_eq_share1 dat G, bigSep_W1, arrBufs1_eq, hs0, hs1, hs2, hs3, hs4, hs5, hG 0, hG 1, hG 2, hG 3, hG 4, hG 5]
  iintro ⟨H0, H1a, H1b, H3, H4, H5⟩
  ihave H1 := (pointsTo_share (PosShare.mem_left_op_right fullShare)).2 $$ [H1a H1b]
  · isplitl [H1a]; · iexact H1a
    iexact H1b
  isplitl [H0]; · iexact H0
  isplitl [H1]; · iexact H1
  isplitl [H3]; · iexact H3
  isplitl [H4]; · iexact H4
  iexact H5

/-- Region 2's arrays as points-tos of the buffers behind them, window by window, each at its share (every array is a whole buffer). -/
theorem arrays_eq_share2 {c : Dev nD} (dat : Dat τ (Elt F) Unit ℕ (UR sig nD τ) ℕ cfg2 c)
    (G : (w : Fin cfg2.W) → Buf (Elt F) ((cfg2.win w).arr.view.loc (c.tc : Thread nD τ))) :
    dat.arrays G = bigSep Finset.univ fun w => (((c.tc : Thread nD τ).loc (Pipeline.arrRef spec2 w)) ↦{dat.share w} G w : sProp 𝕄) := by
  unfold Dat.arrays
  exact bigSep_congr fun w _ => by rw [(arr_whole2 w).set_eq_univ]

/-- The five distinct buffers behind region 2's six windows, one by one. -/
theorem arrBufs2_eq (c : Dev nD) (V : (b : Ref sig .tc) → Buf (Elt F) ((c.tc : Thread nD τ).loc b)) :
    (Pipeline.arrBufs spec2 c V : sProp 𝕄)
      = iprop((((c.tc : Thread nD τ).loc main_v0_1) ↦{fullShare} V main_v0_1) ∗ (((c.tc : Thread nD τ).loc main_v10) ↦{fullShare} V main_v10)
          ∗ (((c.tc : Thread nD τ).loc main_v5) ↦{fullShare} V main_v5) ∗ (((c.tc : Thread nD τ).loc main_arg3) ↦{fullShare} V main_arg3)
          ∗ (((c.tc : Thread nD τ).loc main_v11) ↦{fullShare} V main_v11)) := by
  unfold Pipeline.arrBufs
  rw [bigSep_eq_bigSepL_of_eq [main_v0_1, main_v10, main_v5, main_arg3, main_v11] (by decide) (by decide)]
  rfl

/-- ENTRY of region 2: the buffers behind the arrays, each whole, dealt to the windows — the feature array, read through
    windows 1 and 2, in two halves. -/
theorem arrays_of_arrBufs2 {c : Dev nD} (V : (b : Ref sig .tc) → Buf (Elt F) ((c.tc : Thread nD τ).loc b))
    (dat : Dat τ (Elt F) Unit ℕ (UR sig nD τ) ℕ cfg2 c)
    (hs0 : dat.share 0 = fullShare) (hs1 : dat.share 1 = fullShare.left) (hs2 : dat.share 2 = fullShare.right)
    (hs3 : dat.share 3 = fullShare) (hs4 : dat.share 4 = fullShare) (hs5 : dat.share 5 = fullShare)
    (G : (w : Fin cfg2.W) → Buf (Elt F) ((cfg2.win w).arr.view.loc (c.tc : Thread nD τ)))
    (hG : ∀ w, G w = V (Pipeline.arrRef spec2 w)) :
    (Pipeline.arrBufs spec2 c V : sProp 𝕄) ⊢ dat.arrays G := by
  rw [arrays_eq_share2 dat G, bigSep_W2, arrBufs2_eq, hs0, hs1, hs2, hs3, hs4, hs5, hG 0, hG 1, hG 2, hG 3, hG 4, hG 5]
  iintro ⟨H0, H1, H3, H4, H5⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H3]; · iexact H3
  isplitl [H4]; · iexact H4
  iexact H5

/-- EXIT of region 2: the windows' arrays joined into the buffers behind them again. -/
theorem arrBufs_of_arrays2 {c : Dev nD} (V : (b : Ref sig .tc) → Buf (Elt F) ((c.tc : Thread nD τ).loc b))
    (dat : Dat τ (Elt F) Unit ℕ (UR sig nD τ) ℕ cfg2 c)
    (hs0 : dat.share 0 = fullShare) (hs1 : dat.share 1 = fullShare.left) (hs2 : dat.share 2 = fullShare.right)
    (hs3 : dat.share 3 = fullShare) (hs4 : dat.share 4 = fullShare) (hs5 : dat.share 5 = fullShare)
    (G : (w : Fin cfg2.W) → Buf (Elt F) ((cfg2.win w).arr.view.loc (c.tc : Thread nD τ)))
    (hG : ∀ w, G w = V (Pipeline.arrRef spec2 w)) :
    dat.arrays G ⊢ (Pipeline.arrBufs spec2 c V : sProp 𝕄) := by
  rw [arrays_eq_share2 dat G, bigSep_W2, arrBufs2_eq, hs0, hs1, hs2, hs3, hs4, hs5, hG 0, hG 1, hG 2, hG 3, hG 4, hG 5]
  iintro ⟨H0, H1a, H1b, H3, H4, H5⟩
  ihave H1 := (pointsTo_share (PosShare.mem_left_op_right fullShare)).2 $$ [H1a H1b]
  · isplitl [H1a]; · iexact H1a
    iexact H1b
  isplitl [H0]; · iexact H0
  isplitl [H1]; · iexact H1
  isplitl [H3]; · iexact H3
  isplitl [H4]; · iexact H4
  iexact H5

end Cert.Kernel.Gen

end
-- ==== Proof.K.Assembly.lean ====
/-
  The kernel program's run, assembled from its three regions.

  @main is: region 0 (row sums of the adjacency and its copy), nine host operations (d = 1/√(rowsum + 1), y = d·x),
  region 1 (first layer), two host operations (y₂ = d·h), region 2 (second layer and the log-softmax). Between two
  items a core holds every unscoped buffer whole; a region takes its windows' arrays out of them, runs its grid, and
  puts them back with each output array at what its write-backs leave. Regions 1 and 2 read the scaled features
  through two windows, so that array is dealt to the two windows in halves and joined again at the exit.
  The run ends with every unscoped buffer at the last contents: the arguments as launched, the result at what
  region 2's write-backs leave.
-/
import proofs.«152435_j1984274891532_2_alg».proof.Proof.Gen.Kernel.Regions
import proofs.«152435_j1984274891532_2_alg».proof.Proof.K.SharedArr
import Idealize.ShloMosaic.Lib.Pipeline.FrameSuffix
import Idealize.ShloMosaic.Lib.Pipeline.RegionsLoop

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of a core's TensorCore buffers, by reference. -/
abbrev Cont (F : FTy → Type) [FloatOps F] : Type := (c : Dev nD) → (b : Ref sig .tc) → Buf (Elt F) ((c : Thread nD τ).loc b)

section Run

variable (dat0 : Cont F → (c : Dev nD) → Dat τ (Elt F) Unit ℕ (UR sig nD τ) ℕ cfg0 c)
  (dat1 : Cont F → (c : Dev nD) → Dat τ (Elt F) Unit ℕ (UR sig nD τ) ℕ cfg1 c)
  (dat2 : Cont F → (c : Dev nD) → Dat τ (Elt F) Unit ℕ (UR sig nD τ) ℕ cfg2 c)

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev C0 : Cont F := fun c b => W0 m ρ c b
/-- After region 0: its arrays at what the write-backs leave. -/
def W1 (c : Dev nD) : Valuation τ sig (Elt F) :=
  Pipeline.withArrays spec0 c (W0 m ρ c) fun w => (dat0 (C0 m ρ) c).arrAt w cfg0.N
/-- After the nine host operations. -/
abbrev W2 : Dev nD → Valuation τ sig (Elt F) := fun c => StableHlo.after hostOps1 (W1 dat0 m ρ c)
abbrev C2 : Cont F := fun c b => W2 dat0 m ρ c b
/-- After region 1: its one output array at what the write-backs leave. -/
def W3 (c : Dev nD) : Valuation τ sig (Elt F) :=
  Function.update (W2 dat0 m ρ c) (Proc.devRef .tc main_v8) ((dat1 (C2 dat0 m ρ) c).arrAt 5 cfg1.N)
/-- After the two host operations. -/
abbrev W4 : Dev nD → Valuation τ sig (Elt F) := fun c => StableHlo.after hostOps2 (W3 dat0 dat1 m ρ c)
abbrev C4 : Cont F := fun c b => W4 dat0 dat1 m ρ c b
/-- After region 2. -/
def W5 (c : Dev nD) : Valuation τ sig (Elt F) :=
  Function.update (W4 dat0 dat1 m ρ c) (Proc.devRef .tc main_v11) ((dat2 (C4 dat0 dat1 m ρ) c).arrAt 5 cfg2.N)

end Run

section Records

variable (dat0 : Cont F → (c : Dev nD) → Dat τ (Elt F) Unit ℕ (UR sig nD τ) ℕ cfg0 c)
  (dat1 : Cont F → (c : Dev nD) → Dat τ (Elt F) Unit ℕ (UR sig nD τ) ℕ cfg1 c)
  (dat2 : Cont F → (c : Dev nD) → Dat τ (Elt F) Unit ℕ (UR sig nD τ) ℕ cfg2 c)
  (A_eq0 : ∀ (V : Cont F) c w, (dat0 V c).A w = V c (Pipeline.arrRef spec0 w))
  (A_eq1 : ∀ (V : Cont F) c w, (dat1 V c).A w = V c (Pipeline.arrRef spec1 w))
  (A_eq2 : ∀ (V : Cont F) c w, (dat2 V c).A w = V c (Pipeline.arrRef spec2 w))
  (bo0 : ∀ (V : Cont F) c, BodyObligation (dat0 V c) (defs₀ (F := F)) Variants.none () Set.univ)
  (bo1 : ∀ (V : Cont F) c, BodyObligation (dat1 V c) (defs₀ (F := F)) Variants.none () Set.univ)
  (bo2 : ∀ (V : Cont F) c, BodyObligation (dat2 V c) (defs₀ (F := F)) Variants.none () Set.univ)
  (hin0 : ∀ (V : Cont F) c, Pipeline.ΦA spec0 c ⊢ (dat0 V c).Φ 0)
  (hin1 : ∀ (V : Cont F) c, Pipeline.ΦA spec1 c ⊢ (dat1 V c).Φ 0)
  (hin2 : ∀ (V : Cont F) c, Pipeline.ΦA spec2 c ⊢ (dat2 V c).Φ 0)
  (hout0 : ∀ (V : Cont F) c, (dat0 V c).Φ (Fin.last cfg0.N) ⊢ Pipeline.ΦA spec0 c)
  (hout1 : ∀ (V : Cont F) c, (dat1 V c).Φ (Fin.last cfg1.N) ⊢ Pipeline.ΦA spec1 c)
  (hout2 : ∀ (V : Cont F) c, (dat2 V c).Φ (Fin.last cfg2.N) ⊢ Pipeline.ΦA spec2 c)
  (hq0 : ∀ (V : Cont F) c w, (dat0 V c).q w = fullShare)
  (how0 : ∀ (V : Cont F) c t, (dat0 V c).owed t = 0)
  (how1 : ∀ (V : Cont F) c t, (dat1 V c).owed t = 0)
  (how2 : ∀ (V : Cont F) c t, (dat2 V c).owed t = 0)
  (hsh1 : ∀ (V : Cont F) c, (dat1 V c).share 0 = fullShare ∧ (dat1 V c).share 1 = fullShare.left ∧ (dat1 V c).share 2 = fullShare.right ∧ (dat1 V c).share 3 = fullShare ∧ (dat1 V c).share 4 = fullShare ∧ (dat1 V c).share 5 = fullShare)
  (hsh2 : ∀ (V : Cont F) c, (dat2 V c).share 0 = fullShare ∧ (dat2 V c).share 1 = fullShare.left ∧ (dat2 V c).share 2 = fullShare.right ∧ (dat2 V c).share 3 = fullShare ∧ (dat2 V c).share 4 = fullShare ∧ (dat2 V c).share 5 = fullShare)
  (hrec0 : ∀ (V : Cont F) c t, (dat0 V c).recorded t = Set.univ)
  (hrec1 : ∀ (V : Cont F) c t, (dat1 V c).recorded t = Set.univ)
  (hrec2 : ∀ (V : Cont F) c t, (dat2 V c).recorded t = Set.univ)

variable (m : (ℓ : Loc nD τ sig) → Buf (Elt F) ℓ) (ρ : Dev nD → PrngReg)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (C0 m ρ) c
  | ⟨1, _⟩ => fun c => dat1 (C2 dat0 m ρ) c
  | ⟨2, _⟩ => fun c => dat2 (C4 dat0 dat1 m ρ) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem W1_arr (c : Dev nD) (w : Fin cfg0.W) :
    W1 dat0 m ρ c (Proc.devRef .tc (Pipeline.arrRef spec0 w)) = (dat0 (C0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 dat0 m ρ c (Proc.devRef .tc b) = W0 m ρ c (Proc.devRef .tc b) := by
  unfold W1; exact Pipeline.withArrays_of_ne spec0 c _ _ b hb

set_option backward.isDefEq.respectTransparency.types false in
/-- Region 0: its three arrays are distinct buffers, taken out of the unscoped buffers whole and put back at what the write-backs leave. -/
def reg0 : Pipeline.RegionSeg (pcfgs (F := F)) adm (pdats dat0 dat1 dat2 m ρ) () defs₀ 𝒱₀ L lv 0 where
  win := launch0.win.to₀
  block_pos := launch0.block_pos
  stage_whole := launch0.stage_whole
  K := PEmpty
  osem k := k.elim
  ho := Pipeline.OwnSemFacts.none _
  hbody c := (bo0 (C0 m ρ) c).loose
  hwaits := Pipeline.hwaits_of_owed_zero _ _ _ _ L lv 0 fun c t => how0 (C0 m ρ) c t
  pre c := iprop(StableHlo.held (c : Thread nD τ) (Pipeline.ucRefs τ sig) (W0 m ρ c) ∗ R c)
  post c := iprop(StableHlo.held (c : Thread nD τ) (Pipeline.ucRefs τ sig) (W1 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (C0 m ρ c)
  hentry c := by
    rw [Pipeline.ownSems0_none]
    have hsplit := Pipeline.arrays_of_unscopedBufs (p := 0) (pcfgs (F := F)) adm (pdats dat0 dat1 dat2 m ρ) launch0.win launch0.arr_whole c
      ((pdats dat0 dat1 dat2 m ρ 0 c).share_full fun w => hq0 (C0 m ρ) c w) (C0 m ρ c) fun w => A_eq0 (C0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 m ρ 0 c).owed 0 = 0 from how0 (C0 m ρ) c 0]
      icases HO with ⟨%W, HO⟩; iexists W; isplitr; · ipureintro; exact fun _ _ => Or.inl (by rw [show (pdats dat0 dat1 dat2 m ρ 0 c).recorded 0 = Set.univ from hrec0 (C0 m ρ) c 0]; trivial)
      iexact HO
    isplitl [Hp]; · iexact Hp
    iexact Hrest
  hin c := by
    refine .trans ?_ (hin0 (C0 m ρ) c)
    unfold Pipeline.ΦA
    iintro ⟨Hp, -, Hr⟩
    isplitl [Hr]; · iexact Hr
    iexact Hp
  hout c := by
    refine (hout0 (C0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 m ρ) ((pdats dat0 dat1 dat2 m ρ 0 c).share_full fun w => hq0 (C0 m ρ) c w)
      (C0 m ρ c) (fun b => W1 dat0 m ρ c b) ((pdats dat0 dat1 dat2 m ρ 0 c).arrAt · cfg0.N) (fun w => (W1_arr dat0 m ρ c w).symm)
      (fun b hb => W1_of_ne dat0 m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 0 c).owed (Fin.last _) = 0 from how0 (C0 m ρ) c _]
    icases HO with ⟨%W, -, HO⟩; iexists W; iexact HO

theorem W3_out (c : Dev nD) : W3 dat0 dat1 m ρ c (Proc.devRef .tc main_v8) = (dat1 (C2 dat0 m ρ) c).arrAt 5 cfg1.N := by
  unfold W3; exact Function.update_self ..
theorem W3_of_ne (c : Dev nD) (b : Ref sig .tc) (hb : b ≠ main_v8) : W3 dat0 dat1 m ρ c (Proc.devRef .tc b) = W2 dat0 m ρ c (Proc.devRef .tc b) := by
  unfold W3; exact Function.update_of_ne (StableHlo.devRef_ne_of_ne hb) _ _

include A_eq1 in
/-- At region 1's exit every window's array holds what the exit contents say: an input its entry contents, the output what the write-backs leave. -/
theorem hF1 (c : Dev nD) : ∀ w : Fin cfg1.W, (dat1 (C2 dat0 m ρ) c).arrAt w cfg1.N = W3 dat0 dat1 m ρ c (Proc.devRef .tc (Pipeline.arrRef spec1 w))
  | 0 => ((dat1 (C2 dat0 m ρ) c).arrAt_in 0 rfl _).trans ((A_eq1 (C2 dat0 m ρ) c 0).trans (W3_of_ne dat0 dat1 m ρ c _ (by decide)).symm)
  | 1 => ((dat1 (C2 dat0 m ρ) c).arrAt_in 1 rfl _).trans ((A_eq1 (C2 dat0 m ρ) c 1).trans (W3_of_ne dat0 dat1 m ρ c _ (by decide)).symm)
  | 2 => ((dat1 (C2 dat0 m ρ) c).arrAt_in 2 rfl _).trans ((A_eq1 (C2 dat0 m ρ) c 2).trans (W3_of_ne dat0 dat1 m ρ c _ (by decide)).symm)
  | 3 => ((dat1 (C2 dat0 m ρ) c).arrAt_in 3 rfl _).trans ((A_eq1 (C2 dat0 m ρ) c 3).trans (W3_of_ne dat0 dat1 m ρ c _ (by decide)).symm)
  | 4 => ((dat1 (C2 dat0 m ρ) c).arrAt_in 4 rfl _).trans ((A_eq1 (C2 dat0 m ρ) c 4).trans (W3_of_ne dat0 dat1 m ρ c _ (by decide)).symm)
  | 5 => (W3_out dat0 dat1 m ρ c).symm
  | ⟨_ + 6, h⟩ => absurd h (Nat.not_lt.2 (Nat.le_add_left _ _))

set_option backward.isDefEq.respectTransparency.types false in
/-- Region 1: five buffers behind six windows; the feature array dealt in halves at the entry and joined at the exit. -/
def reg1 : Pipeline.RegionSeg (pcfgs (F := F)) adm (pdats dat0 dat1 dat2 m ρ) () defs₀ 𝒱₀ L lv 1 where
  win := winFacts₀1
  block_pos := block_pos1
  stage_whole := stage_whole1
  K := PEmpty
  osem k := k.elim
  ho := Pipeline.OwnSemFacts.none _
  hbody c := (bo1 (C2 dat0 m ρ) c).loose
  hwaits := Pipeline.hwaits_of_owed_zero _ _ _ _ L lv 1 fun c t => how1 (C2 dat0 m ρ) c t
  pre c := iprop(StableHlo.held (c : Thread nD τ) (Pipeline.ucRefs τ sig) (W2 dat0 m ρ c) ∗ R c)
  post c := iprop(StableHlo.held (c : Thread nD τ) (Pipeline.ucRefs τ sig) (W3 dat0 dat1 m ρ c) ∗ R c)
  X c := iprop(∃ r, prngReg c r)
  Y c := iprop(∃ r, prngReg c r)
  Z c := Pipeline.unscopedRest (Ix := Unit) (Name := ℕ) (U := UR sig nD τ) (Lvl := ℕ) spec1 c (C2 dat0 m ρ c)
  hentry c := by
    rw [Pipeline.ownSems0_none]
    have hsplit : (unscopedBufs c (C2 dat0 m ρ c) : sProp 𝕄)
        ⊢ iprop((pdats dat0 dat1 dat2 m ρ 1 c).arrays ((pdats dat0 dat1 dat2 m ρ 1 c).arrAt · 0) ∗ Pipeline.unscopedRest spec1 c (C2 dat0 m ρ c)) := by
      rw [Pipeline.unscopedBufs_split₀ cfgs 1 winFacts₀1.arr_unscoped c (C2 dat0 m ρ c)]
      exact sep_mono (arrays_of_arrBufs1 (C2 dat0 m ρ c) (pdats dat0 dat1 dat2 m ρ 1 c) (hsh1 _ c).1 (hsh1 _ c).2.1 (hsh1 _ c).2.2.1 (hsh1 _ c).2.2.2.1
        (hsh1 _ c).2.2.2.2.1 (hsh1 _ c).2.2.2.2.2 _ fun w => A_eq1 (C2 dat0 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 m ρ 1 c).owed 0 = 0 from how1 (C2 dat0 m ρ) c 0]
      icases HO with ⟨%W, HO⟩; iexists W; isplitr; · ipureintro; exact fun _ _ => Or.inl (by rw [show (pdats dat0 dat1 dat2 m ρ 1 c).recorded 0 = Set.univ from hrec1 (C2 dat0 m ρ) c 0]; trivial)
      iexact HO
    isplitl [Hp]; · iexact Hp
    iexact Hrest
  hin c := by
    refine .trans ?_ (hin1 (C2 dat0 m ρ) c)
    unfold Pipeline.ΦA
    iintro ⟨Hp, -, Hr⟩
    isplitl [Hr]; · iexact Hr
    iexact Hp
  hout c := by
    refine (hout1 (C2 dat0 m ρ) c).trans ?_
    rw [Pipeline.ownSems0_none]; unfold Pipeline.ΦA
    iintro ⟨Hr, Hp⟩
    isplitl [Hp]; · iexact Hp
    isplitr; · iempintro
    iexact Hr
  hexit c := by
    have hjoin : iprop((pdats dat0 dat1 dat2 m ρ 1 c).arrays ((pdats dat0 dat1 dat2 m ρ 1 c).arrAt · cfg1.N) ∗ Pipeline.unscopedRest spec1 c (C2 dat0 m ρ c))
        ⊢ (unscopedBufs c (fun b => W3 dat0 dat1 m ρ c b) : sProp 𝕄) := by
      rw [Pipeline.unscopedBufs_split₀ cfgs 1 winFacts₀1.arr_unscoped c (fun b => W3 dat0 dat1 m ρ c b)]
      refine sep_mono (arrBufs_of_arrays1 (fun b => W3 dat0 dat1 m ρ c b) (pdats dat0 dat1 dat2 m ρ 1 c) (hsh1 _ c).1 (hsh1 _ c).2.1 (hsh1 _ c).2.2.1 (hsh1 _ c).2.2.2.1
        (hsh1 _ c).2.2.2.2.1 (hsh1 _ c).2.2.2.2.2 _ (hF1 dat0 dat1 A_eq1 m ρ c)) (Entails.of_eq ?_)
      unfold Pipeline.unscopedRest
      exact bigSep_congr fun b hb => by
        dsimp only
        rw [show W3 dat0 dat1 m ρ c (Proc.devRef .tc b) = W2 dat0 m ρ c (Proc.devRef .tc b) from W3_of_ne dat0 dat1 m ρ c b
          fun e => (Finset.mem_sdiff.mp hb).2 (Finset.mem_image.mpr ⟨5, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 1 c).owed (Fin.last _) = 0 from how1 (C2 dat0 m ρ) c _]
    icases HO with ⟨%W, -, HO⟩; iexists W; iexact HO

theorem W5_out (c : Dev nD) : W5 dat0 dat1 dat2 m ρ c (Proc.devRef .tc main_v11) = (dat2 (C4 dat0 dat1 m ρ) c).arrAt 5 cfg2.N := by
  unfold W5; exact Function.update_self ..
theorem W5_of_ne (c : Dev nD) (b : Ref sig .tc) (hb : b ≠ main_v11) : W5 dat0 dat1 dat2 m ρ c (Proc.devRef .tc b) = W4 dat0 dat1 m ρ c (Proc.devRef .tc b) := by
  unfold W5; exact Function.update_of_ne (StableHlo.devRef_ne_of_ne hb) _ _

include A_eq2 in
/-- At region 2's exit every window's array holds what the exit contents say: an input its entry contents, the output what the write-backs leave. -/
theorem hF2 (c : Dev nD) : ∀ w : Fin cfg2.W, (dat2 (C4 dat0 dat1 m ρ) c).arrAt w cfg2.N = W5 dat0 dat1 dat2 m ρ c (Proc.devRef .tc (Pipeline.arrRef spec2 w))
  | 0 => ((dat2 (C4 dat0 dat1 m ρ) c).arrAt_in 0 rfl _).trans ((A_eq2 (C4 dat0 dat1 m ρ) c 0).trans (W5_of_ne dat0 dat1 dat2 m ρ c _ (by decide)).symm)
  | 1 => ((dat2 (C4 dat0 dat1 m ρ) c).arrAt_in 1 rfl _).trans ((A_eq2 (C4 dat0 dat1 m ρ) c 1).trans (W5_of_ne dat0 dat1 dat2 m ρ c _ (by decide)).symm)
  | 2 => ((dat2 (C4 dat0 dat1 m ρ) c).arrAt_in 2 rfl _).trans ((A_eq2 (C4 dat0 dat1 m ρ) c 2).trans (W5_of_ne dat0 dat1 dat2 m ρ c _ (by decide)).symm)
  | 3 => ((dat2 (C4 dat0 dat1 m ρ) c).arrAt_in 3 rfl _).trans ((A_eq2 (C4 dat0 dat1 m ρ) c 3).trans (W5_of_ne dat0 dat1 dat2 m ρ c _ (by decide)).symm)
  | 4 => ((dat2 (C4 dat0 dat1 m ρ) c).arrAt_in 4 rfl _).trans ((A_eq2 (C4 dat0 dat1 m ρ) c 4).trans (W5_of_ne dat0 dat1 dat2 m ρ c _ (by decide)).symm)
  | 5 => (W5_out dat0 dat1 dat2 m ρ c).symm
  | ⟨_ + 6, h⟩ => absurd h (Nat.not_lt.2 (Nat.le_add_left _ _))

set_option backward.isDefEq.respectTransparency.types false in
/-- Region 2: five buffers behind six windows; the feature array dealt in halves at the entry and joined at the exit. -/
def reg2 : Pipeline.RegionSeg (pcfgs (F := F)) adm (pdats dat0 dat1 dat2 m ρ) () defs₀ 𝒱₀ L lv 2 where
  win := winFacts₀2
  block_pos := block_pos2
  stage_whole := stage_whole2
  K := PEmpty
  osem k := k.elim
  ho := Pipeline.OwnSemFacts.none _
  hbody c := (bo2 (C4 dat0 dat1 m ρ) c).loose
  hwaits := Pipeline.hwaits_of_owed_zero _ _ _ _ L lv 2 fun c t => how2 (C4 dat0 dat1 m ρ) c t
  pre c := iprop(StableHlo.held (c : Thread nD τ) (Pipeline.ucRefs τ sig) (W4 dat0 dat1 m ρ c) ∗ R c)
  post c := iprop(StableHlo.held (c : Thread nD τ) (Pipeline.ucRefs τ sig) (W5 dat0 dat1 dat2 m ρ c) ∗ R c)
  X c := iprop(∃ r, prngReg c r)
  Y c := iprop(∃ r, prngReg c r)
  Z c := Pipeline.unscopedRest (Ix := Unit) (Name := ℕ) (U := UR sig nD τ) (Lvl := ℕ) spec2 c (C4 dat0 dat1 m ρ c)
  hentry c := by
    rw [Pipeline.ownSems0_none]
    have hsplit : (unscopedBufs c (C4 dat0 dat1 m ρ c) : sProp 𝕄)
        ⊢ iprop((pdats dat0 dat1 dat2 m ρ 2 c).arrays ((pdats dat0 dat1 dat2 m ρ 2 c).arrAt · 0) ∗ Pipeline.unscopedRest spec2 c (C4 dat0 dat1 m ρ c)) := by
      rw [Pipeline.unscopedBufs_split₀ cfgs 2 winFacts₀2.arr_unscoped c (C4 dat0 dat1 m ρ c)]
      exact sep_mono (arrays_of_arrBufs2 (C4 dat0 dat1 m ρ c) (pdats dat0 dat1 dat2 m ρ 2 c) (hsh2 _ c).1 (hsh2 _ c).2.1 (hsh2 _ c).2.2.1 (hsh2 _ c).2.2.2.1
        (hsh2 _ c).2.2.2.2.1 (hsh2 _ c).2.2.2.2.2 _ fun w => A_eq2 (C4 dat0 dat1 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 m ρ 2 c).owed 0 = 0 from how2 (C4 dat0 dat1 m ρ) c 0]
      icases HO with ⟨%W, HO⟩; iexists W; isplitr; · ipureintro; exact fun _ _ => Or.inl (by rw [show (pdats dat0 dat1 dat2 m ρ 2 c).recorded 0 = Set.univ from hrec2 (C4 dat0 dat1 m ρ) c 0]; trivial)
      iexact HO
    isplitl [Hp]; · iexact Hp
    iexact Hrest
  hin c := by
    refine .trans ?_ (hin2 (C4 dat0 dat1 m ρ) c)
    unfold Pipeline.ΦA
    iintro ⟨Hp, -, Hr⟩
    isplitl [Hr]; · iexact Hr
    iexact Hp
  hout c := by
    refine (hout2 (C4 dat0 dat1 m ρ) c).trans ?_
    rw [Pipeline.ownSems0_none]; unfold Pipeline.ΦA
    iintro ⟨Hr, Hp⟩
    isplitl [Hp]; · iexact Hp
    isplitr; · iempintro
    iexact Hr
  hexit c := by
    have hjoin : iprop((pdats dat0 dat1 dat2 m ρ 2 c).arrays ((pdats dat0 dat1 dat2 m ρ 2 c).arrAt · cfg2.N) ∗ Pipeline.unscopedRest spec2 c (C4 dat0 dat1 m ρ c))
        ⊢ (unscopedBufs c (fun b => W5 dat0 dat1 dat2 m ρ c b) : sProp 𝕄) := by
      rw [Pipeline.unscopedBufs_split₀ cfgs 2 winFacts₀2.arr_unscoped c (fun b => W5 dat0 dat1 dat2 m ρ c b)]
      refine sep_mono (arrBufs_of_arrays2 (fun b => W5 dat0 dat1 dat2 m ρ c b) (pdats dat0 dat1 dat2 m ρ 2 c) (hsh2 _ c).1 (hsh2 _ c).2.1 (hsh2 _ c).2.2.1 (hsh2 _ c).2.2.2.1
        (hsh2 _ c).2.2.2.2.1 (hsh2 _ c).2.2.2.2.2 _ (hF2 dat0 dat1 dat2 A_eq2 m ρ c)) (Entails.of_eq ?_)
      unfold Pipeline.unscopedRest
      exact bigSep_congr fun b hb => by
        dsimp only
        rw [show W5 dat0 dat1 dat2 m ρ c (Proc.devRef .tc b) = W4 dat0 dat1 m ρ c (Proc.devRef .tc b) from W5_of_ne dat0 dat1 dat2 m ρ c b
          fun e => (Finset.mem_sdiff.mp hb).2 (Finset.mem_image.mpr ⟨5, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 2 c).owed (Fin.last _) = 0 from how2 (C4 dat0 dat1 m ρ) c _]
    icases HO with ⟨%W, -, HO⟩; iexists W; iexact HO

/-- The last thread state: every unscoped buffer at the last contents, the generator register at some state. -/
abbrev Tₙ (c : Dev nD) : sProp 𝕄 := iprop(StableHlo.held (c : Thread nD τ) (Pipeline.ucRefs τ sig) (W5 dat0 dat1 dat2 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's items as segments. -/
abbrev ksegs : List (Pipeline.Seg (pcfgs (F := F)) adm (pdats dat0 dat1 dat2 m ρ) () defs₀ 𝒱₀ L lv) :=
  [ .region (reg0 dat0 dat1 dat2 A_eq0 bo0 hin0 hout0 hq0 how0 hrec0 m ρ),
    .host (hseg hostOps1 hostOps1_sub hostOps1_fresh (W1 dat0 m ρ)),
    .region (reg1 dat0 dat1 dat2 A_eq1 bo1 hin1 hout1 how1 hsh1 hrec1 m ρ),
    .host (hseg hostOps2 hostOps2_sub hostOps2_fresh (W3 dat0 dat1 m ρ)),
    .region (reg2 dat0 dat1 dat2 A_eq2 bo2 hin2 hout2 how2 hsh2 hrec2 m ρ) ]

theorem kmain_run (c : Dev nD) : main (F := F) c = Pipeline.Seg.run (ksegs dat0 dat1 dat2 A_eq0 A_eq1 A_eq2 bo0 bo1 bo2 hin0 hin1 hin2 hout0 hout1 hout2 hq0 how0 how1 how2 hsh1 hsh2 hrec0 hrec1 hrec2 m ρ) := (main_chain c).trans (by chain_rfl)

/-- A buffer region 0 does not stage and the host operations do not write is at the end what it was at launch. -/
theorem W5_keep (c : Dev nD) (b : Ref sig .tc) (h0 : ∀ w, Pipeline.arrRef spec0 w ≠ b) (h1 : b ∉ hostOps1_W) (h2 : b ≠ main_v8) (h3 : b ∉ hostOps2_W) (h4 : b ≠ main_v11) :
    W5 dat0 dat1 dat2 m ρ c (Proc.devRef .tc b) = m ((c : Thread nD τ).loc b) :=
  calc W5 dat0 dat1 dat2 m ρ c (Proc.devRef .tc b)
    _ = W4 dat0 dat1 m ρ c (Proc.devRef .tc b) := W5_of_ne dat0 dat1 dat2 m ρ c b h4
    _ = W3 dat0 dat1 m ρ c (Proc.devRef .tc b) := StableHlo.after_of_writes_sub hostOps2 _ hostOps2_writes h3
    _ = W2 dat0 m ρ c (Proc.devRef .tc b) := W3_of_ne dat0 dat1 m ρ c b h2
    _ = W1 dat0 m ρ c (Proc.devRef .tc b) := StableHlo.after_of_writes_sub hostOps1 _ hostOps1_writes h1
    _ = W0 m ρ c (Proc.devRef .tc b) := W1_of_ne dat0 m ρ c b h0
    _ = m ((c : Thread nD τ).loc b) := rfl

include A_eq0 in
/-- The adjacency argument is region 0's input window: staged, never written back. -/
theorem W5_arg1 (c : Dev nD) : W5 dat0 dat1 dat2 m ρ c (Proc.devRef .tc main_arg1) = m ((c : Thread nD τ).loc main_arg1) :=
  calc W5 dat0 dat1 dat2 m ρ c (Proc.devRef .tc main_arg1)
    _ = W4 dat0 dat1 m ρ c (Proc.devRef .tc main_arg1) := W5_of_ne dat0 dat1 dat2 m ρ c main_arg1 (by decide)
    _ = W3 dat0 dat1 m ρ c (Proc.devRef .tc main_arg1) := StableHlo.after_of_writes_sub hostOps2 _ hostOps2_writes (by decide)
    _ = W2 dat0 m ρ c (Proc.devRef .tc main_arg1) := W3_of_ne dat0 dat1 m ρ c main_arg1 (by decide)
    _ = W1 dat0 m ρ c (Proc.devRef .tc main_arg1) := StableHlo.after_of_writes_sub hostOps1 _ hostOps1_writes (by decide)
    _ = m ((c : Thread nD τ).loc main_arg1) := (W1_arr dat0 m ρ c 0).trans (((dat0 (C0 m ρ) c).arrAt_in 0 rfl _).trans (A_eq0 (C0 m ρ) c 0))

include A_eq0 A_eq1 A_eq2 bo0 bo1 bo2 hin0 hin1 hin2 hout0 hout1 hout2 hq0 how0 how1 how2 hsh1 hsh2 hrec0 hrec1 hrec2 in
set_option backward.isDefEq.respectTransparency.types false in
/-- THE RUN of the kernel program: every weakly fair execution terminates, nothing faulting; the result array ends at what
    region 2's write-backs leave and the four arguments end as launched. -/
theorem run_main : θ_run defs (onTc (τ := τ) (main (F := F))) ⟨m, fun _ => 0, ρ⟩ (fun r => ∀ c : Dev nD,
      r.2.mem ((c.tc : Thread nD τ).loc main_v11) = (dat2 (C4 dat0 dat1 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats dat0 dat1 dat2 m ρ) () cellOf_inj emb₁ defs₀ 𝒱₀ L lv m ρ main (ksegs dat0 dat1 dat2 A_eq0 A_eq1 A_eq2 bo0 bo1 bo2 hin0 hin1 hin2 hout0 hout1 hout2 hq0 how0 how1 how2 hsh1 hsh2 hrec0 hrec1 hrec2 m ρ)
    (fun c Q => by rw [kmain_run dat0 dat1 dat2 A_eq0 A_eq1 A_eq2 bo0 bo1 bo2 hin0 hin1 hin2 hout0 hout1 hout2 hq0 how0 how1 how2 hsh1 hsh2 hrec0 hrec1 hrec2 m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 dat1 dat2 m ρ)
    (hch := ⟨fun _ => .rfl, fun _ => .rfl, fun _ => .rfl, fun _ => .rfl, fun _ => .rfl, fun c => by
      show (iprop(StableHlo.held (c : Thread nD τ) (Pipeline.ucRefs τ sig) (W5 dat0 dat1 dat2 m ρ c) ∗ R c) : sProp 𝕄)
        ⊢ iprop(Tₙ dat0 dat1 dat2 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 dat2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 dat2 m ρ c) s')
      isplitl [Hh] <;> iassumption)
    (hQ := fun s h c =>
      ⟨(h c _ (mem_uc main_v11 (by decide))).trans (W5_out dat0 dat1 dat2 m ρ c),
       (h c _ (mem_uc main_arg0 (by decide))).trans (W5_keep dat0 dat1 dat2 m ρ c main_arg0 (by decide) (by decide) (by decide) (by decide) (by decide)),
       (h c _ (mem_uc main_arg1 (by decide))).trans (W5_arg1 dat0 dat1 dat2 A_eq0 m ρ c),
       (h c _ (mem_uc main_arg2 (by decide))).trans (W5_keep dat0 dat1 dat2 m ρ c main_arg2 (by decide) (by decide) (by decide) (by decide) (by decide)),
       (h c _ (mem_uc main_arg3 (by decide))).trans (W5_keep dat0 dat1 dat2 m ρ c main_arg3 (by decide) (by decide) (by decide) (by decide) (by decide))⟩)

end Records

end Cert.Kernel.Gen

end
-- ==== Proof.K.R0Runs.lean ====
/- Region 0 (the row-sum and cast call): what its three control cases share — the blocks of its windows
   read off the contents the region is entered with, the two branch conditions in closed form over the
   8×8 grid (the reduction axis is the last one), where the row-sum output window is idle, and the
   staging and scratch memrefs the body is run on. -/
import proofs.«152435_j1984274891532_2_alg».proof.Proof.Gen.Kernel.Launch
import proofs.«152435_j1984274891532_2_alg».proof.Proof.Gen.Kernel.Skeleton
import proofs.«152435_j1984274891532_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose
    array is `V`'s and whose body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the first conditional (the reduction index is 0), from the grid coordinates. -/
abbrev cond0_0 (i : grid0.Coords) : Prop := (Scalar.cmpi .ne (Scalar.extui (Scalar.cmpi .eq (BitVec.ofNat 32 (i 1).val) 0#32)) 0#32) = 1#1
/-- It holds exactly at the points whose reduction index is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second conditional (the reduction index is the last, 7). -/
abbrev cond0_1 (i : grid0.Coords) : Prop := k0_cond2 i = 1#1
/-- It holds exactly at the points whose reduction index is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Window 0 (the input) is never idle. -/
theorem liveAt0_0 : ∀ t : Fin cfg0.N, cfg0.idle 0 (grid0.coords t) = false := by decide +kernel
/-- Window 2 (the cast copy) is never idle: it is stored at every point. -/
theorem liveAt0_2 : ∀ t : Fin cfg0.N, cfg0.idle 2 (grid0.coords t) = false := by decide +kernel
/-- Away from the last reduction index the row-sum window is idle: nothing is stored into it. -/
theorem idleAt0_1 : ∀ t : Fin cfg0.N, ¬cond0_1 (grid0.coords t) → cfg0.idle 1 (grid0.coords t) = true := by decide +kernel
/-- and it is not written back there. -/
theorem noFlush0_1 : ∀ t : Fin cfg0.N, ¬cond0_1 (grid0.coords t) → (cfg0.win 1).flush t = false := by decide +kernel
/-- At the last reduction index the row-sum window is live. -/
theorem liveAt0_1_C : ∀ t : Fin cfg0.N, cond0_1 (grid0.coords t) → cfg0.idle 1 (grid0.coords t) = false := by decide +kernel

/-! ## The memrefs the body runs on -/

/-- One staging buffer of each output window, through which its contents are stated. -/
abbrev VO0_1 : View sig .tc .vmem S1024x1 .f32 := (Memref.whole cc0_stg1_0 : Memref sig .tc .vmem S1024x1 .f32).view
abbrev VO0_2 : View sig .tc .vmem S1024x1024 .bf16 := (Memref.whole cc0_stg2_0 : Memref sig .tc .vmem S1024x1024 .bf16).view
/-- Each window's current staging memref at point `t`, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The scratch operand: a whole scoped buffer of the call's own, carried between grid points. -/
abbrev scM0_0 : Memref sig .tc .vmem S1024x1 .f32 := Memref.whole cc0_scratch0
/-- The scratch as a view: what it holds is stated through it. -/
abbrev VS0_0 : View sig .tc .vmem S1024x1 .f32 := scM0_0.view

/-- The region invariant with the scratch as a memref owned at some contents, the other scoped buffers
    unopened, and the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Gen

end
-- ==== Proof.K.R0RunA.lean ====
/- Region 0, the body's run at a point whose reduction index is 0: the scratch is filled with zeros, the
   block's row sums are added into it, the cast copy is stored; nothing is stored into the row-sum window. -/
import proofs.«152435_j1984274891532_2_alg».proof.Proof.K.R0Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the cast window's staging memref and in the scratch, as pieces (last
    first), at a point whose reduction index is 0, with the proof that on whole memrefs — the input at its
    block, the row-sum window at contents handed back untouched, the cast window at anything, the scratch
    at any contents — the body runs to the continuation holding them so. The pieces do not depend on what
    the scratch held: it is overwritten before it is read. -/
noncomputable def kernelRun0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) :
    Σ' (L2 : List (View.Piece (Elt F) S1024x1024 .bf16)), { LS0 : List (View.Piece (Elt F) S1024x1 .f32) //
      ∀ (xi1 : Vec F S1024x1 .f32) (xs0 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread xs0) LS0)) -∗ K ⟨⟩))
          ⊢ wp frame (wpE (defs₀ (F := F)) Variants.none c none) E (cc0__rowsum_cast_kernel i arg2 harg2 arg3 harg3 arg4 harg4 arg5 harg5) K } := by
  refine ⟨?_, ?_, fun xi1 xs0 E K => ?run⟩
  case run =>
    simp only [cc0__rowsum_cast_kernel_eq_skeleton]; unfold cc0__rowsum_cast_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexact HS0

end Cert.Kernel.Gen

end
-- ==== Proof.K.R0RunB.lean ====
/- Region 0, the body's run at a point whose reduction index is neither 0 nor 7: the block's row sums are
   added into the scratch as the point before left it, the cast copy is stored; nothing is stored into the
   row-sum window. -/
import proofs.«152435_j1984274891532_2_alg».proof.Proof.K.R0RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the cast window's staging memref and in the scratch, as pieces (last
    first), at a point strictly inside the reduction, with the proof that on whole memrefs — the input at
    its block, the row-sum window at contents handed back untouched, the cast window at anything, the
    scratch at the contents `xs0` the point before left — the body runs to the continuation holding them
    so. The scratch is read before it is stored, so its pieces are over `xs0`. -/
noncomputable def kernelRun0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) :
    Σ' (L2 : List (View.Piece (Elt F) S1024x1024 .bf16)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread xs0) LS0)) -∗ K ⟨⟩))
          ⊢ wp frame (wpE (defs₀ (F := F)) Variants.none c none) E (cc0__rowsum_cast_kernel i arg2 harg2 arg3 harg3 arg4 harg4 arg5 harg5) K } := by
  refine ⟨?_, ?_, fun xi1 E K => ?run⟩
  case run =>
    simp only [cc0__rowsum_cast_kernel_eq_skeleton]; unfold cc0__rowsum_cast_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexact HS0

end Cert.Kernel.Gen

end
-- ==== Proof.K.R0RunC.lean ====
/- Region 0, the body's run at a point whose reduction index is 7 (the last): the block's row sums are
   added into the scratch as the point before left it, the cast copy is stored, and the scratch — now the
   whole row sums — is copied into the row-sum window. -/
import proofs.«152435_j1984274891532_2_alg».proof.Proof.K.R0RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the row-sum window's and the cast window's staging memrefs and in the
    scratch, as pieces (last first), at a point that ends the reduction, with the proof that on whole
    memrefs — the input at its block, both output windows at anything, the scratch at the contents `xs0`
    the point before left — the body runs to the continuation holding them so. -/
noncomputable def kernelRun0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) :
    Σ' (L1 : List (View.Piece (Elt F) S1024x1 .f32)) (L2 : List (View.Piece (Elt F) S1024x1024 .bf16)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread xs0) LS0)) -∗ K ⟨⟩))
          ⊢ wp frame (wpE (defs₀ (F := F)) Variants.none c none) E (cc0__rowsum_cast_kernel i arg2 harg2 arg3 harg3 arg4 harg4 arg5 harg5) K } := by
  refine ⟨?_, ?_, ?_, fun E K => ?run⟩
  case run =>
    simp only [cc0__rowsum_cast_kernel_eq_skeleton]; unfold cc0__rowsum_cast_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexact HS0

end Cert.Kernel.Gen

end
-- ==== Proof.K.R0Data.lean ====
/- Region 0 (the row-sum and cast call): what each control case leaves in the output windows and in the
   carried scratch, the accumulation of these over the 64 grid points, the proof data of the call's
   pipeline over ANY contents `V` the region is entered with, and its body obligation. -/
import proofs.«152435_j1984274891532_2_alg».proof.Proof.K.R0RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At reduction index 0 the one store into the cast window covers its block. -/
theorem cover0_A_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) (y : S1024x1024.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S1024x1024.size (by sl_kernel_rfl) y

/-- and the stores into the scratch cover it: what it held before does not matter. -/
theorem scover0_A_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) (y : S1024x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S1024x1.size (by sl_kernel_rfl) y

/-- What the point leaves in the cast window's staging buffer: its pieces read back over junk. -/
def out0_A_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) : Vec F S1024x1024 .bf16 :=
  VO0_2.read (Elt F) (VO0_2.writes (Elt F) VO0_2.junk (kernelRun0_A c i arg2 harg2 arg3 harg3 arg4 harg4 arg5 harg5 hc0 hc1 x0).1)

/-- What the point leaves in the scratch: its pieces read back over the contents it was handed. -/
def sout0_A_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) (xs0 : Vec F S1024x1 .f32) : Vec F S1024x1 .f32 :=
  arg5.view.read (Elt F) (arg5.view.writes (Elt F) (harg5.unread xs0) (kernelRun0_A c i arg2 harg2 arg3 harg3 arg4 harg4 arg5 harg5 hc0 hc1 x0).2.1)

/-- At reduction index 0 the scratch is left the same whatever it held. -/
theorem sout0_A_0_indep (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) (xs xs' : Vec F S1024x1 .f32) :
    sout0_A_0 c i arg2 harg2 arg3 harg3 arg4 harg4 arg5 harg5 hc0 hc1 x0 xs = sout0_A_0 c i arg2 harg2 arg3 harg3 arg4 harg4 arg5 harg5 hc0 hc1 x0 xs' := by
  unfold sout0_A_0; exact View.read_writes_of_cover _ _ _ _ _ (scover0_A_0 c i arg2 harg2 arg3 harg3 arg4 harg4 arg5 harg5 hc0 hc1 x0)

/-- Strictly inside the reduction the one store into the cast window covers its block. -/
theorem cover0_B_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i) (x0 : Vec F S1024x1024 .f32) (xs0 : Vec F S1024x1 .f32) (y : S1024x1024.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S1024x1024.size (by sl_kernel_rfl) y

def out0_B_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i) (x0 : Vec F S1024x1024 .f32) (xs0 : Vec F S1024x1 .f32) : Vec F S1024x1024 .bf16 :=
  VO0_2.read (Elt F) (VO0_2.writes (Elt F) VO0_2.junk (kernelRun0_B c i arg2 harg2 arg3 harg3 arg4 harg4 arg5 harg5 hc0 hc1 x0 xs0).1)

def sout0_B_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i) (x0 : Vec F S1024x1024 .f32) (xs0 : Vec F S1024x1 .f32) : Vec F S1024x1 .f32 :=
  arg5.view.read (Elt F) (arg5.view.writes (Elt F) (harg5.unread xs0) (kernelRun0_B c i arg2 harg2 arg3 harg3 arg4 harg4 arg5 harg5 hc0 hc1 x0 xs0).2.1)

/-- At reduction index 7 the store into the row-sum window covers its block, -/
theorem cover0_C_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) (y : S1024x1.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S1024x1.size (by sl_kernel_rfl) y

/-- and the store into the cast window covers its block. -/
theorem cover0_C_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) (y : S1024x1024.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S1024x1024.size (by sl_kernel_rfl) y

def out0_C_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) : Vec F S1024x1 .f32 :=
  VO0_1.read (Elt F) (VO0_1.writes (Elt F) VO0_1.junk (kernelRun0_C c i arg2 harg2 arg3 harg3 arg4 harg4 arg5 harg5 hc0 hc1 x0 xs0).1)

def out0_C_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) : Vec F S1024x1024 .bf16 :=
  VO0_2.read (Elt F) (VO0_2.writes (Elt F) VO0_2.junk (kernelRun0_C c i arg2 harg2 arg3 harg3 arg4 harg4 arg5 harg5 hc0 hc1 x0 xs0).2.1)

def sout0_C_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) : Vec F S1024x1 .f32 :=
  arg5.view.read (Elt F) (arg5.view.writes (Elt F) (harg5.unread xs0) (kernelRun0_C c i arg2 harg2 arg3 harg3 arg4 harg4 arg5 harg5 hc0 hc1 x0 xs0).2.2.1)

/-! ## The conditions from the closed forms -/

theorem ncond0_0 (t : Fin cfg0.N) (h : ¬t.val % 8 = 0) : ¬cond0_0 (grid0.coords t) := fun hc => h ((hcond0_0 t).mp hc)
theorem ncond0_1 (t : Fin cfg0.N) (h : ¬t.val % 8 = 7) : ¬cond0_1 (grid0.coords t) := fun hc => h ((hcond0_1 t).mp hc)
theorem ncond0_1_of0 (t : Fin cfg0.N) (h : t.val % 8 = 0) : ¬cond0_1 (grid0.coords t) := fun hc => by
  have := (hcond0_1 t).mp hc; omega

/-! ## What the outputs and the scratch hold after each point -/

/-- The body's effect at point `t` with the scratch found at `xs`: what it leaves in the row-sum window's
    staging buffer (a placeholder nothing consults where the window is idle), in the cast window's, and in
    the scratch — the case the closed forms select at `t`. -/
def step0 (c : Dev nD) (t : Fin cfg0.N) (xs : Vec F S1024x1 .f32) : Vec F S1024x1 .f32 × Vec F S1024x1024 .bf16 × Vec F S1024x1 .f32 :=
  if h0 : t.val % 8 = 0 then
    (VO0_1.read (Elt F) VO0_1.junk,
     out0_A_2 c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t),
     sout0_A_0 c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t) xs)
  else if h1 : t.val % 8 = 7 then
    (out0_C_1 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs,
     out0_C_2 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs,
     sout0_C_0 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs)
  else
    (VO0_1.read (Elt F) VO0_1.junk,
     out0_B_2 c (grid0.coords t) (ms0_0 t) (hs0_0 t) (ms0_1 t) (hs0_1 t) (ms0_2 t) (hs0_2 t) scM0_0 (Memref.isWhole_whole _) (ncond0_0 t h0) (ncond0_1 t h1) (iblk0 V c 0 t) xs,
     sout0_B_0 c (grid0.coords t) (ms0_0 t) (hs0_0 t) (ms0_1 t) (hs0_1 t) (ms0_2 t) (hs0_2 t) scM0_0 (Memref.isWhole_whole _) (ncond0_0 t h0) (ncond0_1 t h1) (iblk0 V c 0 t) xs)

theorem step0_A (c : Dev nD) (t : Fin cfg0.N) (h0 : t.val % 8 = 0) (xs : Vec F S1024x1 .f32) :
    step0 V c t xs = (VO0_1.read (Elt F) VO0_1.junk,
     out0_A_2 c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t),
     sout0_A_0 c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t) xs) := by
  unfold step0; exact dif_pos h0

theorem step0_C (c : Dev nD) (t : Fin cfg0.N) (h0 : ¬t.val % 8 = 0) (h1 : t.val % 8 = 7) (xs : Vec F S1024x1 .f32) :
    step0 V c t xs = (out0_C_1 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs,
     out0_C_2 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs,
     sout0_C_0 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs) := by
  unfold step0; exact (dif_neg h0).trans (dif_pos h1)

theorem step0_B (c : Dev nD) (t : Fin cfg0.N) (h0 : ¬t.val % 8 = 0) (h1 : ¬t.val % 8 = 7) (xs : Vec F S1024x1 .f32) :
    step0 V c t xs = (VO0_1.read (Elt F) VO0_1.junk,
     out0_B_2 c (grid0.coords t) (ms0_0 t) (hs0_0 t) (ms0_1 t) (hs0_1 t) (ms0_2 t) (hs0_2 t) scM0_0 (Memref.isWhole_whole _) (ncond0_0 t h0) (ncond0_1 t h1) (iblk0 V c 0 t) xs,
     sout0_B_0 c (grid0.coords t) (ms0_0 t) (hs0_0 t) (ms0_1 t) (hs0_1 t) (ms0_2 t) (hs0_2 t) scM0_0 (Memref.isWhole_whole _) (ncond0_0 t h0) (ncond0_1 t h1) (iblk0 V c 0 t) xs) := by
  unfold step0; exact (dif_neg h0).trans (dif_neg h1)

/-- At reduction index 0 the body's effect does not depend on what the scratch held. -/
theorem step0_indep (c : Dev nD) (t : Fin cfg0.N) (h0 : t.val % 8 = 0) (xs xs' : Vec F S1024x1 .f32) :
    step0 V c t xs = step0 V c t xs' := by
  rw [step0_A V c t h0 xs, step0_A V c t h0 xs']
  rw [sout0_A_0_indep c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t) xs xs']

/-- What the first point finds: nothing named in the outputs, the scratch at `dS0`. -/
def outs0From0 (dS0 : Vec F S1024x1 .f32) : Vec F S1024x1 .f32 × Vec F S1024x1024 .bf16 × Vec F S1024x1 .f32 :=
  (VO0_1.read (Elt F) VO0_1.junk, VO0_2.read (Elt F) VO0_2.junk, dS0)

/-- THE ACCUMULATION from the scratch at `dS0` before the first point: what the outputs' staging buffers
    and the scratch hold after the body at position `n` — the body's effect there over the scratch as the
    point before left it. -/
def outsAtFrom0 (c : Dev nD) (dS0 : Vec F S1024x1 .f32) : (n : ℕ) → n < cfg0.N → Vec F S1024x1 .f32 × Vec F S1024x1024 .bf16 × Vec F S1024x1 .f32
  | 0, hn => step0 V c ⟨0, hn⟩ dS0
  | n + 1, hn => step0 V c ⟨n + 1, hn⟩ (outsAtFrom0 c dS0 n (Nat.lt_of_succ_lt hn)).2.2

/-- What point `n` finds: `outs0From0` at the first point, what the point before left at a later one. -/
def prevFrom0 (c : Dev nD) (dS0 : Vec F S1024x1 .f32) : (n : ℕ) → n ≤ cfg0.N → Vec F S1024x1 .f32 × Vec F S1024x1024 .bf16 × Vec F S1024x1 .f32
  | 0, _ => outs0From0 dS0
  | n + 1, hn => outsAtFrom0 V c dS0 n hn

theorem outsAtFrom0_eq (c : Dev nD) (dS0 : Vec F S1024x1 .f32) (t : Fin cfg0.N) :
    outsAtFrom0 V c dS0 t.val t.isLt = step0 V c t (prevFrom0 V c dS0 t.val (Nat.le_of_lt t.isLt)).2.2 := by
  obtain ⟨n, hn⟩ := t
  cases n with
  | zero => exact rfl
  | succ n => exact rfl

/-- Nothing after the first point depends on what the scratch held before it: the first point refills it. -/
theorem outsAtFrom0_indep (c : Dev nD) (dS dS' : Vec F S1024x1 .f32) : ∀ (n : ℕ) (hn : n < cfg0.N), outsAtFrom0 V c dS n hn = outsAtFrom0 V c dS' n hn
  | 0, hn => step0_indep V c ⟨0, hn⟩ (by decide : 0 % 8 = 0) dS dS'
  | n + 1, hn => by
    show step0 V c ⟨n + 1, hn⟩ (outsAtFrom0 V c dS n (Nat.lt_of_succ_lt hn)).2.2 = step0 V c ⟨n + 1, hn⟩ (outsAtFrom0 V c dS' n (Nat.lt_of_succ_lt hn)).2.2
    rw [outsAtFrom0_indep c dS dS' n (Nat.lt_of_succ_lt hn)]

/-- The accumulation from junk: a closed function of the point, what the proof data read. -/
def outsAt0 (c : Dev nD) (n : ℕ) (hn : n < cfg0.N) : Vec F S1024x1 .f32 × Vec F S1024x1024 .bf16 × Vec F S1024x1 .f32 :=
  outsAtFrom0 V c (VS0_0.read (Elt F) VS0_0.junk) n hn

theorem outsAt0_eq (c : Dev nD) (dS0 : Vec F S1024x1 .f32) (n : ℕ) (hn : n < cfg0.N) : outsAt0 V c n hn = outsAtFrom0 V c dS0 n hn :=
  outsAtFrom0_indep V c _ dS0 n hn

/-! ## The invariant and the proof data -/

/-- The region invariant before position `n`, from the scratch at `dS0` before the first point: the scratch at
    what point `n` finds, the other scoped buffers unopened, the generator register at some state. -/
def PhiSAt0 (c : Dev nD) (dS0 : Vec F S1024x1 .f32) (n : ℕ) (h : n ≤ cfg0.N) : sProp 𝕄 :=
  iprop(iprop(owns (c : Thread nD τ) scM0_0 fullShare ((prevFrom0 V c dS0 n h).2.2)
      ∗ Pipeline.scopedRestBut (Ix := Unit) (Name := ℕ) (U := UR sig nD τ) (Lvl := ℕ) (Val := Elt F) spec0 c [cc0_scratch0]) ∗ (∃ r, prngReg c r))

/-- The region invariant: `PhiSAt0` at SOME contents of the scratch before the first point. -/
def PhiS0 (c : Dev nD) (n : ℕ) (h : n ≤ cfg0.N) : sProp 𝕄 :=
  iprop(∃ dS0, PhiSAt0 V c dS0 n h)

/-- The proof data of the call's pipeline on core `c`: the arrays as the region finds them (`V`); after the
    body at point `t` the input's buffer at its block and the outputs' at `outsAt0`; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 3200000 in
/-- The body at any point: the input's memref holds its block; the closed forms say which of the three
    cases the point is in, so that case's run applies; the invariant binds what the scratch held before
    the first point and hands the body the scratch at what the point finds, and takes it back at this
    point's contents over the same first contents; what the point stores into an output is the proof
    data's closed term because nothing after the first point depends on those first contents; the
    row-sum window, idle away from reduction index 7, is handed back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_castSucc V c t]
  unfold PhiS0 PhiSAt0
  rw [show (dat0 V c).leavesExact 0 t = owns (c : Thread nD τ) (ms0_0 t) fullShare ((dat0 V c).after 0 t) from by
    unfold Dat.leavesExact; rw [liveAt0_0 t], after0_0]
  rw [show (dat0 V c).leavesExact 2 t = owns (c : Thread nD τ) (ms0_2 t) fullShare ((dat0 V c).after 2 t) from by
    unfold Dat.leavesExact; rw [liveAt0_2 t], after0_2]
  by_cases h0 : t.val % 8 = 0
  ·
    rw [Dat.leavesExact_idle (dat0 V c) 1 t (idleAt0_1 t (ncond0_1_of0 t h0)) (noFlush0_1 t (ncond0_1_of0 t h0))]
    iintro ⟨⟨%dS0, ⟨HS0, Hrest⟩, Hg⟩, Ho, ⟨%d0, H0⟩, ⟨%d1, H1⟩, ⟨%d2, H2⟩⟩
    have eO : outsAt0 V c t.val t.isLt = step0 V c t (prevFrom0 V c dS0 t.val (Nat.le_of_lt t.isLt)).2.2 := by
      rw [outsAt0_eq V c dS0, outsAtFrom0_eq]
    have eS0 : (prevFrom0 V c dS0 (t.val + 1) t.isLt).2.2 = (step0 V c t (prevFrom0 V c dS0 t.val (Nat.le_of_lt t.isLt)).2.2).2.2 := by
      show (outsAtFrom0 V c dS0 t.val t.isLt).2.2 = _
      rw [outsAtFrom0_eq]
    rw [eO, step0_A V c t h0]
    dsimp only
    unfold out0_A_2
    iapply ((kernelRun0_A c (grid0.coords t) _ _ _ _ _ _ _ _ ((hcond0_0 t).mpr h0) (ncond0_1_of0 t h0) (iblk0 V c 0 t)).2.2 _ _ Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hrest Hg]
    · iexists dS0
      rw [eS0, step0_A V c t h0]
      dsimp only
      unfold sout0_A_0
      isplitl [HS0 Hrest]
      · isplitl [HS0]
        · unfold owns; iexists _; isplitr
          swap; · iexact HS0
          ipureintro; rfl
        iexact Hrest
      iexact Hg
    isplitl [Ho]; · iexact Ho
    isplitl [H0]; · iexact H0
    isplitl [H1]; · iexists _; iexact H1
    unfold owns; iexists _; isplitr
    swap; · iexact H2
    ipureintro; exact View.read_writes_of_cover _ _ _ _ _ (cover0_A_2 c _ _ _ _ _ _ _ _ _ _ _ _)
  · by_cases h1 : t.val % 8 = 7
    ·
      rw [show (dat0 V c).leavesExact 1 t = owns (c : Thread nD τ) (ms0_1 t) fullShare ((dat0 V c).after 1 t) from by
        unfold Dat.leavesExact; rw [liveAt0_1_C t ((hcond0_1 t).mpr h1)], after0_1]
      iintro ⟨⟨%dS0, ⟨HS0, Hrest⟩, Hg⟩, Ho, ⟨%d0, H0⟩, ⟨%d1, H1⟩, ⟨%d2, H2⟩⟩
      have eO : outsAt0 V c t.val t.isLt = step0 V c t (prevFrom0 V c dS0 t.val (Nat.le_of_lt t.isLt)).2.2 := by
        rw [outsAt0_eq V c dS0, outsAtFrom0_eq]
      have eS0 : (prevFrom0 V c dS0 (t.val + 1) t.isLt).2.2 = (step0 V c t (prevFrom0 V c dS0 t.val (Nat.le_of_lt t.isLt)).2.2).2.2 := by
        show (outsAtFrom0 V c dS0 t.val t.isLt).2.2 = _
        rw [outsAtFrom0_eq]
      rw [eO, step0_C V c t h0 h1]
      dsimp only
      unfold out0_C_1 out0_C_2
      iapply ((kernelRun0_C c (grid0.coords t) _ _ _ _ _ _ _ _ (ncond0_0 t h0) ((hcond0_1 t).mpr h1) (iblk0 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, HS0⟩
      isplitl [HS0 Hrest Hg]
      · iexists dS0
        rw [eS0, step0_C V c t h0 h1]
        dsimp only
        unfold sout0_C_0
        isplitl [HS0 Hrest]
        · isplitl [HS0]
          · unfold owns; iexists _; isplitr
            swap; · iexact HS0
            ipureintro; rfl
          iexact Hrest
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _)
      unfold owns; iexists _; isplitr
      swap; · iexact H2
      ipureintro; exact View.read_writes_of_cover _ _ _ _ _ (cover0_C_2 c _ _ _ _ _ _ _ _ _ _ _ _ _)
    ·
      rw [Dat.leavesExact_idle (dat0 V c) 1 t (idleAt0_1 t (ncond0_1 t h1)) (noFlush0_1 t (ncond0_1 t h1))]
      iintro ⟨⟨%dS0, ⟨HS0, Hrest⟩, Hg⟩, Ho, ⟨%d0, H0⟩, ⟨%d1, H1⟩, ⟨%d2, H2⟩⟩
      have eO : outsAt0 V c t.val t.isLt = step0 V c t (prevFrom0 V c dS0 t.val (Nat.le_of_lt t.isLt)).2.2 := by
        rw [outsAt0_eq V c dS0, outsAtFrom0_eq]
      have eS0 : (prevFrom0 V c dS0 (t.val + 1) t.isLt).2.2 = (step0 V c t (prevFrom0 V c dS0 t.val (Nat.le_of_lt t.isLt)).2.2).2.2 := by
        show (outsAtFrom0 V c dS0 t.val t.isLt).2.2 = _
        rw [outsAtFrom0_eq]
      rw [eO, step0_B V c t h0 h1]
      dsimp only
      unfold out0_B_2
      iapply ((kernelRun0_B c (grid0.coords t) _ _ _ _ _ _ _ _ (ncond0_0 t h0) (ncond0_1 t h1) (iblk0 V c 0 t) _).2.2 _ Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hrest Hg]
      · iexists dS0
        rw [eS0, step0_B V c t h0 h1]
        dsimp only
        unfold sout0_B_0
        isplitl [HS0 Hrest]
        · isplitl [HS0]
          · unfold owns; iexists _; isplitr
            swap; · iexact HS0
            ipureintro; rfl
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (`ΦA`) is the invariant before the first point, at whatever the scratch holds. -/
theorem hin0 (c : Dev nD) : Pipeline.ΦA spec0 c ⊢ (dat0 V c).Φ 0 := by
  rw [show (dat0 V c).Φ 0 = PhiS0 V c 0 (Nat.zero_le _) from rfl, PhiA0_eq]
  unfold PhiS0 PhiSAt0
  iintro ⟨⟨⟨%dS0, HS0⟩, Hrest⟩, Hg⟩
  iexists dS0
  isplitl [HS0 Hrest]
  · isplitl [HS0]
    · iexact HS0
    iexact Hrest
  iexact Hg

/-- After the last point the invariant gives `ΦA` back: what the scratch holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  unfold PhiS0 PhiSAt0
  iintro ⟨%dS0, ⟨HS0, Hrest⟩, Hg⟩
  isplitl [HS0 Hrest]
  · isplitl [HS0]
    · iexists _; iexact HS0
    iexact Hrest
  iexact Hg

end Cert.Kernel.Gen

end
-- ==== Proof.K.R1Runs.lean ====
/- Region 1 (the first graph-convolution layer): what the runs of its body share — the windows' blocks read off
   the region-entry contents, the body's two branch conditions in closed form over the 8×8 grid, where the output
   window is idle, the staging and scratch memrefs, and the region invariant with the carried scratch split off. -/
import proofs.«152435_j1984274891532_2_alg».proof.Proof.Gen.Kernel.Launch
import proofs.«152435_j1984274891532_2_alg».proof.Proof.Gen.Kernel.Skeleton
import proofs.«152435_j1984274891532_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the zero fill): the reduction coordinate is 0. -/
abbrev cond1_0 (i : grid1.Coords) : Prop := (Scalar.cmpi .ne (Scalar.extui (Scalar.cmpi .eq (BitVec.ofNat 32 (i 1).val) 0#32)) 0#32) = 1#1
/-- It holds at the first point of each row of the grid — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the body's second conditional (the finalize store): the reduction coordinate is 7. -/
abbrev cond1_1 (i : grid1.Coords) : Prop := k1_cond2 i = 1#1
/-- It holds at the last point of each row of the grid — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Where the finalize condition fails the output window is idle: the body stores nothing into it. -/
theorem idleAt1_5_N : ∀ t : Fin cfg1.N, ¬cond1_1 (grid1.coords t) → cfg1.idle 5 (grid1.coords t) = true := by decide +kernel
/-- There the pipeline does not write the output's block back. -/
theorem noFlush1_5_N : ∀ t : Fin cfg1.N, ¬cond1_1 (grid1.coords t) → (cfg1.win 5).flush t = false := by decide +kernel
/-- Where the finalize condition holds the output window is live: the body stores into it. -/
theorem liveAt1_5_C : ∀ t : Fin cfg1.N, cond1_1 (grid1.coords t) → cfg1.idle 5 (grid1.coords t) = false := by decide +kernel

/-! ## The staging and scratch memrefs -/

/-- One staging buffer of the output window, through which its contents are stated (the choice does not matter). -/
abbrev VO1_5 : View sig .tc .vmem S1024x256 .f32 := (Memref.whole cc1_stg5_0 : Memref sig .tc .vmem S1024x256 .f32).view
/-- Each window's current staging memref at point `t`, spelled as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S1024x512 .f32 := Memref.whole cc1_scratch0
/-- The scratch the kernel carries between points, as a view. -/
abbrev VS1_0 : View sig .tc .vmem S1024x512 .f32 := scM1_0.view

/-- The core's scoped buffers that are no staging buffer of this call, split at the call's own scratch. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region invariant with the scratch operand as a memref owned at some contents, the other scoped buffers
    unopened: what the body obligation hands the run and takes back. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Gen

end
-- ==== Proof.K.R1RunA.lean ====
/- Region 1, case A (the reduction coordinate is 0: the zero fill, then the accumulation): the kernel body's triple on whole
   staging buffers, with the stores each buffer ends with — rectangles with their payloads, last first — as its witness. -/
import proofs.«152435_j1984274891532_2_alg».proof.Proof.K.R1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

set_option maxHeartbeats 1000000 in
/-- What the body's stores leave in the output's staging memref and in the scratch, as pieces (last first), in case A,
    with the proof that on whole memrefs — the inputs' at their contents, the output's at contents handed back untouched, the carried
    scratch at the contents the point before left (`xs0`) — the body runs to the continuation holding the inputs' as they
    were, the scratch with its pieces written. -/
noncomputable def kernelRun1_A (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .f32) (x2 : Vec F S1024x512 .f32) (x3 : Vec F S1024x1 .f32) (x4 : Vec F S512x256 .f32) :
    Σ' (L5 : List (View.Piece (Elt F) S1024x256 .f32)), { LS0 : List (View.Piece (Elt F) S1024x512 .f32) //
      ∀ (xi5 : Vec F S1024x256 .f32) (xs0 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xs0) LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 xs0 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact HS0

end Cert.Kernel.Gen

end
-- ==== Proof.K.R1RunB.lean ====
/- Region 1, case B (the reduction coordinate is strictly between 0 and 7: the accumulation alone): the kernel body's triple on whole
   staging buffers, with the stores each buffer ends with — rectangles with their payloads, last first — as its witness. -/
import proofs.«152435_j1984274891532_2_alg».proof.Proof.K.R1RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

set_option maxHeartbeats 1000000 in
/-- What the body's stores leave in the output's staging memref and in the scratch, as pieces (last first), in case B,
    with the proof that on whole memrefs — the inputs' at their contents, the output's at contents handed back untouched, the carried
    scratch at the contents the point before left (`xs0`, which the accumulation reads: the pieces name it) — the body runs to
    the continuation holding the inputs' as they were, the scratch with its pieces written. -/
noncomputable def kernelRun1_B (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) :
    Σ' (L5 : List (View.Piece (Elt F) S1024x256 .f32)), { LS0 : List (View.Piece (Elt F) S1024x512 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xs0) LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact HS0

end Cert.Kernel.Gen

end
-- ==== Proof.K.R1RunC.lean ====
/- Region 1, case C (the reduction coordinate is 7: the accumulation, then the finalize store): the kernel body's triple on whole
   staging buffers, with the stores each buffer ends with — rectangles with their payloads, last first — as its witness. -/
import proofs.«152435_j1984274891532_2_alg».proof.Proof.K.R1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

set_option maxHeartbeats 1000000 in
/-- What the body's stores leave in the output's staging memref and in the scratch, as pieces (last first), in case C,
    with the proof that on whole memrefs — the inputs' at their contents, the output's at anything, the carried
    scratch at the contents the point before left (`xs0`, which the accumulation reads: the pieces name it) — the body runs to
    the continuation holding the inputs' as they were, the scratch with its pieces written, the output's buffer with its pieces written. -/
noncomputable def kernelRun1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) :
    Σ' (L5 : List (View.Piece (Elt F) S1024x256 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xs0) LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨?_, ?_, fun E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HS0

end Cert.Kernel.Gen

end
-- ==== Proof.K.R1Data.lean ====
/- Region 1: what the scratch and the output hold case by case and point by point, the proof data of the pipeline,
   the body obligation at a generic point, and the invariant's two ends. -/
import proofs.«152435_j1984274891532_2_alg».proof.Proof.K.R1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

/-! ## What each case leaves -/

/-- What case A leaves in the scratch: its pieces read back over the contents it was handed. -/
def sout1_A_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) : Vec F S1024x512 .f32 :=
  arg8.view.read (Elt F) (arg8.view.writes (Elt F) (harg8.unread xs0) (kernelRun1_A c i arg2 harg2 arg3 harg3 arg4 harg4 arg5 harg5 arg6 harg6 arg7 harg7 arg8 harg8 hc0 hc1 x0 x1 x2 x3 x4).2.1)

/-- What case B leaves in the scratch. -/
def sout1_B_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) : Vec F S1024x512 .f32 :=
  arg8.view.read (Elt F) (arg8.view.writes (Elt F) (harg8.unread xs0) (kernelRun1_B c i arg2 harg2 arg3 harg3 arg4 harg4 arg5 harg5 arg6 harg6 arg7 harg7 arg8 harg8 hc0 hc1 x0 x1 x2 x3 x4 xs0).2.1)

/-- What case C leaves in the scratch. -/
def sout1_C_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) : Vec F S1024x512 .f32 :=
  arg8.view.read (Elt F) (arg8.view.writes (Elt F) (harg8.unread xs0) (kernelRun1_C c i arg2 harg2 arg3 harg3 arg4 harg4 arg5 harg5 arg6 harg6 arg7 harg7 arg8 harg8 hc0 hc1 x0 x1 x2 x3 x4 xs0).2.1)

/-- Case A's pieces for the scratch cover it (the zero fill and the accumulation's store, each the whole shape). -/
theorem scover1_A_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .f32) (x2 : Vec F S1024x512 .f32) (x3 : Vec F S1024x1 .f32) (x4 : Vec F S512x256 .f32) (y : S1024x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x512.size (by sl_kernel_rfl) y

/-- Case B's piece for the scratch covers it. -/
theorem scover1_B_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) (y : S1024x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x512.size (by sl_kernel_rfl) y

/-- Case C's piece for the scratch covers it. -/
theorem scover1_C_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x512.size (by sl_kernel_rfl) y

/-- Case C's piece for the output covers its block (the finalize store, the whole shape). -/
theorem cover1_C_5 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) (y : S1024x256.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x256.size (by sl_kernel_rfl) y

/-- What case C leaves in the output's staging buffer: its pieces read back over junk. -/
def out1_C_5 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) : Vec F S1024x256 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- What case A leaves in the scratch names nothing of what the scratch held: its pieces cover the scratch and are
    found without it. -/
theorem sout1_A_0_indep (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 xs0' : Vec F S1024x512 .f32) :
    sout1_A_0 c i arg2 harg2 arg3 harg3 arg4 harg4 arg5 harg5 arg6 harg6 arg7 harg7 arg8 harg8 hc0 hc1 x0 x1 x2 x3 x4 xs0 = sout1_A_0 c i arg2 harg2 arg3 harg3 arg4 harg4 arg5 harg5 arg6 harg6 arg7 harg7 arg8 harg8 hc0 hc1 x0 x1 x2 x3 x4 xs0' := by
  unfold sout1_A_0
  exact View.read_writes_of_cover _ _ _ _ _ (scover1_A_0 c i arg2 harg2 arg3 harg3 arg4 harg4 arg5 harg5 arg6 harg6 arg7 harg7 arg8 harg8 hc0 hc1 x0 x1 x2 x3 x4)

/-! ## The conditions at a point, from the closed forms -/

theorem nc1_of0 (t : Fin cfg1.N) (h0 : t.val % 8 = 0) : ¬cond1_1 (grid1.coords t) := fun h => by
  have := (hcond1_1 t).mp h; omega
theorem nc0_of7 (t : Fin cfg1.N) (h1 : t.val % 8 = 7) : ¬cond1_0 (grid1.coords t) := fun h => by
  have := (hcond1_0 t).mp h; omega
theorem nc0_of (t : Fin cfg1.N) (h0 : ¬t.val % 8 = 0) : ¬cond1_0 (grid1.coords t) := fun h => h0 ((hcond1_0 t).mp h)
theorem nc1_of (t : Fin cfg1.N) (h1 : ¬t.val % 8 = 7) : ¬cond1_1 (grid1.coords t) := fun h => h1 ((hcond1_1 t).mp h)

/-! ## The cases at a point: run at the point's memrefs and input blocks -/

/-- What a point with reduction coordinate 0 leaves in the scratch, handed it at `xs0`. -/
def sA1 (c : Dev nD) (t : Fin cfg1.N) (h0 : t.val % 8 = 0) (xs0 : Vec F S1024x512 .f32) : Vec F S1024x512 .f32 :=
  sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (nc1_of0 t h0) (iblk1 V c 0 t) (iblk1 V c 1 t) (iblk1 V c 2 t) (iblk1 V c 3 t) (iblk1 V c 4 t) xs0
/-- What a point with reduction coordinate strictly between 0 and 7 leaves in the scratch, handed it at `xs0`. -/
def sB1 (c : Dev nD) (t : Fin cfg1.N) (h0 : ¬t.val % 8 = 0) (h1 : ¬t.val % 8 = 7) (xs0 : Vec F S1024x512 .f32) : Vec F S1024x512 .f32 :=
  sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (nc0_of t h0) (nc1_of t h1) (iblk1 V c 0 t) (iblk1 V c 1 t) (iblk1 V c 2 t) (iblk1 V c 3 t) (iblk1 V c 4 t) xs0
/-- What a point with reduction coordinate 7 leaves in the scratch, handed it at `xs0`. -/
def sC1 (c : Dev nD) (t : Fin cfg1.N) (h1 : t.val % 8 = 7) (xs0 : Vec F S1024x512 .f32) : Vec F S1024x512 .f32 :=
  sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (nc0_of7 t h1) ((hcond1_1 t).mpr h1) (iblk1 V c 0 t) (iblk1 V c 1 t) (iblk1 V c 2 t) (iblk1 V c 3 t) (iblk1 V c 4 t) xs0
/-- What a point with reduction coordinate 7 leaves in the output's staging buffer, handed the scratch at `xs0`. -/
def oC1 (c : Dev nD) (t : Fin cfg1.N) (h1 : t.val % 8 = 7) (xs0 : Vec F S1024x512 .f32) : Vec F S1024x256 .f32 :=
  out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (nc0_of7 t h1) ((hcond1_1 t).mpr h1) (iblk1 V c 0 t) (iblk1 V c 1 t) (iblk1 V c 2 t) (iblk1 V c 3 t) (iblk1 V c 4 t) xs0

theorem sA1_indep (c : Dev nD) (t : Fin cfg1.N) (h0 : t.val % 8 = 0) (xs0 xs0' : Vec F S1024x512 .f32) :
    sA1 V c t h0 xs0 = sA1 V c t h0 xs0' := by
  unfold sA1; exact sout1_A_0_indep ..

/-! ## What the scratch holds after each point -/

/-- THE ACCUMULATION, from the scratch at `dS0` before the first point: what the scratch holds after the body at
    position `n` — the case the closed forms select at `n`, handed the scratch at what this leaves at `n - 1`. -/
def scrFrom1 (c : Dev nD) (dS0 : Vec F S1024x512 .f32) : (n : ℕ) → n < cfg1.N → Vec F S1024x512 .f32
  | 0, hn => sA1 V c ⟨0, hn⟩ (Nat.zero_mod _) dS0
  | n + 1, hn =>
    if h0 : (n + 1) % 8 = 0 then sA1 V c ⟨n + 1, hn⟩ h0 (scrFrom1 c dS0 n (Nat.lt_of_succ_lt hn))
    else if h1 : (n + 1) % 8 = 7 then sC1 V c ⟨n + 1, hn⟩ h1 (scrFrom1 c dS0 n (Nat.lt_of_succ_lt hn))
    else sB1 V c ⟨n + 1, hn⟩ h0 h1 (scrFrom1 c dS0 n (Nat.lt_of_succ_lt hn))

/-- What point `n` finds in the scratch: `dS0` at the first point, what the point before left at a later one. -/
def prevFrom1 (c : Dev nD) (dS0 : Vec F S1024x512 .f32) : (n : ℕ) → n ≤ cfg1.N → Vec F S1024x512 .f32
  | 0, _ => dS0
  | n + 1, hn => scrFrom1 V c dS0 n hn

theorem scrFrom1_A (c : Dev nD) (dS0 : Vec F S1024x512 .f32) (t : Fin cfg1.N) (h0 : t.val % 8 = 0) :
    scrFrom1 V c dS0 t.val t.isLt = sA1 V c t h0 (prevFrom1 V c dS0 t.val (Nat.le_of_lt t.isLt)) := by
  obtain ⟨n, hn⟩ := t
  cases n with
  | zero => exact rfl
  | succ n => exact (dif_pos h0).trans rfl

theorem scrFrom1_C (c : Dev nD) (dS0 : Vec F S1024x512 .f32) (t : Fin cfg1.N) (h1 : t.val % 8 = 7) :
    scrFrom1 V c dS0 t.val t.isLt = sC1 V c t h1 (prevFrom1 V c dS0 t.val (Nat.le_of_lt t.isLt)) := by
  obtain ⟨n, hn⟩ := t
  cases n with
  | zero => exact absurd (show 0 % 8 = 7 from h1) (by decide)
  | succ n => exact (dif_neg (fun h => by dsimp only at h1; omega)).trans ((dif_pos h1).trans rfl)

theorem scrFrom1_B (c : Dev nD) (dS0 : Vec F S1024x512 .f32) (t : Fin cfg1.N) (h0 : ¬t.val % 8 = 0) (h1 : ¬t.val % 8 = 7) :
    scrFrom1 V c dS0 t.val t.isLt = sB1 V c t h0 h1 (prevFrom1 V c dS0 t.val (Nat.le_of_lt t.isLt)) := by
  obtain ⟨n, hn⟩ := t
  cases n with
  | zero => exact absurd (Nat.zero_mod _) h0
  | succ n => exact (dif_neg h0).trans ((dif_neg h1).trans rfl)

/-- What the scratch holds after a point names nothing of what it held before the first point: the first point zero-fills it. -/
theorem scrFrom1_indep (c : Dev nD) (dS0 dS0' : Vec F S1024x512 .f32) :
    ∀ (n : ℕ) (hn : n < cfg1.N), scrFrom1 V c dS0 n hn = scrFrom1 V c dS0' n hn
  | 0, hn => sA1_indep V c ⟨0, hn⟩ (Nat.zero_mod _) dS0 dS0'
  | n + 1, hn => by
    by_cases h0 : (n + 1) % 8 = 0
    · exact (scrFrom1_A V c dS0 ⟨n + 1, hn⟩ h0).trans ((sA1_indep V c ⟨n + 1, hn⟩ h0 _ _).trans (scrFrom1_A V c dS0' ⟨n + 1, hn⟩ h0).symm)
    · by_cases h1 : (n + 1) % 8 = 7
      · refine (scrFrom1_C V c dS0 ⟨n + 1, hn⟩ h1).trans (Eq.trans ?_ (scrFrom1_C V c dS0' ⟨n + 1, hn⟩ h1).symm)
        show sC1 V c ⟨n + 1, hn⟩ h1 (scrFrom1 V c dS0 n _) = sC1 V c ⟨n + 1, hn⟩ h1 (scrFrom1 V c dS0' n _)
        rw [scrFrom1_indep c dS0 dS0' n]
      · refine (scrFrom1_B V c dS0 ⟨n + 1, hn⟩ h0 h1).trans (Eq.trans ?_ (scrFrom1_B V c dS0' ⟨n + 1, hn⟩ h0 h1).symm)
        show sB1 V c ⟨n + 1, hn⟩ h0 h1 (scrFrom1 V c dS0 n _) = sB1 V c ⟨n + 1, hn⟩ h0 h1 (scrFrom1 V c dS0' n _)
        rw [scrFrom1_indep c dS0 dS0' n]

/-- So does what a later point finds. -/
theorem prevFrom1_indep (c : Dev nD) (dS0 dS0' : Vec F S1024x512 .f32) (n : ℕ) (hn : n ≤ cfg1.N) (hpos : 0 < n) :
    prevFrom1 V c dS0 n hn = prevFrom1 V c dS0' n hn := by
  cases n with
  | zero => exact absurd hpos (Nat.lt_irrefl _)
  | succ n => exact scrFrom1_indep V c dS0 dS0' n hn

/-- The scratch before the first point, for the closed terms the proof data read: junk. -/
abbrev dJ1 : Vec F S1024x512 .f32 := VS1_0.read (Elt F) VS1_0.junk

/-- What the output's staging buffer holds after point `t`: at a point with reduction coordinate 7 what the finalize
    store leaves; elsewhere nothing is stored and nothing consults it (the window is idle and not written back). -/
def outAt1 (c : Dev nD) (t : Fin cfg1.N) : Vec F S1024x256 .f32 :=
  if h1 : t.val % 8 = 7 then oC1 V c t h1 (prevFrom1 V c dJ1 t.val (Nat.le_of_lt t.isLt)) else VO1_5.read (Elt F) VO1_5.junk

theorem outAt1_C (c : Dev nD) (dS0 : Vec F S1024x512 .f32) (t : Fin cfg1.N) (h1 : t.val % 8 = 7) :
    outAt1 V c t = oC1 V c t h1 (prevFrom1 V c dS0 t.val (Nat.le_of_lt t.isLt)) := by
  unfold outAt1; rw [dif_pos h1, prevFrom1_indep V c dJ1 dS0 t.val _ (by omega)]

/-! ## The invariant -/

/-- The region invariant before position `n`, from the scratch at `dS0` before the first point: the carried scratch at
    what point `n` finds, the other scoped buffers at anything, the generator register at some state. -/
def PhiSAt1 (c : Dev nD) (dS0 : Vec F S1024x512 .f32) (n : ℕ) (h : n ≤ cfg1.N) : sProp 𝕄 :=
  iprop(iprop(owns (c : Thread nD τ) scM1_0 fullShare (prevFrom1 V c dS0 n h)
      ∗ Pipeline.scopedRestBut (Ix := Unit) (Name := ℕ) (U := UR sig nD τ) (Lvl := ℕ) (Val := Elt F) spec1 c [cc1_scratch0]) ∗ (∃ r, prngReg c r))

/-- The region invariant: at SOME contents of the scratch before the first point. -/
def PhiS1 (c : Dev nD) (n : ℕ) (h : n ≤ cfg1.N) : sProp 𝕄 :=
  iprop(∃ dS0, PhiSAt1 V c dS0 n h)

/-! ## The pipeline's proof data -/

/-- The proof data of pipeline 1 on core `c`: the arrays as the region finds them (`V`); after the body at point `t`
    each input's buffer at its block and the output's at `outAt1`; the invariant `PhiS1`; nothing owed; full shares,
    except that the two windows reading the one array of scaled features hold the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 3200000 in
/-- The body at any point: the inputs' memrefs hold their blocks; the closed forms say which case the point is in; the
    invariant binds what the scratch held before the first point and hands the body the scratch at what the point finds,
    and takes it back at this point's contents over the same first contents; the output is idle and handed back as found
    where the finalize condition fails, and is the proof data's closed term where it holds (what the scratch holds there
    names nothing of what it held before the first point); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_castSucc V c t]
  unfold PhiS1 PhiSAt1
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · -- reduction coordinate 0
    rw [Dat.leavesExact_idle (dat1 V c) 5 t (idleAt1_5_N t (nc1_of0 t h0)) (noFlush1_5_N t (nc1_of0 t h0))]
    iintro ⟨⟨%dS0, ⟨HS0, Hr⟩, Hg⟩, Ho, ⟨%d0, H0⟩, ⟨%d1, H1⟩, ⟨%d2, H2⟩, ⟨%d3, H3⟩, ⟨%d4, H4⟩, ⟨%d5, H5⟩⟩
    have eS0 : prevFrom1 V c dS0 (t.val + 1) t.isLt = sA1 V c t h0 (prevFrom1 V c dS0 t.val (Nat.le_of_lt t.isLt)) := scrFrom1_A V c dS0 t h0
    iapply ((kernelRun1_A c (grid1.coords t) _ _ _ _ _ _ _ _ _ _ _ _ _ _ ((hcond1_0 t).mpr h0) (nc1_of0 t h0) (iblk1 V c 0 t) (iblk1 V c 1 t) (iblk1 V c 2 t) (iblk1 V c 3 t) (iblk1 V c 4 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hr Hg]
    · iexists dS0
      rw [eS0]
      unfold sA1 sout1_A_0
      isplitl [HS0 Hr]
      · isplitl [HS0]
        · unfold owns; iexists _; isplitr
          swap; · iexact HS0
          ipureintro; rfl
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 8 = 7
    · -- reduction coordinate 7
      rw [show (dat1 V c).leavesExact 5 t = owns (c : Thread nD τ) (ms1_5 t) fullShare ((dat1 V c).after 5 t) from by
        unfold Dat.leavesExact; rw [liveAt1_5_C t ((hcond1_1 t).mpr h1)], after1_5]
      iintro ⟨⟨%dS0, ⟨HS0, Hr⟩, Hg⟩, Ho, ⟨%d0, H0⟩, ⟨%d1, H1⟩, ⟨%d2, H2⟩, ⟨%d3, H3⟩, ⟨%d4, H4⟩, ⟨%d5, H5⟩⟩
      have eS0 : prevFrom1 V c dS0 (t.val + 1) t.isLt = sC1 V c t h1 (prevFrom1 V c dS0 t.val (Nat.le_of_lt t.isLt)) := scrFrom1_C V c dS0 t h1
      rw [outAt1_C V c dS0 t h1]
      unfold oC1 out1_C_5
      iapply ((kernelRun1_C c (grid1.coords t) _ _ _ _ _ _ _ _ _ _ _ _ _ _ (nc0_of7 t h1) ((hcond1_1 t).mpr h1) (iblk1 V c 0 t) (iblk1 V c 1 t) (iblk1 V c 2 t) (iblk1 V c 3 t) (iblk1 V c 4 t) (prevFrom1 V c dS0 t.val (Nat.le_of_lt t.isLt))).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hr Hg]
      · iexists dS0
        rw [eS0]
        unfold sC1 sout1_C_0
        isplitl [HS0 Hr]
        · isplitl [HS0]
          · unfold owns; iexists _; isplitr
            swap; · iexact HS0
            ipureintro; rfl
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · -- reduction coordinate strictly between
      rw [Dat.leavesExact_idle (dat1 V c) 5 t (idleAt1_5_N t (nc1_of t h1)) (noFlush1_5_N t (nc1_of t h1))]
      iintro ⟨⟨%dS0, ⟨HS0, Hr⟩, Hg⟩, Ho, ⟨%d0, H0⟩, ⟨%d1, H1⟩, ⟨%d2, H2⟩, ⟨%d3, H3⟩, ⟨%d4, H4⟩, ⟨%d5, H5⟩⟩
      have eS0 : prevFrom1 V c dS0 (t.val + 1) t.isLt = sB1 V c t h0 h1 (prevFrom1 V c dS0 t.val (Nat.le_of_lt t.isLt)) := scrFrom1_B V c dS0 t h0 h1
      iapply ((kernelRun1_B c (grid1.coords t) _ _ _ _ _ _ _ _ _ _ _ _ _ _ (nc0_of t h0) (nc1_of t h1) (iblk1 V c 0 t) (iblk1 V c 1 t) (iblk1 V c 2 t) (iblk1 V c 3 t) (iblk1 V c 4 t) (prevFrom1 V c dS0 t.val (Nat.le_of_lt t.isLt))).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hr Hg]
      · iexists dS0
        rw [eS0]
        unfold sB1 sout1_B_0
        isplitl [HS0 Hr]
        · isplitl [HS0]
          · unfold owns; iexists _; isplitr
            swap; · iexact HS0
            ipureintro; rfl
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class's invariant) is the invariant before the first point, at whatever the scratch holds. -/
theorem hin1 (c : Dev nD) : Pipeline.ΦA spec1 c ⊢ (dat1 V c).Φ 0 := by
  rw [show (dat1 V c).Φ 0 = PhiS1 V c 0 (Nat.zero_le _) from rfl, PhiA1_eq]
  unfold PhiS1 PhiSAt1
  iintro ⟨⟨⟨%dS0, HS0⟩, Hr⟩, Hg⟩
  iexists dS0
  isplitl [HS0 Hr]
  · isplitl [HS0]
    · iexact HS0
    iexact Hr
  iexact Hg

/-- After the last point the invariant gives the class's back: what the scratch holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  unfold PhiS1 PhiSAt1
  iintro ⟨%dS0, ⟨HS0, Hr⟩, Hg⟩
  isplitl [HS0 Hr]
  · isplitl [HS0]
    · iexists _; iexact HS0
    iexact Hr
  iexact Hg

end Cert.Kernel.Gen

end
-- ==== Proof.K.R2Runs.lean ====
/- The third kernel (the second graph-convolution layer with its log-softmax): what the three control cases of
   its body share — the windows' blocks read off the arrays as the region finds them, the two branch conditions in
   closed form over the 8 × 8 grid (the reduction index k is the last axis: k = t mod 8), where the output window is
   idle, and the staging and scratch memrefs the body is called with. -/
import proofs.«152435_j1984274891532_2_alg».proof.Proof.Gen.Kernel.Launch
import proofs.«152435_j1984274891532_2_alg».proof.Proof.Gen.Kernel.Skeleton
import proofs.«152435_j1984274891532_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (k = 0: the accumulator is zeroed), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)
/-- The condition of the body's second conditional (k = 7: the row block is finalized and stored). -/
abbrev cond2_1 (i : grid2.Coords) : Prop := k2_cond2 i = 1#1
/-- It holds at the points ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the second condition fails the output window is idle and not written back; -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- where it holds the window is live. -/
theorem liveAt2_5 : ∀ t : Fin cfg2.N, cond2_1 (grid2.coords t) → cfg2.idle 5 (grid2.coords t) = false := by decide +kernel

/-! ## The staging and scratch memrefs -/

/-- One staging buffer of the output window, through which its contents are stated (the choice does not matter). -/
abbrev VO2_5 : View sig .tc .vmem S1024x40 .f32 := (Memref.whole cc2_stg5_0 : Memref sig .tc .vmem S1024x40 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x40 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x40 .f32 := win2_5.stage (cfg2.slots t 5)
abbrev hs2_5 (t : Fin cfg2.N) : (ms2_5 t).IsWhole := hstage2_5 ((cfg2.slots t 5).cast nbuf2_5)
/-- The accumulator: a whole scoped buffer of the kernel's own, carried between grid points. -/
abbrev scM2_0 : Memref sig .tc .vmem S1024x256 .f32 := Memref.whole cc2_scratch0
abbrev VS2_0 : View sig .tc .vmem S1024x256 .f32 := scM2_0.view

/-- The scoped buffers that are no staging buffer of this call, split at the accumulator: it, whole at some
    contents, and the others unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The other scoped buffers, unopened: what the invariant carries beside the accumulator. -/
abbrev restBut2 (c : Dev nD) : sProp 𝕄 :=
  Pipeline.scopedRestBut (Ix := Unit) (Name := ℕ) (U := UR sig nD τ) (Lvl := ℕ) (Val := Elt F) spec2 c [cc2_scratch0]

/-- The region invariant the launch hands over, with the accumulator as a memref owned at some contents. -/
theorem PhiA2_eq (c : Dev nD) :
    (Pipeline.ΦA spec2 c : sProp 𝕄)
      = iprop(iprop((∃ d, owns (c : Thread nD τ) scM2_0 fullShare d) ∗ restBut2 (F := F) c) ∗ (∃ r, prngReg c r)) := by
  unfold Pipeline.ΦA; rw [scopedRest2_split]; simp only [scM2_0, owns_whole]; try rfl

end Cert.Kernel.Gen

end
-- ==== Proof.K.R2RunA.lean ====
/- The body of the third kernel run in the case k = 0 (the first conditional taken, the second not): the
   accumulator, at any contents, is zeroed and the point's product added; the output window is left untouched. The
   pieces the accumulator ends with are the witness the run finds. -/
import proofs.«152435_j1984274891532_2_alg».proof.Proof.K.R2Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

set_option maxHeartbeats 1000000 in
noncomputable def kernelRun2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : cond2_0 i) (hc1 : ¬cond2_1 i)
    (x0 : Vec F S1024x1024 .bf16) (x1 : Vec F S1024x256 .f32) (x2 : Vec F S1024x256 .f32) (x3 : Vec F S1024x1 .f32) (x4 : Vec F S256x40 .f32) :
    { LS0 : List (View.Piece (Elt F) S1024x256 .f32) //
      ∀ (xi5 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8) K } := by
  refine ⟨?_, fun xi5 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.Kernel.Gen

end
-- ==== Proof.K.R2RunB.lean ====
/- The body of the third kernel run in the case 0 < k < 7 (neither conditional taken): the point's product is added
   to the accumulator, which the point before left at `xs0`; the output window is left untouched. The pieces the
   accumulator ends with are the witness the run finds. -/
import proofs.«152435_j1984274891532_2_alg».proof.Proof.K.R2RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

-- (the run's proof term is large: the definition's epilogue walks it past the default budget)
set_option maxHeartbeats 1000000 in
noncomputable def kernelRun2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : ¬cond2_1 i)
    (x0 : Vec F S1024x1024 .bf16) (x1 : Vec F S1024x256 .f32) (x2 : Vec F S1024x256 .f32) (x3 : Vec F S1024x1 .f32) (x4 : Vec F S256x40 .f32) (xs0 : Vec F S1024x256 .f32) :
    { LS0 : List (View.Piece (Elt F) S1024x256 .f32) //
      ∀ (xi5 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xs0) LS0)) -∗ K ⟨⟩))
          ⊢ wp frame (wpE (defs₀ (F := F)) Variants.none c none) E (cc2__gcn2_kernel i arg2 harg2 arg3 harg3 arg4 harg4 arg5 harg5 arg6 harg6 arg7 harg7 arg8 harg8) K } := by
  refine ⟨?_, fun xi5 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact HS

end Cert.Kernel.Gen

end
-- ==== Proof.K.R2RunC.lean ====
/- The body of the third kernel run in the case k = 7 (the first conditional not taken, the second taken): the
   point's product is added to the accumulator, which the point before left at `xs0`, and the finished row block —
   self-loop term added, rows scaled, second weight matrix applied, relu and log-softmax — is stored into the output
   window, held at any contents. The pieces the output window and the accumulator end with are the witness. -/
import proofs.«152435_j1984274891532_2_alg».proof.Proof.K.R2RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

-- (the run's proof term is large: the definition's epilogue walks it past the default budget)
set_option maxHeartbeats 1000000 in
noncomputable def kernelRun2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i)
    (x0 : Vec F S1024x1024 .bf16) (x1 : Vec F S1024x256 .f32) (x2 : Vec F S1024x256 .f32) (x3 : Vec F S1024x1 .f32) (x4 : Vec F S256x40 .f32) (xs0 : Vec F S1024x256 .f32) :
    Σ' (L5 : List (View.Piece (Elt F) S1024x40 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xs0) LS0)) -∗ K ⟨⟩))
          ⊢ wp frame (wpE (defs₀ (F := F)) Variants.none c none) E (cc2__gcn2_kernel i arg2 harg2 arg3 harg3 arg4 harg4 arg5 harg5 arg6 harg6 arg7 harg7 arg8 harg8) K } := by
  refine ⟨?_, ?_, fun E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HS

end Cert.Kernel.Gen

end
-- ==== Proof.K.R2Data.lean ====
/- The third kernel (the second graph-convolution layer with its log-softmax): what each control case leaves in the
   accumulator and in the output window, the accumulator after each grid point (by recursion on the point: zeroed
   and refilled at k = 0, added to elsewhere), the proof data of the pipeline, the body obligation at a generic
   point, and the invariant's two ends. The region is entered at contents `V` of the core's buffers. -/
import proofs.«152435_j1984274891532_2_alg».proof.Proof.K.R2RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

/-! ## What each case leaves -/

/-- Case k = 0: the accumulator's pieces (the zero fill, then the sum) cover it. -/
theorem scover2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : cond2_0 i) (hc1 : ¬cond2_1 i) (x0 : Vec F S1024x1024 .bf16) (x1 : Vec F S1024x256 .f32) (x2 : Vec F S1024x256 .f32) (x3 : Vec F S1024x1 .f32) (x4 : Vec F S256x40 .f32) (y : S1024x256.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S1024x256.size (by sl_kernel_rfl) y

/-- What case k = 0 leaves in the accumulator: its pieces read back (they cover it, so over anything). -/
def sout2_A_0 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : cond2_0 i) (hc1 : ¬cond2_1 i) (x0 : Vec F S1024x1024 .bf16) (x1 : Vec F S1024x256 .f32) (x2 : Vec F S1024x256 .f32) (x3 : Vec F S1024x1 .f32) (x4 : Vec F S256x40 .f32) : Vec F S1024x256 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3 x4).1)

/-- Case 0 < k < 7: the accumulator's one piece (the sum) covers it. -/
theorem scover2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : ¬cond2_1 i) (x0 : Vec F S1024x1024 .bf16) (x1 : Vec F S1024x256 .f32) (x2 : Vec F S1024x256 .f32) (x3 : Vec F S1024x1 .f32) (x4 : Vec F S256x40 .f32) (xs0 : Vec F S1024x256 .f32) (y : S1024x256.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S1024x256.size (by sl_kernel_rfl) y

/-- What case 0 < k < 7 leaves in the accumulator, handed it at `xs0`. -/
def sout2_B_0 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : ¬cond2_1 i) (x0 : Vec F S1024x1024 .bf16) (x1 : Vec F S1024x256 .f32) (x2 : Vec F S1024x256 .f32) (x3 : Vec F S1024x1 .f32) (x4 : Vec F S256x40 .f32) (xs0 : Vec F S1024x256 .f32) : Vec F S1024x256 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 x4 xs0).1)

/-- Case k = 7: the accumulator's one piece covers it, -/
theorem scover2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) (y : S1024x256.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x256.size (by sl_kernel_rfl) y

/-- and the output window's one piece covers it. -/
theorem cover2_C_5 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) (y : S1024x40.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x40.size (by sl_kernel_rfl) y

/-- What case k = 7 leaves in the accumulator, handed it at `xs0`, -/
def sout2_C_0 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) : Vec F S1024x256 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 x4 xs0).2.1)

/-- and in the output window's staging buffer. -/
def out2_C_5 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) : Vec F S1024x40 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)

/-! ## The accumulator after each point -/

/-- The two conditions at a point from its residue mod 8. -/
theorem hc2_0_of (t : Fin cfg2.N) (h : t.val % 8 = 0) : cond2_0 (grid2.coords t) := (hcond2_0 t).mpr h
theorem hnc2_0_of (t : Fin cfg2.N) (h : ¬t.val % 8 = 0) : ¬cond2_0 (grid2.coords t) := fun h' => h ((hcond2_0 t).mp h')
theorem hc2_1_of (t : Fin cfg2.N) (h : t.val % 8 = 7) : cond2_1 (grid2.coords t) := (hcond2_1 t).mpr h
theorem hnc2_1_of (t : Fin cfg2.N) (h : ¬t.val % 8 = 7) : ¬cond2_1 (grid2.coords t) := fun h' => h ((hcond2_1 t).mp h')

/-- What the accumulator holds after the body at position `n`: the case the closed forms select at `n`, run at the
    point's memrefs and input blocks, handed (where it reads it) what this leaves at `n - 1`. -/
def accAt2 (c : Dev nD) : (n : ℕ) → n < cfg2.N → Vec F S1024x256 .f32
  | 0, hn => sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) (hc2_0_of ⟨0, hn⟩ rfl) (hnc2_1_of ⟨0, hn⟩ (show ¬(0 % 8 = 7) from by decide)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn =>
    if h0 : (n + 1) % 8 = 0 then
      sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (hc2_0_of ⟨n + 1, hn⟩ h0) (hnc2_1_of ⟨n + 1, hn⟩ (fun h => by dsimp only at h; omega)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    else if h7 : (n + 1) % 8 = 7 then
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (hnc2_0_of ⟨n + 1, hn⟩ h0) (hc2_1_of ⟨n + 1, hn⟩ h7) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn))
    else
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (hnc2_0_of ⟨n + 1, hn⟩ h0) (hnc2_1_of ⟨n + 1, hn⟩ h7) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn))

/-- What point `n` finds in the accumulator: what the point before left (nothing named before the first point). -/
def prev2 (c : Dev nD) : (n : ℕ) → n ≤ cfg2.N → Vec F S1024x256 .f32
  | 0, _ => VS2_0.read (Elt F) VS2_0.junk
  | n + 1, hn => accAt2 V c n hn

/-- `accAt2` at a point with k = 0. -/
theorem accAt2_A (c : Dev nD) (t : Fin cfg2.N) (h0 : t.val % 8 = 0) (h7 : ¬t.val % 8 = 7) :
    accAt2 V c t.val t.isLt = sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hc2_0_of t h0) (hnc2_1_of t h7) (iblk2 V c 0 t) (iblk2 V c 1 t) (iblk2 V c 2 t) (iblk2 V c 3 t) (iblk2 V c 4 t) := by
  obtain ⟨n, hn⟩ := t
  cases n with
  | zero => exact rfl
  | succ n => exact (dif_pos h0).trans rfl

/-- `accAt2` at a point with 0 < k < 7: over what the point before left. -/
theorem accAt2_B (c : Dev nD) (t : Fin cfg2.N) (h0 : ¬t.val % 8 = 0) (h7 : ¬t.val % 8 = 7) :
    accAt2 V c t.val t.isLt = sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hnc2_0_of t h0) (hnc2_1_of t h7) (iblk2 V c 0 t) (iblk2 V c 1 t) (iblk2 V c 2 t) (iblk2 V c 3 t) (iblk2 V c 4 t) (prev2 V c t.val (Nat.le_of_lt t.isLt)) := by
  obtain ⟨n, hn⟩ := t
  cases n with
  | zero => exact absurd rfl h0
  | succ n => exact (dif_neg h0).trans ((dif_neg h7).trans rfl)

/-- `accAt2` at a point with k = 7: over what the point before left. -/
theorem accAt2_C (c : Dev nD) (t : Fin cfg2.N) (h0 : ¬t.val % 8 = 0) (h7 : t.val % 8 = 7) :
    accAt2 V c t.val t.isLt = sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hnc2_0_of t h0) (hc2_1_of t h7) (iblk2 V c 0 t) (iblk2 V c 1 t) (iblk2 V c 2 t) (iblk2 V c 3 t) (iblk2 V c 4 t) (prev2 V c t.val (Nat.le_of_lt t.isLt)) := by
  obtain ⟨n, hn⟩ := t
  cases n with
  | zero => exact absurd rfl h0
  | succ n => exact (dif_neg h0).trans ((dif_pos h7).trans rfl)

/-- What the output window's staging buffer holds after the body at point `t`: where k = 7 the finished row block
    over what the point before left in the accumulator; elsewhere nothing named (the window is idle there). -/
def outAt2 (c : Dev nD) (t : Fin cfg2.N) : Vec F S1024x40 .f32 :=
  if h7 : t.val % 8 = 7 then
    out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hnc2_0_of t (by omega)) (hc2_1_of t h7) (iblk2 V c 0 t) (iblk2 V c 1 t) (iblk2 V c 2 t) (iblk2 V c 3 t) (iblk2 V c 4 t) (prev2 V c t.val (Nat.le_of_lt t.isLt))
  else VO2_5.read (Elt F) VO2_5.junk

/-- The region invariant before position `n`: the accumulator at what point `n` finds (at anything before the first
    point), the other scoped buffers unopened, the generator register at some state. -/
def PhiS2 (c : Dev nD) (n : ℕ) (h : n ≤ cfg2.N) : sProp 𝕄 :=
  iprop(iprop((∃ d, ⌜n ≠ 0 → d = prev2 V c n h⌝ ∗ owns (c : Thread nD τ) scM2_0 fullShare d) ∗ restBut2 (F := F) c) ∗ (∃ r, prngReg c r))

/-! ## The pipeline's proof data -/

/-- The proof data of the pipeline on core `c`: the arrays as the region finds them; after the body at point `t`
    each input's buffer at its block and the output's at `outAt2`; the invariant `PhiS2`; nothing owed; full shares,
    except that the two windows reading the scaled features hold one half of that array each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := PhiS2 V c t.val (Nat.le_of_lt_succ t.isLt)
  q w := match w with
    | ⟨1, _⟩ => fullShare.left
    | ⟨2, _⟩ => fullShare.right
    | _ => fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outAt2 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 3200000 in
/-- The body at any point: the inputs' memrefs hold their blocks; the residue of the point mod 8 says which case it
    is in; the invariant hands the body the accumulator at what the point finds and takes it back at this point's
    contents; where k = 7 the output window is the proof data's term, elsewhere it is handed back untouched; the
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_castSucc V c t]
  unfold PhiS2
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 8 = 0
  · have h7 : ¬t.val % 8 = 7 := by omega
    rw [Dat.leavesExact_idle (dat2 V c) 5 t (idleAt2_5 t (hnc2_1_of t h7)) (noFlush2_5 t (hnc2_1_of t h7))]
    iintro ⟨⟨⟨⟨%dS, -, HS⟩, HR⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ (hc2_0_of t h0) (hnc2_1_of t h7) (iblk2 V c 0 t) (iblk2 V c 1 t) (iblk2 V c 2 t) (iblk2 V c 3 t) (iblk2 V c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexists _; iexact HS
    iintro ⟨H0, H1, H2, H3, H4, H5, ⟨%fS, HS⟩⟩
    isplitl [HS HR Hg]
    · isplitl [HS HR]
      · isplitl [HS]
        · iexists (accAt2 V c t.val t.isLt); isplitr
          · ipureintro; intro _; rfl
          rw [accAt2_A V c t h0 h7]; unfold sout2_A_0 owns
          iexists _; isplitr
          swap; · iexact HS
          ipureintro; exact View.read_writes_of_cover _ _ _ _ _ (scover2_A c _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h7 : t.val % 8 = 7
    · rw [show (dat2 V c).leavesExact 5 t = owns (c : Thread nD τ) (ms2_5 t) fullShare ((dat2 V c).after 5 t) from by
        unfold Dat.leavesExact; rw [liveAt2_5 t (hc2_1_of t h7)], after2_5]
      iintro ⟨⟨⟨⟨%dS, %hdS, HS⟩, HR⟩, Hg⟩, Ho, ⟨%d0, H0⟩, ⟨%d1, H1⟩, ⟨%d2, H2⟩, ⟨%d3, H3⟩, ⟨%d4, H4⟩, ⟨%d5, H5⟩⟩
      obtain rfl := hdS (fun h => h0 (by rw [h]))
      rw [show outAt2 V c t = out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hnc2_0_of t h0) (hc2_1_of t h7) (iblk2 V c 0 t) (iblk2 V c 1 t) (iblk2 V c 2 t) (iblk2 V c 3 t) (iblk2 V c 4 t) (prev2 V c t.val (Nat.le_of_lt t.isLt)) from dif_pos h7]
      unfold out2_C_5
      iapply ((kernelRun2_C c (grid2.coords t) _ _ _ _ _ _ _ _ _ _ _ _ _ _ (hnc2_0_of t h0) (hc2_1_of t h7) (iblk2 V c 0 t) (iblk2 V c 1 t) (iblk2 V c 2 t) (iblk2 V c 3 t) (iblk2 V c 4 t) (prev2 V c t.val (Nat.le_of_lt t.isLt))).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, HS⟩
      isplitl [HS HR Hg]
      · isplitl [HS HR]
        · isplitl [HS]
          · iexists (accAt2 V c t.val t.isLt); isplitr
            · ipureintro; intro _; rfl
            rw [accAt2_C V c t h0 h7]; unfold sout2_C_0 owns
            iexists _; isplitr
            swap; · iexact HS
            ipureintro; exact View.read_writes_of_cover _ _ _ _ _ (scover2_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5 t (hnc2_1_of t h7)) (noFlush2_5 t (hnc2_1_of t h7))]
      iintro ⟨⟨⟨⟨%dS, %hdS, HS⟩, HR⟩, Hg⟩, Ho, ⟨%d0, H0⟩, ⟨%d1, H1⟩, ⟨%d2, H2⟩, ⟨%d3, H3⟩, ⟨%d4, H4⟩, ⟨%d5, H5⟩⟩
      obtain rfl := hdS (fun h => h0 (by rw [h]))
      iapply ((kernelRun2_B c (grid2.coords t) _ _ _ _ _ _ _ _ _ _ _ _ _ _ (hnc2_0_of t h0) (hnc2_1_of t h7) (iblk2 V c 0 t) (iblk2 V c 1 t) (iblk2 V c 2 t) (iblk2 V c 3 t) (iblk2 V c 4 t) (prev2 V c t.val (Nat.le_of_lt t.isLt))).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]
          · iexists (accAt2 V c t.val t.isLt); isplitr
            · ipureintro; intro _; rfl
            rw [accAt2_B V c t h0 h7]; unfold sout2_B_0 owns
            iexists _; isplitr
            swap; · iexact HS
            ipureintro; exact View.read_writes_of_cover _ _ _ _ _ (scover2_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, at whatever the accumulator holds. -/
theorem hin2 (c : Dev nD) : Pipeline.ΦA spec2 c ⊢ (dat2 V c).Φ 0 := by
  rw [show (dat2 V c).Φ 0 = PhiS2 V c 0 (Nat.zero_le _) from rfl, PhiA2_eq]
  unfold PhiS2
  iintro ⟨⟨⟨%dS, HS⟩, HR⟩, Hg⟩
  isplitl [HS HR]
  · isplitl [HS]
    · iexists dS; isplitr
      · ipureintro; intro h; exact absurd rfl h
      iexact HS
    iexact HR
  iexact Hg

/-- After the last point the invariant gives it back: what the accumulator holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  unfold PhiS2
  iintro ⟨⟨⟨%dS, -, HS⟩, HR⟩, Hg⟩
  isplitl [HS HR]
  · isplitl [HS]
    · iexists _; iexact HS
    iexact HR
  iexact Hg

end Cert.Kernel.Gen

end
-- ==== Proof.K.Inst.lean ====
/- The kernel program's run and frame, at the three regions' proof data: the assembled run instantiated
   with each region's data, body obligation and invariant lemmas; the facts about shares, owed tallies and
   recorded pairs are read off the data's literal fields. -/
import proofs.«152435_j1984274891532_2_alg».proof.Proof.K.Assembly
import proofs.«152435_j1984274891532_2_alg».proof.Proof.K.R0Data
import proofs.«152435_j1984274891532_2_alg».proof.Proof.K.R1Data
import proofs.«152435_j1984274891532_2_alg».proof.Proof.K.R2Data

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every window of region 0 holds its array at the full share. -/
theorem hq0_r (V : Cont F) (c : Dev nD) (w : Fin cfg0.W) : (dat0 V c).q w = fullShare := rfl
/-- No region's core owes anything at any point. -/
theorem how0_r (V : Cont F) (c : Dev nD) (t : Fin (cfg0.N + 1)) : (dat0 V c).owed t = 0 := rfl
theorem how1_r (V : Cont F) (c : Dev nD) (t : Fin (cfg1.N + 1)) : (dat1 V c).owed t = 0 := rfl
theorem how2_r (V : Cont F) (c : Dev nD) (t : Fin (cfg2.N + 1)) : (dat2 V c).owed t = 0 := rfl
/-- No region bounds the recorded pairs. -/
theorem hrec0_r (V : Cont F) (c : Dev nD) (t : Fin (cfg0.N + 1)) : (dat0 V c).recorded t = Set.univ := rfl
theorem hrec1_r (V : Cont F) (c : Dev nD) (t : Fin (cfg1.N + 1)) : (dat1 V c).recorded t = Set.univ := rfl
theorem hrec2_r (V : Cont F) (c : Dev nD) (t : Fin (cfg2.N + 1)) : (dat2 V c).recorded t = Set.univ := rfl
/-- Regions 1 and 2 read the scaled features through windows 1 and 2, which hold the two halves of that
    array's share; every other window, and the output, the full share. -/
theorem hsh1_r (V : Cont F) (c : Dev nD) : (dat1 V c).share 0 = fullShare ∧ (dat1 V c).share 1 = fullShare.left ∧ (dat1 V c).share 2 = fullShare.right ∧ (dat1 V c).share 3 = fullShare ∧ (dat1 V c).share 4 = fullShare ∧ (dat1 V c).share 5 = fullShare :=
  ⟨rfl, rfl, rfl, rfl, rfl, rfl⟩
theorem hsh2_r (V : Cont F) (c : Dev nD) : (dat2 V c).share 0 = fullShare ∧ (dat2 V c).share 1 = fullShare.left ∧ (dat2 V c).share 2 = fullShare.right ∧ (dat2 V c).share 3 = fullShare ∧ (dat2 V c).share 4 = fullShare ∧ (dat2 V c).share 5 = fullShare :=
  ⟨rfl, rfl, rfl, rfl, rfl, rfl⟩

variable (m : (ℓ : Loc nD τ sig) → Buf (Elt F) ℓ) (ρ : Dev nD → PrngReg)

/-- THE RUN at the regions' data: every weakly fair execution terminates, nothing faulting; the result array
    ends at what region 2's write-backs leave — its data read at the contents the two host stretches and
    regions 0 and 1 produce from the launch contents — and the four arguments end as launched. -/
theorem run : θ_run defs (onTc (τ := τ) (main (F := F))) ⟨m, fun _ => 0, ρ⟩ (fun r => ∀ c : Dev nD,
      r.2.mem ((c.tc : Thread nD τ).loc main_v11) = (dat2 (C4 (dat0 (F := F)) (dat1 (F := F)) m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main (dat0 (F := F)) (dat1 (F := F)) (dat2 (F := F)) A_eq0 A_eq1 A_eq2 body_obligation0 body_obligation1 body_obligation2
    hin0 hin1 hin2 hout0 hout1 hout2 hq0_r how0_r how1_r how2_r hsh1_r hsh2_r hrec0_r hrec1_r hrec2_r m ρ

/-- THE FRAME: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Gen

end
-- ==== Proof.KI.SharedArr.lean ====
/-
  Regions 1 and 2 read the scaled features through TWO windows (the block a grid point contracts over, and the block of
  the point's own rows for the self-loop term), so five distinct buffers stand behind their six windows. At a region's
  entry each buffer is held whole; the feature array is dealt to its two windows in the left and right halves of the
  full share, and at the exit the halves are joined again.
-/
import proofs.«152435_j1984274891532_2_alg».proof.Proof.Gen.KernelIdeal.Regions
import Idealize.ShloMosaic.Lib.Pipeline.Kit

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 1's arrays as points-tos of the buffers behind them, window by window, each at its share (every array is a whole buffer). -/
theorem arrays_eq_share1 {c : Dev nD} (dat : Dat τ (Elt F) Unit ℕ (UR sig nD τ) ℕ cfg1 c)
    (G : (w : Fin cfg1.W) → Buf (Elt F) ((cfg1.win w).arr.view.loc (c.tc : Thread nD τ))) :
    dat.arrays G = bigSep Finset.univ fun w => (((c.tc : Thread nD τ).loc (Pipeline.arrRef spec1 w)) ↦{dat.share w} G w : sProp 𝕄) := by
  unfold Dat.arrays
  exact bigSep_congr fun w _ => by rw [(arr_whole1 w).set_eq_univ]

/-- The five distinct buffers behind region 1's six windows, one by one. -/
theorem arrBufs1_eq (c : Dev nD) (V : (b : Ref sig .tc) → Buf (Elt F) ((c.tc : Thread nD τ).loc b)) :
    (Pipeline.arrBufs spec1 c V : sProp 𝕄)
      = iprop((((c.tc : Thread nD τ).loc main_v0_1) ↦{fullShare} V main_v0_1) ∗ (((c.tc : Thread nD τ).loc main_v7) ↦{fullShare} V main_v7)
          ∗ (((c.tc : Thread nD τ).loc main_v5) ↦{fullShare} V main_v5) ∗ (((c.tc : Thread nD τ).loc main_arg2) ↦{fullShare} V main_arg2)
          ∗ (((c.tc : Thread nD τ).loc main_v8) ↦{fullShare} V main_v8)) := by
  unfold Pipeline.arrBufs
  rw [bigSep_eq_bigSepL_of_eq [main_v0_1, main_v7, main_v5, main_arg2, main_v8] (by decide) (by decide)]
  rfl

/-- ENTRY of region 1: the buffers behind the arrays, each whole, dealt to the windows — the feature array, read through
    windows 1 and 2, in two halves. -/
theorem arrays_of_arrBufs1 {c : Dev nD} (V : (b : Ref sig .tc) → Buf (Elt F) ((c.tc : Thread nD τ).loc b))
    (dat : Dat τ (Elt F) Unit ℕ (UR sig nD τ) ℕ cfg1 c)
    (hs0 : dat.share 0 = fullShare) (hs1 : dat.share 1 = fullShare.left) (hs2 : dat.share 2 = fullShare.right)
    (hs3 : dat.share 3 = fullShare) (hs4 : dat.share 4 = fullShare) (hs5 : dat.share 5 = fullShare)
    (G : (w : Fin cfg1.W) → Buf (Elt F) ((cfg1.win w).arr.view.loc (c.tc : Thread nD τ)))
    (hG : ∀ w, G w = V (Pipeline.arrRef spec1 w)) :
    (Pipeline.arrBufs spec1 c V : sProp 𝕄) ⊢ dat.arrays G := by
  rw [arrays_eq_share1 dat G, bigSep_W1, arrBufs1_eq, hs0, hs1, hs2, hs3, hs4, hs5, hG 0, hG 1, hG 2, hG 3, hG 4, hG 5]
  iintro ⟨H0, H1, H3, H4, H5⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H3]; · iexact H3
  isplitl [H4]; · iexact H4
  iexact H5

/-- EXIT of region 1: the windows' arrays joined into the buffers behind them again. -/
theorem arrBufs_of_arrays1 {c : Dev nD} (V : (b : Ref sig .tc) → Buf (Elt F) ((c.tc : Thread nD τ).loc b))
    (dat : Dat τ (Elt F) Unit ℕ (UR sig nD τ) ℕ cfg1 c)
    (hs0 : dat.share 0 = fullShare) (hs1 : dat.share 1 = fullShare.left) (hs2 : dat.share 2 = fullShare.right)
    (hs3 : dat.share 3 = fullShare) (hs4 : dat.share 4 = fullShare) (hs5 : dat.share 5 = fullShare)
    (G : (w : Fin cfg1.W) → Buf (Elt F) ((cfg1.win w).arr.view.loc (c.tc : Thread nD τ)))
    (hG : ∀ w, G w = V (Pipeline.arrRef spec1 w)) :
    dat.arrays G ⊢ (Pipeline.arrBufs spec1 c V : sProp 𝕄) := by
  rw [arrays_eq_share1 dat G, bigSep_W1, arrBufs1_eq, hs0, hs1, hs2, hs3, hs4, hs5, hG 0, hG 1, hG 2, hG 3, hG 4, hG 5]
  iintro ⟨H0, H1a, H1b, H3, H4, H5⟩
  ihave H1 := (pointsTo_share (PosShare.mem_left_op_right fullShare)).2 $$ [H1a H1b]
  · isplitl [H1a]; · iexact H1a
    iexact H1b
  isplitl [H0]; · iexact H0
  isplitl [H1]; · iexact H1
  isplitl [H3]; · iexact H3
  isplitl [H4]; · iexact H4
  iexact H5

/-- Region 2's arrays as points-tos of the buffers behind them, window by window, each at its share (every array is a whole buffer). -/
theorem arrays_eq_share2 {c : Dev nD} (dat : Dat τ (Elt F) Unit ℕ (UR sig nD τ) ℕ cfg2 c)
    (G : (w : Fin cfg2.W) → Buf (Elt F) ((cfg2.win w).arr.view.loc (c.tc : Thread nD τ))) :
    dat.arrays G = bigSep Finset.univ fun w => (((c.tc : Thread nD τ).loc (Pipeline.arrRef spec2 w)) ↦{dat.share w} G w : sProp 𝕄) := by
  unfold Dat.arrays
  exact bigSep_congr fun w _ => by rw [(arr_whole2 w).set_eq_univ]

/-- The five distinct buffers behind region 2's six windows, one by one. -/
theorem arrBufs2_eq (c : Dev nD) (V : (b : Ref sig .tc) → Buf (Elt F) ((c.tc : Thread nD τ).loc b)) :
    (Pipeline.arrBufs spec2 c V : sProp 𝕄)
      = iprop((((c.tc : Thread nD τ).loc main_v0_1) ↦{fullShare} V main_v0_1) ∗ (((c.tc : Thread nD τ).loc main_v10) ↦{fullShare} V main_v10)
          ∗ (((c.tc : Thread nD τ).loc main_v5) ↦{fullShare} V main_v5) ∗ (((c.tc : Thread nD τ).loc main_arg3) ↦{fullShare} V main_arg3)
          ∗ (((c.tc : Thread nD τ).loc main_v11) ↦{fullShare} V main_v11)) := by
  unfold Pipeline.arrBufs
  rw [bigSep_eq_bigSepL_of_eq [main_v0_1, main_v10, main_v5, main_arg3, main_v11] (by decide) (by decide)]
  rfl

/-- ENTRY of region 2: the buffers behind the arrays, each whole, dealt to the windows — the feature array, read through
    windows 1 and 2, in two halves. -/
theorem arrays_of_arrBufs2 {c : Dev nD} (V : (b : Ref sig .tc) → Buf (Elt F) ((c.tc : Thread nD τ).loc b))
    (dat : Dat τ (Elt F) Unit ℕ (UR sig nD τ) ℕ cfg2 c)
    (hs0 : dat.share 0 = fullShare) (hs1 : dat.share 1 = fullShare.left) (hs2 : dat.share 2 = fullShare.right)
    (hs3 : dat.share 3 = fullShare) (hs4 : dat.share 4 = fullShare) (hs5 : dat.share 5 = fullShare)
    (G : (w : Fin cfg2.W) → Buf (Elt F) ((cfg2.win w).arr.view.loc (c.tc : Thread nD τ)))
    (hG : ∀ w, G w = V (Pipeline.arrRef spec2 w)) :
    (Pipeline.arrBufs spec2 c V : sProp 𝕄) ⊢ dat.arrays G := by
  rw [arrays_eq_share2 dat G, bigSep_W2, arrBufs2_eq, hs0, hs1, hs2, hs3, hs4, hs5, hG 0, hG 1, hG 2, hG 3, hG 4, hG 5]
  iintro ⟨H0, H1, H3, H4, H5⟩
  ihave H1' := (pointsTo_share (PosShare.mem_left_op_right fullShare)).1 $$ H1
  icases H1' with ⟨H1a, H1b⟩
  isplitl [H0]; · iexact H0
  isplitl [H1a]; · iexact H1a
  isplitl [H1b]; · iexact H1b
  isplitl [H3]; · iexact H3
  isplitl [H4]; · iexact H4
  iexact H5

/-- EXIT of region 2: the windows' arrays joined into the buffers behind them again. -/
theorem arrBufs_of_arrays2 {c : Dev nD} (V : (b : Ref sig .tc) → Buf (Elt F) ((c.tc : Thread nD τ).loc b))
    (dat : Dat τ (Elt F) Unit ℕ (UR sig nD τ) ℕ cfg2 c)
    (hs0 : dat.share 0 = fullShare) (hs1 : dat.share 1 = fullShare.left) (hs2 : dat.share 2 = fullShare.right)
    (hs3 : dat.share 3 = fullShare) (hs4 : dat.share 4 = fullShare) (hs5 : dat.share 5 = fullShare)
    (G : (w : Fin cfg2.W) → Buf (Elt F) ((cfg2.win w).arr.view.loc (c.tc : Thread nD τ)))
    (hG : ∀ w, G w = V (Pipeline.arrRef spec2 w)) :
    dat.arrays G ⊢ (Pipeline.arrBufs spec2 c V : sProp 𝕄) := by
  rw [arrays_eq_share2 dat G, bigSep_W2, arrBufs2_eq, hs0, hs1, hs2, hs3, hs4, hs5, hG 0, hG 1, hG 2, hG 3, hG 4, hG 5]
  iintro ⟨H0, H1a, H1b, H3, H4, H5⟩
  ihave H1 := (pointsTo_share (PosShare.mem_left_op_right fullShare)).2 $$ [H1a H1b]
  · isplitl [H1a]; · iexact H1a
    iexact H1b
  isplitl [H0]; · iexact H0
  isplitl [H1]; · iexact H1
  isplitl [H3]; · iexact H3
  isplitl [H4]; · iexact H4
  iexact H5

end Cert.KernelIdeal.Gen

end
-- ==== Proof.KI.Assembly.lean ====
/-
  The kernel program's run, assembled from its three regions.

  @main is: region 0 (row sums of the adjacency and its copy), nine host operations (d = 1/√(rowsum + 1), y = d·x),
  region 1 (first layer), two host operations (y₂ = d·h), region 2 (second layer and the log-softmax). Between two
  items a core holds every unscoped buffer whole; a region takes its windows' arrays out of them, runs its grid, and
  puts them back with each output array at what its write-backs leave. Regions 1 and 2 read the scaled features
  through two windows, so that array is dealt to the two windows in halves and joined again at the exit.
  The run ends with every unscoped buffer at the last contents: the arguments as launched, the result at what
  region 2's write-backs leave.
-/
import proofs.«152435_j1984274891532_2_alg».proof.Proof.Gen.KernelIdeal.Regions
import proofs.«152435_j1984274891532_2_alg».proof.Proof.KI.SharedArr
import Idealize.ShloMosaic.Lib.Pipeline.FrameSuffix
import Idealize.ShloMosaic.Lib.Pipeline.RegionsLoop

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Contents of a core's TensorCore buffers, by reference. -/
abbrev Cont (F : FTy → Type) [FloatOps F] : Type := (c : Dev nD) → (b : Ref sig .tc) → Buf (Elt F) ((c : Thread nD τ).loc b)

section Run

variable (dat0 : Cont F → (c : Dev nD) → Dat τ (Elt F) Unit ℕ (UR sig nD τ) ℕ cfg0 c)
  (dat1 : Cont F → (c : Dev nD) → Dat τ (Elt F) Unit ℕ (UR sig nD τ) ℕ cfg1 c)
  (dat2 : Cont F → (c : Dev nD) → Dat τ (Elt F) Unit ℕ (UR sig nD τ) ℕ cfg2 c)

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev C0 : Cont F := fun c b => W0 m ρ c b
/-- After region 0: its arrays at what the write-backs leave. -/
def W1 (c : Dev nD) : Valuation τ sig (Elt F) :=
  Pipeline.withArrays spec0 c (W0 m ρ c) fun w => (dat0 (C0 m ρ) c).arrAt w cfg0.N
/-- After the nine host operations. -/
abbrev W2 : Dev nD → Valuation τ sig (Elt F) := fun c => StableHlo.after hostOps1 (W1 dat0 m ρ c)
abbrev C2 : Cont F := fun c b => W2 dat0 m ρ c b
/-- After region 1: its one output array at what the write-backs leave. -/
def W3 (c : Dev nD) : Valuation τ sig (Elt F) :=
  Function.update (W2 dat0 m ρ c) (Proc.devRef .tc main_v8) ((dat1 (C2 dat0 m ρ) c).arrAt 5 cfg1.N)
/-- After the two host operations. -/
abbrev W4 : Dev nD → Valuation τ sig (Elt F) := fun c => StableHlo.after hostOps2 (W3 dat0 dat1 m ρ c)
abbrev C4 : Cont F := fun c b => W4 dat0 dat1 m ρ c b
/-- After region 2. -/
def W5 (c : Dev nD) : Valuation τ sig (Elt F) :=
  Function.update (W4 dat0 dat1 m ρ c) (Proc.devRef .tc main_v11) ((dat2 (C4 dat0 dat1 m ρ) c).arrAt 5 cfg2.N)

end Run

section Records

variable (dat0 : Cont F → (c : Dev nD) → Dat τ (Elt F) Unit ℕ (UR sig nD τ) ℕ cfg0 c)
  (dat1 : Cont F → (c : Dev nD) → Dat τ (Elt F) Unit ℕ (UR sig nD τ) ℕ cfg1 c)
  (dat2 : Cont F → (c : Dev nD) → Dat τ (Elt F) Unit ℕ (UR sig nD τ) ℕ cfg2 c)
  (A_eq0 : ∀ (V : Cont F) c w, (dat0 V c).A w = V c (Pipeline.arrRef spec0 w))
  (A_eq1 : ∀ (V : Cont F) c w, (dat1 V c).A w = V c (Pipeline.arrRef spec1 w))
  (A_eq2 : ∀ (V : Cont F) c w, (dat2 V c).A w = V c (Pipeline.arrRef spec2 w))
  (bo0 : ∀ (V : Cont F) c, BodyObligation (dat0 V c) (defs₀ (F := F)) Variants.none () Set.univ)
  (bo1 : ∀ (V : Cont F) c, BodyObligation (dat1 V c) (defs₀ (F := F)) Variants.none () Set.univ)
  (bo2 : ∀ (V : Cont F) c, BodyObligation (dat2 V c) (defs₀ (F := F)) Variants.none () Set.univ)
  (hin0 : ∀ (V : Cont F) c, Pipeline.ΦA spec0 c ⊢ (dat0 V c).Φ 0)
  (hin1 : ∀ (V : Cont F) c, Pipeline.ΦA spec1 c ⊢ (dat1 V c).Φ 0)
  (hin2 : ∀ (V : Cont F) c, Pipeline.ΦA spec2 c ⊢ (dat2 V c).Φ 0)
  (hout0 : ∀ (V : Cont F) c, (dat0 V c).Φ (Fin.last cfg0.N) ⊢ Pipeline.ΦA spec0 c)
  (hout1 : ∀ (V : Cont F) c, (dat1 V c).Φ (Fin.last cfg1.N) ⊢ Pipeline.ΦA spec1 c)
  (hout2 : ∀ (V : Cont F) c, (dat2 V c).Φ (Fin.last cfg2.N) ⊢ Pipeline.ΦA spec2 c)
  (hq0 : ∀ (V : Cont F) c w, (dat0 V c).q w = fullShare)
  (how0 : ∀ (V : Cont F) c t, (dat0 V c).owed t = 0)
  (how1 : ∀ (V : Cont F) c t, (dat1 V c).owed t = 0)
  (how2 : ∀ (V : Cont F) c t, (dat2 V c).owed t = 0)
  (hsh1 : ∀ (V : Cont F) c, (dat1 V c).share 0 = fullShare ∧ (dat1 V c).share 1 = fullShare.left ∧ (dat1 V c).share 2 = fullShare.right ∧ (dat1 V c).share 3 = fullShare ∧ (dat1 V c).share 4 = fullShare ∧ (dat1 V c).share 5 = fullShare)
  (hsh2 : ∀ (V : Cont F) c, (dat2 V c).share 0 = fullShare ∧ (dat2 V c).share 1 = fullShare.left ∧ (dat2 V c).share 2 = fullShare.right ∧ (dat2 V c).share 3 = fullShare ∧ (dat2 V c).share 4 = fullShare ∧ (dat2 V c).share 5 = fullShare)
  (hrec0 : ∀ (V : Cont F) c t, (dat0 V c).recorded t = Set.univ)
  (hrec1 : ∀ (V : Cont F) c t, (dat1 V c).recorded t = Set.univ)
  (hrec2 : ∀ (V : Cont F) c t, (dat2 V c).recorded t = Set.univ)

variable (m : (ℓ : Loc nD τ sig) → Buf (Elt F) ℓ) (ρ : Dev nD → PrngReg)

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (C0 m ρ) c
  | ⟨1, _⟩ => fun c => dat1 (C2 dat0 m ρ) c
  | ⟨2, _⟩ => fun c => dat2 (C4 dat0 dat1 m ρ) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem W1_arr (c : Dev nD) (w : Fin cfg0.W) :
    W1 dat0 m ρ c (Proc.devRef .tc (Pipeline.arrRef spec0 w)) = (dat0 (C0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 dat0 m ρ c (Proc.devRef .tc b) = W0 m ρ c (Proc.devRef .tc b) := by
  unfold W1; exact Pipeline.withArrays_of_ne spec0 c _ _ b hb

set_option backward.isDefEq.respectTransparency.types false in
/-- Region 0: its three arrays are distinct buffers, taken out of the unscoped buffers whole and put back at what the write-backs leave. -/
def reg0 : Pipeline.RegionSeg (pcfgs (F := F)) adm (pdats dat0 dat1 dat2 m ρ) () defs₀ 𝒱₀ L lv 0 where
  win := launch0.win.to₀
  block_pos := launch0.block_pos
  stage_whole := launch0.stage_whole
  K := PEmpty
  osem k := k.elim
  ho := Pipeline.OwnSemFacts.none _
  hbody c := (bo0 (C0 m ρ) c).loose
  hwaits := Pipeline.hwaits_of_owed_zero _ _ _ _ L lv 0 fun c t => how0 (C0 m ρ) c t
  pre c := iprop(StableHlo.held (c : Thread nD τ) (Pipeline.ucRefs τ sig) (W0 m ρ c) ∗ R c)
  post c := iprop(StableHlo.held (c : Thread nD τ) (Pipeline.ucRefs τ sig) (W1 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (C0 m ρ c)
  hentry c := by
    rw [Pipeline.ownSems0_none]
    have hsplit := Pipeline.arrays_of_unscopedBufs (p := 0) (pcfgs (F := F)) adm (pdats dat0 dat1 dat2 m ρ) launch0.win launch0.arr_whole c
      ((pdats dat0 dat1 dat2 m ρ 0 c).share_full fun w => hq0 (C0 m ρ) c w) (C0 m ρ c) fun w => A_eq0 (C0 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 m ρ 0 c).owed 0 = 0 from how0 (C0 m ρ) c 0]
      icases HO with ⟨%W, HO⟩; iexists W; isplitr; · ipureintro; exact fun _ _ => Or.inl (by rw [show (pdats dat0 dat1 dat2 m ρ 0 c).recorded 0 = Set.univ from hrec0 (C0 m ρ) c 0]; trivial)
      iexact HO
    isplitl [Hp]; · iexact Hp
    iexact Hrest
  hin c := by
    refine .trans ?_ (hin0 (C0 m ρ) c)
    unfold Pipeline.ΦA
    iintro ⟨Hp, -, Hr⟩
    isplitl [Hr]; · iexact Hr
    iexact Hp
  hout c := by
    refine (hout0 (C0 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 m ρ) ((pdats dat0 dat1 dat2 m ρ 0 c).share_full fun w => hq0 (C0 m ρ) c w)
      (C0 m ρ c) (fun b => W1 dat0 m ρ c b) ((pdats dat0 dat1 dat2 m ρ 0 c).arrAt · cfg0.N) (fun w => (W1_arr dat0 m ρ c w).symm)
      (fun b hb => W1_of_ne dat0 m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 0 c).owed (Fin.last _) = 0 from how0 (C0 m ρ) c _]
    icases HO with ⟨%W, -, HO⟩; iexists W; iexact HO

theorem W3_out (c : Dev nD) : W3 dat0 dat1 m ρ c (Proc.devRef .tc main_v8) = (dat1 (C2 dat0 m ρ) c).arrAt 5 cfg1.N := by
  unfold W3; exact Function.update_self ..
theorem W3_of_ne (c : Dev nD) (b : Ref sig .tc) (hb : b ≠ main_v8) : W3 dat0 dat1 m ρ c (Proc.devRef .tc b) = W2 dat0 m ρ c (Proc.devRef .tc b) := by
  unfold W3; exact Function.update_of_ne (StableHlo.devRef_ne_of_ne hb) _ _

include A_eq1 in
/-- At region 1's exit every window's array holds what the exit contents say: an input its entry contents, the output what the write-backs leave. -/
theorem hF1 (c : Dev nD) : ∀ w : Fin cfg1.W, (dat1 (C2 dat0 m ρ) c).arrAt w cfg1.N = W3 dat0 dat1 m ρ c (Proc.devRef .tc (Pipeline.arrRef spec1 w))
  | 0 => ((dat1 (C2 dat0 m ρ) c).arrAt_in 0 rfl _).trans ((A_eq1 (C2 dat0 m ρ) c 0).trans (W3_of_ne dat0 dat1 m ρ c _ (by decide)).symm)
  | 1 => ((dat1 (C2 dat0 m ρ) c).arrAt_in 1 rfl _).trans ((A_eq1 (C2 dat0 m ρ) c 1).trans (W3_of_ne dat0 dat1 m ρ c _ (by decide)).symm)
  | 2 => ((dat1 (C2 dat0 m ρ) c).arrAt_in 2 rfl _).trans ((A_eq1 (C2 dat0 m ρ) c 2).trans (W3_of_ne dat0 dat1 m ρ c _ (by decide)).symm)
  | 3 => ((dat1 (C2 dat0 m ρ) c).arrAt_in 3 rfl _).trans ((A_eq1 (C2 dat0 m ρ) c 3).trans (W3_of_ne dat0 dat1 m ρ c _ (by decide)).symm)
  | 4 => ((dat1 (C2 dat0 m ρ) c).arrAt_in 4 rfl _).trans ((A_eq1 (C2 dat0 m ρ) c 4).trans (W3_of_ne dat0 dat1 m ρ c _ (by decide)).symm)
  | 5 => (W3_out dat0 dat1 m ρ c).symm
  | ⟨_ + 6, h⟩ => absurd h (Nat.not_lt.2 (Nat.le_add_left _ _))

set_option backward.isDefEq.respectTransparency.types false in
/-- Region 1: five buffers behind six windows; the feature array dealt in halves at the entry and joined at the exit. -/
def reg1 : Pipeline.RegionSeg (pcfgs (F := F)) adm (pdats dat0 dat1 dat2 m ρ) () defs₀ 𝒱₀ L lv 1 where
  win := winFacts₀1
  block_pos := block_pos1
  stage_whole := stage_whole1
  K := PEmpty
  osem k := k.elim
  ho := Pipeline.OwnSemFacts.none _
  hbody c := (bo1 (C2 dat0 m ρ) c).loose
  hwaits := Pipeline.hwaits_of_owed_zero _ _ _ _ L lv 1 fun c t => how1 (C2 dat0 m ρ) c t
  pre c := iprop(StableHlo.held (c : Thread nD τ) (Pipeline.ucRefs τ sig) (W2 dat0 m ρ c) ∗ R c)
  post c := iprop(StableHlo.held (c : Thread nD τ) (Pipeline.ucRefs τ sig) (W3 dat0 dat1 m ρ c) ∗ R c)
  X c := iprop(∃ r, prngReg c r)
  Y c := iprop(∃ r, prngReg c r)
  Z c := Pipeline.unscopedRest (Ix := Unit) (Name := ℕ) (U := UR sig nD τ) (Lvl := ℕ) spec1 c (C2 dat0 m ρ c)
  hentry c := by
    rw [Pipeline.ownSems0_none]
    have hsplit : (unscopedBufs c (C2 dat0 m ρ c) : sProp 𝕄)
        ⊢ iprop((pdats dat0 dat1 dat2 m ρ 1 c).arrays ((pdats dat0 dat1 dat2 m ρ 1 c).arrAt · 0) ∗ Pipeline.unscopedRest spec1 c (C2 dat0 m ρ c)) := by
      rw [Pipeline.unscopedBufs_split₀ cfgs 1 winFacts₀1.arr_unscoped c (C2 dat0 m ρ c)]
      exact sep_mono (arrays_of_arrBufs1 (C2 dat0 m ρ c) (pdats dat0 dat1 dat2 m ρ 1 c) (hsh1 _ c).1 (hsh1 _ c).2.1 (hsh1 _ c).2.2.1 (hsh1 _ c).2.2.2.1
        (hsh1 _ c).2.2.2.2.1 (hsh1 _ c).2.2.2.2.2 _ fun w => A_eq1 (C2 dat0 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 m ρ 1 c).owed 0 = 0 from how1 (C2 dat0 m ρ) c 0]
      icases HO with ⟨%W, HO⟩; iexists W; isplitr; · ipureintro; exact fun _ _ => Or.inl (by rw [show (pdats dat0 dat1 dat2 m ρ 1 c).recorded 0 = Set.univ from hrec1 (C2 dat0 m ρ) c 0]; trivial)
      iexact HO
    isplitl [Hp]; · iexact Hp
    iexact Hrest
  hin c := by
    refine .trans ?_ (hin1 (C2 dat0 m ρ) c)
    unfold Pipeline.ΦA
    iintro ⟨Hp, -, Hr⟩
    isplitl [Hr]; · iexact Hr
    iexact Hp
  hout c := by
    refine (hout1 (C2 dat0 m ρ) c).trans ?_
    rw [Pipeline.ownSems0_none]; unfold Pipeline.ΦA
    iintro ⟨Hr, Hp⟩
    isplitl [Hp]; · iexact Hp
    isplitr; · iempintro
    iexact Hr
  hexit c := by
    have hjoin : iprop((pdats dat0 dat1 dat2 m ρ 1 c).arrays ((pdats dat0 dat1 dat2 m ρ 1 c).arrAt · cfg1.N) ∗ Pipeline.unscopedRest spec1 c (C2 dat0 m ρ c))
        ⊢ (unscopedBufs c (fun b => W3 dat0 dat1 m ρ c b) : sProp 𝕄) := by
      rw [Pipeline.unscopedBufs_split₀ cfgs 1 winFacts₀1.arr_unscoped c (fun b => W3 dat0 dat1 m ρ c b)]
      refine sep_mono (arrBufs_of_arrays1 (fun b => W3 dat0 dat1 m ρ c b) (pdats dat0 dat1 dat2 m ρ 1 c) (hsh1 _ c).1 (hsh1 _ c).2.1 (hsh1 _ c).2.2.1 (hsh1 _ c).2.2.2.1
        (hsh1 _ c).2.2.2.2.1 (hsh1 _ c).2.2.2.2.2 _ (hF1 dat0 dat1 A_eq1 m ρ c)) (Entails.of_eq ?_)
      unfold Pipeline.unscopedRest
      exact bigSep_congr fun b hb => by
        dsimp only
        rw [show W3 dat0 dat1 m ρ c (Proc.devRef .tc b) = W2 dat0 m ρ c (Proc.devRef .tc b) from W3_of_ne dat0 dat1 m ρ c b
          fun e => (Finset.mem_sdiff.mp hb).2 (Finset.mem_image.mpr ⟨5, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 1 c).owed (Fin.last _) = 0 from how1 (C2 dat0 m ρ) c _]
    icases HO with ⟨%W, -, HO⟩; iexists W; iexact HO

theorem W5_out (c : Dev nD) : W5 dat0 dat1 dat2 m ρ c (Proc.devRef .tc main_v11) = (dat2 (C4 dat0 dat1 m ρ) c).arrAt 5 cfg2.N := by
  unfold W5; exact Function.update_self ..
theorem W5_of_ne (c : Dev nD) (b : Ref sig .tc) (hb : b ≠ main_v11) : W5 dat0 dat1 dat2 m ρ c (Proc.devRef .tc b) = W4 dat0 dat1 m ρ c (Proc.devRef .tc b) := by
  unfold W5; exact Function.update_of_ne (StableHlo.devRef_ne_of_ne hb) _ _

include A_eq2 in
/-- At region 2's exit every window's array holds what the exit contents say: an input its entry contents, the output what the write-backs leave. -/
theorem hF2 (c : Dev nD) : ∀ w : Fin cfg2.W, (dat2 (C4 dat0 dat1 m ρ) c).arrAt w cfg2.N = W5 dat0 dat1 dat2 m ρ c (Proc.devRef .tc (Pipeline.arrRef spec2 w))
  | 0 => ((dat2 (C4 dat0 dat1 m ρ) c).arrAt_in 0 rfl _).trans ((A_eq2 (C4 dat0 dat1 m ρ) c 0).trans (W5_of_ne dat0 dat1 dat2 m ρ c _ (by decide)).symm)
  | 1 => ((dat2 (C4 dat0 dat1 m ρ) c).arrAt_in 1 rfl _).trans ((A_eq2 (C4 dat0 dat1 m ρ) c 1).trans (W5_of_ne dat0 dat1 dat2 m ρ c _ (by decide)).symm)
  | 2 => ((dat2 (C4 dat0 dat1 m ρ) c).arrAt_in 2 rfl _).trans ((A_eq2 (C4 dat0 dat1 m ρ) c 2).trans (W5_of_ne dat0 dat1 dat2 m ρ c _ (by decide)).symm)
  | 3 => ((dat2 (C4 dat0 dat1 m ρ) c).arrAt_in 3 rfl _).trans ((A_eq2 (C4 dat0 dat1 m ρ) c 3).trans (W5_of_ne dat0 dat1 dat2 m ρ c _ (by decide)).symm)
  | 4 => ((dat2 (C4 dat0 dat1 m ρ) c).arrAt_in 4 rfl _).trans ((A_eq2 (C4 dat0 dat1 m ρ) c 4).trans (W5_of_ne dat0 dat1 dat2 m ρ c _ (by decide)).symm)
  | 5 => (W5_out dat0 dat1 dat2 m ρ c).symm
  | ⟨_ + 6, h⟩ => absurd h (Nat.not_lt.2 (Nat.le_add_left _ _))

set_option backward.isDefEq.respectTransparency.types false in
/-- Region 2: five buffers behind six windows; the feature array dealt in halves at the entry and joined at the exit. -/
def reg2 : Pipeline.RegionSeg (pcfgs (F := F)) adm (pdats dat0 dat1 dat2 m ρ) () defs₀ 𝒱₀ L lv 2 where
  win := winFacts₀2
  block_pos := block_pos2
  stage_whole := stage_whole2
  K := PEmpty
  osem k := k.elim
  ho := Pipeline.OwnSemFacts.none _
  hbody c := (bo2 (C4 dat0 dat1 m ρ) c).loose
  hwaits := Pipeline.hwaits_of_owed_zero _ _ _ _ L lv 2 fun c t => how2 (C4 dat0 dat1 m ρ) c t
  pre c := iprop(StableHlo.held (c : Thread nD τ) (Pipeline.ucRefs τ sig) (W4 dat0 dat1 m ρ c) ∗ R c)
  post c := iprop(StableHlo.held (c : Thread nD τ) (Pipeline.ucRefs τ sig) (W5 dat0 dat1 dat2 m ρ c) ∗ R c)
  X c := iprop(∃ r, prngReg c r)
  Y c := iprop(∃ r, prngReg c r)
  Z c := Pipeline.unscopedRest (Ix := Unit) (Name := ℕ) (U := UR sig nD τ) (Lvl := ℕ) spec2 c (C4 dat0 dat1 m ρ c)
  hentry c := by
    rw [Pipeline.ownSems0_none]
    have hsplit : (unscopedBufs c (C4 dat0 dat1 m ρ c) : sProp 𝕄)
        ⊢ iprop((pdats dat0 dat1 dat2 m ρ 2 c).arrays ((pdats dat0 dat1 dat2 m ρ 2 c).arrAt · 0) ∗ Pipeline.unscopedRest spec2 c (C4 dat0 dat1 m ρ c)) := by
      rw [Pipeline.unscopedBufs_split₀ cfgs 2 winFacts₀2.arr_unscoped c (C4 dat0 dat1 m ρ c)]
      exact sep_mono (arrays_of_arrBufs2 (C4 dat0 dat1 m ρ c) (pdats dat0 dat1 dat2 m ρ 2 c) (hsh2 _ c).1 (hsh2 _ c).2.1 (hsh2 _ c).2.2.1 (hsh2 _ c).2.2.2.1
        (hsh2 _ c).2.2.2.2.1 (hsh2 _ c).2.2.2.2.2 _ fun w => A_eq2 (C4 dat0 dat1 m ρ) c w) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats dat0 dat1 dat2 m ρ 2 c).owed 0 = 0 from how2 (C4 dat0 dat1 m ρ) c 0]
      icases HO with ⟨%W, HO⟩; iexists W; isplitr; · ipureintro; exact fun _ _ => Or.inl (by rw [show (pdats dat0 dat1 dat2 m ρ 2 c).recorded 0 = Set.univ from hrec2 (C4 dat0 dat1 m ρ) c 0]; trivial)
      iexact HO
    isplitl [Hp]; · iexact Hp
    iexact Hrest
  hin c := by
    refine .trans ?_ (hin2 (C4 dat0 dat1 m ρ) c)
    unfold Pipeline.ΦA
    iintro ⟨Hp, -, Hr⟩
    isplitl [Hr]; · iexact Hr
    iexact Hp
  hout c := by
    refine (hout2 (C4 dat0 dat1 m ρ) c).trans ?_
    rw [Pipeline.ownSems0_none]; unfold Pipeline.ΦA
    iintro ⟨Hr, Hp⟩
    isplitl [Hp]; · iexact Hp
    isplitr; · iempintro
    iexact Hr
  hexit c := by
    have hjoin : iprop((pdats dat0 dat1 dat2 m ρ 2 c).arrays ((pdats dat0 dat1 dat2 m ρ 2 c).arrAt · cfg2.N) ∗ Pipeline.unscopedRest spec2 c (C4 dat0 dat1 m ρ c))
        ⊢ (unscopedBufs c (fun b => W5 dat0 dat1 dat2 m ρ c b) : sProp 𝕄) := by
      rw [Pipeline.unscopedBufs_split₀ cfgs 2 winFacts₀2.arr_unscoped c (fun b => W5 dat0 dat1 dat2 m ρ c b)]
      refine sep_mono (arrBufs_of_arrays2 (fun b => W5 dat0 dat1 dat2 m ρ c b) (pdats dat0 dat1 dat2 m ρ 2 c) (hsh2 _ c).1 (hsh2 _ c).2.1 (hsh2 _ c).2.2.1 (hsh2 _ c).2.2.2.1
        (hsh2 _ c).2.2.2.2.1 (hsh2 _ c).2.2.2.2.2 _ (hF2 dat0 dat1 dat2 A_eq2 m ρ c)) (Entails.of_eq ?_)
      unfold Pipeline.unscopedRest
      exact bigSep_congr fun b hb => by
        dsimp only
        rw [show W5 dat0 dat1 dat2 m ρ c (Proc.devRef .tc b) = W4 dat0 dat1 m ρ c (Proc.devRef .tc b) from W5_of_ne dat0 dat1 dat2 m ρ c b
          fun e => (Finset.mem_sdiff.mp hb).2 (Finset.mem_image.mpr ⟨5, Finset.mem_univ _, e.symm⟩)]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats dat0 dat1 dat2 m ρ 2 c).owed (Fin.last _) = 0 from how2 (C4 dat0 dat1 m ρ) c _]
    icases HO with ⟨%W, -, HO⟩; iexists W; iexact HO

/-- The last thread state: every unscoped buffer at the last contents, the generator register at some state. -/
abbrev Tₙ (c : Dev nD) : sProp 𝕄 := iprop(StableHlo.held (c : Thread nD τ) (Pipeline.ucRefs τ sig) (W5 dat0 dat1 dat2 m ρ c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's items as segments. -/
abbrev ksegs : List (Pipeline.Seg (pcfgs (F := F)) adm (pdats dat0 dat1 dat2 m ρ) () defs₀ 𝒱₀ L lv) :=
  [ .region (reg0 dat0 dat1 dat2 A_eq0 bo0 hin0 hout0 hq0 how0 hrec0 m ρ),
    .host (hseg hostOps1 hostOps1_sub hostOps1_fresh (W1 dat0 m ρ)),
    .region (reg1 dat0 dat1 dat2 A_eq1 bo1 hin1 hout1 how1 hsh1 hrec1 m ρ),
    .host (hseg hostOps2 hostOps2_sub hostOps2_fresh (W3 dat0 dat1 m ρ)),
    .region (reg2 dat0 dat1 dat2 A_eq2 bo2 hin2 hout2 how2 hsh2 hrec2 m ρ) ]

theorem kmain_run (c : Dev nD) : main (F := F) c = Pipeline.Seg.run (ksegs dat0 dat1 dat2 A_eq0 A_eq1 A_eq2 bo0 bo1 bo2 hin0 hin1 hin2 hout0 hout1 hout2 hq0 how0 how1 how2 hsh1 hsh2 hrec0 hrec1 hrec2 m ρ) := (main_chain c).trans (by chain_rfl)

/-- A buffer region 0 does not stage and the host operations do not write is at the end what it was at launch. -/
theorem W5_keep (c : Dev nD) (b : Ref sig .tc) (h0 : ∀ w, Pipeline.arrRef spec0 w ≠ b) (h1 : b ∉ hostOps1_W) (h2 : b ≠ main_v8) (h3 : b ∉ hostOps2_W) (h4 : b ≠ main_v11) :
    W5 dat0 dat1 dat2 m ρ c (Proc.devRef .tc b) = m ((c : Thread nD τ).loc b) :=
  calc W5 dat0 dat1 dat2 m ρ c (Proc.devRef .tc b)
    _ = W4 dat0 dat1 m ρ c (Proc.devRef .tc b) := W5_of_ne dat0 dat1 dat2 m ρ c b h4
    _ = W3 dat0 dat1 m ρ c (Proc.devRef .tc b) := StableHlo.after_of_writes_sub hostOps2 _ hostOps2_writes h3
    _ = W2 dat0 m ρ c (Proc.devRef .tc b) := W3_of_ne dat0 dat1 m ρ c b h2
    _ = W1 dat0 m ρ c (Proc.devRef .tc b) := StableHlo.after_of_writes_sub hostOps1 _ hostOps1_writes h1
    _ = W0 m ρ c (Proc.devRef .tc b) := W1_of_ne dat0 m ρ c b h0
    _ = m ((c : Thread nD τ).loc b) := rfl

include A_eq0 in
/-- The adjacency argument is region 0's input window: staged, never written back. -/
theorem W5_arg1 (c : Dev nD) : W5 dat0 dat1 dat2 m ρ c (Proc.devRef .tc main_arg1) = m ((c : Thread nD τ).loc main_arg1) :=
  calc W5 dat0 dat1 dat2 m ρ c (Proc.devRef .tc main_arg1)
    _ = W4 dat0 dat1 m ρ c (Proc.devRef .tc main_arg1) := W5_of_ne dat0 dat1 dat2 m ρ c main_arg1 (by decide)
    _ = W3 dat0 dat1 m ρ c (Proc.devRef .tc main_arg1) := StableHlo.after_of_writes_sub hostOps2 _ hostOps2_writes (by decide)
    _ = W2 dat0 m ρ c (Proc.devRef .tc main_arg1) := W3_of_ne dat0 dat1 m ρ c main_arg1 (by decide)
    _ = W1 dat0 m ρ c (Proc.devRef .tc main_arg1) := StableHlo.after_of_writes_sub hostOps1 _ hostOps1_writes (by decide)
    _ = m ((c : Thread nD τ).loc main_arg1) := (W1_arr dat0 m ρ c 0).trans (((dat0 (C0 m ρ) c).arrAt_in 0 rfl _).trans (A_eq0 (C0 m ρ) c 0))

include A_eq0 A_eq1 A_eq2 bo0 bo1 bo2 hin0 hin1 hin2 hout0 hout1 hout2 hq0 how0 how1 how2 hsh1 hsh2 hrec0 hrec1 hrec2 in
set_option backward.isDefEq.respectTransparency.types false in
/-- THE RUN of the kernel program: every weakly fair execution terminates, nothing faulting; the result array ends at what
    region 2's write-backs leave and the four arguments end as launched. -/
theorem run_main : θ_run defs (onTc (τ := τ) (main (F := F))) ⟨m, fun _ => 0, ρ⟩ (fun r => ∀ c : Dev nD,
      r.2.mem ((c.tc : Thread nD τ).loc main_v11) = (dat2 (C4 dat0 dat1 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats dat0 dat1 dat2 m ρ) () cellOf_inj emb₁ defs₀ 𝒱₀ L lv m ρ main (ksegs dat0 dat1 dat2 A_eq0 A_eq1 A_eq2 bo0 bo1 bo2 hin0 hin1 hin2 hout0 hout1 hout2 hq0 how0 how1 how2 hsh1 hsh2 hrec0 hrec1 hrec2 m ρ)
    (fun c Q => by rw [kmain_run dat0 dat1 dat2 A_eq0 A_eq1 A_eq2 bo0 bo1 bo2 hin0 hin1 hin2 hout0 hout1 hout2 hq0 how0 how1 how2 hsh1 hsh2 hrec0 hrec1 hrec2 m ρ c])
    (by simp only [ksegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 dat1 dat2 m ρ)
    (hch := ⟨fun _ => .rfl, fun _ => .rfl, fun _ => .rfl, fun _ => .rfl, fun _ => .rfl, fun c => by
      show (iprop(StableHlo.held (c : Thread nD τ) (Pipeline.ucRefs τ sig) (W5 dat0 dat1 dat2 m ρ c) ∗ R c) : sProp 𝕄)
        ⊢ iprop(Tₙ dat0 dat1 dat2 m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 dat2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 dat2 m ρ c) s')
      isplitl [Hh] <;> iassumption)
    (hQ := fun s h c =>
      ⟨(h c _ (mem_uc main_v11 (by decide))).trans (W5_out dat0 dat1 dat2 m ρ c),
       (h c _ (mem_uc main_arg0 (by decide))).trans (W5_keep dat0 dat1 dat2 m ρ c main_arg0 (by decide) (by decide) (by decide) (by decide) (by decide)),
       (h c _ (mem_uc main_arg1 (by decide))).trans (W5_arg1 dat0 dat1 dat2 A_eq0 m ρ c),
       (h c _ (mem_uc main_arg2 (by decide))).trans (W5_keep dat0 dat1 dat2 m ρ c main_arg2 (by decide) (by decide) (by decide) (by decide) (by decide)),
       (h c _ (mem_uc main_arg3 (by decide))).trans (W5_keep dat0 dat1 dat2 m ρ c main_arg3 (by decide) (by decide) (by decide) (by decide) (by decide))⟩)

end Records

end Cert.KernelIdeal.Gen

end
-- ==== Proof.KI.R0Runs.lean ====
/- Region 0 (the row-sum and cast call): what its three control cases share — the blocks of its windows
   read off the contents the region is entered with, the two branch conditions in closed form over the
   8×8 grid (the reduction axis is the last one), where the row-sum output window is idle, and the
   staging and scratch memrefs the body is run on. -/
import proofs.«152435_j1984274891532_2_alg».proof.Proof.Gen.KernelIdeal.Launch
import proofs.«152435_j1984274891532_2_alg».proof.Proof.Gen.KernelIdeal.Skeleton
import proofs.«152435_j1984274891532_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose
    array is `V`'s and whose body leaves the block in place: the window is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the first conditional (the reduction index is 0), from the grid coordinates. -/
abbrev cond0_0 (i : grid0.Coords) : Prop := (Scalar.cmpi .ne (Scalar.extui (Scalar.cmpi .eq (BitVec.ofNat 32 (i 1).val) 0#32)) 0#32) = 1#1
/-- It holds exactly at the points whose reduction index is 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the second conditional (the reduction index is the last, 7). -/
abbrev cond0_1 (i : grid0.Coords) : Prop := k0_cond2 i = 1#1
/-- It holds exactly at the points whose reduction index is 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Window 0 (the input) is never idle. -/
theorem liveAt0_0 : ∀ t : Fin cfg0.N, cfg0.idle 0 (grid0.coords t) = false := by decide +kernel
/-- Window 2 (the cast copy) is never idle: it is stored at every point. -/
theorem liveAt0_2 : ∀ t : Fin cfg0.N, cfg0.idle 2 (grid0.coords t) = false := by decide +kernel
/-- Away from the last reduction index the row-sum window is idle: nothing is stored into it. -/
theorem idleAt0_1 : ∀ t : Fin cfg0.N, ¬cond0_1 (grid0.coords t) → cfg0.idle 1 (grid0.coords t) = true := by decide +kernel
/-- and it is not written back there. -/
theorem noFlush0_1 : ∀ t : Fin cfg0.N, ¬cond0_1 (grid0.coords t) → (cfg0.win 1).flush t = false := by decide +kernel
/-- At the last reduction index the row-sum window is live. -/
theorem liveAt0_1_C : ∀ t : Fin cfg0.N, cond0_1 (grid0.coords t) → cfg0.idle 1 (grid0.coords t) = false := by decide +kernel

/-! ## The memrefs the body runs on -/

/-- One staging buffer of each output window, through which its contents are stated. -/
abbrev VO0_1 : View sig .tc .vmem S1024x1 .f32 := (Memref.whole cc0_stg1_0 : Memref sig .tc .vmem S1024x1 .f32).view
abbrev VO0_2 : View sig .tc .vmem S1024x1024 .bf16 := (Memref.whole cc0_stg2_0 : Memref sig .tc .vmem S1024x1024 .bf16).view
/-- Each window's current staging memref at point `t`, as the pipeline passes it, and its wholeness. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
/-- The scratch operand: a whole scoped buffer of the call's own, carried between grid points. -/
abbrev scM0_0 : Memref sig .tc .vmem S1024x1 .f32 := Memref.whole cc0_scratch0
/-- The scratch as a view: what it holds is stated through it. -/
abbrev VS0_0 : View sig .tc .vmem S1024x1 .f32 := scM0_0.view

/-- The region invariant with the scratch as a memref owned at some contents, the other scoped buffers
    unopened, and the generator register at some state. -/
theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Gen

end
-- ==== Proof.KI.R0RunA.lean ====
/- Region 0, the body's run at a point whose reduction index is 0: the scratch is filled with zeros, the
   block's row sums are added into it, the cast copy is stored; nothing is stored into the row-sum window. -/
import proofs.«152435_j1984274891532_2_alg».proof.Proof.KI.R0Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the cast window's staging memref and in the scratch, as pieces (last
    first), at a point whose reduction index is 0, with the proof that on whole memrefs — the input at its
    block, the row-sum window at contents handed back untouched, the cast window at anything, the scratch
    at any contents — the body runs to the continuation holding them so. The pieces do not depend on what
    the scratch held: it is overwritten before it is read. -/
noncomputable def kernelRun0_A (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i)
    (x0 : Vec F S1024x1024 .f32) :
    Σ' (L2 : List (View.Piece (Elt F) S1024x1024 .bf16)), { LS0 : List (View.Piece (Elt F) S1024x1 .f32) //
      ∀ (xi1 : Vec F S1024x1 .f32) (xs0 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread xs0) LS0)) -∗ K ⟨⟩))
          ⊢ wp frame (wpE (defs₀ (F := F)) Variants.none c none) E (cc0__rowsum_cast_kernel i arg2 harg2 arg3 harg3 arg4 harg4 arg5 harg5) K } := by
  refine ⟨?_, ?_, fun xi1 xs0 E K => ?run⟩
  case run =>
    simp only [cc0__rowsum_cast_kernel_eq_skeleton]; unfold cc0__rowsum_cast_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexact HS0

end Cert.KernelIdeal.Gen

end
-- ==== Proof.KI.R0RunB.lean ====
/- Region 0, the body's run at a point whose reduction index is neither 0 nor 7: the block's row sums are
   added into the scratch as the point before left it, the cast copy is stored; nothing is stored into the
   row-sum window. -/
import proofs.«152435_j1984274891532_2_alg».proof.Proof.KI.R0RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the cast window's staging memref and in the scratch, as pieces (last
    first), at a point strictly inside the reduction, with the proof that on whole memrefs — the input at
    its block, the row-sum window at contents handed back untouched, the cast window at anything, the
    scratch at the contents `xs0` the point before left — the body runs to the continuation holding them
    so. The scratch is read before it is stored, so its pieces are over `xs0`. -/
noncomputable def kernelRun0_B (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i)
    (x0 : Vec F S1024x1024 .f32) (xs0 : Vec F S1024x1 .f32) :
    Σ' (L2 : List (View.Piece (Elt F) S1024x1024 .bf16)), { LS0 : List (View.Piece (Elt F) S1024x1 .f32) //
      ∀ (xi1 : Vec F S1024x1 .f32) (E : Set ℕ) (K : PUnit → sProp 𝕄),
        iprop(owns (c : Thread nD τ) arg2 fullShare x0 ∗ owns (c : Thread nD τ) arg3 fullShare xi1 ∗ (∃ d, owns (c : Thread nD τ) arg4 fullShare d) ∗ owns (c : Thread nD τ) arg5 fullShare xs0
            ∗ (iprop(owns (c : Thread nD τ) arg2 fullShare x0 ∗ owns (c : Thread nD τ) arg3 fullShare xi1 ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread xs0) LS0)) -∗ K ⟨⟩))
          ⊢ wp frame (wpE (defs₀ (F := F)) Variants.none c none) E (cc0__rowsum_cast_kernel i arg2 harg2 arg3 harg3 arg4 harg4 arg5 harg5) K } := by
  refine ⟨?_, ?_, fun xi1 E K => ?run⟩
  case run =>
    simp only [cc0__rowsum_cast_kernel_eq_skeleton]; unfold cc0__rowsum_cast_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexact HS0

end Cert.KernelIdeal.Gen

end
-- ==== Proof.KI.R0RunC.lean ====
/- Region 0, the body's run at a point whose reduction index is 7 (the last): the block's row sums are
   added into the scratch as the point before left it, the cast copy is stored, and the scratch — now the
   whole row sums — is copied into the row-sum window. -/
import proofs.«152435_j1984274891532_2_alg».proof.Proof.KI.R0RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the row-sum window's and the cast window's staging memrefs and in the
    scratch, as pieces (last first), at a point that ends the reduction, with the proof that on whole
    memrefs — the input at its block, both output windows at anything, the scratch at the contents `xs0`
    the point before left — the body runs to the continuation holding them so. -/
noncomputable def kernelRun0_C (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i)
    (x0 : Vec F S1024x1024 .f32) (xs0 : Vec F S1024x1 .f32) :
    Σ' (L1 : List (View.Piece (Elt F) S1024x1 .f32)) (L2 : List (View.Piece (Elt F) S1024x1024 .bf16)), { LS0 : List (View.Piece (Elt F) S1024x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d) ∗ owns (c : Thread nD τ) arg5 fullShare xs0
            ∗ (iprop(owns (c : Thread nD τ) arg2 fullShare x0 ∗ (∃ f, arg3.view.loc (c : Thread nD τ) ↦[arg3.view.set]{fullShare} arg3.view.writes (Elt F) f L1) ∗ (∃ f, arg4.view.loc (c : Thread nD τ) ↦[arg4.view.set]{fullShare} arg4.view.writes (Elt F) f L2) ∗ (arg5.view.loc (c : Thread nD τ) ↦[arg5.view.set]{fullShare} arg5.view.writes (Elt F) (harg5.unread xs0) LS0)) -∗ K ⟨⟩))
          ⊢ wp frame (wpE (defs₀ (F := F)) Variants.none c none) E (cc0__rowsum_cast_kernel i arg2 harg2 arg3 harg3 arg4 harg4 arg5 harg5) K } := by
  refine ⟨?_, ?_, ?_, fun E K => ?run⟩
  case run =>
    simp only [cc0__rowsum_cast_kernel_eq_skeleton]; unfold cc0__rowsum_cast_kernel_skel
    unfold owns
    iintro ⟨⟨%f0, %hf0, H0⟩, ⟨%d1, %f1, -, H1⟩, ⟨%d2, %f2, -, H2⟩, ⟨%fs0, %hfs0, HS0⟩, Hk⟩
    obtain rfl := harg2.eq_unread hf0; obtain rfl := harg5.eq_unread hfs0
    sl_exec (disch := first | exact hc0 | exact hc1)
    sl_step
    iapply Hk
    isplitl [H0]
    · iexists _; isplitr; · ipureintro; exact harg2.read_unread _
      iexact H0
    isplitl [H1]; · iexists _; iexact H1
    isplitl [H2]; · iexists _; iexact H2
    iexact HS0

end Cert.KernelIdeal.Gen

end
-- ==== Proof.KI.R0Data.lean ====
/- Region 0 (the row-sum and cast call): what each control case leaves in the output windows and in the
   carried scratch, the accumulation of these over the 64 grid points, the proof data of the call's
   pipeline over ANY contents `V` the region is entered with, and its body obligation. -/
import proofs.«152435_j1984274891532_2_alg».proof.Proof.KI.R0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At reduction index 0 the one store into the cast window covers its block. -/
theorem cover0_A_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) (y : S1024x1024.Idx) :
    ∃ pc ∈ (kernelRun0_A c i arg2 harg2 arg3 harg3 arg4 harg4 arg5 harg5 hc0 hc1 x0).1, y ∈ pc.1.set :=
  View.cover_of_tiledL (kernelRun0_A c i arg2 harg2 arg3 harg3 arg4 harg4 arg5 harg5 hc0 hc1 x0).1 S1024x1024.size (by sl_kernel_rfl) y

/-- and the stores into the scratch cover it: what it held before does not matter. -/
theorem scover0_A_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) (y : S1024x1.Idx) :
    ∃ pc ∈ (kernelRun0_A c i arg2 harg2 arg3 harg3 arg4 harg4 arg5 harg5 hc0 hc1 x0).2.1, y ∈ pc.1.set :=
  View.cover_of_tiledL (kernelRun0_A c i arg2 harg2 arg3 harg3 arg4 harg4 arg5 harg5 hc0 hc1 x0).2.1 S1024x1.size (by sl_kernel_rfl) y

/-- What the point leaves in the cast window's staging buffer: its pieces read back over junk. -/
def out0_A_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) : Vec F S1024x1024 .bf16 :=
  VO0_2.read (Elt F) (VO0_2.writes (Elt F) VO0_2.junk (kernelRun0_A c i arg2 harg2 arg3 harg3 arg4 harg4 arg5 harg5 hc0 hc1 x0).1)

/-- What the point leaves in the scratch: its pieces read back over the contents it was handed. -/
def sout0_A_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) (xs0 : Vec F S1024x1 .f32) : Vec F S1024x1 .f32 :=
  arg5.view.read (Elt F) (arg5.view.writes (Elt F) (harg5.unread xs0) (kernelRun0_A c i arg2 harg2 arg3 harg3 arg4 harg4 arg5 harg5 hc0 hc1 x0).2.1)

/-- At reduction index 0 the scratch is left the same whatever it held. -/
theorem sout0_A_0_indep (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) (xs xs' : Vec F S1024x1 .f32) :
    sout0_A_0 c i arg2 harg2 arg3 harg3 arg4 harg4 arg5 harg5 hc0 hc1 x0 xs = sout0_A_0 c i arg2 harg2 arg3 harg3 arg4 harg4 arg5 harg5 hc0 hc1 x0 xs' := by
  unfold sout0_A_0; exact View.read_writes_of_cover _ _ _ _ _ (scover0_A_0 c i arg2 harg2 arg3 harg3 arg4 harg4 arg5 harg5 hc0 hc1 x0)

/-- Strictly inside the reduction the one store into the cast window covers its block. -/
theorem cover0_B_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i) (x0 : Vec F S1024x1024 .f32) (xs0 : Vec F S1024x1 .f32) (y : S1024x1024.Idx) :
    ∃ pc ∈ (kernelRun0_B c i arg2 harg2 arg3 harg3 arg4 harg4 arg5 harg5 hc0 hc1 x0 xs0).1, y ∈ pc.1.set :=
  View.cover_of_tiledL (kernelRun0_B c i arg2 harg2 arg3 harg3 arg4 harg4 arg5 harg5 hc0 hc1 x0 xs0).1 S1024x1024.size (by sl_kernel_rfl) y

def out0_B_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i) (x0 : Vec F S1024x1024 .f32) (xs0 : Vec F S1024x1 .f32) : Vec F S1024x1024 .bf16 :=
  VO0_2.read (Elt F) (VO0_2.writes (Elt F) VO0_2.junk (kernelRun0_B c i arg2 harg2 arg3 harg3 arg4 harg4 arg5 harg5 hc0 hc1 x0 xs0).1)

def sout0_B_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i) (x0 : Vec F S1024x1024 .f32) (xs0 : Vec F S1024x1 .f32) : Vec F S1024x1 .f32 :=
  arg5.view.read (Elt F) (arg5.view.writes (Elt F) (harg5.unread xs0) (kernelRun0_B c i arg2 harg2 arg3 harg3 arg4 harg4 arg5 harg5 hc0 hc1 x0 xs0).2.1)

/-- At reduction index 7 the store into the row-sum window covers its block, -/
theorem cover0_C_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) (y : S1024x1.Idx) :
    ∃ pc ∈ (kernelRun0_C c i arg2 harg2 arg3 harg3 arg4 harg4 arg5 harg5 hc0 hc1 x0 xs0).1, y ∈ pc.1.set :=
  View.cover_of_tiledL (kernelRun0_C c i arg2 harg2 arg3 harg3 arg4 harg4 arg5 harg5 hc0 hc1 x0 xs0).1 S1024x1.size (by sl_kernel_rfl) y

/-- and the store into the cast window covers its block. -/
theorem cover0_C_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) (y : S1024x1024.Idx) :
    ∃ pc ∈ (kernelRun0_C c i arg2 harg2 arg3 harg3 arg4 harg4 arg5 harg5 hc0 hc1 x0 xs0).2.1, y ∈ pc.1.set :=
  View.cover_of_tiledL (kernelRun0_C c i arg2 harg2 arg3 harg3 arg4 harg4 arg5 harg5 hc0 hc1 x0 xs0).2.1 S1024x1024.size (by sl_kernel_rfl) y

def out0_C_1 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) : Vec F S1024x1 .f32 :=
  VO0_1.read (Elt F) (VO0_1.writes (Elt F) VO0_1.junk (kernelRun0_C c i arg2 harg2 arg3 harg3 arg4 harg4 arg5 harg5 hc0 hc1 x0 xs0).1)

def out0_C_2 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) : Vec F S1024x1024 .bf16 :=
  VO0_2.read (Elt F) (VO0_2.writes (Elt F) VO0_2.junk (kernelRun0_C c i arg2 harg2 arg3 harg3 arg4 harg4 arg5 harg5 hc0 hc1 x0 xs0).2.1)

def sout0_C_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) : Vec F S1024x1 .f32 :=
  arg5.view.read (Elt F) (arg5.view.writes (Elt F) (harg5.unread xs0) (kernelRun0_C c i arg2 harg2 arg3 harg3 arg4 harg4 arg5 harg5 hc0 hc1 x0 xs0).2.2.1)

/-! ## The conditions from the closed forms -/

theorem ncond0_0 (t : Fin cfg0.N) (h : ¬t.val % 8 = 0) : ¬cond0_0 (grid0.coords t) := fun hc => h ((hcond0_0 t).mp hc)
theorem ncond0_1 (t : Fin cfg0.N) (h : ¬t.val % 8 = 7) : ¬cond0_1 (grid0.coords t) := fun hc => h ((hcond0_1 t).mp hc)
theorem ncond0_1_of0 (t : Fin cfg0.N) (h : t.val % 8 = 0) : ¬cond0_1 (grid0.coords t) := fun hc => by
  have := (hcond0_1 t).mp hc; omega

/-! ## What the outputs and the scratch hold after each point -/

/-- The body's effect at point `t` with the scratch found at `xs`: what it leaves in the row-sum window's
    staging buffer (a placeholder nothing consults where the window is idle), in the cast window's, and in
    the scratch — the case the closed forms select at `t`. -/
def step0 (c : Dev nD) (t : Fin cfg0.N) (xs : Vec F S1024x1 .f32) : Vec F S1024x1 .f32 × Vec F S1024x1024 .bf16 × Vec F S1024x1 .f32 :=
  if h0 : t.val % 8 = 0 then
    (VO0_1.read (Elt F) VO0_1.junk,
     out0_A_2 c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t),
     sout0_A_0 c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t) xs)
  else if h1 : t.val % 8 = 7 then
    (out0_C_1 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs,
     out0_C_2 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs,
     sout0_C_0 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs)
  else
    (VO0_1.read (Elt F) VO0_1.junk,
     out0_B_2 c (grid0.coords t) (ms0_0 t) (hs0_0 t) (ms0_1 t) (hs0_1 t) (ms0_2 t) (hs0_2 t) scM0_0 (Memref.isWhole_whole _) (ncond0_0 t h0) (ncond0_1 t h1) (iblk0 V c 0 t) xs,
     sout0_B_0 c (grid0.coords t) (ms0_0 t) (hs0_0 t) (ms0_1 t) (hs0_1 t) (ms0_2 t) (hs0_2 t) scM0_0 (Memref.isWhole_whole _) (ncond0_0 t h0) (ncond0_1 t h1) (iblk0 V c 0 t) xs)

theorem step0_A (c : Dev nD) (t : Fin cfg0.N) (h0 : t.val % 8 = 0) (xs : Vec F S1024x1 .f32) :
    step0 V c t xs = (VO0_1.read (Elt F) VO0_1.junk,
     out0_A_2 c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t),
     sout0_A_0 c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t) xs) := by
  unfold step0; exact dif_pos h0

theorem step0_C (c : Dev nD) (t : Fin cfg0.N) (h0 : ¬t.val % 8 = 0) (h1 : t.val % 8 = 7) (xs : Vec F S1024x1 .f32) :
    step0 V c t xs = (out0_C_1 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs,
     out0_C_2 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs,
     sout0_C_0 c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs) := by
  unfold step0; exact (dif_neg h0).trans (dif_pos h1)

theorem step0_B (c : Dev nD) (t : Fin cfg0.N) (h0 : ¬t.val % 8 = 0) (h1 : ¬t.val % 8 = 7) (xs : Vec F S1024x1 .f32) :
    step0 V c t xs = (VO0_1.read (Elt F) VO0_1.junk,
     out0_B_2 c (grid0.coords t) (ms0_0 t) (hs0_0 t) (ms0_1 t) (hs0_1 t) (ms0_2 t) (hs0_2 t) scM0_0 (Memref.isWhole_whole _) (ncond0_0 t h0) (ncond0_1 t h1) (iblk0 V c 0 t) xs,
     sout0_B_0 c (grid0.coords t) (ms0_0 t) (hs0_0 t) (ms0_1 t) (hs0_1 t) (ms0_2 t) (hs0_2 t) scM0_0 (Memref.isWhole_whole _) (ncond0_0 t h0) (ncond0_1 t h1) (iblk0 V c 0 t) xs) := by
  unfold step0; exact (dif_neg h0).trans (dif_neg h1)

/-- At reduction index 0 the body's effect does not depend on what the scratch held. -/
theorem step0_indep (c : Dev nD) (t : Fin cfg0.N) (h0 : t.val % 8 = 0) (xs xs' : Vec F S1024x1 .f32) :
    step0 V c t xs = step0 V c t xs' := by
  rw [step0_A V c t h0 xs, step0_A V c t h0 xs']
  rw [sout0_A_0_indep c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t) xs xs']

/-- What the first point finds: nothing named in the outputs, the scratch at `dS0`. -/
def outs0From0 (dS0 : Vec F S1024x1 .f32) : Vec F S1024x1 .f32 × Vec F S1024x1024 .bf16 × Vec F S1024x1 .f32 :=
  (VO0_1.read (Elt F) VO0_1.junk, VO0_2.read (Elt F) VO0_2.junk, dS0)

/-- THE ACCUMULATION from the scratch at `dS0` before the first point: what the outputs' staging buffers
    and the scratch hold after the body at position `n` — the body's effect there over the scratch as the
    point before left it. -/
def outsAtFrom0 (c : Dev nD) (dS0 : Vec F S1024x1 .f32) : (n : ℕ) → n < cfg0.N → Vec F S1024x1 .f32 × Vec F S1024x1024 .bf16 × Vec F S1024x1 .f32
  | 0, hn => step0 V c ⟨0, hn⟩ dS0
  | n + 1, hn => step0 V c ⟨n + 1, hn⟩ (outsAtFrom0 c dS0 n (Nat.lt_of_succ_lt hn)).2.2

/-- What point `n` finds: `outs0From0` at the first point, what the point before left at a later one. -/
def prevFrom0 (c : Dev nD) (dS0 : Vec F S1024x1 .f32) : (n : ℕ) → n ≤ cfg0.N → Vec F S1024x1 .f32 × Vec F S1024x1024 .bf16 × Vec F S1024x1 .f32
  | 0, _ => outs0From0 dS0
  | n + 1, hn => outsAtFrom0 V c dS0 n hn

theorem outsAtFrom0_eq (c : Dev nD) (dS0 : Vec F S1024x1 .f32) (t : Fin cfg0.N) :
    outsAtFrom0 V c dS0 t.val t.isLt = step0 V c t (prevFrom0 V c dS0 t.val (Nat.le_of_lt t.isLt)).2.2 := by
  obtain ⟨n, hn⟩ := t
  cases n with
  | zero => exact rfl
  | succ n => exact rfl

/-- Nothing after the first point depends on what the scratch held before it: the first point refills it. -/
theorem outsAtFrom0_indep (c : Dev nD) (dS dS' : Vec F S1024x1 .f32) : ∀ (n : ℕ) (hn : n < cfg0.N), outsAtFrom0 V c dS n hn = outsAtFrom0 V c dS' n hn
  | 0, hn => step0_indep V c ⟨0, hn⟩ (by decide : 0 % 8 = 0) dS dS'
  | n + 1, hn => by
    show step0 V c ⟨n + 1, hn⟩ (outsAtFrom0 V c dS n (Nat.lt_of_succ_lt hn)).2.2 = step0 V c ⟨n + 1, hn⟩ (outsAtFrom0 V c dS' n (Nat.lt_of_succ_lt hn)).2.2
    rw [outsAtFrom0_indep c dS dS' n (Nat.lt_of_succ_lt hn)]

/-- The accumulation from junk: a closed function of the point, what the proof data read. -/
def outsAt0 (c : Dev nD) (n : ℕ) (hn : n < cfg0.N) : Vec F S1024x1 .f32 × Vec F S1024x1024 .bf16 × Vec F S1024x1 .f32 :=
  outsAtFrom0 V c (VS0_0.read (Elt F) VS0_0.junk) n hn

theorem outsAt0_eq (c : Dev nD) (dS0 : Vec F S1024x1 .f32) (n : ℕ) (hn : n < cfg0.N) : outsAt0 V c n hn = outsAtFrom0 V c dS0 n hn :=
  outsAtFrom0_indep V c _ dS0 n hn

/-! ## The invariant and the proof data -/

/-- The region invariant before position `n`, from the scratch at `dS0` before the first point: the scratch at
    what point `n` finds, the other scoped buffers unopened, the generator register at some state. -/
def PhiSAt0 (c : Dev nD) (dS0 : Vec F S1024x1 .f32) (n : ℕ) (h : n ≤ cfg0.N) : sProp 𝕄 :=
  iprop(iprop(owns (c : Thread nD τ) scM0_0 fullShare ((prevFrom0 V c dS0 n h).2.2)
      ∗ Pipeline.scopedRestBut (Ix := Unit) (Name := ℕ) (U := UR sig nD τ) (Lvl := ℕ) (Val := Elt F) spec0 c [cc0_scratch0]) ∗ (∃ r, prngReg c r))

/-- The region invariant: `PhiSAt0` at SOME contents of the scratch before the first point. -/
def PhiS0 (c : Dev nD) (n : ℕ) (h : n ≤ cfg0.N) : sProp 𝕄 :=
  iprop(∃ dS0, PhiSAt0 V c dS0 n h)

/-- The proof data of the call's pipeline on core `c`: the arrays as the region finds them (`V`); after the
    body at point `t` the input's buffer at its block and the outputs' at `outsAt0`; the invariant
    `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 3200000 in
/-- The body at any point: the input's memref holds its block; the closed forms say which of the three
    cases the point is in, so that case's run applies; the invariant binds what the scratch held before
    the first point and hands the body the scratch at what the point finds, and takes it back at this
    point's contents over the same first contents; what the point stores into an output is the proof
    data's closed term because nothing after the first point depends on those first contents; the
    row-sum window, idle away from reduction index 7, is handed back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_castSucc V c t]
  unfold PhiS0 PhiSAt0
  rw [show (dat0 V c).leavesExact 0 t = owns (c : Thread nD τ) (ms0_0 t) fullShare ((dat0 V c).after 0 t) from by
    unfold Dat.leavesExact; rw [liveAt0_0 t], after0_0]
  rw [show (dat0 V c).leavesExact 2 t = owns (c : Thread nD τ) (ms0_2 t) fullShare ((dat0 V c).after 2 t) from by
    unfold Dat.leavesExact; rw [liveAt0_2 t], after0_2]
  by_cases h0 : t.val % 8 = 0
  ·
    rw [Dat.leavesExact_idle (dat0 V c) 1 t (idleAt0_1 t (ncond0_1_of0 t h0)) (noFlush0_1 t (ncond0_1_of0 t h0))]
    iintro ⟨⟨%dS0, ⟨HS0, Hrest⟩, Hg⟩, Ho, ⟨%d0, H0⟩, ⟨%d1, H1⟩, ⟨%d2, H2⟩⟩
    have eO : outsAt0 V c t.val t.isLt = step0 V c t (prevFrom0 V c dS0 t.val (Nat.le_of_lt t.isLt)).2.2 := by
      rw [outsAt0_eq V c dS0, outsAtFrom0_eq]
    have eS0 : (prevFrom0 V c dS0 (t.val + 1) t.isLt).2.2 = (step0 V c t (prevFrom0 V c dS0 t.val (Nat.le_of_lt t.isLt)).2.2).2.2 := by
      show (outsAtFrom0 V c dS0 t.val t.isLt).2.2 = _
      rw [outsAtFrom0_eq]
    rw [eO, step0_A V c t h0]
    dsimp only
    unfold out0_A_2
    iapply ((kernelRun0_A c (grid0.coords t) _ _ _ _ _ _ _ _ ((hcond0_0 t).mpr h0) (ncond0_1_of0 t h0) (iblk0 V c 0 t)).2.2 _ _ Set.univ _)
    isplitl [H0]; · iexact H0
    isplitl [H1]; · iexact H1
    isplitl [H2]; · iexists _; iexact H2
    isplitl [HS0]; · iexact HS0
    iintro ⟨H0, H1, ⟨%e2, H2⟩, HS0⟩
    isplitl [HS0 Hrest Hg]
    · iexists dS0
      rw [eS0, step0_A V c t h0]
      dsimp only
      unfold sout0_A_0
      isplitl [HS0 Hrest]
      · isplitl [HS0]
        · unfold owns; iexists _; isplitr
          swap; · iexact HS0
          ipureintro; rfl
        iexact Hrest
      iexact Hg
    isplitl [Ho]; · iexact Ho
    isplitl [H0]; · iexact H0
    isplitl [H1]; · iexists _; iexact H1
    unfold owns; iexists _; isplitr
    swap; · iexact H2
    ipureintro; exact View.read_writes_of_cover _ _ _ _ _ (cover0_A_2 c _ _ _ _ _ _ _ _ _ _ _ _)
  · by_cases h1 : t.val % 8 = 7
    ·
      rw [show (dat0 V c).leavesExact 1 t = owns (c : Thread nD τ) (ms0_1 t) fullShare ((dat0 V c).after 1 t) from by
        unfold Dat.leavesExact; rw [liveAt0_1_C t ((hcond0_1 t).mpr h1)], after0_1]
      iintro ⟨⟨%dS0, ⟨HS0, Hrest⟩, Hg⟩, Ho, ⟨%d0, H0⟩, ⟨%d1, H1⟩, ⟨%d2, H2⟩⟩
      have eO : outsAt0 V c t.val t.isLt = step0 V c t (prevFrom0 V c dS0 t.val (Nat.le_of_lt t.isLt)).2.2 := by
        rw [outsAt0_eq V c dS0, outsAtFrom0_eq]
      have eS0 : (prevFrom0 V c dS0 (t.val + 1) t.isLt).2.2 = (step0 V c t (prevFrom0 V c dS0 t.val (Nat.le_of_lt t.isLt)).2.2).2.2 := by
        show (outsAtFrom0 V c dS0 t.val t.isLt).2.2 = _
        rw [outsAtFrom0_eq]
      rw [eO, step0_C V c t h0 h1]
      dsimp only
      unfold out0_C_1 out0_C_2
      iapply ((kernelRun0_C c (grid0.coords t) _ _ _ _ _ _ _ _ (ncond0_0 t h0) ((hcond0_1 t).mpr h1) (iblk0 V c 0 t) _).2.2.2 Set.univ _)
      isplitl [H0]; · iexact H0
      isplitl [H1]; · iexists _; iexact H1
      isplitl [H2]; · iexists _; iexact H2
      isplitl [HS0]; · iexact HS0
      iintro ⟨H0, ⟨%e1, H1⟩, ⟨%e2, H2⟩, HS0⟩
      isplitl [HS0 Hrest Hg]
      · iexists dS0
        rw [eS0, step0_C V c t h0 h1]
        dsimp only
        unfold sout0_C_0
        isplitl [HS0 Hrest]
        · isplitl [HS0]
          · unfold owns; iexists _; isplitr
            swap; · iexact HS0
            ipureintro; rfl
          iexact Hrest
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _)
      unfold owns; iexists _; isplitr
      swap; · iexact H2
      ipureintro; exact View.read_writes_of_cover _ _ _ _ _ (cover0_C_2 c _ _ _ _ _ _ _ _ _ _ _ _ _)
    ·
      rw [Dat.leavesExact_idle (dat0 V c) 1 t (idleAt0_1 t (ncond0_1 t h1)) (noFlush0_1 t (ncond0_1 t h1))]
      iintro ⟨⟨%dS0, ⟨HS0, Hrest⟩, Hg⟩, Ho, ⟨%d0, H0⟩, ⟨%d1, H1⟩, ⟨%d2, H2⟩⟩
      have eO : outsAt0 V c t.val t.isLt = step0 V c t (prevFrom0 V c dS0 t.val (Nat.le_of_lt t.isLt)).2.2 := by
        rw [outsAt0_eq V c dS0, outsAtFrom0_eq]
      have eS0 : (prevFrom0 V c dS0 (t.val + 1) t.isLt).2.2 = (step0 V c t (prevFrom0 V c dS0 t.val (Nat.le_of_lt t.isLt)).2.2).2.2 := by
        show (outsAtFrom0 V c dS0 t.val t.isLt).2.2 = _
        rw [outsAtFrom0_eq]
      rw [eO, step0_B V c t h0 h1]
      dsimp only
      unfold out0_B_2
      iapply ((kernelRun0_B c (grid0.coords t) _ _ _ _ _ _ _ _ (ncond0_0 t h0) (ncond0_1 t h1) (iblk0 V c 0 t) _).2.2 _ Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hrest Hg]
      · iexists dS0
        rw [eS0, step0_B V c t h0 h1]
        dsimp only
        unfold sout0_B_0
        isplitl [HS0 Hrest]
        · isplitl [HS0]
          · unfold owns; iexists _; isplitr
            swap; · iexact HS0
            ipureintro; rfl
          iexact Hrest
        iexact Hg
      isplitl [Ho]; · iexact Ho
      isplitl [H0]; · iexact H0
      isplitl [H1]; · iexists _; iexact H1
      unfold owns; iexists _; isplitr
      swap; · iexact H2
      ipureintro; exact View.read_writes_of_cover _ _ _ _ _ (cover0_B_2 c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with (`ΦA`) is the invariant before the first point, at whatever the scratch holds. -/
theorem hin0 (c : Dev nD) : Pipeline.ΦA spec0 c ⊢ (dat0 V c).Φ 0 := by
  rw [show (dat0 V c).Φ 0 = PhiS0 V c 0 (Nat.zero_le _) from rfl, PhiA0_eq]
  unfold PhiS0 PhiSAt0
  iintro ⟨⟨⟨%dS0, HS0⟩, Hrest⟩, Hg⟩
  iexists dS0
  isplitl [HS0 Hrest]
  · isplitl [HS0]
    · iexact HS0
    iexact Hrest
  iexact Hg

/-- After the last point the invariant gives `ΦA` back: what the scratch holds is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  unfold PhiS0 PhiSAt0
  iintro ⟨%dS0, ⟨HS0, Hrest⟩, Hg⟩
  isplitl [HS0 Hrest]
  · isplitl [HS0]
    · iexists _; iexact HS0
    iexact Hrest
  iexact Hg

end Cert.KernelIdeal.Gen

end
-- ==== Proof.KI.R1Runs.lean ====
/- Region 1 (the first graph-convolution layer): what the runs of its body share — the windows' blocks read off
   the region-entry contents, the body's two branch conditions in closed form over the 8×8 grid, where the output
   window is idle, the staging and scratch memrefs, and the region invariant with the carried scratch split off. -/
import proofs.«152435_j1984274891532_2_alg».proof.Proof.Gen.KernelIdeal.Launch
import proofs.«152435_j1984274891532_2_alg».proof.Proof.Gen.KernelIdeal.Skeleton
import proofs.«152435_j1984274891532_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the zero fill): the reduction coordinate is 0. -/
abbrev cond1_0 (i : grid1.Coords) : Prop := (Scalar.cmpi .ne (Scalar.extui (Scalar.cmpi .eq (BitVec.ofNat 32 (i 1).val) 0#32)) 0#32) = 1#1
/-- It holds at the first point of each row of the grid — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the body's second conditional (the finalize store): the reduction coordinate is 7. -/
abbrev cond1_1 (i : grid1.Coords) : Prop := k1_cond2 i = 1#1
/-- It holds at the last point of each row of the grid — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- Where the finalize condition fails the output window is idle: the body stores nothing into it. -/
theorem idleAt1_5_N : ∀ t : Fin cfg1.N, ¬cond1_1 (grid1.coords t) → cfg1.idle 5 (grid1.coords t) = true := by decide +kernel
/-- There the pipeline does not write the output's block back. -/
theorem noFlush1_5_N : ∀ t : Fin cfg1.N, ¬cond1_1 (grid1.coords t) → (cfg1.win 5).flush t = false := by decide +kernel
/-- Where the finalize condition holds the output window is live: the body stores into it. -/
theorem liveAt1_5_C : ∀ t : Fin cfg1.N, cond1_1 (grid1.coords t) → cfg1.idle 5 (grid1.coords t) = false := by decide +kernel

/-! ## The staging and scratch memrefs -/

/-- One staging buffer of the output window, through which its contents are stated (the choice does not matter). -/
abbrev VO1_5 : View sig .tc .vmem S1024x256 .f32 := (Memref.whole cc1_stg5_0 : Memref sig .tc .vmem S1024x256 .f32).view
/-- Each window's current staging memref at point `t`, spelled as the pipeline passes it, and its wholeness. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x256 .f32 := win1_5.stage (cfg1.slots t 5)
abbrev hs1_5 (t : Fin cfg1.N) : (ms1_5 t).IsWhole := hstage1_5 ((cfg1.slots t 5).cast nbuf1_5)
/-- The scratch operand: a whole scoped buffer of the kernel's own, passed beside the windows. -/
abbrev scM1_0 : Memref sig .tc .vmem S1024x512 .f32 := Memref.whole cc1_scratch0
/-- The scratch the kernel carries between points, as a view. -/
abbrev VS1_0 : View sig .tc .vmem S1024x512 .f32 := scM1_0.view

/-- The core's scoped buffers that are no staging buffer of this call, split at the call's own scratch. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- The region invariant with the scratch operand as a memref owned at some contents, the other scoped buffers
    unopened: what the body obligation hands the run and takes back. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Gen

end
-- ==== Proof.KI.R1RunA.lean ====
/- Region 1, case A (the reduction coordinate is 0: the zero fill, then the accumulation): the kernel body's triple on whole
   staging buffers, with the stores each buffer ends with — rectangles with their payloads, last first — as its witness. -/
import proofs.«152435_j1984274891532_2_alg».proof.Proof.KI.R1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

set_option maxHeartbeats 1000000 in
/-- What the body's stores leave in the output's staging memref and in the scratch, as pieces (last first), in case A,
    with the proof that on whole memrefs — the inputs' at their contents, the output's at contents handed back untouched, the carried
    scratch at the contents the point before left (`xs0`) — the body runs to the continuation holding the inputs' as they
    were, the scratch with its pieces written. -/
noncomputable def kernelRun1_A (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .f32) (x2 : Vec F S1024x512 .f32) (x3 : Vec F S1024x1 .f32) (x4 : Vec F S512x256 .f32) :
    Σ' (L5 : List (View.Piece (Elt F) S1024x256 .f32)), { LS0 : List (View.Piece (Elt F) S1024x512 .f32) //
      ∀ (xi5 : Vec F S1024x256 .f32) (xs0 : Vec F S1024x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xs0) LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 xs0 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact HS0

end Cert.KernelIdeal.Gen

end
-- ==== Proof.KI.R1RunB.lean ====
/- Region 1, case B (the reduction coordinate is strictly between 0 and 7: the accumulation alone): the kernel body's triple on whole
   staging buffers, with the stores each buffer ends with — rectangles with their payloads, last first — as its witness. -/
import proofs.«152435_j1984274891532_2_alg».proof.Proof.KI.R1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

set_option maxHeartbeats 1000000 in
/-- What the body's stores leave in the output's staging memref and in the scratch, as pieces (last first), in case B,
    with the proof that on whole memrefs — the inputs' at their contents, the output's at contents handed back untouched, the carried
    scratch at the contents the point before left (`xs0`, which the accumulation reads: the pieces name it) — the body runs to
    the continuation holding the inputs' as they were, the scratch with its pieces written. -/
noncomputable def kernelRun1_B (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) :
    Σ' (L5 : List (View.Piece (Elt F) S1024x256 .f32)), { LS0 : List (View.Piece (Elt F) S1024x512 .f32) //
      ∀ (xi5 : Vec F S1024x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xs0) LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨[], ?_, fun xi5 E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact HS0

end Cert.KernelIdeal.Gen

end
-- ==== Proof.KI.R1RunC.lean ====
/- Region 1, case C (the reduction coordinate is 7: the accumulation, then the finalize store): the kernel body's triple on whole
   staging buffers, with the stores each buffer ends with — rectangles with their payloads, last first — as its witness. -/
import proofs.«152435_j1984274891532_2_alg».proof.Proof.KI.R1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

set_option maxHeartbeats 1000000 in
/-- What the body's stores leave in the output's staging memref and in the scratch, as pieces (last first), in case C,
    with the proof that on whole memrefs — the inputs' at their contents, the output's at anything, the carried
    scratch at the contents the point before left (`xs0`, which the accumulation reads: the pieces name it) — the body runs to
    the continuation holding the inputs' as they were, the scratch with its pieces written, the output's buffer with its pieces written. -/
noncomputable def kernelRun1_C (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) :
    Σ' (L5 : List (View.Piece (Elt F) S1024x256 .f32)), { LS0 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xs0) LS0)) -∗ K ⟨⟩))
          ⊢ wp frame (wpE (defs₀ (F := F)) Variants.none c none) E (cc1__gcn1_kernel i arg2 harg2 arg3 harg3 arg4 harg4 arg5 harg5 arg6 harg6 arg7 harg7 arg8 harg8) K } := by
  refine ⟨?_, ?_, fun E K => ?run⟩
  case run =>
    simp only [cc1__gcn1_kernel_eq_skeleton]; unfold cc1__gcn1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HS0

end Cert.KernelIdeal.Gen

end
-- ==== Proof.KI.R1Data.lean ====
/- Region 1: what the scratch and the output hold case by case and point by point, the proof data of the pipeline,
   the body obligation at a generic point, and the invariant's two ends. -/
import proofs.«152435_j1984274891532_2_alg».proof.Proof.KI.R1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

/-! ## What each case leaves -/

/-- What case A leaves in the scratch: its pieces read back over the contents it was handed. -/
def sout1_A_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) : Vec F S1024x512 .f32 :=
  arg8.view.read (Elt F) (arg8.view.writes (Elt F) (harg8.unread xs0) (kernelRun1_A c i arg2 harg2 arg3 harg3 arg4 harg4 arg5 harg5 arg6 harg6 arg7 harg7 arg8 harg8 hc0 hc1 x0 x1 x2 x3 x4).2.1)

/-- What case B leaves in the scratch. -/
def sout1_B_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) : Vec F S1024x512 .f32 :=
  arg8.view.read (Elt F) (arg8.view.writes (Elt F) (harg8.unread xs0) (kernelRun1_B c i arg2 harg2 arg3 harg3 arg4 harg4 arg5 harg5 arg6 harg6 arg7 harg7 arg8 harg8 hc0 hc1 x0 x1 x2 x3 x4 xs0).2.1)

/-- What case C leaves in the scratch. -/
def sout1_C_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) : Vec F S1024x512 .f32 :=
  arg8.view.read (Elt F) (arg8.view.writes (Elt F) (harg8.unread xs0) (kernelRun1_C c i arg2 harg2 arg3 harg3 arg4 harg4 arg5 harg5 arg6 harg6 arg7 harg7 arg8 harg8 hc0 hc1 x0 x1 x2 x3 x4 xs0).2.1)

/-- Case A's pieces for the scratch cover it (the zero fill and the accumulation's store, each the whole shape). -/
theorem scover1_A_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .f32) (x2 : Vec F S1024x512 .f32) (x3 : Vec F S1024x1 .f32) (x4 : Vec F S512x256 .f32) (y : S1024x512.Idx) :
    ∃ pc ∈ (kernelRun1_A c i arg2 harg2 arg3 harg3 arg4 harg4 arg5 harg5 arg6 harg6 arg7 harg7 arg8 harg8 hc0 hc1 x0 x1 x2 x3 x4).2.1, y ∈ pc.1.set :=
  View.cover_of_tiledL (kernelRun1_A c i arg2 harg2 arg3 harg3 arg4 harg4 arg5 harg5 arg6 harg6 arg7 harg7 arg8 harg8 hc0 hc1 x0 x1 x2 x3 x4).2.1 S1024x512.size (by sl_kernel_rfl) y

/-- Case B's piece for the scratch covers it. -/
theorem scover1_B_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) (y : S1024x512.Idx) :
    ∃ pc ∈ (kernelRun1_B c i arg2 harg2 arg3 harg3 arg4 harg4 arg5 harg5 arg6 harg6 arg7 harg7 arg8 harg8 hc0 hc1 x0 x1 x2 x3 x4 xs0).2.1, y ∈ pc.1.set :=
  View.cover_of_tiledL (kernelRun1_B c i arg2 harg2 arg3 harg3 arg4 harg4 arg5 harg5 arg6 harg6 arg7 harg7 arg8 harg8 hc0 hc1 x0 x1 x2 x3 x4 xs0).2.1 S1024x512.size (by sl_kernel_rfl) y

/-- Case C's piece for the scratch covers it. -/
theorem scover1_C_0 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) (y : S1024x512.Idx) :
    ∃ pc ∈ (kernelRun1_C c i arg2 harg2 arg3 harg3 arg4 harg4 arg5 harg5 arg6 harg6 arg7 harg7 arg8 harg8 hc0 hc1 x0 x1 x2 x3 x4 xs0).2.1, y ∈ pc.1.set :=
  View.cover_of_tiledL (kernelRun1_C c i arg2 harg2 arg3 harg3 arg4 harg4 arg5 harg5 arg6 harg6 arg7 harg7 arg8 harg8 hc0 hc1 x0 x1 x2 x3 x4 xs0).2.1 S1024x512.size (by sl_kernel_rfl) y

/-- Case C's piece for the output covers its block (the finalize store, the whole shape). -/
theorem cover1_C_5 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) (y : S1024x256.Idx) :
    ∃ pc ∈ (kernelRun1_C c i arg2 harg2 arg3 harg3 arg4 harg4 arg5 harg5 arg6 harg6 arg7 harg7 arg8 harg8 hc0 hc1 x0 x1 x2 x3 x4 xs0).1, y ∈ pc.1.set :=
  View.cover_of_tiledL (kernelRun1_C c i arg2 harg2 arg3 harg3 arg4 harg4 arg5 harg5 arg6 harg6 arg7 harg7 arg8 harg8 hc0 hc1 x0 x1 x2 x3 x4 xs0).1 S1024x256.size (by sl_kernel_rfl) y

/-- What case C leaves in the output's staging buffer: its pieces read back over junk. -/
def out1_C_5 (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) : Vec F S1024x256 .f32 :=
  VO1_5.read (Elt F) (VO1_5.writes (Elt F) VO1_5.junk (kernelRun1_C c i arg2 harg2 arg3 harg3 arg4 harg4 arg5 harg5 arg6 harg6 arg7 harg7 arg8 harg8 hc0 hc1 x0 x1 x2 x3 x4 xs0).1)

/-- What case A leaves in the scratch names nothing of what the scratch held: its pieces cover the scratch and are
    found without it. -/
theorem sout1_A_0_indep (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 xs0' : Vec F S1024x512 .f32) :
    sout1_A_0 c i arg2 harg2 arg3 harg3 arg4 harg4 arg5 harg5 arg6 harg6 arg7 harg7 arg8 harg8 hc0 hc1 x0 x1 x2 x3 x4 xs0 = sout1_A_0 c i arg2 harg2 arg3 harg3 arg4 harg4 arg5 harg5 arg6 harg6 arg7 harg7 arg8 harg8 hc0 hc1 x0 x1 x2 x3 x4 xs0' := by
  unfold sout1_A_0
  exact View.read_writes_of_cover _ _ _ _ _ (scover1_A_0 c i arg2 harg2 arg3 harg3 arg4 harg4 arg5 harg5 arg6 harg6 arg7 harg7 arg8 harg8 hc0 hc1 x0 x1 x2 x3 x4)

/-! ## The conditions at a point, from the closed forms -/

theorem nc1_of0 (t : Fin cfg1.N) (h0 : t.val % 8 = 0) : ¬cond1_1 (grid1.coords t) := fun h => by
  have := (hcond1_1 t).mp h; omega
theorem nc0_of7 (t : Fin cfg1.N) (h1 : t.val % 8 = 7) : ¬cond1_0 (grid1.coords t) := fun h => by
  have := (hcond1_0 t).mp h; omega
theorem nc0_of (t : Fin cfg1.N) (h0 : ¬t.val % 8 = 0) : ¬cond1_0 (grid1.coords t) := fun h => h0 ((hcond1_0 t).mp h)
theorem nc1_of (t : Fin cfg1.N) (h1 : ¬t.val % 8 = 7) : ¬cond1_1 (grid1.coords t) := fun h => h1 ((hcond1_1 t).mp h)

/-! ## The cases at a point: run at the point's memrefs and input blocks -/

/-- What a point with reduction coordinate 0 leaves in the scratch, handed it at `xs0`. -/
def sA1 (c : Dev nD) (t : Fin cfg1.N) (h0 : t.val % 8 = 0) (xs0 : Vec F S1024x512 .f32) : Vec F S1024x512 .f32 :=
  sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (nc1_of0 t h0) (iblk1 V c 0 t) (iblk1 V c 1 t) (iblk1 V c 2 t) (iblk1 V c 3 t) (iblk1 V c 4 t) xs0
/-- What a point with reduction coordinate strictly between 0 and 7 leaves in the scratch, handed it at `xs0`. -/
def sB1 (c : Dev nD) (t : Fin cfg1.N) (h0 : ¬t.val % 8 = 0) (h1 : ¬t.val % 8 = 7) (xs0 : Vec F S1024x512 .f32) : Vec F S1024x512 .f32 :=
  sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (nc0_of t h0) (nc1_of t h1) (iblk1 V c 0 t) (iblk1 V c 1 t) (iblk1 V c 2 t) (iblk1 V c 3 t) (iblk1 V c 4 t) xs0
/-- What a point with reduction coordinate 7 leaves in the scratch, handed it at `xs0`. -/
def sC1 (c : Dev nD) (t : Fin cfg1.N) (h1 : t.val % 8 = 7) (xs0 : Vec F S1024x512 .f32) : Vec F S1024x512 .f32 :=
  sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (nc0_of7 t h1) ((hcond1_1 t).mpr h1) (iblk1 V c 0 t) (iblk1 V c 1 t) (iblk1 V c 2 t) (iblk1 V c 3 t) (iblk1 V c 4 t) xs0
/-- What a point with reduction coordinate 7 leaves in the output's staging buffer, handed the scratch at `xs0`. -/
def oC1 (c : Dev nD) (t : Fin cfg1.N) (h1 : t.val % 8 = 7) (xs0 : Vec F S1024x512 .f32) : Vec F S1024x256 .f32 :=
  out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (nc0_of7 t h1) ((hcond1_1 t).mpr h1) (iblk1 V c 0 t) (iblk1 V c 1 t) (iblk1 V c 2 t) (iblk1 V c 3 t) (iblk1 V c 4 t) xs0

theorem sA1_indep (c : Dev nD) (t : Fin cfg1.N) (h0 : t.val % 8 = 0) (xs0 xs0' : Vec F S1024x512 .f32) :
    sA1 V c t h0 xs0 = sA1 V c t h0 xs0' := by
  unfold sA1; exact sout1_A_0_indep ..

/-! ## What the scratch holds after each point -/

/-- THE ACCUMULATION, from the scratch at `dS0` before the first point: what the scratch holds after the body at
    position `n` — the case the closed forms select at `n`, handed the scratch at what this leaves at `n - 1`. -/
def scrFrom1 (c : Dev nD) (dS0 : Vec F S1024x512 .f32) : (n : ℕ) → n < cfg1.N → Vec F S1024x512 .f32
  | 0, hn => sA1 V c ⟨0, hn⟩ (Nat.zero_mod _) dS0
  | n + 1, hn =>
    if h0 : (n + 1) % 8 = 0 then sA1 V c ⟨n + 1, hn⟩ h0 (scrFrom1 c dS0 n (Nat.lt_of_succ_lt hn))
    else if h1 : (n + 1) % 8 = 7 then sC1 V c ⟨n + 1, hn⟩ h1 (scrFrom1 c dS0 n (Nat.lt_of_succ_lt hn))
    else sB1 V c ⟨n + 1, hn⟩ h0 h1 (scrFrom1 c dS0 n (Nat.lt_of_succ_lt hn))

/-- What point `n` finds in the scratch: `dS0` at the first point, what the point before left at a later one. -/
def prevFrom1 (c : Dev nD) (dS0 : Vec F S1024x512 .f32) : (n : ℕ) → n ≤ cfg1.N → Vec F S1024x512 .f32
  | 0, _ => dS0
  | n + 1, hn => scrFrom1 V c dS0 n hn

theorem scrFrom1_A (c : Dev nD) (dS0 : Vec F S1024x512 .f32) (t : Fin cfg1.N) (h0 : t.val % 8 = 0) :
    scrFrom1 V c dS0 t.val t.isLt = sA1 V c t h0 (prevFrom1 V c dS0 t.val (Nat.le_of_lt t.isLt)) := by
  obtain ⟨n, hn⟩ := t
  cases n with
  | zero => exact rfl
  | succ n => exact (dif_pos h0).trans rfl

theorem scrFrom1_C (c : Dev nD) (dS0 : Vec F S1024x512 .f32) (t : Fin cfg1.N) (h1 : t.val % 8 = 7) :
    scrFrom1 V c dS0 t.val t.isLt = sC1 V c t h1 (prevFrom1 V c dS0 t.val (Nat.le_of_lt t.isLt)) := by
  obtain ⟨n, hn⟩ := t
  cases n with
  | zero => exact absurd (show 0 % 8 = 7 from h1) (by decide)
  | succ n => exact (dif_neg (fun h => by dsimp only at h1; omega)).trans ((dif_pos h1).trans rfl)

theorem scrFrom1_B (c : Dev nD) (dS0 : Vec F S1024x512 .f32) (t : Fin cfg1.N) (h0 : ¬t.val % 8 = 0) (h1 : ¬t.val % 8 = 7) :
    scrFrom1 V c dS0 t.val t.isLt = sB1 V c t h0 h1 (prevFrom1 V c dS0 t.val (Nat.le_of_lt t.isLt)) := by
  obtain ⟨n, hn⟩ := t
  cases n with
  | zero => exact absurd (Nat.zero_mod _) h0
  | succ n => exact (dif_neg h0).trans ((dif_neg h1).trans rfl)

/-- What the scratch holds after a point names nothing of what it held before the first point: the first point zero-fills it. -/
theorem scrFrom1_indep (c : Dev nD) (dS0 dS0' : Vec F S1024x512 .f32) :
    ∀ (n : ℕ) (hn : n < cfg1.N), scrFrom1 V c dS0 n hn = scrFrom1 V c dS0' n hn
  | 0, hn => sA1_indep V c ⟨0, hn⟩ (Nat.zero_mod _) dS0 dS0'
  | n + 1, hn => by
    by_cases h0 : (n + 1) % 8 = 0
    · exact (scrFrom1_A V c dS0 ⟨n + 1, hn⟩ h0).trans ((sA1_indep V c ⟨n + 1, hn⟩ h0 _ _).trans (scrFrom1_A V c dS0' ⟨n + 1, hn⟩ h0).symm)
    · by_cases h1 : (n + 1) % 8 = 7
      · refine (scrFrom1_C V c dS0 ⟨n + 1, hn⟩ h1).trans (Eq.trans ?_ (scrFrom1_C V c dS0' ⟨n + 1, hn⟩ h1).symm)
        show sC1 V c ⟨n + 1, hn⟩ h1 (scrFrom1 V c dS0 n _) = sC1 V c ⟨n + 1, hn⟩ h1 (scrFrom1 V c dS0' n _)
        rw [scrFrom1_indep c dS0 dS0' n]
      · refine (scrFrom1_B V c dS0 ⟨n + 1, hn⟩ h0 h1).trans (Eq.trans ?_ (scrFrom1_B V c dS0' ⟨n + 1, hn⟩ h0 h1).symm)
        show sB1 V c ⟨n + 1, hn⟩ h0 h1 (scrFrom1 V c dS0 n _) = sB1 V c ⟨n + 1, hn⟩ h0 h1 (scrFrom1 V c dS0' n _)
        rw [scrFrom1_indep c dS0 dS0' n]

/-- So does what a later point finds. -/
theorem prevFrom1_indep (c : Dev nD) (dS0 dS0' : Vec F S1024x512 .f32) (n : ℕ) (hn : n ≤ cfg1.N) (hpos : 0 < n) :
    prevFrom1 V c dS0 n hn = prevFrom1 V c dS0' n hn := by
  cases n with
  | zero => exact absurd hpos (Nat.lt_irrefl _)
  | succ n => exact scrFrom1_indep V c dS0 dS0' n hn

/-- The scratch before the first point, for the closed terms the proof data read: junk. -/
abbrev dJ1 : Vec F S1024x512 .f32 := VS1_0.read (Elt F) VS1_0.junk

/-- What the output's staging buffer holds after point `t`: at a point with reduction coordinate 7 what the finalize
    store leaves; elsewhere nothing is stored and nothing consults it (the window is idle and not written back). -/
def outAt1 (c : Dev nD) (t : Fin cfg1.N) : Vec F S1024x256 .f32 :=
  if h1 : t.val % 8 = 7 then oC1 V c t h1 (prevFrom1 V c dJ1 t.val (Nat.le_of_lt t.isLt)) else VO1_5.read (Elt F) VO1_5.junk

theorem outAt1_C (c : Dev nD) (dS0 : Vec F S1024x512 .f32) (t : Fin cfg1.N) (h1 : t.val % 8 = 7) :
    outAt1 V c t = oC1 V c t h1 (prevFrom1 V c dS0 t.val (Nat.le_of_lt t.isLt)) := by
  unfold outAt1; rw [dif_pos h1, prevFrom1_indep V c dJ1 dS0 t.val _ (by omega)]

/-! ## The invariant -/

/-- The region invariant before position `n`, from the scratch at `dS0` before the first point: the carried scratch at
    what point `n` finds, the other scoped buffers at anything, the generator register at some state. -/
def PhiSAt1 (c : Dev nD) (dS0 : Vec F S1024x512 .f32) (n : ℕ) (h : n ≤ cfg1.N) : sProp 𝕄 :=
  iprop(iprop(owns (c : Thread nD τ) scM1_0 fullShare (prevFrom1 V c dS0 n h)
      ∗ Pipeline.scopedRestBut (Ix := Unit) (Name := ℕ) (U := UR sig nD τ) (Lvl := ℕ) (Val := Elt F) spec1 c [cc1_scratch0]) ∗ (∃ r, prngReg c r))

/-- The region invariant: at SOME contents of the scratch before the first point. -/
def PhiS1 (c : Dev nD) (n : ℕ) (h : n ≤ cfg1.N) : sProp 𝕄 :=
  iprop(∃ dS0, PhiSAt1 V c dS0 n h)

/-! ## The pipeline's proof data -/

/-- The proof data of pipeline 1 on core `c`: the arrays as the region finds them (`V`); after the body at point `t`
    each input's buffer at its block and the output's at `outAt1`; the invariant `PhiS1`; nothing owed; full shares,
    except that the two windows reading the one array of scaled features hold the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => outAt1 V c t
  Φ t := PhiS1 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outAt1 V c t := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 3200000 in
/-- The body at any point: the inputs' memrefs hold their blocks; the closed forms say which case the point is in; the
    invariant binds what the scratch held before the first point and hands the body the scratch at what the point finds,
    and takes it back at this point's contents over the same first contents; the output is idle and handed back as found
    where the finalize condition fails, and is the proof data's closed term where it holds (what the scratch holds there
    names nothing of what it held before the first point); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_castSucc V c t]
  unfold PhiS1 PhiSAt1
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val % 8 = 0
  · -- reduction coordinate 0
    rw [Dat.leavesExact_idle (dat1 V c) 5 t (idleAt1_5_N t (nc1_of0 t h0)) (noFlush1_5_N t (nc1_of0 t h0))]
    iintro ⟨⟨%dS0, ⟨HS0, Hr⟩, Hg⟩, Ho, ⟨%d0, H0⟩, ⟨%d1, H1⟩, ⟨%d2, H2⟩, ⟨%d3, H3⟩, ⟨%d4, H4⟩, ⟨%d5, H5⟩⟩
    have eS0 : prevFrom1 V c dS0 (t.val + 1) t.isLt = sA1 V c t h0 (prevFrom1 V c dS0 t.val (Nat.le_of_lt t.isLt)) := scrFrom1_A V c dS0 t h0
    iapply ((kernelRun1_A c (grid1.coords t) _ _ _ _ _ _ _ _ _ _ _ _ _ _ ((hcond1_0 t).mpr h0) (nc1_of0 t h0) (iblk1 V c 0 t) (iblk1 V c 1 t) (iblk1 V c 2 t) (iblk1 V c 3 t) (iblk1 V c 4 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hr Hg]
    · iexists dS0
      rw [eS0]
      unfold sA1 sout1_A_0
      isplitl [HS0 Hr]
      · isplitl [HS0]
        · unfold owns; iexists _; isplitr
          swap; · iexact HS0
          ipureintro; rfl
        iexact Hr
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h1 : t.val % 8 = 7
    · -- reduction coordinate 7
      rw [show (dat1 V c).leavesExact 5 t = owns (c : Thread nD τ) (ms1_5 t) fullShare ((dat1 V c).after 5 t) from by
        unfold Dat.leavesExact; rw [liveAt1_5_C t ((hcond1_1 t).mpr h1)], after1_5]
      iintro ⟨⟨%dS0, ⟨HS0, Hr⟩, Hg⟩, Ho, ⟨%d0, H0⟩, ⟨%d1, H1⟩, ⟨%d2, H2⟩, ⟨%d3, H3⟩, ⟨%d4, H4⟩, ⟨%d5, H5⟩⟩
      have eS0 : prevFrom1 V c dS0 (t.val + 1) t.isLt = sC1 V c t h1 (prevFrom1 V c dS0 t.val (Nat.le_of_lt t.isLt)) := scrFrom1_C V c dS0 t h1
      rw [outAt1_C V c dS0 t h1]
      unfold oC1 out1_C_5
      iapply ((kernelRun1_C c (grid1.coords t) _ _ _ _ _ _ _ _ _ _ _ _ _ _ (nc0_of7 t h1) ((hcond1_1 t).mpr h1) (iblk1 V c 0 t) (iblk1 V c 1 t) (iblk1 V c 2 t) (iblk1 V c 3 t) (iblk1 V c 4 t) (prevFrom1 V c dS0 t.val (Nat.le_of_lt t.isLt))).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, HS0⟩
      isplitl [HS0 Hr Hg]
      · iexists dS0
        rw [eS0]
        unfold sC1 sout1_C_0
        isplitl [HS0 Hr]
        · isplitl [HS0]
          · unfold owns; iexists _; isplitr
            swap; · iexact HS0
            ipureintro; rfl
          iexact Hr
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _ _ _)
    · -- reduction coordinate strictly between
      rw [Dat.leavesExact_idle (dat1 V c) 5 t (idleAt1_5_N t (nc1_of t h1)) (noFlush1_5_N t (nc1_of t h1))]
      iintro ⟨⟨%dS0, ⟨HS0, Hr⟩, Hg⟩, Ho, ⟨%d0, H0⟩, ⟨%d1, H1⟩, ⟨%d2, H2⟩, ⟨%d3, H3⟩, ⟨%d4, H4⟩, ⟨%d5, H5⟩⟩
      have eS0 : prevFrom1 V c dS0 (t.val + 1) t.isLt = sB1 V c t h0 h1 (prevFrom1 V c dS0 t.val (Nat.le_of_lt t.isLt)) := scrFrom1_B V c dS0 t h0 h1
      iapply ((kernelRun1_B c (grid1.coords t) _ _ _ _ _ _ _ _ _ _ _ _ _ _ (nc0_of t h0) (nc1_of t h1) (iblk1 V c 0 t) (iblk1 V c 1 t) (iblk1 V c 2 t) (iblk1 V c 3 t) (iblk1 V c 4 t) (prevFrom1 V c dS0 t.val (Nat.le_of_lt t.isLt))).2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hr Hg]
      · iexists dS0
        rw [eS0]
        unfold sB1 sout1_B_0
        isplitl [HS0 Hr]
        · isplitl [HS0]
          · unfold owns; iexists _; isplitr
            swap; · iexact HS0
            ipureintro; rfl
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with (the class's invariant) is the invariant before the first point, at whatever the scratch holds. -/
theorem hin1 (c : Dev nD) : Pipeline.ΦA spec1 c ⊢ (dat1 V c).Φ 0 := by
  rw [show (dat1 V c).Φ 0 = PhiS1 V c 0 (Nat.zero_le _) from rfl, PhiA1_eq]
  unfold PhiS1 PhiSAt1
  iintro ⟨⟨⟨%dS0, HS0⟩, Hr⟩, Hg⟩
  iexists dS0
  isplitl [HS0 Hr]
  · isplitl [HS0]
    · iexact HS0
    iexact Hr
  iexact Hg

/-- After the last point the invariant gives the class's back: what the scratch holds is forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  unfold PhiS1 PhiSAt1
  iintro ⟨%dS0, ⟨HS0, Hr⟩, Hg⟩
  isplitl [HS0 Hr]
  · isplitl [HS0]
    · iexists _; iexact HS0
    iexact Hr
  iexact Hg

end Cert.KernelIdeal.Gen

end
-- ==== Proof.KI.R2Runs.lean ====
/- The third kernel (the second graph-convolution layer with its log-softmax): what the three control cases of
   its body share — the windows' blocks read off the arrays as the region finds them, the two branch conditions in
   closed form over the 8 × 8 grid (the reduction index k is the last axis: k = t mod 8), where the output window is
   idle, and the staging and scratch memrefs the body is called with. -/
import proofs.«152435_j1984274891532_2_alg».proof.Proof.Gen.KernelIdeal.Launch
import proofs.«152435_j1984274891532_2_alg».proof.Proof.Gen.KernelIdeal.Skeleton
import proofs.«152435_j1984274891532_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (k = 0: the accumulator is zeroed), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)
/-- The condition of the body's second conditional (k = 7: the row block is finalized and stored). -/
abbrev cond2_1 (i : grid2.Coords) : Prop := k2_cond2 i = 1#1
/-- It holds at the points ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- Where the second condition fails the output window is idle and not written back; -/
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
/-- where it holds the window is live. -/
theorem liveAt2_5 : ∀ t : Fin cfg2.N, cond2_1 (grid2.coords t) → cfg2.idle 5 (grid2.coords t) = false := by decide +kernel

/-! ## The staging and scratch memrefs -/

/-- One staging buffer of the output window, through which its contents are stated (the choice does not matter). -/
abbrev VO2_5 : View sig .tc .vmem S1024x40 .f32 := (Memref.whole cc2_stg5_0 : Memref sig .tc .vmem S1024x40 .f32).view
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S256x40 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x40 .f32 := win2_5.stage (cfg2.slots t 5)
abbrev hs2_5 (t : Fin cfg2.N) : (ms2_5 t).IsWhole := hstage2_5 ((cfg2.slots t 5).cast nbuf2_5)
/-- The accumulator: a whole scoped buffer of the kernel's own, carried between grid points. -/
abbrev scM2_0 : Memref sig .tc .vmem S1024x256 .f32 := Memref.whole cc2_scratch0
abbrev VS2_0 : View sig .tc .vmem S1024x256 .f32 := scM2_0.view

/-- The scoped buffers that are no staging buffer of this call, split at the accumulator: it, whole at some
    contents, and the others unopened. -/
theorem scopedRest2_split {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec2 c : sProp (MT nD τ sig Ix Val Name U Lvl))
      = iprop(iprop((∃ f : Buf Val ((c : Thread nD τ).loc cc2_scratch0), ((c : Thread nD τ).loc cc2_scratch0) ↦{fullShare} f))
          ∗ Pipeline.scopedRestBut (Ix := Ix) (Name := Name) (U := U) (Lvl := Lvl) (Val := Val) spec2 c [cc2_scratch0]) :=
  Pipeline.scopedRest_split_of_list spec2 c [cc2_scratch0] (by decide) (by decide)

/-- The other scoped buffers, unopened: what the invariant carries beside the accumulator. -/
abbrev restBut2 (c : Dev nD) : sProp 𝕄 :=
  Pipeline.scopedRestBut (Ix := Unit) (Name := ℕ) (U := UR sig nD τ) (Lvl := ℕ) (Val := Elt F) spec2 c [cc2_scratch0]

/-- The region invariant the launch hands over, with the accumulator as a memref owned at some contents. -/
theorem PhiA2_eq (c : Dev nD) :
    (Pipeline.ΦA spec2 c : sProp 𝕄)
      = iprop(iprop((∃ d, owns (c : Thread nD τ) scM2_0 fullShare d) ∗ restBut2 (F := F) c) ∗ (∃ r, prngReg c r)) := by
  unfold Pipeline.ΦA; rw [scopedRest2_split]; simp only [scM2_0, owns_whole]; try rfl

end Cert.KernelIdeal.Gen

end
-- ==== Proof.KI.R2RunA.lean ====
/- The body of the third kernel run in the case k = 0 (the first conditional taken, the second not): the
   accumulator, at any contents, is zeroed and the point's product added; the output window is left untouched. The
   pieces the accumulator ends with are the witness the run finds. -/
import proofs.«152435_j1984274891532_2_alg».proof.Proof.KI.R2Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

set_option maxHeartbeats 1000000 in
noncomputable def kernelRun2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : cond2_0 i) (hc1 : ¬cond2_1 i)
    (x0 : Vec F S1024x1024 .bf16) (x1 : Vec F S1024x256 .f32) (x2 : Vec F S1024x256 .f32) (x3 : Vec F S1024x1 .f32) (x4 : Vec F S256x40 .f32) :
    { LS0 : List (View.Piece (Elt F) S1024x256 .f32) //
      ∀ (xi5 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc2__gcn2_kernel i arg2 harg2 arg3 harg3 arg4 harg4 arg5 harg5 arg6 harg6 arg7 harg7 arg8 harg8) K } := by
  refine ⟨?_, fun xi5 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dS, %fS, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS

end Cert.KernelIdeal.Gen

end
-- ==== Proof.KI.R2RunB.lean ====
/- The body of the third kernel run in the case 0 < k < 7 (neither conditional taken): the point's product is added
   to the accumulator, which the point before left at `xs0`; the output window is left untouched. The pieces the
   accumulator ends with are the witness the run finds. -/
import proofs.«152435_j1984274891532_2_alg».proof.Proof.KI.R2RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

-- (the run's proof term is large: the definition's epilogue walks it past the default budget)
set_option maxHeartbeats 1000000 in
noncomputable def kernelRun2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : ¬cond2_1 i)
    (x0 : Vec F S1024x1024 .bf16) (x1 : Vec F S1024x256 .f32) (x2 : Vec F S1024x256 .f32) (x3 : Vec F S1024x1 .f32) (x4 : Vec F S256x40 .f32) (xs0 : Vec F S1024x256 .f32) :
    { LS0 : List (View.Piece (Elt F) S1024x256 .f32) //
      ∀ (xi5 : Vec F S1024x40 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (arg8.view.loc (c : Thread nD τ) ↦[arg8.view.set]{fullShare} arg8.view.writes (Elt F) (harg8.unread xs0) LS0)) -∗ K ⟨⟩))
          ⊢ wp frame (wpE (defs₀ (F := F)) Variants.none c none) E (cc2__gcn2_kernel i arg2 harg2 arg3 harg3 arg4 harg4 arg5 harg5 arg6 harg6 arg7 harg7 arg8 harg8) K } := by
  refine ⟨?_, fun xi5 E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexact HS

end Cert.KernelIdeal.Gen

end
-- ==== Proof.KI.R2RunC.lean ====
/- The body of the third kernel run in the case k = 7 (the first conditional not taken, the second taken): the
   point's product is added to the accumulator, which the point before left at `xs0`, and the finished row block —
   self-loop term added, rows scaled, second weight matrix applied, relu and log-softmax — is stored into the output
   window, held at any contents. The pieces the output window and the accumulator end with are the witness. -/
import proofs.«152435_j1984274891532_2_alg».proof.Proof.KI.R2RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

-- (the run's proof term is large: the definition's epilogue walks it past the default budget)
set_option maxHeartbeats 1000000 in
noncomputable def kernelRun2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i)
    (x0 : Vec F S1024x1024 .bf16) (x1 : Vec F S1024x256 .f32) (x2 : Vec F S1024x256 .f32) (x3 : Vec F S1024x1 .f32) (x4 : Vec F S256x40 .f32) (xs0 : Vec F S1024x256 .f32) :
    Σ' (L5 : List (View.Piece (Elt F) S1024x40 .f32)), { LS0 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (arg8.view.loc (c : Thread nD τ) ↦[arg8.view.set]{fullShare} arg8.view.writes (Elt F) (harg8.unread xs0) LS0)) -∗ K ⟨⟩))
          ⊢ wp frame (wpE (defs₀ (F := F)) Variants.none c none) E (cc2__gcn2_kernel i arg2 harg2 arg3 harg3 arg4 harg4 arg5 harg5 arg6 harg6 arg7 harg7 arg8 harg8) K } := by
  refine ⟨?_, ?_, fun E K => ?run⟩
  case run =>
    simp only [cc2__gcn2_kernel_eq_skeleton]; unfold cc2__gcn2_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexact HS

end Cert.KernelIdeal.Gen

end
-- ==== Proof.KI.R2Data.lean ====
/- The third kernel (the second graph-convolution layer with its log-softmax): what each control case leaves in the
   accumulator and in the output window, the accumulator after each grid point (by recursion on the point: zeroed
   and refilled at k = 0, added to elsewhere), the proof data of the pipeline, the body obligation at a generic
   point, and the invariant's two ends. The region is entered at contents `V` of the core's buffers. -/
import proofs.«152435_j1984274891532_2_alg».proof.Proof.KI.R2RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

/-! ## What each case leaves -/

/-- Case k = 0: the accumulator's pieces (the zero fill, then the sum) cover it. -/
theorem scover2_A (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : cond2_0 i) (hc1 : ¬cond2_1 i) (x0 : Vec F S1024x1024 .bf16) (x1 : Vec F S1024x256 .f32) (x2 : Vec F S1024x256 .f32) (x3 : Vec F S1024x1 .f32) (x4 : Vec F S256x40 .f32) (y : S1024x256.Idx) :
    ∃ pc ∈ (kernelRun2_A c i arg2 harg2 arg3 harg3 arg4 harg4 arg5 harg5 arg6 harg6 arg7 harg7 arg8 harg8 hc0 hc1 x0 x1 x2 x3 x4).1, y ∈ pc.1.set :=
  View.cover_of_tiledL (kernelRun2_A c i arg2 harg2 arg3 harg3 arg4 harg4 arg5 harg5 arg6 harg6 arg7 harg7 arg8 harg8 hc0 hc1 x0 x1 x2 x3 x4).1 S1024x256.size (by sl_kernel_rfl) y

/-- What case k = 0 leaves in the accumulator: its pieces read back (they cover it, so over anything). -/
def sout2_A_0 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : cond2_0 i) (hc1 : ¬cond2_1 i) (x0 : Vec F S1024x1024 .bf16) (x1 : Vec F S1024x256 .f32) (x2 : Vec F S1024x256 .f32) (x3 : Vec F S1024x1 .f32) (x4 : Vec F S256x40 .f32) : Vec F S1024x256 .f32 :=
  VS2_0.read (Elt F) (VS2_0.writes (Elt F) VS2_0.junk (kernelRun2_A c i arg2 harg2 arg3 harg3 arg4 harg4 arg5 harg5 arg6 harg6 arg7 harg7 arg8 harg8 hc0 hc1 x0 x1 x2 x3 x4).1)

/-- Case 0 < k < 7: the accumulator's one piece (the sum) covers it. -/
theorem scover2_B (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : ¬cond2_1 i) (x0 : Vec F S1024x1024 .bf16) (x1 : Vec F S1024x256 .f32) (x2 : Vec F S1024x256 .f32) (x3 : Vec F S1024x1 .f32) (x4 : Vec F S256x40 .f32) (xs0 : Vec F S1024x256 .f32) (y : S1024x256.Idx) :
    ∃ pc ∈ (kernelRun2_B c i arg2 harg2 arg3 harg3 arg4 harg4 arg5 harg5 arg6 harg6 arg7 harg7 arg8 harg8 hc0 hc1 x0 x1 x2 x3 x4 xs0).1, y ∈ pc.1.set :=
  View.cover_of_tiledL (kernelRun2_B c i arg2 harg2 arg3 harg3 arg4 harg4 arg5 harg5 arg6 harg6 arg7 harg7 arg8 harg8 hc0 hc1 x0 x1 x2 x3 x4 xs0).1 S1024x256.size (by sl_kernel_rfl) y

/-- What case 0 < k < 7 leaves in the accumulator, handed it at `xs0`. -/
def sout2_B_0 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : ¬cond2_1 i) (x0 : Vec F S1024x1024 .bf16) (x1 : Vec F S1024x256 .f32) (x2 : Vec F S1024x256 .f32) (x3 : Vec F S1024x1 .f32) (x4 : Vec F S256x40 .f32) (xs0 : Vec F S1024x256 .f32) : Vec F S1024x256 .f32 :=
  VS2_0.read (Elt F) (VS2_0.writes (Elt F) VS2_0.junk (kernelRun2_B c i arg2 harg2 arg3 harg3 arg4 harg4 arg5 harg5 arg6 harg6 arg7 harg7 arg8 harg8 hc0 hc1 x0 x1 x2 x3 x4 xs0).1)

/-- Case k = 7: the accumulator's one piece covers it, -/
theorem scover2_C (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) (y : S1024x256.Idx) :
    ∃ pc ∈ (kernelRun2_C c i arg2 harg2 arg3 harg3 arg4 harg4 arg5 harg5 arg6 harg6 arg7 harg7 arg8 harg8 hc0 hc1 x0 x1 x2 x3 x4 xs0).2.1, y ∈ pc.1.set :=
  View.cover_of_tiledL (kernelRun2_C c i arg2 harg2 arg3 harg3 arg4 harg4 arg5 harg5 arg6 harg6 arg7 harg7 arg8 harg8 hc0 hc1 x0 x1 x2 x3 x4 xs0).2.1 S1024x256.size (by sl_kernel_rfl) y

/-- and the output window's one piece covers it. -/
theorem cover2_C_5 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) (y : S1024x40.Idx) :
    ∃ pc ∈ (kernelRun2_C c i arg2 harg2 arg3 harg3 arg4 harg4 arg5 harg5 arg6 harg6 arg7 harg7 arg8 harg8 hc0 hc1 x0 x1 x2 x3 x4 xs0).1, y ∈ pc.1.set :=
  View.cover_of_tiledL (kernelRun2_C c i arg2 harg2 arg3 harg3 arg4 harg4 arg5 harg5 arg6 harg6 arg7 harg7 arg8 harg8 hc0 hc1 x0 x1 x2 x3 x4 xs0).1 S1024x40.size (by sl_kernel_rfl) y

/-- What case k = 7 leaves in the accumulator, handed it at `xs0`, -/
def sout2_C_0 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) : Vec F S1024x256 .f32 :=
  VS2_0.read (Elt F) (VS2_0.writes (Elt F) VS2_0.junk (kernelRun2_C c i arg2 harg2 arg3 harg3 arg4 harg4 arg5 harg5 arg6 harg6 arg7 harg7 arg8 harg8 hc0 hc1 x0 x1 x2 x3 x4 xs0).2.1)

/-- and in the output window's staging buffer. -/
def out2_C_5 (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) : Vec F S1024x40 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs0).1)

/-! ## The accumulator after each point -/

/-- The two conditions at a point from its residue mod 8. -/
theorem hc2_0_of (t : Fin cfg2.N) (h : t.val % 8 = 0) : cond2_0 (grid2.coords t) := (hcond2_0 t).mpr h
theorem hnc2_0_of (t : Fin cfg2.N) (h : ¬t.val % 8 = 0) : ¬cond2_0 (grid2.coords t) := fun h' => h ((hcond2_0 t).mp h')
theorem hc2_1_of (t : Fin cfg2.N) (h : t.val % 8 = 7) : cond2_1 (grid2.coords t) := (hcond2_1 t).mpr h
theorem hnc2_1_of (t : Fin cfg2.N) (h : ¬t.val % 8 = 7) : ¬cond2_1 (grid2.coords t) := fun h' => h ((hcond2_1 t).mp h')

/-- What the accumulator holds after the body at position `n`: the case the closed forms select at `n`, run at the
    point's memrefs and input blocks, handed (where it reads it) what this leaves at `n - 1`. -/
def accAt2 (c : Dev nD) : (n : ℕ) → n < cfg2.N → Vec F S1024x256 .f32
  | 0, hn => sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) (hc2_0_of ⟨0, hn⟩ rfl) (hnc2_1_of ⟨0, hn⟩ (show ¬(0 % 8 = 7) from by decide)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn =>
    if h0 : (n + 1) % 8 = 0 then
      sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (hc2_0_of ⟨n + 1, hn⟩ h0) (hnc2_1_of ⟨n + 1, hn⟩ (fun h => by dsimp only at h; omega)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    else if h7 : (n + 1) % 8 = 7 then
      sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (hnc2_0_of ⟨n + 1, hn⟩ h0) (hc2_1_of ⟨n + 1, hn⟩ h7) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn))
    else
      sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (hnc2_0_of ⟨n + 1, hn⟩ h0) (hnc2_1_of ⟨n + 1, hn⟩ h7) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn))

/-- What point `n` finds in the accumulator: what the point before left (nothing named before the first point). -/
def prev2 (c : Dev nD) : (n : ℕ) → n ≤ cfg2.N → Vec F S1024x256 .f32
  | 0, _ => VS2_0.read (Elt F) VS2_0.junk
  | n + 1, hn => accAt2 V c n hn

/-- `accAt2` at a point with k = 0. -/
theorem accAt2_A (c : Dev nD) (t : Fin cfg2.N) (h0 : t.val % 8 = 0) (h7 : ¬t.val % 8 = 7) :
    accAt2 V c t.val t.isLt = sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hc2_0_of t h0) (hnc2_1_of t h7) (iblk2 V c 0 t) (iblk2 V c 1 t) (iblk2 V c 2 t) (iblk2 V c 3 t) (iblk2 V c 4 t) := by
  obtain ⟨n, hn⟩ := t
  cases n with
  | zero => exact rfl
  | succ n => exact (dif_pos h0).trans rfl

/-- `accAt2` at a point with 0 < k < 7: over what the point before left. -/
theorem accAt2_B (c : Dev nD) (t : Fin cfg2.N) (h0 : ¬t.val % 8 = 0) (h7 : ¬t.val % 8 = 7) :
    accAt2 V c t.val t.isLt = sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hnc2_0_of t h0) (hnc2_1_of t h7) (iblk2 V c 0 t) (iblk2 V c 1 t) (iblk2 V c 2 t) (iblk2 V c 3 t) (iblk2 V c 4 t) (prev2 V c t.val (Nat.le_of_lt t.isLt)) := by
  obtain ⟨n, hn⟩ := t
  cases n with
  | zero => exact absurd rfl h0
  | succ n => exact (dif_neg h0).trans ((dif_neg h7).trans rfl)

/-- `accAt2` at a point with k = 7: over what the point before left. -/
theorem accAt2_C (c : Dev nD) (t : Fin cfg2.N) (h0 : ¬t.val % 8 = 0) (h7 : t.val % 8 = 7) :
    accAt2 V c t.val t.isLt = sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hnc2_0_of t h0) (hc2_1_of t h7) (iblk2 V c 0 t) (iblk2 V c 1 t) (iblk2 V c 2 t) (iblk2 V c 3 t) (iblk2 V c 4 t) (prev2 V c t.val (Nat.le_of_lt t.isLt)) := by
  obtain ⟨n, hn⟩ := t
  cases n with
  | zero => exact absurd rfl h0
  | succ n => exact (dif_neg h0).trans ((dif_pos h7).trans rfl)

/-- What the output window's staging buffer holds after the body at point `t`: where k = 7 the finished row block
    over what the point before left in the accumulator; elsewhere nothing named (the window is idle there). -/
def outAt2 (c : Dev nD) (t : Fin cfg2.N) : Vec F S1024x40 .f32 :=
  if h7 : t.val % 8 = 7 then
    out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hnc2_0_of t (by omega)) (hc2_1_of t h7) (iblk2 V c 0 t) (iblk2 V c 1 t) (iblk2 V c 2 t) (iblk2 V c 3 t) (iblk2 V c 4 t) (prev2 V c t.val (Nat.le_of_lt t.isLt))
  else VO2_5.read (Elt F) VO2_5.junk

/-- The region invariant before position `n`: the accumulator at what point `n` finds (at anything before the first
    point), the other scoped buffers unopened, the generator register at some state. -/
def PhiS2 (c : Dev nD) (n : ℕ) (h : n ≤ cfg2.N) : sProp 𝕄 :=
  iprop(iprop((∃ d, ⌜n ≠ 0 → d = prev2 V c n h⌝ ∗ owns (c : Thread nD τ) scM2_0 fullShare d) ∗ restBut2 (F := F) c) ∗ (∃ r, prngReg c r))

/-! ## The pipeline's proof data -/

/-- The proof data of the pipeline on core `c`: the arrays as the region finds them; after the body at point `t`
    each input's buffer at its block and the output's at `outAt2`; the invariant `PhiS2`; nothing owed; full shares,
    except that the two windows reading the scaled features hold one half of that array each. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outAt2 V c t
  Φ t := PhiS2 V c t.val (Nat.le_of_lt_succ t.isLt)
  q w := match w with
    | ⟨1, _⟩ => fullShare.left
    | ⟨2, _⟩ => fullShare.right
    | _ => fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outAt2 V c t := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 3200000 in
/-- The body at any point: the inputs' memrefs hold their blocks; the residue of the point mod 8 says which case it
    is in; the invariant hands the body the accumulator at what the point finds and takes it back at this point's
    contents; where k = 7 the output window is the proof data's term, elsewhere it is handed back untouched; the
    core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_castSucc V c t]
  unfold PhiS2
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  by_cases h0 : t.val % 8 = 0
  · have h7 : ¬t.val % 8 = 7 := by omega
    rw [Dat.leavesExact_idle (dat2 V c) 5 t (idleAt2_5 t (hnc2_1_of t h7)) (noFlush2_5 t (hnc2_1_of t h7))]
    iintro ⟨⟨⟨⟨%dS, -, HS⟩, HR⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ (hc2_0_of t h0) (hnc2_1_of t h7) (iblk2 V c 0 t) (iblk2 V c 1 t) (iblk2 V c 2 t) (iblk2 V c 3 t) (iblk2 V c 4 t)).2 _ Set.univ _)
    isplitl [H0]; · iexact H0
    isplitl [H1]; · iexact H1
    isplitl [H2]; · iexact H2
    isplitl [H3]; · iexact H3
    isplitl [H4]; · iexact H4
    isplitl [H5]; · iexact H5
    isplitl [HS]; · iexists _; iexact HS
    iintro ⟨H0, H1, H2, H3, H4, H5, ⟨%fS, HS⟩⟩
    isplitl [HS HR Hg]
    · isplitl [HS HR]
      · isplitl [HS]
        · iexists (accAt2 V c t.val t.isLt); isplitr
          · ipureintro; intro _; rfl
          rw [accAt2_A V c t h0 h7]; unfold sout2_A_0 owns
          iexists _; isplitr
          swap; · iexact HS
          ipureintro; exact View.read_writes_of_cover _ _ _ _ _ (scover2_A c _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · by_cases h7 : t.val % 8 = 7
    · rw [show (dat2 V c).leavesExact 5 t = owns (c : Thread nD τ) (ms2_5 t) fullShare ((dat2 V c).after 5 t) from by
        unfold Dat.leavesExact; rw [liveAt2_5 t (hc2_1_of t h7)], after2_5]
      iintro ⟨⟨⟨⟨%dS, %hdS, HS⟩, HR⟩, Hg⟩, Ho, ⟨%d0, H0⟩, ⟨%d1, H1⟩, ⟨%d2, H2⟩, ⟨%d3, H3⟩, ⟨%d4, H4⟩, ⟨%d5, H5⟩⟩
      obtain rfl := hdS (fun h => h0 (by rw [h]))
      rw [show outAt2 V c t = out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hnc2_0_of t h0) (hc2_1_of t h7) (iblk2 V c 0 t) (iblk2 V c 1 t) (iblk2 V c 2 t) (iblk2 V c 3 t) (iblk2 V c 4 t) (prev2 V c t.val (Nat.le_of_lt t.isLt)) from dif_pos h7]
      unfold out2_C_5
      iapply ((kernelRun2_C c (grid2.coords t) _ _ _ _ _ _ _ _ _ _ _ _ _ _ (hnc2_0_of t h0) (hc2_1_of t h7) (iblk2 V c 0 t) (iblk2 V c 1 t) (iblk2 V c 2 t) (iblk2 V c 3 t) (iblk2 V c 4 t) (prev2 V c t.val (Nat.le_of_lt t.isLt))).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%e5, H5⟩, HS⟩
      isplitl [HS HR Hg]
      · isplitl [HS HR]
        · isplitl [HS]
          · iexists (accAt2 V c t.val t.isLt); isplitr
            · ipureintro; intro _; rfl
            rw [accAt2_C V c t h0 h7]; unfold sout2_C_0 owns
            iexists _; isplitr
            swap; · iexact HS
            ipureintro; exact View.read_writes_of_cover _ _ _ _ _ (scover2_C c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _ _ _)
    · rw [Dat.leavesExact_idle (dat2 V c) 5 t (idleAt2_5 t (hnc2_1_of t h7)) (noFlush2_5 t (hnc2_1_of t h7))]
      iintro ⟨⟨⟨⟨%dS, %hdS, HS⟩, HR⟩, Hg⟩, Ho, ⟨%d0, H0⟩, ⟨%d1, H1⟩, ⟨%d2, H2⟩, ⟨%d3, H3⟩, ⟨%d4, H4⟩, ⟨%d5, H5⟩⟩
      obtain rfl := hdS (fun h => h0 (by rw [h]))
      iapply ((kernelRun2_B c (grid2.coords t) _ _ _ _ _ _ _ _ _ _ _ _ _ _ (hnc2_0_of t h0) (hnc2_1_of t h7) (iblk2 V c 0 t) (iblk2 V c 1 t) (iblk2 V c 2 t) (iblk2 V c 3 t) (iblk2 V c 4 t) (prev2 V c t.val (Nat.le_of_lt t.isLt))).2 _ Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS HR Hg]
      · isplitl [HS HR]
        · isplitl [HS]
          · iexists (accAt2 V c t.val t.isLt); isplitr
            · ipureintro; intro _; rfl
            rw [accAt2_B V c t h0 h7]; unfold sout2_B_0 owns
            iexists _; isplitr
            swap; · iexact HS
            ipureintro; exact View.read_writes_of_cover _ _ _ _ _ (scover2_B c _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, at whatever the accumulator holds. -/
theorem hin2 (c : Dev nD) : Pipeline.ΦA spec2 c ⊢ (dat2 V c).Φ 0 := by
  rw [show (dat2 V c).Φ 0 = PhiS2 V c 0 (Nat.zero_le _) from rfl, PhiA2_eq]
  unfold PhiS2
  iintro ⟨⟨⟨%dS, HS⟩, HR⟩, Hg⟩
  isplitl [HS HR]
  · isplitl [HS]
    · iexists dS; isplitr
      · ipureintro; intro h; exact absurd rfl h
      iexact HS
    iexact HR
  iexact Hg

/-- After the last point the invariant gives it back: what the accumulator holds is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  unfold PhiS2
  iintro ⟨⟨⟨%dS, -, HS⟩, HR⟩, Hg⟩
  isplitl [HS HR]
  · isplitl [HS]
    · iexists _; iexact HS
    iexact HR
  iexact Hg

end Cert.KernelIdeal.Gen

end
-- ==== Proof.KI.Inst.lean ====
/- The kernel program's run and frame, at the three regions' proof data: the assembled run instantiated
   with each region's data, body obligation and invariant lemmas; the facts about shares, owed tallies and
   recorded pairs are read off the data's literal fields. -/
import proofs.«152435_j1984274891532_2_alg».proof.Proof.KI.Assembly
import proofs.«152435_j1984274891532_2_alg».proof.Proof.KI.R0Data
import proofs.«152435_j1984274891532_2_alg».proof.Proof.KI.R1Data
import proofs.«152435_j1984274891532_2_alg».proof.Proof.KI.R2Data

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every window of region 0 holds its array at the full share. -/
theorem hq0_r (V : Cont F) (c : Dev nD) (w : Fin cfg0.W) : (dat0 V c).q w = fullShare := rfl
/-- No region's core owes anything at any point. -/
theorem how0_r (V : Cont F) (c : Dev nD) (t : Fin (cfg0.N + 1)) : (dat0 V c).owed t = 0 := rfl
theorem how1_r (V : Cont F) (c : Dev nD) (t : Fin (cfg1.N + 1)) : (dat1 V c).owed t = 0 := rfl
theorem how2_r (V : Cont F) (c : Dev nD) (t : Fin (cfg2.N + 1)) : (dat2 V c).owed t = 0 := rfl
/-- No region bounds the recorded pairs. -/
theorem hrec0_r (V : Cont F) (c : Dev nD) (t : Fin (cfg0.N + 1)) : (dat0 V c).recorded t = Set.univ := rfl
theorem hrec1_r (V : Cont F) (c : Dev nD) (t : Fin (cfg1.N + 1)) : (dat1 V c).recorded t = Set.univ := rfl
theorem hrec2_r (V : Cont F) (c : Dev nD) (t : Fin (cfg2.N + 1)) : (dat2 V c).recorded t = Set.univ := rfl
/-- Regions 1 and 2 read the scaled features through windows 1 and 2, which hold the two halves of that
    array's share; every other window, and the output, the full share. -/
theorem hsh1_r (V : Cont F) (c : Dev nD) : (dat1 V c).share 0 = fullShare ∧ (dat1 V c).share 1 = fullShare.left ∧ (dat1 V c).share 2 = fullShare.right ∧ (dat1 V c).share 3 = fullShare ∧ (dat1 V c).share 4 = fullShare ∧ (dat1 V c).share 5 = fullShare :=
  ⟨rfl, rfl, rfl, rfl, rfl, rfl⟩
theorem hsh2_r (V : Cont F) (c : Dev nD) : (dat2 V c).share 0 = fullShare ∧ (dat2 V c).share 1 = fullShare.left ∧ (dat2 V c).share 2 = fullShare.right ∧ (dat2 V c).share 3 = fullShare ∧ (dat2 V c).share 4 = fullShare ∧ (dat2 V c).share 5 = fullShare :=
  ⟨rfl, rfl, rfl, rfl, rfl, rfl⟩

variable (m : (ℓ : Loc nD τ sig) → Buf (Elt F) ℓ) (ρ : Dev nD → PrngReg)

/-- THE RUN at the regions' data: every weakly fair execution terminates, nothing faulting; the result array
    ends at what region 2's write-backs leave — its data read at the contents the two host stretches and
    regions 0 and 1 produce from the launch contents — and the four arguments end as launched. -/
theorem run : θ_run defs (onTc (τ := τ) (main (F := F))) ⟨m, fun _ => 0, ρ⟩ (fun r => ∀ c : Dev nD,
      r.2.mem ((c.tc : Thread nD τ).loc main_v11) = (dat2 (C4 (dat0 (F := F)) (dat1 (F := F)) m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_main (dat0 (F := F)) (dat1 (F := F)) (dat2 (F := F)) A_eq0 A_eq1 A_eq2 body_obligation0 body_obligation1 body_obligation2
    hin0 hin1 hin2 hout0 hout1 hout2 hq0_r how0_r how1_r how2_r hsh1_r hsh2_r hrec0_r hrec1_r hrec2_r m ρ

/-- THE FRAME: the program runs and its four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Gen

end
-- ==== Proof.RefStages.lean ====
/-
  The reference program's result as a short chain of NAMED stages of its argument arrays: the identity matrix from two
  iotas, `Â = A + I`, its row sums, their power `-1/2`, the normalised adjacency, the two layers
  (product, product, relu) and the row-wise log-softmax. Each stage is one or a few of the program's operations
  applied to earlier stages, so a stage used several times is stated once.
-/
import proofs.«152435_j1984274891532_2_alg».proof.ReferenceIdeal
import Idealize.ShloMosaic.PureOps.Ideal

noncomputable section

namespace Cert.ReferenceIdeal.RefValue

open Cert.ReferenceIdeal Idealize.ShloMosaic

variable [Cert.ReferenceIdeal.Facts]
open Cert.ReferenceIdeal.Facts₀ Cert.ReferenceIdeal.Facts

variable {F : FTy → Type} [FloatOps F]

/-- The identity matrix: `1` where the row index equals the column index. -/
def sEye : FVec F S8192x8192 .f32 :=
  uitofp .f32 (cmpi .eq (addi (iotaInDim S8192x8192 32 0) (broadcastInDim S8192x8192 ![] bcast_S_S8192x8192 (constantI S_ 32 0#32))) (iotaInDim S8192x8192 32 1))
/-- `Â = A + I`. -/
def sAhat (adj : FVec F S8192x8192 .f32) : FVec F S8192x8192 .f32 := addf adj sEye
/-- The row sums of `Â`. -/
def sDeg (adj : FVec F S8192x8192 .f32) : FVec F S8192 .f32 :=
  Host.reduceAdd (sAhat adj) (constant S_ .f32 0x00000000#32) reducesTo_S8192x8192_S8192_d1 h_S_
/-- `deg ^ (-1/2)`. -/
def sD (adj : FVec F S8192x8192 .f32) : FVec F S8192 .f32 :=
  Host.powf (sDeg adj) (broadcastInDim S8192 ![] bcast_S_S8192 (constant S_ .f32 0xBF000000#32))
/-- The normalised adjacency `(d i · Â i j) · d j`. -/
def sNorm (adj : FVec F S8192x8192 .f32) : FVec F S8192x8192 .f32 :=
  mulf (mulf (broadcastInDim S8192x8192 ![0, 1] bcast_S8192x1_S8192x8192_0_1 (broadcastInDim S8192x1 ![0] bcast_S8192_S8192x1_0 (sD adj))) (sAhat adj))
    (broadcastInDim S8192x8192 ![0, 1] bcast_S1x8192_S8192x8192_0_1 (broadcastInDim S1x8192 ![1] bcast_S8192_S1x8192_1 (sD adj)))
/-- The first layer: `relu ((N x) W1)`. -/
def sHid (x : FVec F S8192x512 .f32) (adj : FVec F S8192x8192 .f32) (W1 : FVec F S512x256 .f32) : FVec F S8192x256 .f32 :=
  maximumf (Host.dotGeneral dot_S8192x512_S512x256_S8192x256_1_0_0_1_n_n none (Host.dotGeneral dot_S8192x8192_S8192x512_S8192x512_1_0_0_1_n_n none (sNorm adj) x) W1)
    (broadcastInDim S8192x256 ![] bcast_S_S8192x256 (constant S_ .f32 0x00000000#32))
/-- The second layer: `relu ((N h) W2)`. -/
def sLogit (x : FVec F S8192x512 .f32) (adj : FVec F S8192x8192 .f32) (W1 : FVec F S512x256 .f32) (W2 : FVec F S256x40 .f32) : FVec F S8192x40 .f32 :=
  maximumf (Host.dotGeneral dot_S8192x256_S256x40_S8192x40_1_0_0_1_n_n none (Host.dotGeneral dot_S8192x8192_S8192x256_S8192x256_1_0_0_1_n_n none (sNorm adj) (sHid x adj W1)) W2)
    (broadcastInDim S8192x40 ![] bcast_S_S8192x40 (constant S_ .f32 0x00000000#32))
/-- The logits less their row maximum. -/
def sShift (l : FVec F S8192x40 .f32) : FVec F S8192x40 .f32 :=
  subf l (broadcastInDim S8192x40 ![0, 1] bcast_S8192x1_S8192x40_0_1 (broadcastInDim S8192x1 ![0] bcast_S8192_S8192x1_0
    (maximumf (broadcastInDim S8192 ![] bcast_S_S8192 (constant S_ .f32 0xFF800000#32)) (Host.reduce FloatOps.maximumf l (constant S_ .f32 0xFF800000#32) reducesTo_S8192x40_S8192_d1 h_S_))))
/-- The row-wise log-softmax: the shifted logits less the logarithm of the row sum of their exponentials. -/
def sLsm (l : FVec F S8192x40 .f32) : FVec F S8192x40 .f32 :=
  subf (sShift l) (broadcastInDim S8192x40 ![0, 1] bcast_S8192x1_S8192x40_0_1 (Host.log (broadcastInDim S8192x1 ![0] bcast_S8192_S8192x1_0
    (Host.reduceAdd (Host.exp (sShift l)) (constant S_ .f32 0x00000000#32) reducesTo_S8192x40_S8192_d1 h_S_))))
/-- The reference's result. -/
def refOut (x : FVec F S8192x512 .f32) (adj : FVec F S8192x8192 .f32) (W1 : FVec F S512x256 .f32) (W2 : FVec F S256x40 .f32) : FVec F S8192x40 .f32 :=
  sLsm (sLogit x adj W1 W2)

end Cert.ReferenceIdeal.RefValue

end
-- ==== Proof.LibLineParts.lean ====
/-
  A straight line of host operations run in parts, and contents carried through a typed reference.

  * `after_append`: the buffer contents after a line `a ++ b` of host operations are the contents after `b` run from the
    contents after `a`.  A long line can so be read in stretches — the first up to the values a later stretch needs, the
    later stretch over ANY contents of those buffers — which keeps each stretch's composed term small.
  * `ofBuf_toBuf`: an outlined helper's lines address their buffers through typed references, moving a value to the
    buffer's own type when it is written and back when it is read; the value moved there and back is the value.  (For a
    single move at a literal reference, state `(TRef.of r).toBuf Y = Y` over a variable `Y` and prove it by `rfl`.)
-/
import Idealize.ShloMosaic.Lib.StableHlo.Run

namespace Cert.LibLineParts

open Idealize.ShloMosaic Idealize.ShloMosaic.StableHlo

variable {τ : Topo} {sig : RefSig} {Val : EltTy → Type}

/-- A line run in two parts. -/
theorem after_append : ∀ (a b : List (HloOp τ sig Val)) (V : Valuation τ sig Val),
    after (a ++ b) V = after b (after a V)
  | [], _, _ => rfl
  | o :: a, b, V => after_append a b (o.result V)

/-- Contents moved to a typed reference's buffer type and back are the contents. -/
theorem ofBuf_toBuf {T : BufTy} (x : TRef sig T) (Y : T.Contents Val) : x.ofBuf (x.toBuf Y) = Y := by
  obtain ⟨r, h, h2, h3⟩ := x
  subst h
  rfl

end Cert.LibLineParts
-- ==== Proof.RefRun.lean ====
/-
  The reference program's run, read in stretches.  Its line of operations is cut where a named stage of the result is
  complete (the matrix with self-loops, the degree scaling, the normalised adjacency, the two layers, the shifted logits, the
  log-softmax).  Each stretch is read over ARBITRARY starting contents: at its last buffer it leaves one stage applied to the
  contents of the buffers it reads, and it leaves every buffer it does not write as it was.  Chaining the stretches gives the
  result buffer as the chain of named stages of the argument arrays, without ever writing the composed term out.
-/
import proofs.«152435_j1984274891532_2_alg».proof.Proof.RefStages
import Idealize.ShloMosaic.Lib.StableHlo.Run
import proofs.«152435_j1984274891532_2_alg».proof.Proof.LibLineParts

noncomputable section

namespace Cert.ReferenceIdeal.RefValue

open Cert.ReferenceIdeal Idealize.ShloMosaic Idealize.ShloMosaic.TcCoe Idealize.SL.Sem Idealize.ShloMosaic.StableHlo

variable [Cert.ReferenceIdeal.Facts]
open Cert.ReferenceIdeal.Facts₀ Cert.ReferenceIdeal.Facts

variable {F : FTy → Type} [FloatOps F]

/-! ## The stretches -/

/-- The matrix with self-loops: the identity from two index arrays, added to the adjacency. -/
def pA : List (HloOp τ sig (Elt F)) :=
  [ nullary main_v0 (iotaInDim S8192x8192 32 0),
    nullary main_v1 (iotaInDim S8192x8192 32 1),
    nullary main_c (constantI S_ 32 0#32),
    unary main_c main_v2 (broadcastInDim S8192x8192 ![] bcast_S_S8192x8192 : (⟨S_, .i32⟩ : BufTy).Contents (Elt F) → (⟨S8192x8192, .i32⟩ : BufTy).Contents (Elt F)),
    binary main_v0 main_v2 main_v3 (addi : (⟨S8192x8192, .i32⟩ : BufTy).Contents (Elt F) → (⟨S8192x8192, .i32⟩ : BufTy).Contents (Elt F) → (⟨S8192x8192, .i32⟩ : BufTy).Contents (Elt F)),
    binary main_v3 main_v1 main_v4 (cmpi .eq : (⟨S8192x8192, .i32⟩ : BufTy).Contents (Elt F) → (⟨S8192x8192, .i32⟩ : BufTy).Contents (Elt F) → (⟨S8192x8192, .i1⟩ : BufTy).Contents (Elt F)),
    unary main_v4 main_v5 (uitofp .f32 : (⟨S8192x8192, .i1⟩ : BufTy).Contents (Elt F) → (⟨S8192x8192, .f32⟩ : BufTy).Contents (Elt F)),
    binary main_arg1 main_v5 main_v6 (addf : (⟨S8192x8192, .f32⟩ : BufTy).Contents (Elt F) → (⟨S8192x8192, .f32⟩ : BufTy).Contents (Elt F) → (⟨S8192x8192, .f32⟩ : BufTy).Contents (Elt F)) ]

/-- The degree scaling: the row sums and their power `-1/2`. -/
def pB : List (HloOp τ sig (Elt F)) :=
  [ nullary main_cst (constant S_ .f32 0x00000000#32),
    binary main_v6 main_cst main_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_0 (constant S_ .f32 0xBF000000#32),
    unary main_cst_0 main_v8 (broadcastInDim S8192 ![] bcast_S_S8192 : (⟨S_, .f32⟩ : BufTy).Contents (Elt F) → (⟨S8192, .f32⟩ : BufTy).Contents (Elt F)),
    binary main_v7 main_v8 main_v9 (Host.powf : (⟨S8192, .f32⟩ : BufTy).Contents (Elt F) → (⟨S8192, .f32⟩ : BufTy).Contents (Elt F) → (⟨S8192, .f32⟩ : BufTy).Contents (Elt F)) ]

/-- The normalised adjacency: rows and columns scaled. -/
def pC : List (HloOp τ sig (Elt F)) :=
  [ unary main_v9 main_v10 (broadcastInDim S8192x1 ![0] bcast_S8192_S8192x1_0 : (⟨S8192, .f32⟩ : BufTy).Contents (Elt F) → (⟨S8192x1, .f32⟩ : BufTy).Contents (Elt F)),
    unary main_v10 main_v11 (broadcastInDim S8192x8192 ![0, 1] bcast_S8192x1_S8192x8192_0_1 : (⟨S8192x1, .f32⟩ : BufTy).Contents (Elt F) → (⟨S8192x8192, .f32⟩ : BufTy).Contents (Elt F)),
    binary main_v11 main_v6 main_v12 (mulf : (⟨S8192x8192, .f32⟩ : BufTy).Contents (Elt F) → (⟨S8192x8192, .f32⟩ : BufTy).Contents (Elt F) → (⟨S8192x8192, .f32⟩ : BufTy).Contents (Elt F)),
    unary main_v9 main_v13 (broadcastInDim S1x8192 ![1] bcast_S8192_S1x8192_1 : (⟨S8192, .f32⟩ : BufTy).Contents (Elt F) → (⟨S1x8192, .f32⟩ : BufTy).Contents (Elt F)),
    unary main_v13 main_v14 (broadcastInDim S8192x8192 ![0, 1] bcast_S1x8192_S8192x8192_0_1 : (⟨S1x8192, .f32⟩ : BufTy).Contents (Elt F) → (⟨S8192x8192, .f32⟩ : BufTy).Contents (Elt F)),
    binary main_v12 main_v14 main_v15 (mulf : (⟨S8192x8192, .f32⟩ : BufTy).Contents (Elt F) → (⟨S8192x8192, .f32⟩ : BufTy).Contents (Elt F) → (⟨S8192x8192, .f32⟩ : BufTy).Contents (Elt F)) ]

/-- The first layer: two products and the positive part. -/
def pD : List (HloOp τ sig (Elt F)) :=
  [ binary main_v15 main_arg0 main_v16 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    binary main_v16 main_arg2 main_v17 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x256, .f32⟩) main_call0_v0) (broadcastInDim S8192x256 ![] bcast_S_S8192x256),
    TRef.binary (TRef.of (T := ⟨S8192x256, .f32⟩) main_v17) (TRef.of (T := ⟨S8192x256, .f32⟩) main_call0_v0) (TRef.of (T := ⟨S8192x256, .f32⟩) main_v18) maximumf ]

/-- The second layer: two products and the positive part. -/
def pE : List (HloOp τ sig (Elt F)) :=
  [ binary main_v15 main_v18 main_v19 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v19 main_arg3 main_v20 ((fun l r => Host.dotGeneral dot_S8192x256_S256x40_S8192x40_1_0_0_1_n_n none l r) : (⟨S8192x256, .f32⟩ : BufTy).Contents (Elt F) → (⟨S256x40, .f32⟩ : BufTy).Contents (Elt F) → (⟨S8192x40, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x40, .f32⟩) main_call1_v0) (broadcastInDim S8192x40 ![] bcast_S_S8192x40),
    TRef.binary (TRef.of (T := ⟨S8192x40, .f32⟩) main_v20) (TRef.of (T := ⟨S8192x40, .f32⟩) main_call1_v0) (TRef.of (T := ⟨S8192x40, .f32⟩) main_v21) maximumf ]

/-- The logits less their row maximum. -/
def pF : List (HloOp τ sig (Elt F)) :=
  [ TRef.nullary (TRef.of (T := ⟨S_, .f32⟩) main_call2_cst) (constant S_ .f32 0xFF800000#32),
    TRef.binary (TRef.of (T := ⟨S8192x40, .f32⟩) main_v21) (TRef.of (T := ⟨S_, .f32⟩) main_call2_cst) (TRef.of (T := ⟨S8192, .f32⟩) main_call2_v0) (fun x v => Host.reduce FloatOps.maximumf x v reducesTo_S8192x40_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x40, .f32⟩) main_call2_v4) (broadcastInDim S8192x40 ![0, 1] bcast_S8192x1_S8192x40_0_1),
    TRef.binary (TRef.of (T := ⟨S8192x40, .f32⟩) main_v21) (TRef.of (T := ⟨S8192x40, .f32⟩) main_call2_v4) (TRef.of (T := ⟨S8192x40, .f32⟩) main_call2_v5) subf ]

/-- The log-softmax: the shifted logits less the logarithm of the row sum of their exponentials. -/
def pG : List (HloOp τ sig (Elt F)) :=
  [ TRef.unary (TRef.of (T := ⟨S8192x40, .f32⟩) main_call2_v5) (TRef.of (T := ⟨S8192x40, .f32⟩) main_call2_v6) Host.exp,
    TRef.nullary (TRef.of (T := ⟨S_, .f32⟩) main_call2_cst_1) (constant S_ .f32 0x00000000#32),
    TRef.binary (TRef.of (T := ⟨S8192x40, .f32⟩) main_call2_v6) (TRef.of (T := ⟨S_, .f32⟩) main_call2_cst_1) (TRef.of (T := ⟨S8192, .f32⟩) main_call2_v7) (fun x v => Host.reduceAdd x v reducesTo_S8192x40_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x40, .f32⟩) main_call2_v10) (broadcastInDim S8192x40 ![0, 1] bcast_S8192x1_S8192x40_0_1),
    TRef.binary (TRef.of (T := ⟨S8192x40, .f32⟩) main_call2_v5) (TRef.of (T := ⟨S8192x40, .f32⟩) main_call2_v10) (TRef.of (T := ⟨S8192x40, .f32⟩) main_v22) subf ]

/-! ## A value moved to a buffer's own type, or back, at a literal buffer is the value -/

theorem ofBuf_v17 (Y : FVec F S8192x256 .f32) : (TRef.of (T := ⟨S8192x256, .f32⟩) main_v17).ofBuf (Val := Elt F) Y = Y := rfl
theorem toBuf_v18 (Y : FVec F S8192x256 .f32) : (TRef.of (T := ⟨S8192x256, .f32⟩) main_v18).toBuf (Val := Elt F) Y = Y := rfl
theorem ofBuf_v20 (Y : FVec F S8192x40 .f32) : (TRef.of (T := ⟨S8192x40, .f32⟩) main_v20).ofBuf (Val := Elt F) Y = Y := rfl
theorem toBuf_v21 (Y : FVec F S8192x40 .f32) : (TRef.of (T := ⟨S8192x40, .f32⟩) main_v21).toBuf (Val := Elt F) Y = Y := rfl
theorem ofBuf_v21 (Y : FVec F S8192x40 .f32) : (TRef.of (T := ⟨S8192x40, .f32⟩) main_v21).ofBuf (Val := Elt F) Y = Y := rfl
theorem toBuf_c2v5 (Y : FVec F S8192x40 .f32) : (TRef.of (T := ⟨S8192x40, .f32⟩) main_call2_v5).toBuf (Val := Elt F) Y = Y := rfl
theorem ofBuf_c2v5 (Y : FVec F S8192x40 .f32) : (TRef.of (T := ⟨S8192x40, .f32⟩) main_call2_v5).ofBuf (Val := Elt F) Y = Y := rfl
theorem toBuf_v22 (Y : FVec F S8192x40 .f32) : (TRef.of (T := ⟨S8192x40, .f32⟩) main_v22).toBuf (Val := Elt F) Y = Y := rfl

/-! ## Each stretch over arbitrary starting contents -/

theorem pA_v6 (V : Valuation τ sig (Elt F)) :
    after pA V (main_v6 : DevRef τ sig) = sAhat (V (main_arg1 : DevRef τ sig)) := by
  unfold pA; after_results_simp; rfl
theorem pA_arg0 (V : Valuation τ sig (Elt F)) : after pA V (main_arg0 : DevRef τ sig) = V (main_arg0 : DevRef τ sig) := by
  unfold pA; after_results_simp
theorem pA_arg2 (V : Valuation τ sig (Elt F)) : after pA V (main_arg2 : DevRef τ sig) = V (main_arg2 : DevRef τ sig) := by
  unfold pA; after_results_simp
theorem pA_arg3 (V : Valuation τ sig (Elt F)) : after pA V (main_arg3 : DevRef τ sig) = V (main_arg3 : DevRef τ sig) := by
  unfold pA; after_results_simp

theorem pB_v9 (V : Valuation τ sig (Elt F)) (adj : FVec F S8192x8192 .f32) (h6 : V (main_v6 : DevRef τ sig) = sAhat adj) :
    after pB V (main_v9 : DevRef τ sig) = sD adj := by
  unfold pB; after_results_simp; rw [h6]; rfl
theorem pB_v6 (V : Valuation τ sig (Elt F)) : after pB V (main_v6 : DevRef τ sig) = V (main_v6 : DevRef τ sig) := by
  unfold pB; after_results_simp
theorem pB_arg0 (V : Valuation τ sig (Elt F)) : after pB V (main_arg0 : DevRef τ sig) = V (main_arg0 : DevRef τ sig) := by
  unfold pB; after_results_simp
theorem pB_arg2 (V : Valuation τ sig (Elt F)) : after pB V (main_arg2 : DevRef τ sig) = V (main_arg2 : DevRef τ sig) := by
  unfold pB; after_results_simp
theorem pB_arg3 (V : Valuation τ sig (Elt F)) : after pB V (main_arg3 : DevRef τ sig) = V (main_arg3 : DevRef τ sig) := by
  unfold pB; after_results_simp

theorem pC_v15 (V : Valuation τ sig (Elt F)) (adj : FVec F S8192x8192 .f32) (h6 : V (main_v6 : DevRef τ sig) = sAhat adj)
    (h9 : V (main_v9 : DevRef τ sig) = sD adj) : after pC V (main_v15 : DevRef τ sig) = sNorm adj := by
  unfold pC; after_results_simp; rw [h6, h9]; rfl
theorem pC_arg0 (V : Valuation τ sig (Elt F)) : after pC V (main_arg0 : DevRef τ sig) = V (main_arg0 : DevRef τ sig) := by
  unfold pC; after_results_simp
theorem pC_arg2 (V : Valuation τ sig (Elt F)) : after pC V (main_arg2 : DevRef τ sig) = V (main_arg2 : DevRef τ sig) := by
  unfold pC; after_results_simp
theorem pC_arg3 (V : Valuation τ sig (Elt F)) : after pC V (main_arg3 : DevRef τ sig) = V (main_arg3 : DevRef τ sig) := by
  unfold pC; after_results_simp

theorem pD_v18 (V : Valuation τ sig (Elt F)) (x : FVec F S8192x512 .f32) (adj : FVec F S8192x8192 .f32) (W1 : FVec F S512x256 .f32)
    (h15 : V (main_v15 : DevRef τ sig) = sNorm adj) (h0 : V (main_arg0 : DevRef τ sig) = x) (h2 : V (main_arg2 : DevRef τ sig) = W1) :
    after pD V (main_v18 : DevRef τ sig) = sHid x adj W1 := by
  unfold pD; after_results_simp; rw [h15, h0, h2]
  simp only [Cert.LibLineParts.ofBuf_toBuf]
  rw [ofBuf_v17, toBuf_v18]
  rfl
theorem pD_v15 (V : Valuation τ sig (Elt F)) : after pD V (main_v15 : DevRef τ sig) = V (main_v15 : DevRef τ sig) := by
  unfold pD; after_results_simp
theorem pD_arg3 (V : Valuation τ sig (Elt F)) : after pD V (main_arg3 : DevRef τ sig) = V (main_arg3 : DevRef τ sig) := by
  unfold pD; after_results_simp

theorem pE_v21 (V : Valuation τ sig (Elt F)) (x : FVec F S8192x512 .f32) (adj : FVec F S8192x8192 .f32) (W1 : FVec F S512x256 .f32)
    (W2 : FVec F S256x40 .f32) (h15 : V (main_v15 : DevRef τ sig) = sNorm adj) (h18 : V (main_v18 : DevRef τ sig) = sHid x adj W1)
    (h3 : V (main_arg3 : DevRef τ sig) = W2) : after pE V (main_v21 : DevRef τ sig) = sLogit x adj W1 W2 := by
  unfold pE; after_results_simp; rw [h15, h18, h3]
  simp only [Cert.LibLineParts.ofBuf_toBuf]
  rw [ofBuf_v20, toBuf_v21]
  rfl

theorem pF_v5 (V : Valuation τ sig (Elt F)) (l : FVec F S8192x40 .f32) (h21 : V (main_v21 : DevRef τ sig) = l) :
    after pF V (main_call2_v5 : DevRef τ sig) = sShift l := by
  unfold pF; after_results_simp; rw [h21]
  simp only [Cert.LibLineParts.ofBuf_toBuf]
  rw [ofBuf_v21, toBuf_c2v5]
  rfl

theorem pG_v22 (V : Valuation τ sig (Elt F)) (l : FVec F S8192x40 .f32) (h5 : V (main_call2_v5 : DevRef τ sig) = sShift l) :
    after pG V (main_v22 : DevRef τ sig) = sLsm l := by
  unfold pG; after_results_simp; rw [h5]
  simp only [Cert.LibLineParts.ofBuf_toBuf]
  rw [ofBuf_c2v5, toBuf_v22]
  rfl

/-! ## The whole line -/

/-- @main's 44 operations, in order (a called function's operations stand in its call's place). -/
abbrev ops : List (HloOp τ sig (Elt F)) :=
  [ nullary main_v0 (iotaInDim S8192x8192 32 0),
    nullary main_v1 (iotaInDim S8192x8192 32 1),
    nullary main_c (constantI S_ 32 0#32),
    unary main_c main_v2 (broadcastInDim S8192x8192 ![] bcast_S_S8192x8192 : (⟨S_, .i32⟩ : BufTy).Contents (Elt F) → (⟨S8192x8192, .i32⟩ : BufTy).Contents (Elt F)),
    binary main_v0 main_v2 main_v3 (addi : (⟨S8192x8192, .i32⟩ : BufTy).Contents (Elt F) → (⟨S8192x8192, .i32⟩ : BufTy).Contents (Elt F) → (⟨S8192x8192, .i32⟩ : BufTy).Contents (Elt F)),
    binary main_v3 main_v1 main_v4 (cmpi .eq : (⟨S8192x8192, .i32⟩ : BufTy).Contents (Elt F) → (⟨S8192x8192, .i32⟩ : BufTy).Contents (Elt F) → (⟨S8192x8192, .i1⟩ : BufTy).Contents (Elt F)),
    unary main_v4 main_v5 (uitofp .f32 : (⟨S8192x8192, .i1⟩ : BufTy).Contents (Elt F) → (⟨S8192x8192, .f32⟩ : BufTy).Contents (Elt F)),
    binary main_arg1 main_v5 main_v6 (addf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x00000000#32),
    binary main_v6 main_cst main_v7 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_0 (constant S_ .f32 0xBF000000#32),
    unary main_cst_0 main_v8 (broadcastInDim S8192 ![] bcast_S_S8192 : (⟨S_, .f32⟩ : BufTy).Contents (Elt F) → (⟨S8192, .f32⟩ : BufTy).Contents (Elt F)),
    binary main_v7 main_v8 main_v9 (Host.powf : (⟨S8192, .f32⟩ : BufTy).Contents (Elt F) → (⟨S8192, .f32⟩ : BufTy).Contents (Elt F) → (⟨S8192, .f32⟩ : BufTy).Contents (Elt F)),
    unary main_v9 main_v10 (broadcastInDim S8192x1 ![0] bcast_S8192_S8192x1_0 : (⟨S8192, .f32⟩ : BufTy).Contents (Elt F) → (⟨S8192x1, .f32⟩ : BufTy).Contents (Elt F)),
    unary main_v10 main_v11 (broadcastInDim S8192x8192 ![0, 1] bcast_S8192x1_S8192x8192_0_1 : (⟨S8192x1, .f32⟩ : BufTy).Contents (Elt F) → (⟨S8192x8192, .f32⟩ : BufTy).Contents (Elt F)),
    binary main_v11 main_v6 main_v12 (mulf : (⟨S8192x8192, .f32⟩ : BufTy).Contents (Elt F) → (⟨S8192x8192, .f32⟩ : BufTy).Contents (Elt F) → (⟨S8192x8192, .f32⟩ : BufTy).Contents (Elt F)),
    unary main_v9 main_v13 (broadcastInDim S1x8192 ![1] bcast_S8192_S1x8192_1 : (⟨S8192, .f32⟩ : BufTy).Contents (Elt F) → (⟨S1x8192, .f32⟩ : BufTy).Contents (Elt F)),
    unary main_v13 main_v14 (broadcastInDim S8192x8192 ![0, 1] bcast_S1x8192_S8192x8192_0_1 : (⟨S1x8192, .f32⟩ : BufTy).Contents (Elt F) → (⟨S8192x8192, .f32⟩ : BufTy).Contents (Elt F)),
    binary main_v12 main_v14 main_v15 (mulf : (⟨S8192x8192, .f32⟩ : BufTy).Contents (Elt F) → (⟨S8192x8192, .f32⟩ : BufTy).Contents (Elt F) → (⟨S8192x8192, .f32⟩ : BufTy).Contents (Elt F)),
    binary main_v15 main_arg0 main_v16 ((fun l r => Host.dotGeneral dot_S8192x8192_S8192x512_S8192x512_1_0_0_1_n_n none l r) : (⟨S8192x8192, .f32⟩ : BufTy).Contents (Elt F) → (⟨S8192x512, .f32⟩ : BufTy).Contents (Elt F) → (⟨S8192x512, .f32⟩ : BufTy).Contents (Elt F)),
    binary main_v16 main_arg2 main_v17 ((fun l r => Host.dotGeneral dot_S8192x512_S512x256_S8192x256_1_0_0_1_n_n none l r) : (⟨S8192x512, .f32⟩ : BufTy).Contents (Elt F) → (⟨S512x256, .f32⟩ : BufTy).Contents (Elt F) → (⟨S8192x256, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x256, .f32⟩) main_call0_v0) (broadcastInDim S8192x256 ![] bcast_S_S8192x256),
    TRef.binary (TRef.of (T := ⟨S8192x256, .f32⟩) main_v17) (TRef.of (T := ⟨S8192x256, .f32⟩) main_call0_v0) (TRef.of (T := ⟨S8192x256, .f32⟩) main_v18) maximumf,
    binary main_v15 main_v18 main_v19 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    binary main_v19 main_arg3 main_v20 ((fun l r => Host.dotGeneral dot_S8192x256_S256x40_S8192x40_1_0_0_1_n_n none l r) : (⟨S8192x256, .f32⟩ : BufTy).Contents (Elt F) → (⟨S256x40, .f32⟩ : BufTy).Contents (Elt F) → (⟨S8192x40, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x40, .f32⟩) main_call1_v0) (broadcastInDim S8192x40 ![] bcast_S_S8192x40),
    TRef.binary (TRef.of (T := ⟨S8192x40, .f32⟩) main_v20) (TRef.of (T := ⟨S8192x40, .f32⟩) main_call1_v0) (TRef.of (T := ⟨S8192x40, .f32⟩) main_v21) maximumf,
    TRef.nullary (TRef.of (T := ⟨S_, .f32⟩) main_call2_cst) (constant S_ .f32 0xFF800000#32),
    TRef.binary (TRef.of (T := ⟨S8192x40, .f32⟩) main_v21) (TRef.of (T := ⟨S_, .f32⟩) main_call2_cst) (TRef.of (T := ⟨S8192, .f32⟩) main_call2_v0) (fun x v => Host.reduce FloatOps.maximumf x v reducesTo_S8192x40_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x40, .f32⟩) main_call2_v4) (broadcastInDim S8192x40 ![0, 1] bcast_S8192x1_S8192x40_0_1),
    TRef.binary (TRef.of (T := ⟨S8192x40, .f32⟩) main_v21) (TRef.of (T := ⟨S8192x40, .f32⟩) main_call2_v4) (TRef.of (T := ⟨S8192x40, .f32⟩) main_call2_v5) subf,
    TRef.unary (TRef.of (T := ⟨S8192x40, .f32⟩) main_call2_v5) (TRef.of (T := ⟨S8192x40, .f32⟩) main_call2_v6) Host.exp,
    TRef.nullary (TRef.of (T := ⟨S_, .f32⟩) main_call2_cst_1) (constant S_ .f32 0x00000000#32),
    TRef.binary (TRef.of (T := ⟨S8192x40, .f32⟩) main_call2_v6) (TRef.of (T := ⟨S_, .f32⟩) main_call2_cst_1) (TRef.of (T := ⟨S8192, .f32⟩) main_call2_v7) (fun x v => Host.reduceAdd x v reducesTo_S8192x40_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x40, .f32⟩) main_call2_v10) (broadcastInDim S8192x40 ![0, 1] bcast_S8192x1_S8192x40_0_1),
    TRef.binary (TRef.of (T := ⟨S8192x40, .f32⟩) main_call2_v5) (TRef.of (T := ⟨S8192x40, .f32⟩) main_call2_v10) (TRef.of (T := ⟨S8192x40, .f32⟩) main_v22) subf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The line is its seven stretches, one after the other. -/
theorem ops_eq : (ops : List (HloOp τ sig (Elt F))) = pA ++ (pB ++ (pC ++ (pD ++ (pE ++ (pF ++ pG))))) := rfl

/-- The result buffer after the whole line, from any starting contents: the chain of named stages of the four argument
    arrays.  Each stretch is read at the contents the stretches before it left, which are never opened. -/
theorem after_ops_v22 (V : Valuation τ sig (Elt F)) :
    after ops V (main_v22 : DevRef τ sig)
      = refOut (V (main_arg0 : DevRef τ sig)) (V (main_arg1 : DevRef τ sig)) (V (main_arg2 : DevRef τ sig)) (V (main_arg3 : DevRef τ sig)) := by
  rw [ops_eq]
  simp only [Cert.LibLineParts.after_append]
  have a6 := pA_v6 V
  have a0 := pA_arg0 V
  have a2 := pA_arg2 V
  have a3 := pA_arg3 V
  generalize after pA V = V1 at a6 a0 a2 a3 ⊢
  have b9 := pB_v9 V1 _ a6
  have b6 := (pB_v6 V1).trans a6
  have b0 := (pB_arg0 V1).trans a0
  have b2 := (pB_arg2 V1).trans a2
  have b3 := (pB_arg3 V1).trans a3
  generalize after pB V1 = V2 at b9 b6 b0 b2 b3 ⊢
  have c15 := pC_v15 V2 _ b6 b9
  have c0 := (pC_arg0 V2).trans b0
  have c2 := (pC_arg2 V2).trans b2
  have c3 := (pC_arg3 V2).trans b3
  generalize after pC V2 = V3 at c15 c0 c2 c3 ⊢
  have d18 := pD_v18 V3 _ _ _ c15 c0 c2
  have d15 := (pD_v15 V3).trans c15
  have d3 := (pD_arg3 V3).trans c3
  generalize after pD V3 = V4 at d18 d15 d3 ⊢
  have e21 := pE_v21 V4 _ _ _ _ d15 d18 d3
  generalize after pE V4 = V5 at e21 ⊢
  have f5 := pF_v5 V5 _ e21
  generalize after pF V5 = V6 at f5 ⊢
  exact pG_v22 V6 _ f5

/-! ## The run -/

set_option maxRecDepth 8192 in
set_option maxHeartbeats 2000000 in
/-- On every device, for any float values, from any memory with zero counters: every weakly fair execution of
    @main terminates with the result buffer at the chain of named stages of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v22) = refOut (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v22).trans (after_ops_v22 (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefValue

end
-- ==== Proof.Spec.lean ====
/-
  The two programs as functions of REAL arrays, row by row.

  A graph convolution with a symmetrically normalised adjacency: with `Â = A + I`, `deg i = Σ_j Â i j` and
  `d i = (deg i)^(-1/2)`, one layer sends features `v` to `relu ((D Â D v) W)`; two layers, then a row-wise
  log-softmax. The reference forms the normalised matrix `d i · Â i j · d j` and multiplies; the kernel scales
  the features first (`y j = d j · v j`), accumulates `Σ_j A i j · y j`, adds the self-loop term `y i` and scales the
  row by `d i`. Both are stated here over the reals, where the degrees are positive; that they agree is a law of
  the reals proved apart from any program.
-/
import Mathlib.Analysis.SpecialFunctions.Pow.Real
import Mathlib.Analysis.SpecialFunctions.Log.Basic
import Mathlib.Analysis.SpecialFunctions.Sqrt
import Mathlib.Algebra.BigOperators.Group.Finset.Basic

noncomputable section

namespace Cert.Spec

open Finset

variable (a : Fin 8192 → Fin 8192 → ℝ) (x : Fin 8192 → Fin 512 → ℝ)
  (w1 : Fin 512 → Fin 256 → ℝ) (w2 : Fin 256 → Fin 40 → ℝ)

/-! ## The kernel's arrangement -/

/-- Row `i`'s degree as the kernel forms it: the row sum of `A`, plus one for the self loop. -/
def deg (i : Fin 8192) : ℝ := (∑ j, a i j) + 1
/-- `1 / √deg`. -/
def dinv (i : Fin 8192) : ℝ := 1 / Real.sqrt (deg a i)

/-- One propagation step on features `v` of any width: scale the features by `d`, accumulate over the
    neighbours, add the node's own scaled features, scale the row by `d`. -/
def prop {n : ℕ} (v : Fin 8192 → Fin n → ℝ) (i : Fin 8192) (f : Fin n) : ℝ :=
  dinv a i * ((∑ j, a i j * (dinv a j * v j f)) + dinv a i * v i f)

/-- A dense layer followed by relu. -/
def dense {n k : ℕ} (u : Fin 8192 → Fin n → ℝ) (w : Fin n → Fin k → ℝ) (i : Fin 8192) (c : Fin k) : ℝ :=
  max (∑ f, u i f * w f c) 0

/-- The hidden features after the first layer. -/
def hid (i : Fin 8192) (c : Fin 256) : ℝ := dense (prop a x) w1 i c
/-- The logits after the second layer. -/
def logit (i : Fin 8192) (k : Fin 40) : ℝ := dense (prop a (hid a x w1)) w2 i k

/-- The largest entry of a row of 40. -/
def rowMax (l : Fin 8192 → Fin 40 → ℝ) (i : Fin 8192) : ℝ := univ.sup' univ_nonempty (l i)

/-- The kernel's log-softmax: `l − (M + log Σ exp (l − M))`. -/
def lsmK (l : Fin 8192 → Fin 40 → ℝ) (i : Fin 8192) (k : Fin 40) : ℝ :=
  l i k - (rowMax l i + Real.log (∑ k', Real.exp (l i k' - rowMax l i)))

/-- What the kernel computes. -/
def out (i : Fin 8192) (k : Fin 40) : ℝ := lsmK (logit a x w1 w2) i k

/-! ## The reference's arrangement -/

/-- `Â = A + I`. -/
def ahat (i j : Fin 8192) : ℝ := a i j + (if i = j then 1 else 0)
/-- The degree as the reference forms it: the row sum of `Â`. -/
def degR (i : Fin 8192) : ℝ := ∑ j, ahat a i j
/-- `deg^(-1/2)`, by the real power. -/
def dR (i : Fin 8192) : ℝ := Real.rpow (degR a i) (-(1 / 2))
/-- The normalised adjacency `(d i · Â i j) · d j`. -/
def nrm (i j : Fin 8192) : ℝ := dR a i * ahat a i j * dR a j

/-- One propagation step: the normalised adjacency times the features. -/
def propR {n : ℕ} (v : Fin 8192 → Fin n → ℝ) (i : Fin 8192) (f : Fin n) : ℝ := ∑ j, nrm a i j * v j f

def hidR (i : Fin 8192) (c : Fin 256) : ℝ := dense (propR a x) w1 i c
def logitR (i : Fin 8192) (k : Fin 40) : ℝ := dense (propR a (hidR a x w1)) w2 i k

/-- The reference's log-softmax: `(l − M) − log Σ exp (l − M)`. -/
def lsmR (l : Fin 8192 → Fin 40 → ℝ) (i : Fin 8192) (k : Fin 40) : ℝ :=
  (l i k - rowMax l i) - Real.log (∑ k', Real.exp (l i k' - rowMax l i))

/-- What the reference computes. -/
def outR (i : Fin 8192) (k : Fin 40) : ℝ := lsmR (logitR a x w1 w2) i k

end Cert.Spec

end
-- ==== Proof.LibRowReduce.lean ====
/-
  Rows of a matrix reduced along their entries, and a matrix read through its transpose.

  Over the extended reals a host sum of an [a, b] array along its second axis is, at row r, the initial value plus
  the plain sum over k of the entries (r, k).  A maximum along the second axis, whether taken by a lane reduction or
  by the host, is at row r the fold of max from the initial value over the entries (r, k), in any order.  The word
  of minus infinity is the least extended real, so taking a maximum with it changes nothing.  The transpose of a
  [b, a] matrix holds at (k, j) the matrix's entry (j, k).
-/
import Idealize.ShloMosaic.Lib.Pipeline.Value
import Idealize.ShloMosaic.Lib.ValueIdx
import Idealize.ShloMosaic.PureOps.Ideal.Laws

noncomputable section

open scoped BigOperators

namespace Cert.LibRowReduce

open Idealize.ShloMosaic Idealize.ShloMosaic.ValueIdx

variable {a b : ℕ}

/-- The index of row r with the second coordinate k put back is (r, k). -/
theorem lift_row (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext ax
  refine Fin.ext ?_
  match ax with
  | ⟨0, _⟩ => rfl
  | ⟨1, _⟩ => rfl

/-- The host's sum of an [a, b] array along axis 1, at row r: the initial value plus the sum over k of the
    entries (r, k). -/
theorem hostRowSum_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd (F := Ideal) x init h' hu (ix1 r) = init (Shape.Idx.first hu) + ∑ k : Fin b, x (ix2 r k) := by
  unfold Host.reduceAdd
  rw [Ideal.hostReduceAdd_def, Ideal.hostReduceAdd_single h' h]
  refine congrArg (_ + ·) (Finset.sum_congr rfl fun k _ => congrArg x ?_)
  exact lift_row h r k

/-- A lane maximum of an [a, b] f32 vector along axis 1, at row r: the fold of max from the accumulator's value over the
    entries (r, k). -/
theorem rowMax_apply (v : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ v acc h hφ hacc (ix1 r)
      = (Finset.univ : Finset (Fin b)).fold max (Ideal.ofBits .f32 acc) (fun k => v (ix2 r k)) := by
  refine (Ideal.multiReduction_maximumf_single v acc h hφ hacc (ix1 r)).trans ?_
  refine congrArg (fun f => Finset.fold max (Ideal.ofBits .f32 acc) f (Finset.univ : Finset (Fin b))) ?_
  funext k
  exact congrArg v (lift_row h r k)

/-- The host's maximum of an [a, b] array along axis 1, at row r: the fold of max from the initial value over the
    entries (r, k). -/
theorem hostRowMax_apply {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  rw [Host.reduce_eq_fold_single (FloatOps.maximumf (F := Ideal) (φ := .f32)) x init h' h hu]
  refine congrArg (fun f => Finset.fold max (init (Shape.Idx.first hu)) f (Finset.univ : Finset (Fin b))) ?_
  funext k
  exact congrArg x (lift_row h r k)

/-- The f32 word of minus infinity is the least extended real: a maximum with it is the other operand. -/
theorem max_negInf_left (y : EReal) : max (Ideal.ofBits .f32 0xFF800000#32) y = y := by
  simp [Ideal.ofBits, Ideal.ieee]

/-- The transpose of a [b, a] matrix reads, at (k, j), the matrix's entry (j, k). -/
theorem transpose_swap_apply {α : Type} (x : (⟨2, ![b, a]⟩ : Shape).Idx → α)
    (h : (⟨2, ![b, a]⟩ : Shape).Transposes [1, 0] ⟨2, ![a, b]⟩) (k : Fin a) (j : Fin b) :
    transpose ⟨2, ![a, b]⟩ [1, 0] x h (ix2 k j) = x (ix2 j k) := by
  refine transpose_apply [1, 0] x h (ix2 k j) (ix2 j k) fun ax => ?_
  match ax with
  | ⟨0, _⟩ => rfl
  | ⟨1, _⟩ => rfl

end Cert.LibRowReduce

end
-- ==== Proof.LibLayout.lean ====
/-
  Column and row forms of the layout operations, read at an index.

  A length-`a` array viewed as a column `[a, 1]` (by a reshape or by a broadcast along axis 0) holds,
  at `(i, 0)`, the array's entry `i`; viewed as a row `[1, a]` it holds entry `i` at `(0, i)`.  A
  column broadcast over `b` columns holds at `(p, c)` the column's entry `p`; a row broadcast over
  `a` rows holds at `(p, c)` the row's entry `c`.  A scalar broadcast holds the scalar everywhere.
  So the reshape and the broadcast that make a column (or a row) of an array are the same function.
-/
import Idealize.ShloMosaic.Lib.Pipeline.Value
import Idealize.ShloMosaic.Lib.ValueIdx
import Idealize.ShloMosaic.Lib.ValueLayout

noncomputable section

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a]` array broadcast along axis 0 into the column `[a, 1]` reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2))
    (i : Fin a) (u : Fin 1) : broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column of an array by a reshape is its column by a broadcast along axis 0. -/
theorem shapeCast_eq_broadcastInDim_col {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) h' x := by
  funext j
  obtain ⟨p, q, rfl⟩ : ∃ (p : Fin a) (q : Fin 1), j = ix2 p q := ⟨j 0, j 1, eq_ix2 j⟩
  rw [shapeCast_a_a1_apply, broadcastInDim_a_a1_apply]

/-- An `[a]` array broadcast along axis 1 into the row `[1, a]` reads, at `(u, i)`, the operand at `i`. -/
theorem broadcastInDim_a_1a_apply {a : ℕ} (x : (⟨1, ![a]⟩ : Shape).Idx → α)
    (h : (⟨1, ![a]⟩ : Shape).BroadcastsInDim ⟨2, ![1, a]⟩ (![1] : Fin 1 → Fin 2))
    (u : Fin 1) (i : Fin a) : broadcastInDim ⟨2, ![1, a]⟩ (![1] : Fin 1 → Fin 2) h x (ix2 u i) = x (ix1 i) := by
  refine broadcastInDim_apply _ h x (ix2 u i) (ix1 i) fun ax => ?_
  match ax with
  | ⟨0, _⟩ =>
    show i.val = if a = 1 then 0 else i.val
    split
    · have := i.isLt; omega
    · rfl

/-- The row of an array by a reshape is its row by a broadcast along axis 1. -/
theorem shapeCast_eq_broadcastInDim_row {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) h' x := by
  funext j
  obtain ⟨p, q, rfl⟩ : ∃ (p : Fin 1) (q : Fin a), j = ix2 p q := ⟨j 0, j 1, eq_ix2 j⟩
  rw [shapeCast_a_1a_apply, broadcastInDim_a_1a_apply]

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (in dimensions 0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (in dimensions 0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ (![0, 1] : Fin 2 → Fin 2))
    (p : Fin a) (c : Fin b) : broadcastInDim ⟨2, ![a, b]⟩ (![0, 1] : Fin 2 → Fin 2) h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

end Cert.LibLayout

end
-- ==== Proof.LibConsts.lean ====
/-
  The float literals both programs spell, as the extended reals their bit patterns denote, and small facts about the
  extended reals used to carry real-valued arrays through sums, products, quotients and square roots.
-/
import Idealize.ShloMosaic.PureOps.Ideal
import Idealize.ShloMosaic.PureOps.Ideal.Laws

noncomputable section

namespace Cert.Consts

open Idealize.ShloMosaic

theorem ofBits_zero : Ideal.ofBits .f32 0x00000000#32 = 0 := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
/-- 65536.0 = 32 · 2048, the number of (graph, node) rows. -/
theorem ofBits_rows : Ideal.ofBits .f32 0x47800000#32 = ((65536 : ℝ) : EReal) := by
  simp [Ideal.ofBits, Ideal.ieee, -EReal.coe_mul]; norm_num
/-- The variance's epsilon is a positive real. -/
theorem ofBits_eps : ∃ ε : ℝ, 0 < ε ∧ Ideal.ofBits .f32 0x3727C5AC#32 = (ε : EReal) := by
  refine ⟨_, ?_, by simp [Ideal.ofBits, Ideal.ieee, -EReal.coe_mul]; rfl⟩
  norm_num

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reciprocal square root of a positive real is the real 1 / √r. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- Division by a nonzero real is real division. -/
theorem div_real (x : ℝ) {y : ℝ} (h : y ≠ 0) : Ideal.div (x : EReal) (y : EReal) = ((x / y : ℝ) : EReal) := by
  rw [Ideal.div_coe h, ← EReal.coe_mul]; congr 1; field_simp

end Cert.Consts

end
-- ==== Proof.LibOneHot.lean ====
/-
  One-hot selection, on words and on the extended reals.

  A 0/1 matrix with a single one per column, built by comparing two integer arrays for equality and converting the answer
  bit to a float, selects one entry of whatever row it is multiplied with:

  * comparing the 32-bit words of two numbers below 2³² for equality compares the numbers, and the answer bit, read as an
    unsigned number, is 1 or 0 (`cmpi_eq_toNat`); converted to a float over the extended reals it is the real number 1 or 0
    (`uitofp_cmpi_eq`);
  * a sum of products of a family of extended reals with such an indicator has a single surviving term, the family's value
    where the indicator is one (`sum_mul_indicator`).  No finiteness is needed: a product with the real number zero is zero
    for every extended real, the infinities included.
-/
import Idealize.ShloMosaic.PureOps
import Idealize.ShloMosaic.PureOps.Ideal

noncomputable section

open scoped BigOperators

namespace Cert.LibOneHot

open Idealize.ShloMosaic

/-- Equality of the words of two numbers below 2³² is equality of the numbers; the answer bit read as a number. -/
theorem cmpi_eq_toNat (a b : ℕ) (ha : a < 2 ^ 32) (hb : b < 2 ^ 32) :
    (IntOp.cmpi .eq (BitVec.ofNat 32 a) (BitVec.ofNat 32 b)).toNat = if a = b then 1 else 0 := by
  unfold IntOp.cmpi
  by_cases h : a = b
  · subst h; simp
  · have hne : BitVec.ofNat 32 a ≠ BitVec.ofNat 32 b := fun hh => h (by
      have := congrArg BitVec.toNat hh
      rwa [BitVec.toNat_ofNat, BitVec.toNat_ofNat, Nat.mod_eq_of_lt ha, Nat.mod_eq_of_lt hb] at this)
    simp [h, hne]

/-- The same answer bit converted to a float of any format, over the extended reals: the real number 1 or 0. -/
theorem uitofp_cmpi_eq (φ : FTy) (a b : ℕ) (ha : a < 2 ^ 32) (hb : b < 2 ^ 32) :
    (FloatOps.uitofp (F := Ideal) φ (IntOp.cmpi .eq (BitVec.ofNat 32 a) (BitVec.ofNat 32 b)) : EReal)
      = (((if a = b then 1 else 0 : ℕ) : ℝ) : EReal) := by
  show ((((IntOp.cmpi .eq (BitVec.ofNat 32 a) (BitVec.ofNat 32 b)).toNat : ℕ) : ℝ) : EReal) = _
  rw [cmpi_eq_toNat a b ha hb]

/-- A family of extended reals against a 0/1 indicator with its single one at `i₀`: only the term at `i₀` survives. -/
theorem sum_mul_indicator {ι : Type*} [Fintype ι] [DecidableEq ι] (f : ι → EReal) (i₀ : ι) :
    ∑ i : ι, f i * (((if i₀ = i then 1 else 0 : ℕ) : ℝ) : EReal) = f i₀ := by
  rw [Finset.sum_eq_single i₀]
  · rw [if_pos rfl, Nat.cast_one, EReal.coe_one, mul_one]
  · intro i _ hi
    rw [if_neg (fun h => hi h.symm), Nat.cast_zero, EReal.coe_zero, mul_zero]
  · intro h; exact absurd (Finset.mem_univ _) h

end Cert.LibOneHot

end
-- ==== Proof.RefReadA.lean ====
/-
  The reference's normalised adjacency read at an index, on real arguments.

  When the adjacency array holds the real numbers `ar`, each stage on the way to the normalised adjacency holds real
  numbers too, and they are the ones the specification names: the identity matrix is the 0/1 indicator of `i = j`
  (the two coordinates compared as 32-bit words, both below 2³²), `Â = A + I` entrywise, the degree the row sum of `Â`
  (a host sum from the zero word), `d` the real power `deg ^ (-1/2)` (the exponent's word is the real -1/2), and the
  normalised entry `(d i · Â i j) · d j` (a column and a row broadcast of `d`).
-/
import proofs.«152435_j1984274891532_2_alg».proof.Proof.RefStages
import proofs.«152435_j1984274891532_2_alg».proof.Proof.Spec
import proofs.«152435_j1984274891532_2_alg».proof.Proof.LibRowReduce
import proofs.«152435_j1984274891532_2_alg».proof.Proof.LibLayout
import proofs.«152435_j1984274891532_2_alg».proof.Proof.LibConsts
import proofs.«152435_j1984274891532_2_alg».proof.Proof.LibOneHot
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

variable [Cert.ReferenceIdeal.Facts]
open Cert.ReferenceIdeal.Facts₀ Cert.ReferenceIdeal.Facts

/-- The identity matrix at `(i, j)`: one when `i = j`, zero otherwise. -/
theorem sEye_apply (i j : Fin 8192) :
    sEye (F := Ideal) (ix2 i j) = (((if i = j then 1 else 0 : ℝ)) : EReal) := by
  have hb : broadcastInDim S8192x8192 ![] bcast_S_S8192x8192 (constantI S_ 32 0#32) (ix2 i j) = 0#32 :=
    broadcastInDim_apply _ bcast_S_S8192x8192 _ (ix2 i j) ix0 (fun a => a.elim0)
  show FloatOps.uitofp (F := Ideal) .f32 (IntOp.cmpi .eq (IntOp.addi (BitVec.ofNat 32 i.val)
    (broadcastInDim S8192x8192 ![] bcast_S_S8192x8192 (constantI S_ 32 0#32) (ix2 i j))) (BitVec.ofNat 32 j.val)) = _
  rw [hb]
  have h0 : IntOp.addi (BitVec.ofNat 32 i.val) 0#32 = BitVec.ofNat 32 i.val := by
    unfold IntOp.addi; exact BitVec.add_zero _
  rw [h0, Cert.LibOneHot.uitofp_cmpi_eq .f32 i.val j.val (by have := i.isLt; omega) (by have := j.isLt; omega)]
  by_cases h : i = j
  · subst h; simp
  · have hv : i.val ≠ j.val := fun e => h (Fin.ext e)
    simp [h, hv]

section
variable (adj : FVec Ideal S8192x8192 .f32) (ar : Fin 8192 → Fin 8192 → ℝ)
  (ha : ∀ p q, adj (ix2 p q) = ((ar p q : ℝ) : EReal))
include ha

/-- `Â` at `(i, j)`. -/
theorem sAhat_apply (i j : Fin 8192) : sAhat adj (ix2 i j) = ((Cert.Spec.ahat ar i j : ℝ) : EReal) := by
  show adj (ix2 i j) + sEye (F := Ideal) (ix2 i j) = _
  rw [ha, sEye_apply, ← EReal.coe_add]
  rfl

/-- The degree of row `i`: the row sum of `Â`. -/
theorem sDeg_apply (i : Fin 8192) : sDeg adj (ix1 i) = ((Cert.Spec.degR ar i : ℝ) : EReal) := by
  unfold sDeg
  rw [Cert.LibRowReduce.hostRowSum_apply (sAhat adj) (constant (F := Ideal) S_ .f32 0x00000000#32)
    reducesTo_S8192x8192_S8192_d1 (by decide) h_S_ i]
  rw [constant_apply, Cert.Consts.ofBits_zero, zero_add]
  unfold Cert.Spec.degR
  rw [Cert.Consts.coe_sum]
  exact Finset.sum_congr rfl fun k _ => sAhat_apply adj ar ha i k

/-- `d i = (deg i) ^ (-1/2)`, the real power. -/
theorem sD_apply (i : Fin 8192) : sD adj (ix1 i) = ((Cert.Spec.dR ar i : ℝ) : EReal) := by
  have hb : broadcastInDim S8192 ![] bcast_S_S8192 (constant (F := Ideal) S_ .f32 0xBF000000#32) (ix1 i)
      = ((-(1 / 2) : ℝ) : EReal) := by
    rw [broadcastInDim_apply _ bcast_S_S8192 _ (ix1 i) ix0 (fun a => a.elim0), constant_apply,
      Cert.Consts.ofBits_neg_half]
  show Ideal.pow (sDeg adj (ix1 i))
    (broadcastInDim S8192 ![] bcast_S_S8192 (constant (F := Ideal) S_ .f32 0xBF000000#32) (ix1 i)) = _
  rw [hb, sDeg_apply adj ar ha i]
  rfl

/-- The normalised adjacency at `(i, j)`: `(d i · Â i j) · d j`. -/
theorem sNorm_apply (i j : Fin 8192) : sNorm adj (ix2 i j) = ((Cert.Spec.nrm ar i j : ℝ) : EReal) := by
  have h1 : broadcastInDim S8192x8192 ![0, 1] bcast_S8192x1_S8192x8192_0_1
      (broadcastInDim S8192x1 ![0] bcast_S8192_S8192x1_0 (sD adj)) (ix2 i j) = sD adj (ix1 i) := by
    rw [Cert.LibLayout.broadcastInDim_a1_ab_apply, Cert.LibLayout.broadcastInDim_a_a1_apply]
  have h2 : broadcastInDim S8192x8192 ![0, 1] bcast_S1x8192_S8192x8192_0_1
      (broadcastInDim S1x8192 ![1] bcast_S8192_S1x8192_1 (sD adj)) (ix2 i j) = sD adj (ix1 j) := by
    rw [Cert.LibLayout.broadcastInDim_1b_ab_apply, Cert.LibLayout.broadcastInDim_a_1a_apply]
  unfold sNorm
  rw [mulf_apply, mulf_apply, h1, h2, sD_apply adj ar ha i, sD_apply adj ar ha j, sAhat_apply adj ar ha i j,
    ← EReal.coe_mul, ← EReal.coe_mul]
  rfl

end

end Cert.ReferenceIdeal.RefValue

end
-- ==== Proof.LibDense.lean ====
/-
  A plain matrix product read at an entry.

  For dimension numbers that contract the left operand's columns against the right operand's rows —
  rows × inner times inner × columns, no batch axis — the contraction index is its one coordinate, and
  the sum over it of the operands' products at entry `(p, c)` is `∑ q, lhs (p, q) · rhs (q, c)`.  Read at
  the exact extended reals, a matrix-unit product into a zero accumulator and a host `dot_general` are
  both that sum, whatever their precision or schedule, and whatever the number of rows.
-/
import Idealize.ShloMosaic.Lib.ValueIdx
import Idealize.ShloMosaic.PureOps.Ideal.Laws

noncomputable section

open scoped BigOperators

namespace Cert.LibDense

open Idealize.ShloMosaic Idealize.ShloMosaic.ValueIdx

variable {n k d : ℕ}

/-- The sum over a one-axis contraction index, re-indexed by the axis's coordinate, for a product whose
    operand indices at output `(p, c)` and contraction coordinate `q` are `(p, q)` and `(q, c)`. -/
theorem sum_contr_eq {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (lhs : FVec Ideal ⟨2, ![n, k]⟩ φ₁) (rhs : FVec Ideal ⟨2, ![k, d]⟩ φ₂) (p : Fin n) (c : Fin d) :
    (∑ q : D.contr.Idx, lhs (D.lhsIdx (ix2 p c) q) * rhs (D.rhsIdx (ix2 p c) q) : EReal)
      = ∑ q : Fin k, lhs (ix2 p q) * rhs (ix2 q c) := by
  rw [← Equiv.sum_comp (contrEquiv1 D k hr hs).symm]
  refine Finset.sum_congr rfl fun q _ => ?_
  have hk := contrEquiv1_symm_val D k hr hs q
  have el : D.lhsIdx (ix2 p c) ((contrEquiv1 D k hr hs).symm q) = ix2 p q := funext fun a => Fin.ext (by
    match a with
    | ⟨0, _⟩ => exact hl0 _ _
    | ⟨1, _⟩ => exact (hl1 _ _).trans hk)
  have er : D.rhsIdx (ix2 p c) ((contrEquiv1 D k hr hs).symm q) = ix2 q c := funext fun a => Fin.ext (by
    match a with
    | ⟨0, _⟩ => exact (hr0 _ _).trans hk
    | ⟨1, _⟩ => exact hr1 _ _)
  rw [el, er]

/-- A matrix-unit product into the zero accumulator, at entry `(p, c)`. -/
theorem matmul_zero_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (lhs : FVec Ideal ⟨2, ![n, k]⟩ φ₁) (rhs : FVec Ideal ⟨2, ![k, d]⟩ φ₂)
    (p : Fin n) (c : Fin d) :
    FloatOps.matmul D prec lhs rhs (constant (F := Ideal) ⟨2, ![n, d]⟩ .f32 0x00000000#32) (ix2 p c)
      = ∑ q : Fin k, lhs (ix2 p q) * rhs (ix2 q c) := by
  rw [Ideal.matmul_constant_zero_apply]
  exact sum_contr_eq D hr hs hl0 hl1 hr0 hr1 lhs rhs p c

/-- A host `dot_general`, at entry `(p, c)`. -/
theorem dotGeneral_apply {φ₁ φ₂ : FTy} (D : DotDims ⟨2, ![n, k]⟩ ⟨2, ![k, d]⟩ ⟨2, ![n, d]⟩)
    (hr : D.contr.rank = 1) (hs : D.contr.size ⟨0, by omega⟩ = k)
    (hl0 : ∀ (i : (⟨2, ![n, d]⟩ : Shape).Idx) (q : D.contr.Idx), (D.lhsIdx i q 0).val = (i 0).val)
    (hl1 : ∀ (i : (⟨2, ![n, d]⟩ : Shape).Idx) (q : D.contr.Idx), (D.lhsIdx i q 1).val = (q ⟨0, by omega⟩).val)
    (hr0 : ∀ (i : (⟨2, ![n, d]⟩ : Shape).Idx) (q : D.contr.Idx), (D.rhsIdx i q 0).val = (q ⟨0, by omega⟩).val)
    (hr1 : ∀ (i : (⟨2, ![n, d]⟩ : Shape).Idx) (q : D.contr.Idx), (D.rhsIdx i q 1).val = (i 1).val)
    (prec : Option ContractPrecision) (sched : HostSchedule)
    (lhs : FVec Ideal ⟨2, ![n, k]⟩ φ₁) (rhs : FVec Ideal ⟨2, ![k, d]⟩ φ₂) (p : Fin n) (c : Fin d) :
    FloatOps.dotGeneral D prec sched lhs rhs (ix2 p c) = ∑ q : Fin k, lhs (ix2 p q) * rhs (ix2 q c) := by
  rw [Ideal.dotGeneral_apply]
  exact sum_contr_eq D hr hs hl0 hl1 hr0 hr1 lhs rhs p c

end Cert.LibDense

end
-- ==== Proof.RefReadDots.lean ====
/-
  The reference's four matrix products read at an entry.

  Each contracts the left operand's columns against the right operand's rows, with no batch axis, so its entry
  `(p, c)` over the extended reals is the plain sum over `q` of `lhs (p, q) · rhs (q, c)`.  The four lemmas per product
  say which coordinate of an operand's index comes from the result's index and which from the contraction's.
-/
import proofs.«152435_j1984274891532_2_alg».proof.Proof.RefStages
import proofs.«152435_j1984274891532_2_alg».proof.Proof.Spec
import proofs.«152435_j1984274891532_2_alg».proof.Proof.LibDense
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

variable [Cert.ReferenceIdeal.Facts]
open Cert.ReferenceIdeal.Facts₀ Cert.ReferenceIdeal.Facts

open scoped BigOperators

theorem dotNX_rank : dot_S8192x8192_S8192x512_S8192x512_1_0_0_1_n_n.contr.rank = 1 := rfl
theorem dotNX_l0 (i : S8192x512.Idx) (q : dot_S8192x8192_S8192x512_S8192x512_1_0_0_1_n_n.contr.Idx) : (dot_S8192x8192_S8192x512_S8192x512_1_0_0_1_n_n.lhsIdx i q 0).val = (i 0).val := by
  unfold DotDims.lhsIdx
  rw [dif_neg (show ¬(0 : Fin S8192x8192.rank) ∈ dot_S8192x8192_S8192x512_S8192x512_1_0_0_1_n_n.lhsBatch by
      show ¬(0 : Fin 2) ∈ ([] : List (Fin 2)); decide),
    dif_pos (show (0 : Fin S8192x8192.rank) ∈ dot_S8192x8192_S8192x512_S8192x512_1_0_0_1_n_n.lhsNonContracting by
      show (0 : Fin 2) ∈ ([0] : List (Fin 2)); decide)]
  rfl
theorem dotNX_l1 (i : S8192x512.Idx) (q : dot_S8192x8192_S8192x512_S8192x512_1_0_0_1_n_n.contr.Idx) :
    (dot_S8192x8192_S8192x512_S8192x512_1_0_0_1_n_n.lhsIdx i q 1).val = (q ⟨0, Nat.lt_of_lt_of_eq Nat.one_pos dotNX_rank.symm⟩).val :=
  dot_S8192x8192_S8192x512_S8192x512_1_0_0_1_n_n.lhsIdx_val_of_single rfl i q
theorem dotNX_r0 (i : S8192x512.Idx) (q : dot_S8192x8192_S8192x512_S8192x512_1_0_0_1_n_n.contr.Idx) :
    (dot_S8192x8192_S8192x512_S8192x512_1_0_0_1_n_n.rhsIdx i q 0).val = (q ⟨0, Nat.lt_of_lt_of_eq Nat.one_pos dotNX_rank.symm⟩).val :=
  dot_S8192x8192_S8192x512_S8192x512_1_0_0_1_n_n.rhsIdx_val_of_single rfl i q
theorem dotNX_r1 (i : S8192x512.Idx) (q : dot_S8192x8192_S8192x512_S8192x512_1_0_0_1_n_n.contr.Idx) : (dot_S8192x8192_S8192x512_S8192x512_1_0_0_1_n_n.rhsIdx i q 1).val = (i 1).val := by
  unfold DotDims.rhsIdx
  rw [dif_neg (show ¬(1 : Fin S8192x512.rank) ∈ dot_S8192x8192_S8192x512_S8192x512_1_0_0_1_n_n.rhsBatch by
      show ¬(1 : Fin 2) ∈ ([] : List (Fin 2)); decide),
    dif_pos (show (1 : Fin S8192x512.rank) ∈ dot_S8192x8192_S8192x512_S8192x512_1_0_0_1_n_n.rhsNonContracting by
      show (1 : Fin 2) ∈ ([1] : List (Fin 2)); decide)]
  rfl

/-- The normalised adjacency times the input features, at an entry. -/
theorem dotNX_apply (l : FVec Ideal S8192x8192 .f32) (r : FVec Ideal S8192x512 .f32) (p : Fin 8192) (c : Fin 512) :
    Host.dotGeneral dot_S8192x8192_S8192x512_S8192x512_1_0_0_1_n_n none l r (ix2 p c) = ∑ q : Fin 8192, l (ix2 p q) * r (ix2 q c) := by
  simp only [Host.dotGeneral]
  exact Cert.LibDense.dotGeneral_apply dot_S8192x8192_S8192x512_S8192x512_1_0_0_1_n_n rfl rfl dotNX_l0 dotNX_l1 dotNX_r0 dotNX_r1 none _ l r p c

theorem dotXW_rank : dot_S8192x512_S512x256_S8192x256_1_0_0_1_n_n.contr.rank = 1 := rfl
theorem dotXW_l0 (i : S8192x256.Idx) (q : dot_S8192x512_S512x256_S8192x256_1_0_0_1_n_n.contr.Idx) : (dot_S8192x512_S512x256_S8192x256_1_0_0_1_n_n.lhsIdx i q 0).val = (i 0).val := by
  unfold DotDims.lhsIdx
  rw [dif_neg (show ¬(0 : Fin S8192x512.rank) ∈ dot_S8192x512_S512x256_S8192x256_1_0_0_1_n_n.lhsBatch by
      show ¬(0 : Fin 2) ∈ ([] : List (Fin 2)); decide),
    dif_pos (show (0 : Fin S8192x512.rank) ∈ dot_S8192x512_S512x256_S8192x256_1_0_0_1_n_n.lhsNonContracting by
      show (0 : Fin 2) ∈ ([0] : List (Fin 2)); decide)]
  rfl
theorem dotXW_l1 (i : S8192x256.Idx) (q : dot_S8192x512_S512x256_S8192x256_1_0_0_1_n_n.contr.Idx) :
    (dot_S8192x512_S512x256_S8192x256_1_0_0_1_n_n.lhsIdx i q 1).val = (q ⟨0, Nat.lt_of_lt_of_eq Nat.one_pos dotXW_rank.symm⟩).val :=
  dot_S8192x512_S512x256_S8192x256_1_0_0_1_n_n.lhsIdx_val_of_single rfl i q
theorem dotXW_r0 (i : S8192x256.Idx) (q : dot_S8192x512_S512x256_S8192x256_1_0_0_1_n_n.contr.Idx) :
    (dot_S8192x512_S512x256_S8192x256_1_0_0_1_n_n.rhsIdx i q 0).val = (q ⟨0, Nat.lt_of_lt_of_eq Nat.one_pos dotXW_rank.symm⟩).val :=
  dot_S8192x512_S512x256_S8192x256_1_0_0_1_n_n.rhsIdx_val_of_single rfl i q
theorem dotXW_r1 (i : S8192x256.Idx) (q : dot_S8192x512_S512x256_S8192x256_1_0_0_1_n_n.contr.Idx) : (dot_S8192x512_S512x256_S8192x256_1_0_0_1_n_n.rhsIdx i q 1).val = (i 1).val := by
  unfold DotDims.rhsIdx
  rw [dif_neg (show ¬(1 : Fin S512x256.rank) ∈ dot_S8192x512_S512x256_S8192x256_1_0_0_1_n_n.rhsBatch by
      show ¬(1 : Fin 2) ∈ ([] : List (Fin 2)); decide),
    dif_pos (show (1 : Fin S512x256.rank) ∈ dot_S8192x512_S512x256_S8192x256_1_0_0_1_n_n.rhsNonContracting by
      show (1 : Fin 2) ∈ ([1] : List (Fin 2)); decide)]
  rfl

/-- The propagated features times the first weight matrix, at an entry. -/
theorem dotXW_apply (l : FVec Ideal S8192x512 .f32) (r : FVec Ideal S512x256 .f32) (p : Fin 8192) (c : Fin 256) :
    Host.dotGeneral dot_S8192x512_S512x256_S8192x256_1_0_0_1_n_n none l r (ix2 p c) = ∑ q : Fin 512, l (ix2 p q) * r (ix2 q c) := by
  simp only [Host.dotGeneral]
  exact Cert.LibDense.dotGeneral_apply dot_S8192x512_S512x256_S8192x256_1_0_0_1_n_n rfl rfl dotXW_l0 dotXW_l1 dotXW_r0 dotXW_r1 none _ l r p c

theorem dotNH_rank : dot_S8192x8192_S8192x256_S8192x256_1_0_0_1_n_n.contr.rank = 1 := rfl
theorem dotNH_l0 (i : S8192x256.Idx) (q : dot_S8192x8192_S8192x256_S8192x256_1_0_0_1_n_n.contr.Idx) : (dot_S8192x8192_S8192x256_S8192x256_1_0_0_1_n_n.lhsIdx i q 0).val = (i 0).val := by
  unfold DotDims.lhsIdx
  rw [dif_neg (show ¬(0 : Fin S8192x8192.rank) ∈ dot_S8192x8192_S8192x256_S8192x256_1_0_0_1_n_n.lhsBatch by
      show ¬(0 : Fin 2) ∈ ([] : List (Fin 2)); decide),
    dif_pos (show (0 : Fin S8192x8192.rank) ∈ dot_S8192x8192_S8192x256_S8192x256_1_0_0_1_n_n.lhsNonContracting by
      show (0 : Fin 2) ∈ ([0] : List (Fin 2)); decide)]
  rfl
theorem dotNH_l1 (i : S8192x256.Idx) (q : dot_S8192x8192_S8192x256_S8192x256_1_0_0_1_n_n.contr.Idx) :
    (dot_S8192x8192_S8192x256_S8192x256_1_0_0_1_n_n.lhsIdx i q 1).val = (q ⟨0, Nat.lt_of_lt_of_eq Nat.one_pos dotNH_rank.symm⟩).val :=
  dot_S8192x8192_S8192x256_S8192x256_1_0_0_1_n_n.lhsIdx_val_of_single rfl i q
theorem dotNH_r0 (i : S8192x256.Idx) (q : dot_S8192x8192_S8192x256_S8192x256_1_0_0_1_n_n.contr.Idx) :
    (dot_S8192x8192_S8192x256_S8192x256_1_0_0_1_n_n.rhsIdx i q 0).val = (q ⟨0, Nat.lt_of_lt_of_eq Nat.one_pos dotNH_rank.symm⟩).val :=
  dot_S8192x8192_S8192x256_S8192x256_1_0_0_1_n_n.rhsIdx_val_of_single rfl i q
theorem dotNH_r1 (i : S8192x256.Idx) (q : dot_S8192x8192_S8192x256_S8192x256_1_0_0_1_n_n.contr.Idx) : (dot_S8192x8192_S8192x256_S8192x256_1_0_0_1_n_n.rhsIdx i q 1).val = (i 1).val := by
  unfold DotDims.rhsIdx
  rw [dif_neg (show ¬(1 : Fin S8192x256.rank) ∈ dot_S8192x8192_S8192x256_S8192x256_1_0_0_1_n_n.rhsBatch by
      show ¬(1 : Fin 2) ∈ ([] : List (Fin 2)); decide),
    dif_pos (show (1 : Fin S8192x256.rank) ∈ dot_S8192x8192_S8192x256_S8192x256_1_0_0_1_n_n.rhsNonContracting by
      show (1 : Fin 2) ∈ ([1] : List (Fin 2)); decide)]
  rfl

/-- The normalised adjacency times the hidden features, at an entry. -/
theorem dotNH_apply (l : FVec Ideal S8192x8192 .f32) (r : FVec Ideal S8192x256 .f32) (p : Fin 8192) (c : Fin 256) :
    Host.dotGeneral dot_S8192x8192_S8192x256_S8192x256_1_0_0_1_n_n none l r (ix2 p c) = ∑ q : Fin 8192, l (ix2 p q) * r (ix2 q c) := by
  simp only [Host.dotGeneral]
  exact Cert.LibDense.dotGeneral_apply dot_S8192x8192_S8192x256_S8192x256_1_0_0_1_n_n rfl rfl dotNH_l0 dotNH_l1 dotNH_r0 dotNH_r1 none _ l r p c

theorem dotHW_rank : dot_S8192x256_S256x40_S8192x40_1_0_0_1_n_n.contr.rank = 1 := rfl
theorem dotHW_l0 (i : S8192x40.Idx) (q : dot_S8192x256_S256x40_S8192x40_1_0_0_1_n_n.contr.Idx) : (dot_S8192x256_S256x40_S8192x40_1_0_0_1_n_n.lhsIdx i q 0).val = (i 0).val := by
  unfold DotDims.lhsIdx
  rw [dif_neg (show ¬(0 : Fin S8192x256.rank) ∈ dot_S8192x256_S256x40_S8192x40_1_0_0_1_n_n.lhsBatch by
      show ¬(0 : Fin 2) ∈ ([] : List (Fin 2)); decide),
    dif_pos (show (0 : Fin S8192x256.rank) ∈ dot_S8192x256_S256x40_S8192x40_1_0_0_1_n_n.lhsNonContracting by
      show (0 : Fin 2) ∈ ([0] : List (Fin 2)); decide)]
  rfl
theorem dotHW_l1 (i : S8192x40.Idx) (q : dot_S8192x256_S256x40_S8192x40_1_0_0_1_n_n.contr.Idx) :
    (dot_S8192x256_S256x40_S8192x40_1_0_0_1_n_n.lhsIdx i q 1).val = (q ⟨0, Nat.lt_of_lt_of_eq Nat.one_pos dotHW_rank.symm⟩).val :=
  dot_S8192x256_S256x40_S8192x40_1_0_0_1_n_n.lhsIdx_val_of_single rfl i q
theorem dotHW_r0 (i : S8192x40.Idx) (q : dot_S8192x256_S256x40_S8192x40_1_0_0_1_n_n.contr.Idx) :
    (dot_S8192x256_S256x40_S8192x40_1_0_0_1_n_n.rhsIdx i q 0).val = (q ⟨0, Nat.lt_of_lt_of_eq Nat.one_pos dotHW_rank.symm⟩).val :=
  dot_S8192x256_S256x40_S8192x40_1_0_0_1_n_n.rhsIdx_val_of_single rfl i q
theorem dotHW_r1 (i : S8192x40.Idx) (q : dot_S8192x256_S256x40_S8192x40_1_0_0_1_n_n.contr.Idx) : (dot_S8192x256_S256x40_S8192x40_1_0_0_1_n_n.rhsIdx i q 1).val = (i 1).val := by
  unfold DotDims.rhsIdx
  rw [dif_neg (show ¬(1 : Fin S256x40.rank) ∈ dot_S8192x256_S256x40_S8192x40_1_0_0_1_n_n.rhsBatch by
      show ¬(1 : Fin 2) ∈ ([] : List (Fin 2)); decide),
    dif_pos (show (1 : Fin S256x40.rank) ∈ dot_S8192x256_S256x40_S8192x40_1_0_0_1_n_n.rhsNonContracting by
      show (1 : Fin 2) ∈ ([1] : List (Fin 2)); decide)]
  rfl

/-- The propagated hidden features times the second weight matrix, at an entry. -/
theorem dotHW_apply (l : FVec Ideal S8192x256 .f32) (r : FVec Ideal S256x40 .f32) (p : Fin 8192) (c : Fin 40) :
    Host.dotGeneral dot_S8192x256_S256x40_S8192x40_1_0_0_1_n_n none l r (ix2 p c) = ∑ q : Fin 256, l (ix2 p q) * r (ix2 q c) := by
  simp only [Host.dotGeneral]
  exact Cert.LibDense.dotGeneral_apply dot_S8192x256_S256x40_S8192x40_1_0_0_1_n_n rfl rfl dotHW_l0 dotHW_l1 dotHW_r0 dotHW_r1 none _ l r p c

end Cert.ReferenceIdeal.RefValue

end
-- ==== Proof.RefReadB.lean ====
/-
  The reference's two layers read at an entry, on real arguments.

  With real arrays `ar`, `xr`, `w1r`, `w2r` in the arguments, a propagation step is the real sum
  `Σ_j nrm i j · v j f` (a product of reals is real and a finite sum of reals is real), a dense layer the real sum
  `Σ_f u i f · w f c`, and relu the maximum with the real zero (the zero word); so the hidden features and the logits
  are the coercions of the specification's `hidR` and `logitR`.
-/
import proofs.«152435_j1984274891532_2_alg».proof.Proof.RefStages
import proofs.«152435_j1984274891532_2_alg».proof.Proof.Spec
import proofs.«152435_j1984274891532_2_alg».proof.Proof.RefReadA
import proofs.«152435_j1984274891532_2_alg».proof.Proof.RefReadDots
import proofs.«152435_j1984274891532_2_alg».proof.Proof.LibConsts
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

variable [Cert.ReferenceIdeal.Facts]
open Cert.ReferenceIdeal.Facts₀ Cert.ReferenceIdeal.Facts

open scoped BigOperators

/-- The maximum of two reals, taken among the extended reals. -/
theorem coe_max_coe (a b : ℝ) : max ((a : ℝ) : EReal) ((b : ℝ) : EReal) = ((max a b : ℝ) : EReal) :=
  (EReal.coe_strictMono.monotone.map_max).symm

/-- A sum of products of reals, taken among the extended reals. -/
theorem sum_coe_mul_coe {n : ℕ} (f g : Fin n → ℝ) :
    (∑ k, ((f k : ℝ) : EReal) * ((g k : ℝ) : EReal)) = ((∑ k, f k * g k : ℝ) : EReal) := by
  rw [Cert.Consts.coe_sum]
  exact Finset.sum_congr rfl fun k _ => (EReal.coe_mul _ _).symm

section
variable (x : FVec Ideal S8192x512 .f32) (adj : FVec Ideal S8192x8192 .f32) (W1 : FVec Ideal S512x256 .f32)
  (W2 : FVec Ideal S256x40 .f32)
  (xr : Fin 8192 → Fin 512 → ℝ) (ar : Fin 8192 → Fin 8192 → ℝ) (w1r : Fin 512 → Fin 256 → ℝ) (w2r : Fin 256 → Fin 40 → ℝ)
  (hx : ∀ p q, x (ix2 p q) = ((xr p q : ℝ) : EReal)) (ha : ∀ p q, adj (ix2 p q) = ((ar p q : ℝ) : EReal))
  (hw1 : ∀ p q, W1 (ix2 p q) = ((w1r p q : ℝ) : EReal)) (hw2 : ∀ p q, W2 (ix2 p q) = ((w2r p q : ℝ) : EReal))

include hx ha in
/-- The first propagation step at `(i, f)`. -/
theorem prop1_apply (i : Fin 8192) (f : Fin 512) :
    Host.dotGeneral dot_S8192x8192_S8192x512_S8192x512_1_0_0_1_n_n none (sNorm adj) x (ix2 i f)
      = ((Cert.Spec.propR ar xr i f : ℝ) : EReal) := by
  rw [dotNX_apply]
  unfold Cert.Spec.propR
  rw [← sum_coe_mul_coe]
  exact Finset.sum_congr rfl fun k _ => by rw [sNorm_apply adj ar ha i k, hx]

include hx ha hw1 in
/-- The hidden features at `(i, c)`. -/
theorem sHid_apply (i : Fin 8192) (c : Fin 256) :
    sHid x adj W1 (ix2 i c) = ((Cert.Spec.hidR ar xr w1r i c : ℝ) : EReal) := by
  have hz : broadcastInDim S8192x256 ![] bcast_S_S8192x256 (constant (F := Ideal) S_ .f32 0x00000000#32) (ix2 i c)
      = ((0 : ℝ) : EReal) := by
    rw [broadcastInDim_apply _ bcast_S_S8192x256 _ (ix2 i c) ix0 (fun a => a.elim0), constant_apply,
      Cert.Consts.ofBits_zero]
    rfl
  have hs : (∑ q : Fin 512, Host.dotGeneral dot_S8192x8192_S8192x512_S8192x512_1_0_0_1_n_n none (sNorm adj) x (ix2 i q)
      * W1 (ix2 q c)) = ((∑ f, Cert.Spec.propR ar xr i f * w1r f c : ℝ) : EReal) := by
    rw [← sum_coe_mul_coe]
    exact Finset.sum_congr rfl fun k _ => by rw [prop1_apply x adj xr ar hx ha i k, hw1]
  unfold sHid
  rw [maximumf_apply, hz, dotXW_apply, hs, coe_max_coe]
  rfl

include hx ha hw1 in
/-- The second propagation step at `(i, f)`. -/
theorem prop2_apply (i : Fin 8192) (f : Fin 256) :
    Host.dotGeneral dot_S8192x8192_S8192x256_S8192x256_1_0_0_1_n_n none (sNorm adj) (sHid x adj W1) (ix2 i f)
      = ((Cert.Spec.propR ar (Cert.Spec.hidR ar xr w1r) i f : ℝ) : EReal) := by
  rw [dotNH_apply]
  unfold Cert.Spec.propR
  rw [← sum_coe_mul_coe]
  exact Finset.sum_congr rfl fun k _ => by
    rw [sNorm_apply adj ar ha i k, sHid_apply x adj W1 xr ar w1r hx ha hw1 k f]

include hx ha hw1 hw2 in
/-- The logits at `(i, c)`. -/
theorem sLogit_apply (i : Fin 8192) (c : Fin 40) :
    sLogit x adj W1 W2 (ix2 i c) = ((Cert.Spec.logitR ar xr w1r w2r i c : ℝ) : EReal) := by
  have hz : broadcastInDim S8192x40 ![] bcast_S_S8192x40 (constant (F := Ideal) S_ .f32 0x00000000#32) (ix2 i c)
      = ((0 : ℝ) : EReal) := by
    rw [broadcastInDim_apply _ bcast_S_S8192x40 _ (ix2 i c) ix0 (fun a => a.elim0), constant_apply,
      Cert.Consts.ofBits_zero]
    rfl
  have hs : (∑ q : Fin 256, Host.dotGeneral dot_S8192x8192_S8192x256_S8192x256_1_0_0_1_n_n none (sNorm adj)
      (sHid x adj W1) (ix2 i q) * W2 (ix2 q c))
      = ((∑ f, Cert.Spec.propR ar (Cert.Spec.hidR ar xr w1r) i f * w2r f c : ℝ) : EReal) := by
    rw [← sum_coe_mul_coe]
    exact Finset.sum_congr rfl fun k _ => by rw [prop2_apply x adj W1 xr ar w1r hx ha hw1 i k, hw2]
  unfold sLogit
  rw [maximumf_apply, hz, dotHW_apply, hs, coe_max_coe]
  rfl

end

end Cert.ReferenceIdeal.RefValue

end
-- ==== Proof.RefReadC.lean ====
/-
  The reference's row-wise log-softmax read at an entry, on a real array of logits.

  When the logits are real numbers `lr`, the row maximum (a host maximum folded from the word of minus infinity, then
  once more against minus infinity) is the real number `rowMax lr i`, the largest of the row's forty entries; the
  shifted logit is the real `lr i k − rowMax lr i`; its exponential is a positive real, the row sum of the
  exponentials is a positive real, its logarithm is real, and the result is the real number the specification names.
-/
import proofs.«152435_j1984274891532_2_alg».proof.Proof.RefStages
import proofs.«152435_j1984274891532_2_alg».proof.Proof.Spec
import proofs.«152435_j1984274891532_2_alg».proof.Proof.LibRowReduce
import proofs.«152435_j1984274891532_2_alg».proof.Proof.LibLayout
import proofs.«152435_j1984274891532_2_alg».proof.Proof.LibConsts
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

variable [Cert.ReferenceIdeal.Facts]
open Cert.ReferenceIdeal.Facts₀ Cert.ReferenceIdeal.Facts

open scoped BigOperators

/-- The word of minus infinity is the least extended real. -/
theorem negInf_eq_bot : Ideal.ofBits .f32 0xFF800000#32 = (⊥ : EReal) := by
  have h := Cert.LibRowReduce.max_negInf_left ⊥
  rwa [max_bot_right] at h

/-- The maximum of two reals, taken among the extended reals. -/
theorem coe_max_coe' (a b : ℝ) : max ((a : ℝ) : EReal) ((b : ℝ) : EReal) = ((max a b : ℝ) : EReal) :=
  (EReal.coe_strictMono.monotone.map_max).symm

/-- The fold of max from minus infinity over a nonempty family of reals is the largest of them. -/
theorem fold_max_coe {ι : Type*} (s : Finset ι) (hs : s.Nonempty) (f : ι → ℝ) :
    s.fold max (⊥ : EReal) (fun k => ((f k : ℝ) : EReal)) = ((s.sup' hs f : ℝ) : EReal) := by
  induction hs using Finset.Nonempty.cons_induction with
  | singleton a => rw [Finset.fold_singleton, Finset.sup'_singleton]; exact max_bot_right _
  | cons a s ha hs ih => rw [Finset.fold_cons, ih, Finset.sup'_cons hs, coe_max_coe']

section
variable (l : FVec Ideal S8192x40 .f32) (lr : Fin 8192 → Fin 40 → ℝ)
  (hl : ∀ p q, l (ix2 p q) = ((lr p q : ℝ) : EReal))
include hl

/-- The shifted logit at `(i, k)`. -/
theorem sShift_apply (i : Fin 8192) (k : Fin 40) :
    sShift l (ix2 i k) = ((lr i k - Cert.Spec.rowMax lr i : ℝ) : EReal) := by
  unfold sShift
  rw [subf_apply, Cert.LibLayout.broadcastInDim_a1_ab_apply, Cert.LibLayout.broadcastInDim_a_a1_apply,
    maximumf_apply,
    Cert.LibRowReduce.hostRowMax_apply l _ reducesTo_S8192x40_S8192_d1 (by decide) h_S_ i,
    broadcastInDim_apply _ bcast_S_S8192 _ (ix1 i) ix0 (fun a => a.elim0)]
  simp only [constant_apply]
  rw [Cert.LibRowReduce.max_negInf_left, negInf_eq_bot]
  have hrow : (fun k => l (ix2 i k)) = fun k => ((lr i k : ℝ) : EReal) := funext fun k => hl i k
  rw [hrow, fold_max_coe _ Finset.univ_nonempty, hl, ← EReal.coe_sub]
  rfl

/-- The log-softmax at `(i, k)`. -/
theorem sLsm_apply (i : Fin 8192) (k : Fin 40) :
    sLsm l (ix2 i k) = ((Cert.Spec.lsmR lr i k : ℝ) : EReal) := by
  have hpos : 0 < ∑ k', Real.exp (lr i k' - Cert.Spec.rowMax lr i) :=
    Finset.sum_pos (fun k' _ => Real.exp_pos _) Finset.univ_nonempty
  have hsum : Host.reduceAdd (Host.exp (sShift l)) (constant (F := Ideal) S_ .f32 0x00000000#32)
      reducesTo_S8192x40_S8192_d1 h_S_ (ix1 i)
      = ((∑ k', Real.exp (lr i k' - Cert.Spec.rowMax lr i) : ℝ) : EReal) := by
    rw [Cert.LibRowReduce.hostRowSum_apply (Host.exp (sShift l)) _ reducesTo_S8192x40_S8192_d1 (by decide) h_S_ i,
      constant_apply, Cert.Consts.ofBits_zero, zero_add, Cert.Consts.coe_sum]
    refine Finset.sum_congr rfl fun k' _ => ?_
    show Ideal.exp (sShift l (ix2 i k')) = _
    rw [sShift_apply l lr hl i k']
    rfl
  unfold sLsm
  rw [subf_apply, Cert.LibLayout.broadcastInDim_a1_ab_apply]
  show sShift l (ix2 i k) - Ideal.log (broadcastInDim S8192x1 ![0] bcast_S8192_S8192x1_0
    (Host.reduceAdd (Host.exp (sShift l)) (constant (F := Ideal) S_ .f32 0x00000000#32)
      reducesTo_S8192x40_S8192_d1 h_S_) (ix2 i (0 : Fin 1))) = _
  rw [Cert.LibLayout.broadcastInDim_a_a1_apply, hsum, Ideal.log_coe, if_neg (not_le.mpr hpos),
    sShift_apply l lr hl i k, ← EReal.coe_sub]
  rfl

end

end Cert.ReferenceIdeal.RefValue

end
-- ==== Proof.RefRead.lean ====
/-
  The reference's result read at an entry, on real arguments.

  When the four argument arrays hold real numbers, the reference's result at `(p, q)` is the real number the
  specification's `outR` names: the logits are the coercions of `logitR` and the row-wise log-softmax of a real
  array is the coercion of `lsmR`.  The positivity of the degrees is not used here: over the extended reals the
  power of two real numbers is the real power whatever the base's sign; it is what makes the two arrangements agree.
-/
import proofs.«152435_j1984274891532_2_alg».proof.Proof.RefStages
import proofs.«152435_j1984274891532_2_alg».proof.Proof.Spec
import proofs.«152435_j1984274891532_2_alg».proof.Proof.RefReadB
import proofs.«152435_j1984274891532_2_alg».proof.Proof.RefReadC
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Idealize.ShloMosaic Idealize.ShloMosaic.ValueIdx

variable [Cert.ReferenceIdeal.Facts]
open Cert.ReferenceIdeal.Facts₀ Cert.ReferenceIdeal.Facts

/-- The reference's result at `(p, q)` is the coercion of the specification's `outR`. -/
theorem refOut_real (x : FVec Ideal S8192x512 .f32) (adj : FVec Ideal S8192x8192 .f32) (W1 : FVec Ideal S512x256 .f32)
    (W2 : FVec Ideal S256x40 .f32)
    (xr : Fin 8192 → Fin 512 → ℝ) (ar : Fin 8192 → Fin 8192 → ℝ) (w1r : Fin 512 → Fin 256 → ℝ) (w2r : Fin 256 → Fin 40 → ℝ)
    (hx : ∀ p q, x (ValueIdx.ix2 p q) = ((xr p q : ℝ) : EReal))
    (ha : ∀ p q, adj (ValueIdx.ix2 p q) = ((ar p q : ℝ) : EReal))
    (hw1 : ∀ p q, W1 (ValueIdx.ix2 p q) = ((w1r p q : ℝ) : EReal))
    (hw2 : ∀ p q, W2 (ValueIdx.ix2 p q) = ((w2r p q : ℝ) : EReal))
    (hdeg : ∀ i, 0 < Cert.Spec.degR ar i) :
    ∀ (p : Fin 8192) (q : Fin 40),
      refOut (F := Ideal) x adj W1 W2 (ValueIdx.ix2 p q) = ((Cert.Spec.outR ar xr w1r w2r p q : ℝ) : EReal) := by
  intro p q
  unfold refOut Cert.Spec.outR
  exact sLsm_apply (sLogit x adj W1 W2) (Cert.Spec.logitR ar xr w1r w2r)
    (sLogit_apply x adj W1 W2 xr ar w1r w2r hx ha hw1 hw2) p q

end Cert.ReferenceIdeal.RefValue

end
-- ==== Proof.SpecLaws.lean ====
/-
  The law of the reals that joins the two arrangements of the graph convolution.

  With `Â = A + I`, the row sum of `Â` is the row sum of `A` plus one; where that degree is positive its real
  power `-1/2` is `1 / √deg`; and for any scaling `d` the normalised product
  `Σ_j (d i · Â i j) · d j · v j` equals `d i · (Σ_j A i j · (d j · v j) + d i · v i)`: distribute over the sum and
  collapse the diagonal indicator. The dense layers and the log-softmax are then the same functions applied to equal
  arguments, the two log-softmax spellings differing by `x - m - L = x - (m + L)`.
-/
import proofs.«152435_j1984274891532_2_alg».proof.Proof.Spec

noncomputable section

namespace Cert.Spec

open Finset

variable (a : Fin 8192 → Fin 8192 → ℝ) (x : Fin 8192 → Fin 512 → ℝ)
  (w1 : Fin 512 → Fin 256 → ℝ) (w2 : Fin 256 → Fin 40 → ℝ)

/-- The row sum of `A + I` is the row sum of `A` plus one. -/
theorem degR_eq (i : Fin 8192) : degR a i = deg a i := by
  unfold degR deg ahat
  rw [Finset.sum_add_distrib, Finset.sum_ite_eq]
  simp

theorem deg_pos {i : Fin 8192} (h : 0 < degR a i) : 0 < deg a i := by
  rw [← degR_eq]; exact h

/-- On a positive degree the real power `-1/2` is one over the square root. -/
theorem dR_eq {i : Fin 8192} (h : 0 < degR a i) : dR a i = dinv a i := by
  have hp := deg_pos a h
  unfold dR dinv
  rw [degR_eq, Real.rpow_eq_pow, Real.rpow_neg hp.le, Real.sqrt_eq_rpow]
  exact (one_div _).symm

theorem dinv_pos {i : Fin 8192} (h : 0 < degR a i) : 0 < dinv a i := by
  unfold dinv
  exact one_div_pos.mpr (Real.sqrt_pos.mpr (deg_pos a h))

/-- The propagation law for an arbitrary scaling `d`: the normalised matrix times the features is the
    scale–accumulate–add-self–scale arrangement. -/
theorem prop_law {n : ℕ} (d : Fin 8192 → ℝ) (v : Fin 8192 → Fin n → ℝ) (i : Fin 8192) (f : Fin n) :
    ∑ j, d i * (a i j + (if i = j then 1 else 0)) * d j * v j f
      = d i * ((∑ j, a i j * (d j * v j f)) + d i * v i f) := by
  have h : ∀ j, d i * (a i j + (if i = j then 1 else 0)) * d j * v j f
      = d i * (a i j * (d j * v j f)) + (if i = j then d i * (d j * v j f) else 0) := by
    intro j; split_ifs <;> ring
  simp only [h, sum_add_distrib, sum_ite_eq, mem_univ, if_true, ← mul_sum]
  ring

theorem propR_eq_prop (hdeg : ∀ i, 0 < degR a i) {n : ℕ} (v : Fin 8192 → Fin n → ℝ) :
    propR a v = prop a v := by
  have hd : ∀ i, dR a i = dinv a i := fun i => dR_eq a (hdeg i)
  funext i f
  unfold propR prop nrm ahat
  simp only [hd]
  exact prop_law a (dinv a) v i f

theorem hidR_eq_hid (hdeg : ∀ i, 0 < degR a i) : hidR a x w1 = hid a x w1 := by
  funext i c
  unfold hidR hid
  rw [propR_eq_prop a hdeg]

theorem logitR_eq_logit (hdeg : ∀ i, 0 < degR a i) : logitR a x w1 w2 = logit a x w1 w2 := by
  funext i k
  unfold logitR logit
  rw [propR_eq_prop a hdeg, hidR_eq_hid a x w1 hdeg]

/-- The two spellings of the log-softmax agree for every row. -/
theorem lsmR_eq_lsmK (l : Fin 8192 → Fin 40 → ℝ) : lsmR l = lsmK l := by
  funext i k
  unfold lsmR lsmK
  rw [sub_sub]

/-- The reference's arrangement and the kernel's arrangement are the same function of the real inputs wherever
    every degree is positive. -/
theorem outR_eq_out (hdeg : ∀ i, 0 < degR a i) : outR a x w1 w2 = out a x w1 w2 := by
  funext i k
  unfold outR out
  rw [logitR_eq_logit a x w1 w2 hdeg, lsmR_eq_lsmK]

end Cert.Spec

end
-- ==== Proof.LibFiniteAll.lean ====
/-
  "Every entry is finite", decoded.

  A precondition of the form `jnp.all(jnp.abs(x) < inf)` prints as an all-reduction by `and`, into a scalar, of the bits
  of the comparison `|x i| < (the f32 word of +inf)`.  On the extended reals `|x|` is `max x (-x)`, and it is below `⊤`
  exactly when `x` is neither infinity, that is, when `x` is a real number.  So:

  * `real_of_abs_lt_inf`: an extended real whose absolute value compares below the word `0x7F800000` is a real number;
  * `all_real`: when the all-reduction (over any axes, into the scalar shape, from any initial word) of those bits for
    an array `x` of any shape is 1, every entry of `x` is a real number.

  The scalar shape here is `S0 = ⟨0, ![]⟩`, the shape a printed program calls `S_`; its one index is `ValueIdx.ix0`.
-/
import Idealize.ShloMosaic.PureOps.Ideal
import Idealize.ShloMosaic.Lib.ReduceAll
import Idealize.ShloMosaic.Lib.Pipeline.Value
import Idealize.ShloMosaic.Lib.ValueIdx

noncomputable section

namespace Cert.LibFiniteAll

open Idealize.ShloMosaic Idealize.ShloMosaic.ValueIdx

/-- The scalar shape. -/
abbrev S0 : Shape := ⟨0, ![]⟩

instance : Subsingleton S0.Idx := ⟨fun _ _ => funext fun d => d.elim0⟩

/-- An extended real whose absolute value is below the f32 word of +inf is a real number. -/
theorem real_of_abs_lt_inf (x : EReal)
    (h : FloatOps.cmpf (F := Ideal) .olt (FloatOps.hostAbsf x) (Ideal.ofBits .f32 0x7F800000#32) = 1#1) :
    ∃ r : ℝ, x = r := by
  have htop : Ideal.ofBits .f32 0x7F800000#32 = ⊤ := by simp [Ideal.ofBits, Ideal.ieee]
  rw [htop] at h
  change BitVec.ofBool (decide (max x (-x) < ⊤)) = 1#1 at h
  have hlt : max x (-x) < ⊤ := by
    by_contra hn
    rw [decide_eq_false hn] at h
    exact absurd h (by decide)
  induction x using EReal.rec with
  | bot => exact absurd hlt (by simp)
  | coe r => exact ⟨r, rfl⟩
  | top => exact absurd hlt (by simp)

/-- `jnp.all(|x| < inf)`: when the all-reduction of the comparison's bits is 1, every entry of `x` is a real. -/
theorem all_real {s : Shape} {axes : List (Fin s.rank)} (x : FVec Ideal s .f32) (dims : Fin S0.rank → Fin s.rank)
    (hb : S0.BroadcastsInDim s dims) (h : s.ReducesTo axes S0) (hu : 0 < S0.numel)
    (e : Host.reduce IntOp.andi (cmpf .olt (Host.absf x) (broadcastInDim s dims hb (constant (F := Ideal) S0 .f32 0x7F800000#32)))
      (constantI S0 1 1#1) h hu ix0 = 1#1) (i : s.Idx) : ∃ r : ℝ, x i = r := by
  have hi := Host.reduce_andi_all _ _ h hu ix0 e i
  have hbc : broadcastInDim s dims hb (constant (F := Ideal) S0 .f32 0x7F800000#32) i = Ideal.ofBits .f32 0x7F800000#32 :=
    broadcastInDim_apply dims hb _ i (fun a => a.elim0) (fun a => a.elim0)
  refine real_of_abs_lt_inf (x i) ?_
  rw [← hbc]
  exact hi

end Cert.LibFiniteAll

end
-- ==== Proof.PreFacts.lean ====
/-
  The precondition, decoded.

  The precondition is a scalar program: the conjunction of four tests "every entry of this input is finite"
  (`|·| < +inf`, all-reduced by `and`) and a fifth, "every row sum of `adj + I` is positive", where the identity matrix
  is built by comparing the row and column coordinates' words and converting the answer bit to a float, the row sum is a
  reduction along the second axis from the zero word, and the comparison against zero is all-reduced by `and`.

  Read over the extended reals, its value being 1 says: the four inputs are arrays of real numbers, and, writing `ar`
  for the adjacency's real entries, the degree `Σ_j (ar i j + [i = j])` of every row is positive (`decode`).
-/
import proofs.«152435_j1984274891532_2_alg».proof.Pre_finite_inputs
import proofs.«152435_j1984274891532_2_alg».proof.Proof.Spec
import proofs.«152435_j1984274891532_2_alg».proof.Proof.LibFiniteAll
import proofs.«152435_j1984274891532_2_alg».proof.Proof.LibOneHot
import Idealize.ShloMosaic.Lib.ReduceAll
import Idealize.ShloMosaic.Lib.IdealHost
import Idealize.ShloMosaic.Lib.ValueIdx
import Idealize.ShloMosaic.Lib.Pipeline.Value

noncomputable section

open scoped BigOperators

namespace Cert.PreFacts

open Idealize.ShloMosaic Idealize.ShloMosaic.ValueIdx
open Cert.Pre_finite_inputs

variable [Cert.Pre_finite_inputs.Facts]
open Cert.Pre_finite_inputs.Facts

/-! ## The row sum of `adj + I` as the scalar program forms it -/

/-- The identity matrix as the program builds it: the two coordinates' words compared for equality, the answer bit
    converted to a float. -/
def eye : FVec Ideal S8192x8192 .f32 :=
  uitofp .f32 (cmpi .eq (addi (iotaInDim S8192x8192 32 0)
    (broadcastInDim S8192x8192 ![] bcast_S_S8192x8192 (constantI S_ 32 0#32))) (iotaInDim S8192x8192 32 1))

/-- The row sums of `adj + I`: a reduction along the second axis from the zero word. -/
def rowSum (adj : FVec Ideal S8192x8192 .f32) : FVec Ideal S8192 .f32 :=
  Host.reduceAdd (addf adj eye) (constant (F := Ideal) S_ .f32 0x00000000#32) reducesTo_S8192x8192_S8192_d1 h_S_

theorem red1 : S8192x8192.Reduces [1] S8192 := by decide

theorem zero_word : Ideal.ofBits .f32 0x00000000#32 = 0 := by simp [Ideal.ofBits, Ideal.ieee]

/-- Row `i` with column `j` put back on the reduced axis is the index `(i, j)`. -/
theorem lift_ix (i j : Fin 8192) : red1.lift (ix1 i) j = ix2 i j := by
  funext a
  match a with
  | ⟨0, _⟩ => exact Fin.ext rfl
  | ⟨1, _⟩ => exact Fin.ext rfl

/-- The identity matrix at `(i, j)`: the real number one when `i = j`, zero otherwise. -/
theorem eye_apply (i j : Fin 8192) : eye (ix2 i j) = (((if i.val = j.val then 1 else 0 : ℕ) : ℝ) : EReal) := by
  show FloatOps.uitofp (F := Ideal) .f32 (IntOp.cmpi .eq (IntOp.addi (BitVec.ofNat 32 i.val) 0#32) (BitVec.ofNat 32 j.val)) = _
  rw [show IntOp.addi (BitVec.ofNat 32 i.val) 0#32 = BitVec.ofNat 32 i.val from BitVec.add_zero _,
    Cert.LibOneHot.uitofp_cmpi_eq .f32 i.val j.val (by have := i.isLt; omega) (by have := j.isLt; omega)]

/-- The row sum at `i`: the sum over the columns of `adj + I`. -/
theorem rowSum_apply (adj : FVec Ideal S8192x8192 .f32) (i : Fin 8192) :
    rowSum adj (ix1 i) = ∑ j : Fin 8192, (adj (ix2 i j) + eye (ix2 i j)) := by
  unfold rowSum
  rw [hostReduceAdd_apply, Ideal.hostReduceAdd_single _ red1]
  show Ideal.ofBits .f32 0x00000000#32 + ∑ k : Fin 8192, (addf adj eye) (red1.lift (ix1 i) k) = _
  rw [zero_word, zero_add]
  refine Finset.sum_congr rfl fun j _ => ?_
  rw [lift_ix]
  rfl

/-- A finite sum of real numbers, read in the extended reals, is the real sum. -/
theorem coe_sum {ι : Type*} (s : Finset ι) (f : ι → ℝ) : ∑ j ∈ s, ((f j : ℝ) : EReal) = ((∑ j ∈ s, f j : ℝ) : EReal) := by
  classical
  induction s using Finset.induction_on with
  | empty => simp
  | insert a s ha ih => rw [Finset.sum_insert ha, Finset.sum_insert ha, ih, EReal.coe_add]

/-- With real entries the row sum is the reference's degree. -/
theorem rowSum_eq_degR (adj : FVec Ideal S8192x8192 .f32) (ar : Fin 8192 → Fin 8192 → ℝ)
    (har : ∀ p q, adj (ix2 p q) = ((ar p q : ℝ) : EReal)) (i : Fin 8192) :
    rowSum adj (ix1 i) = ((Cert.Spec.degR ar i : ℝ) : EReal) := by
  rw [rowSum_apply]
  unfold Cert.Spec.degR
  rw [← coe_sum]
  refine Finset.sum_congr rfl fun j _ => ?_
  rw [har, eye_apply, ← EReal.coe_add]
  unfold Cert.Spec.ahat
  by_cases hij : i = j
  · subst hij; simp
  · have hv : i.val ≠ j.val := fun e => hij (Fin.ext e)
    simp [hij, hv]

/-- The scalar program's conjunction, split: the four "every entry is finite" facts and the row-sum test. -/
theorem split (x : FVec Ideal S8192x512 .f32) (adj : FVec Ideal S8192x8192 .f32) (W1 : FVec Ideal S512x256 .f32)
    (W2 : FVec Ideal S256x40 .f32) (h : fn (F := Ideal) x adj W1 W2 = fun _ => 1#1) :
    (∀ i, ∃ r : ℝ, x i = r) ∧ (∀ i, ∃ r : ℝ, adj i = r) ∧ (∀ i, ∃ r : ℝ, W1 i = r) ∧ (∀ i, ∃ r : ℝ, W2 i = r) ∧
    ∀ i : Fin 8192, (0 : EReal) < rowSum adj (ix1 i) := by
  have h0 := congrFun h ix0
  dsimp only [fn, fn_part1] at h0
  change IntOp.andi (IntOp.andi (IntOp.andi (IntOp.andi _ _) _) _) _ = 1#1 at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, h2⟩ := IntOp.andi_eq_one.1 h12
  refine ⟨Cert.LibFiniteAll.all_real x ![] bcast_S_S8192x512 reducesTo_S8192x512_S_d0_1 h_S_ h1,
    Cert.LibFiniteAll.all_real adj ![] bcast_S_S8192x8192 reducesTo_S8192x8192_S_d0_1 h_S_ h2,
    Cert.LibFiniteAll.all_real W1 ![] bcast_S_S512x256 reducesTo_S512x256_S_d0_1 h_S_ h3,
    Cert.LibFiniteAll.all_real W2 ![] bcast_S_S256x40 reducesTo_S256x40_S_d0_1 h_S_ h4, fun i => ?_⟩
  have hi := Host.reduce_andi_all _ _ reducesTo_S8192_S_d0 h_S_ ix0 h5 (ix1 i)
  rw [cmpf_apply] at hi
  have hz : broadcastInDim S8192 ![] bcast_S_S8192 (constant (F := Ideal) S_ .f32 0x00000000#32) (ix1 i) = 0 := by
    rw [broadcastInDim_scalar_apply]; exact zero_word
  rw [hz] at hi
  change BitVec.ofBool (decide ((0 : EReal) < rowSum adj (ix1 i))) = 1#1 at hi
  by_contra hn
  rw [decide_eq_false hn] at hi
  exact absurd hi (by decide)

/-- THE PRECONDITION, DECODED: the four inputs are arrays of real numbers and every row sum of `adj + I` is positive. -/
theorem decode (x : FVec Ideal Cert.Pre_finite_inputs.S8192x512 .f32) (adj : FVec Ideal Cert.Pre_finite_inputs.S8192x8192 .f32)
    (W1 : FVec Ideal Cert.Pre_finite_inputs.S512x256 .f32) (W2 : FVec Ideal Cert.Pre_finite_inputs.S256x40 .f32)
    (h : Cert.Pre_finite_inputs.fn (F := Ideal) x adj W1 W2 = fun _ => 1#1) :
    ∃ (xr : Fin 8192 → Fin 512 → ℝ) (ar : Fin 8192 → Fin 8192 → ℝ) (w1r : Fin 512 → Fin 256 → ℝ)
      (w2r : Fin 256 → Fin 40 → ℝ),
      (∀ p q, x (ix2 p q) = ((xr p q : ℝ) : EReal)) ∧ (∀ p q, adj (ix2 p q) = ((ar p q : ℝ) : EReal)) ∧
      (∀ p q, W1 (ix2 p q) = ((w1r p q : ℝ) : EReal)) ∧ (∀ p q, W2 (ix2 p q) = ((w2r p q : ℝ) : EReal)) ∧
      ∀ i, 0 < Cert.Spec.degR ar i := by
  obtain ⟨hx, ha, hw1, hw2, hs⟩ := split x adj W1 W2 h
  choose xr hxr using fun (p : Fin 8192) (q : Fin 512) => hx (ix2 p q)
  choose ar har using fun (p : Fin 8192) (q : Fin 8192) => ha (ix2 p q)
  choose w1r hw1r using fun (p : Fin 512) (q : Fin 256) => hw1 (ix2 p q)
  choose w2r hw2r using fun (p : Fin 256) (q : Fin 40) => hw2 (ix2 p q)
  refine ⟨xr, ar, w1r, w2r, hxr, har, hw1r, hw2r, fun i => ?_⟩
  have hi := hs i
  rw [rowSum_eq_degR adj ar har i] at hi
  exact EReal.coe_pos.1 hi

end Cert.PreFacts

end
-- ==== Proof.RefClaim.lean ====
/-
  The reference's side of the claims.  Under the precondition the four argument arrays are arrays of real numbers and
  every row sum of the adjacency with self-loops is positive; the reference's result is then, entry by entry, the
  real-valued specification of the reference's arrangement, which equals the kernel's arrangement wherever the degrees are
  positive.  So the reference's run ends with its result buffer at the common array `specArr` (the kernel's arrangement
  over the reals, read as extended reals) and its arguments unchanged.
-/
import proofs.«152435_j1984274891532_2_alg».proof.Defs
import proofs.«152435_j1984274891532_2_alg».proof.Proof.Gen.ReferenceIdeal
import proofs.«152435_j1984274891532_2_alg».proof.Proof.Gen.Pre_finite_inputs
import proofs.«152435_j1984274891532_2_alg».proof.Proof.RefRun
import proofs.«152435_j1984274891532_2_alg».proof.Proof.RefRead
import proofs.«152435_j1984274891532_2_alg».proof.Proof.SpecLaws
import proofs.«152435_j1984274891532_2_alg».proof.Proof.PreFacts

noncomputable section

namespace Cert.Proof

open Idealize.ShloMosaic Idealize.ShloMosaic.TcCoe Idealize.SL.Sem Idealize.ShloMosaic.ValueIdx

/-! ## The common result -/

/-- The common result: the kernel's arrangement over the reals, as an array of extended reals. -/
def specArr (ar : Fin 8192 → Fin 8192 → ℝ) (xr : Fin 8192 → Fin 512 → ℝ) (w1r : Fin 512 → Fin 256 → ℝ)
    (w2r : Fin 256 → Fin 40 → ℝ) : FVec Ideal Cert.ReferenceIdeal.S8192x40 .f32 :=
  fun j => ((Cert.Spec.out ar xr w1r w2r (j 0) (j 1) : ℝ) : EReal)

/-- Its entry at row `p`, column `q`. -/
theorem specArr_ix2 (ar : Fin 8192 → Fin 8192 → ℝ) (xr : Fin 8192 → Fin 512 → ℝ) (w1r : Fin 512 → Fin 256 → ℝ)
    (w2r : Fin 256 → Fin 40 → ℝ) (p : Fin 8192) (q : Fin 40) :
    specArr ar xr w1r w2r (ix2 p q) = ((Cert.Spec.out ar xr w1r w2r p q : ℝ) : EReal) := rfl

/-- An array of the result's shape whose entry at every row and column is the specification's is `specArr`. -/
theorem eq_specArr (ar : Fin 8192 → Fin 8192 → ℝ) (xr : Fin 8192 → Fin 512 → ℝ) (w1r : Fin 512 → Fin 256 → ℝ)
    (w2r : Fin 256 → Fin 40 → ℝ) (y : FVec Ideal Cert.ReferenceIdeal.S8192x40 .f32)
    (h : ∀ (p : Fin 8192) (q : Fin 40), y (ix2 p q) = ((Cert.Spec.out ar xr w1r w2r p q : ℝ) : EReal)) :
    y = specArr ar xr w1r w2r := by
  funext j
  rw [eq_ix2 j]
  exact h (j 0) (j 1)

/-- The reference's chain of stages, of arrays of real numbers with positive degrees, is the common result. -/
theorem refOut_eq_specArr (x : FVec Ideal Cert.ReferenceIdeal.S8192x512 .f32) (adj : FVec Ideal Cert.ReferenceIdeal.S8192x8192 .f32)
    (W1 : FVec Ideal Cert.ReferenceIdeal.S512x256 .f32) (W2 : FVec Ideal Cert.ReferenceIdeal.S256x40 .f32)
    (xr : Fin 8192 → Fin 512 → ℝ) (ar : Fin 8192 → Fin 8192 → ℝ) (w1r : Fin 512 → Fin 256 → ℝ) (w2r : Fin 256 → Fin 40 → ℝ)
    (hx : ∀ p q, x (ix2 p q) = ((xr p q : ℝ) : EReal)) (ha : ∀ p q, adj (ix2 p q) = ((ar p q : ℝ) : EReal))
    (hw1 : ∀ p q, W1 (ix2 p q) = ((w1r p q : ℝ) : EReal)) (hw2 : ∀ p q, W2 (ix2 p q) = ((w2r p q : ℝ) : EReal))
    (hdeg : ∀ i, 0 < Cert.Spec.degR ar i) :
    Cert.ReferenceIdeal.RefValue.refOut (F := Ideal) x adj W1 W2 = specArr ar xr w1r w2r :=
  eq_specArr ar xr w1r w2r _ fun p q => by
    rw [Cert.ReferenceIdeal.RefValue.refOut_real x adj W1 W2 xr ar w1r w2r hx ha hw1 hw2 hdeg p q,
      Cert.Spec.outR_eq_out ar xr w1r w2r hdeg]

/-! ## The claims' reference side -/

/-- The reference runs and leaves its arguments unchanged. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.RefValue.run (F := Ideal) m ρ)

/-- From a memory whose argument arrays are arrays of real numbers with positive degrees, the reference ends with its
    result at the common result and its arguments unchanged. -/
theorem ref_half (m' : (ℓ : Loc Cert.ReferenceIdeal.nD Cert.ReferenceIdeal.τ Cert.ReferenceIdeal.sig) → Buf (Elt Ideal) ℓ) (ρ' : Dev Cert.ReferenceIdeal.nD → PrngReg)
    (xr : Dev Cert.KernelIdeal.nD → Fin 8192 → Fin 512 → ℝ) (ar : Dev Cert.KernelIdeal.nD → Fin 8192 → Fin 8192 → ℝ)
    (w1r : Dev Cert.KernelIdeal.nD → Fin 512 → Fin 256 → ℝ) (w2r : Dev Cert.KernelIdeal.nD → Fin 256 → Fin 40 → ℝ)
    (hx : ∀ (c : Dev Cert.KernelIdeal.nD) (p : Fin 8192) (q : Fin 512), m' ((c.tc : Thread Cert.ReferenceIdeal.nD Cert.ReferenceIdeal.τ).loc Cert.ReferenceIdeal.main_arg0) (ix2 p q) = ((xr c p q : ℝ) : EReal))
    (ha : ∀ (c : Dev Cert.KernelIdeal.nD) (p : Fin 8192) (q : Fin 8192), m' ((c.tc : Thread Cert.ReferenceIdeal.nD Cert.ReferenceIdeal.τ).loc Cert.ReferenceIdeal.main_arg1) (ix2 p q) = ((ar c p q : ℝ) : EReal))
    (hw1 : ∀ (c : Dev Cert.KernelIdeal.nD) (p : Fin 512) (q : Fin 256), m' ((c.tc : Thread Cert.ReferenceIdeal.nD Cert.ReferenceIdeal.τ).loc Cert.ReferenceIdeal.main_arg2) (ix2 p q) = ((w1r c p q : ℝ) : EReal))
    (hw2 : ∀ (c : Dev Cert.KernelIdeal.nD) (p : Fin 256) (q : Fin 40), m' ((c.tc : Thread Cert.ReferenceIdeal.nD Cert.ReferenceIdeal.τ).loc Cert.ReferenceIdeal.main_arg3) (ix2 p q) = ((w2r c p q : ℝ) : EReal))
    (hdeg : ∀ (c : Dev Cert.KernelIdeal.nD) (i : Fin 8192), 0 < Cert.Spec.degR (ar c) i) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
          r.2.mem ((c.tc : Thread Cert.ReferenceIdeal.nD Cert.ReferenceIdeal.τ).loc Cert.ReferenceIdeal.main_v22) = specArr (ar c) (xr c) (w1r c) (w2r c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run Cert.ReferenceIdeal.defs _ _).mono
    (fun _ h c => ⟨(h c).1.trans (refOut_eq_specArr _ _ _ _ (xr c) (ar c) (w1r c) (w2r c) (hx c) (ha c) (hw1 c) (hw2 c) (hdeg c)), (h c).2⟩)
    (Cert.ReferenceIdeal.RefValue.run (F := Ideal) m' ρ')

/-- The precondition, on every device: the four argument arrays are arrays of real numbers, with positive degrees. -/
theorem pre_real (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) :
    ∃ (xr : Dev Cert.KernelIdeal.nD → Fin 8192 → Fin 512 → ℝ) (ar : Dev Cert.KernelIdeal.nD → Fin 8192 → Fin 8192 → ℝ)
    (w1r : Dev Cert.KernelIdeal.nD → Fin 512 → Fin 256 → ℝ) (w2r : Dev Cert.KernelIdeal.nD → Fin 256 → Fin 40 → ℝ),
      (∀ (c : Dev Cert.KernelIdeal.nD) (p : Fin 8192) (q : Fin 512), m ((c.tc : Thread Cert.KernelIdeal.nD Cert.KernelIdeal.τ).loc Cert.KernelIdeal.main_arg0) (ix2 p q) = ((xr c p q : ℝ) : EReal))
      ∧ (∀ (c : Dev Cert.KernelIdeal.nD) (p : Fin 8192) (q : Fin 8192), m ((c.tc : Thread Cert.KernelIdeal.nD Cert.KernelIdeal.τ).loc Cert.KernelIdeal.main_arg1) (ix2 p q) = ((ar c p q : ℝ) : EReal))
      ∧ (∀ (c : Dev Cert.KernelIdeal.nD) (p : Fin 512) (q : Fin 256), m ((c.tc : Thread Cert.KernelIdeal.nD Cert.KernelIdeal.τ).loc Cert.KernelIdeal.main_arg2) (ix2 p q) = ((w1r c p q : ℝ) : EReal))
      ∧ (∀ (c : Dev Cert.KernelIdeal.nD) (p : Fin 256) (q : Fin 40), m ((c.tc : Thread Cert.KernelIdeal.nD Cert.KernelIdeal.τ).loc Cert.KernelIdeal.main_arg3) (ix2 p q) = ((w2r c p q : ℝ) : EReal))
      ∧ ∀ (c : Dev Cert.KernelIdeal.nD) (i : Fin 8192), 0 < Cert.Spec.degR (ar c) i := by
  choose xr ar w1r w2r hx ha hw1 hw2 hdeg using fun c : Dev Cert.KernelIdeal.nD =>
    Cert.PreFacts.decode _ _ _ _ (hpre c)
  exact ⟨xr, ar, w1r, w2r, hx, ha, hw1, hw2, hdeg⟩

/-- Real forms of the kernel program's argument arrays pass to a memory of the reference that agrees on them. -/
theorem real_forms_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (xr : Dev Cert.KernelIdeal.nD → Fin 8192 → Fin 512 → ℝ) (ar : Dev Cert.KernelIdeal.nD → Fin 8192 → Fin 8192 → ℝ)
    (w1r : Dev Cert.KernelIdeal.nD → Fin 512 → Fin 256 → ℝ) (w2r : Dev Cert.KernelIdeal.nD → Fin 256 → Fin 40 → ℝ)
    (hx : ∀ (c : Dev Cert.KernelIdeal.nD) (p : Fin 8192) (q : Fin 512), m ((c.tc : Thread Cert.KernelIdeal.nD Cert.KernelIdeal.τ).loc Cert.KernelIdeal.main_arg0) (ix2 p q) = ((xr c p q : ℝ) : EReal))
    (ha : ∀ (c : Dev Cert.KernelIdeal.nD) (p : Fin 8192) (q : Fin 8192), m ((c.tc : Thread Cert.KernelIdeal.nD Cert.KernelIdeal.τ).loc Cert.KernelIdeal.main_arg1) (ix2 p q) = ((ar c p q : ℝ) : EReal))
    (hw1 : ∀ (c : Dev Cert.KernelIdeal.nD) (p : Fin 512) (q : Fin 256), m ((c.tc : Thread Cert.KernelIdeal.nD Cert.KernelIdeal.τ).loc Cert.KernelIdeal.main_arg2) (ix2 p q) = ((w1r c p q : ℝ) : EReal))
    (hw2 : ∀ (c : Dev Cert.KernelIdeal.nD) (p : Fin 256) (q : Fin 40), m ((c.tc : Thread Cert.KernelIdeal.nD Cert.KernelIdeal.τ).loc Cert.KernelIdeal.main_arg3) (ix2 p q) = ((w2r c p q : ℝ) : EReal)) :
    (∀ (c : Dev Cert.KernelIdeal.nD) (p : Fin 8192) (q : Fin 512), m' ((c.tc : Thread Cert.ReferenceIdeal.nD Cert.ReferenceIdeal.τ).loc Cert.ReferenceIdeal.main_arg0) (ix2 p q) = ((xr c p q : ℝ) : EReal))
    ∧ (∀ (c : Dev Cert.KernelIdeal.nD) (p : Fin 8192) (q : Fin 8192), m' ((c.tc : Thread Cert.ReferenceIdeal.nD Cert.ReferenceIdeal.τ).loc Cert.ReferenceIdeal.main_arg1) (ix2 p q) = ((ar c p q : ℝ) : EReal))
    ∧ (∀ (c : Dev Cert.KernelIdeal.nD) (p : Fin 512) (q : Fin 256), m' ((c.tc : Thread Cert.ReferenceIdeal.nD Cert.ReferenceIdeal.τ).loc Cert.ReferenceIdeal.main_arg2) (ix2 p q) = ((w1r c p q : ℝ) : EReal))
    ∧ (∀ (c : Dev Cert.KernelIdeal.nD) (p : Fin 256) (q : Fin 40), m' ((c.tc : Thread Cert.ReferenceIdeal.nD Cert.ReferenceIdeal.τ).loc Cert.ReferenceIdeal.main_arg3) (ix2 p q) = ((w2r c p q : ℝ) : EReal)) :=
  ⟨fun c p q => by rw [(hagree c).1]; exact hx c p q,
   fun c p q => by rw [(hagree c).2.1]; exact ha c p q,
   fun c p q => by rw [(hagree c).2.2.1]; exact hw1 c p q,
   fun c p q => by rw [(hagree c).2.2.2]; exact hw2 c p q⟩

/-- The reference's conjunct of the algebraic claim, from the kernel program's side: given real forms of the kernel
    program's arguments and a memory of the reference agreeing on them, the reference ends at the common result. -/
theorem ref_half_of_agree (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (ρ' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (xr : Dev Cert.KernelIdeal.nD → Fin 8192 → Fin 512 → ℝ) (ar : Dev Cert.KernelIdeal.nD → Fin 8192 → Fin 8192 → ℝ)
    (w1r : Dev Cert.KernelIdeal.nD → Fin 512 → Fin 256 → ℝ) (w2r : Dev Cert.KernelIdeal.nD → Fin 256 → Fin 40 → ℝ)
    (hx : ∀ (c : Dev Cert.KernelIdeal.nD) (p : Fin 8192) (q : Fin 512), m ((c.tc : Thread Cert.KernelIdeal.nD Cert.KernelIdeal.τ).loc Cert.KernelIdeal.main_arg0) (ix2 p q) = ((xr c p q : ℝ) : EReal))
    (ha : ∀ (c : Dev Cert.KernelIdeal.nD) (p : Fin 8192) (q : Fin 8192), m ((c.tc : Thread Cert.KernelIdeal.nD Cert.KernelIdeal.τ).loc Cert.KernelIdeal.main_arg1) (ix2 p q) = ((ar c p q : ℝ) : EReal))
    (hw1 : ∀ (c : Dev Cert.KernelIdeal.nD) (p : Fin 512) (q : Fin 256), m ((c.tc : Thread Cert.KernelIdeal.nD Cert.KernelIdeal.τ).loc Cert.KernelIdeal.main_arg2) (ix2 p q) = ((w1r c p q : ℝ) : EReal))
    (hw2 : ∀ (c : Dev Cert.KernelIdeal.nD) (p : Fin 256) (q : Fin 40), m ((c.tc : Thread Cert.KernelIdeal.nD Cert.KernelIdeal.τ).loc Cert.KernelIdeal.main_arg3) (ix2 p q) = ((w2r c p q : ℝ) : EReal))
    (hdeg : ∀ (c : Dev Cert.KernelIdeal.nD) (i : Fin 8192), 0 < Cert.Spec.degR (ar c) i) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
          r.2.mem ((c.tc : Thread Cert.ReferenceIdeal.nD Cert.ReferenceIdeal.τ).loc Cert.ReferenceIdeal.main_v22) = specArr (ar c) (xr c) (w1r c) (w2r c)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  have h := real_forms_agree m m' hagree xr ar w1r w2r hx ha hw1 hw2
  ref_half m' ρ' xr ar w1r w2r h.1 h.2.1 h.2.2.1 h.2.2.2 hdeg

end Cert.Proof

end
-- ==== Proof.KI.HostGlue.lean ====
/-
  The host operations between the kernel program's regions, read back.

  After the first region has left the row sums `rs` of the adjacency, nine host operations form the scale column
  `d = 1 / √(rs + 1)` and the scaled features `y = d · x` (each row of `x` times its row's `d`); after the second region two
  more form `y₂ = d · h` from the hidden features. Part 1 reads what these stretches leave in the buffers the later regions
  fetch, for any float instance and any contents before the stretch. Part 2 reads those terms over the extended reals on
  real arguments: with real row sums and positive degrees `d` is the real `1 / √deg`, and a real column times real rows
  gives the real products.
-/
import proofs.«152435_j1984274891532_2_alg».proof.Proof.Gen.KernelIdeal.Regions
import proofs.«152435_j1984274891532_2_alg».proof.Proof.Spec
import proofs.«152435_j1984274891532_2_alg».proof.Proof.SpecLaws
import proofs.«152435_j1984274891532_2_alg».proof.Proof.LibConsts
import proofs.«152435_j1984274891532_2_alg».proof.Proof.LibLayout
import Idealize.ShloMosaic.Lib.StableHlo.Run
import Idealize.ShloMosaic.Lib.ValueIdx
import Idealize.ShloMosaic.Lib.IdealHost
import Idealize.ShloMosaic.Lib.Pipeline.Value

noncomputable section

namespace Cert.KernelIdeal.Gen

open Idealize.ShloMosaic Idealize.ShloMosaic.TcCoe
open Idealize.SL Idealize.SL.Sem

variable {F : FTy → Type} [FloatOps F]

/-- `d = 1 / √(rs + 1)`, as the host operations after the first region form it from the row sums `rs`. -/
def dOf (rs : FVec F S8192x1 .f32) : FVec F S8192x1 .f32 :=
  Host.divf (broadcastInDim S8192x1 ![] bcast_S_S8192x1 (constant (F := F) S_ .f32 0x3F800000#32))
    (Host.sqrt (addf rs (broadcastInDim S8192x1 ![] bcast_S_S8192x1 (constant (F := F) S_ .f32 0x3F800000#32))))

/-- The rows of a `[8192, 512]` array scaled by a column `d`. -/
def scale512 (d : FVec F S8192x1 .f32) (x : FVec F S8192x512 .f32) : FVec F S8192x512 .f32 :=
  mulf (broadcastInDim S8192x512 ![0, 1] bcast_S8192x1_S8192x512_0_1 d) x

/-- The rows of a `[8192, 256]` array scaled by a column `d`. -/
def scale256 (d : FVec F S8192x1 .f32) (x : FVec F S8192x256 .f32) : FVec F S8192x256 .f32 :=
  mulf (broadcastInDim S8192x256 ![0, 1] bcast_S8192x1_S8192x256_0_1 d) x

set_option maxHeartbeats 200000 in
/-- After the first stretch of host operations the scale column holds `dOf` of the row sums. -/
theorem after1_v5 (W : Valuation τ sig (Elt F)) :
    StableHlo.after hostOps1 W (Proc.devRef .tc main_v5) = dOf (W (Proc.devRef .tc main_v0_0)) := by
  dsimp only [hostOps1]
  after_results
  rfl

set_option maxHeartbeats 200000 in
/-- After the first stretch of host operations the scaled features are the input's rows scaled by that column. -/
theorem after1_v7 (W : Valuation τ sig (Elt F)) :
    StableHlo.after hostOps1 W (Proc.devRef .tc main_v7)
      = scale512 (dOf (W (Proc.devRef .tc main_v0_0))) (W (Proc.devRef .tc main_arg0)) := by
  dsimp only [hostOps1]
  after_results
  rfl

set_option maxHeartbeats 200000 in
/-- After the second stretch the scaled hidden features are the hidden features' rows scaled by the scale column. -/
theorem after2_v10 (W : Valuation τ sig (Elt F)) :
    StableHlo.after hostOps2 W (Proc.devRef .tc main_v10)
      = scale256 (W (Proc.devRef .tc main_v5)) (W (Proc.devRef .tc main_v8)) := by
  dsimp only [hostOps2]
  after_results
  rfl

end Cert.KernelIdeal.Gen

namespace Cert.KHost

open Idealize.ShloMosaic Idealize.ShloMosaic.ValueIdx
open Cert.KernelIdeal Cert.KernelIdeal.Gen

/-- On row sums that are real and give positive degrees, the scale column is the real `1 / √deg`. -/
theorem dOf_real (rs : FVec Ideal S8192x1 .f32) (ar : Fin 8192 → Fin 8192 → ℝ)
    (hrs : ∀ r, rs (ix2 r 0) = ((∑ j, ar r j : ℝ) : EReal)) (hdeg : ∀ i, 0 < Cert.Spec.degR ar i) :
    ∀ r, dOf rs (ix2 r 0) = ((Cert.Spec.dinv ar r : ℝ) : EReal) := by
  intro r
  have hone : ∀ j : S8192x1.Idx,
      broadcastInDim S8192x1 ![] bcast_S_S8192x1 (constant (F := Ideal) S_ .f32 0x3F800000#32) j = ((1 : ℝ) : EReal) := by
    intro j; rw [broadcastInDim_scalar_apply]; exact Cert.Consts.ofBits_one
  show Ideal.div (broadcastInDim S8192x1 ![] bcast_S_S8192x1 (constant (F := Ideal) S_ .f32 0x3F800000#32) (ix2 r 0))
    (Ideal.sqrt (rs (ix2 r 0) + broadcastInDim S8192x1 ![] bcast_S_S8192x1 (constant (F := Ideal) S_ .f32 0x3F800000#32) (ix2 r 0))) = _
  have hp : 0 < Cert.Spec.deg ar r := Cert.Spec.deg_pos ar (hdeg r)
  have hd : (∑ j, ar r j) + 1 = Cert.Spec.deg ar r := rfl
  rw [hone, hrs, ← EReal.coe_add, hd, Ideal.sqrt_coe, if_neg (not_lt.mpr hp.le),
    Cert.Consts.div_real 1 (Real.sqrt_pos.mpr hp).ne']
  rfl

/-- A real column times real rows: the scaled array's entries are the real products. -/
theorem scale512_real (d : FVec Ideal S8192x1 .f32) (x : FVec Ideal S8192x512 .f32) (dr : Fin 8192 → ℝ)
    (xr : Fin 8192 → Fin 512 → ℝ) (hd : ∀ r, d (ix2 r 0) = ((dr r : ℝ) : EReal))
    (hx : ∀ r f, x (ix2 r f) = ((xr r f : ℝ) : EReal)) :
    ∀ r f, scale512 d x (ix2 r f) = ((dr r * xr r f : ℝ) : EReal) := by
  intro r f
  show broadcastInDim S8192x512 ![0, 1] bcast_S8192x1_S8192x512_0_1 d (ix2 r f) * x (ix2 r f) = _
  rw [Cert.LibLayout.broadcastInDim_a1_ab_apply, hd, hx, EReal.coe_mul]

theorem scale256_real (d : FVec Ideal S8192x1 .f32) (x : FVec Ideal S8192x256 .f32) (dr : Fin 8192 → ℝ)
    (xr : Fin 8192 → Fin 256 → ℝ) (hd : ∀ r, d (ix2 r 0) = ((dr r : ℝ) : EReal))
    (hx : ∀ r f, x (ix2 r f) = ((xr r f : ℝ) : EReal)) :
    ∀ r f, scale256 d x (ix2 r f) = ((dr r * xr r f : ℝ) : EReal) := by
  intro r f
  show broadcastInDim S8192x256 ![0, 1] bcast_S8192x1_S8192x256_0_1 d (ix2 r f) * x (ix2 r f) = _
  rw [Cert.LibLayout.broadcastInDim_a1_ab_apply, hd, hx, EReal.coe_mul]

end Cert.KHost

end
-- ==== Proof.KPayBase.lean ====
/-
  Shared readings at an index, over the extended reals, of the operations the three kernel bodies are built from.

  A lane sum of an [a, b] vector along its second axis is, at row r, the plain sum over k of the entries (r, k).
  Each of the four matrix products of the bodies contracts the left operand's columns against the right operand's
  rows into a zero accumulator, so at entry (p, c) it is the sum over q of lhs (p, q) * rhs (q, c).  The coercion of
  the reals into the extended reals commutes with finite sums, products, sums of two and maxima, so an expression
  built from coerced reals by these operations is the coercion of the same expression over the reals.
-/
import proofs.«152435_j1984274891532_2_alg».proof.Proof.Gen.KernelIdeal.Skeleton
import proofs.«152435_j1984274891532_2_alg».proof.Proof.LibLayout
import proofs.«152435_j1984274891532_2_alg».proof.Proof.LibRowReduce
import proofs.«152435_j1984274891532_2_alg».proof.Proof.LibDense
import proofs.«152435_j1984274891532_2_alg».proof.Proof.LibConsts
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KPay

open Idealize.ShloMosaic Idealize.ShloMosaic.ValueIdx Cert.KernelIdeal Cert.KernelIdeal.Gen
open Cert.KernelIdeal.Facts₀ Cert.KernelIdeal.Facts

/-- A lane sum of an [a, b] vector along axis 1, at row r: the sum over k of the entries (r, k). -/
theorem rowSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ k : Fin b, v (ix2 r k) := by
  refine (Ideal.multiReduction_add_single v acc h hφ hacc (ix1 r)).trans ?_
  exact Finset.sum_congr rfl fun k _ => congrArg v (Cert.LibRowReduce.lift_row h r k)

/-- The zero word is the real zero. -/
theorem zero_word : (Scalar.ofBits (F := Ideal) .f32 0x00000000#32 : EReal) = ((0 : ℝ) : EReal) := by
  show Ideal.ofBits .f32 0x00000000#32 = _
  rw [Ideal.ofBits_zero_f32, EReal.coe_zero]

/-- The coercion of the reals commutes with the maximum of two. -/
theorem coe_max (x y : ℝ) : ((max x y : ℝ) : EReal) = max (x : EReal) (y : EReal) :=
  EReal.coe_strictMono.monotone.map_max

/-- A sum of coerced products is the coercion of the sum of products. -/
theorem coe_sum_mul {n : ℕ} (f g : Fin n → ℝ) :
    (∑ q : Fin n, (f q : EReal) * (g q : EReal)) = ((∑ q : Fin n, f q * g q : ℝ) : EReal) := by
  rw [Cert.Consts.coe_sum]
  exact Finset.sum_congr rfl fun q _ => (EReal.coe_mul _ _).symm

/-! The product `S1024x1024 × S1024x512`. -/

theorem adj512_l0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem adj512_l1 (i : S1024x512.Idx) (q : dot_S1024x1024_S1024x512_S1024x512_1_0_0_1_n_n.contr.Idx) : (dot_S1024x1024_S1024x512_S1024x512_1_0_0_1_n_n.lhsIdx i q 1).val = (q ⟨0, by decide⟩).val :=
  dot_S1024x1024_S1024x512_S1024x512_1_0_0_1_n_n.lhsIdx_val_of_single rfl i q
theorem adj512_r0 (i : S1024x512.Idx) (q : dot_S1024x1024_S1024x512_S1024x512_1_0_0_1_n_n.contr.Idx) : (dot_S1024x1024_S1024x512_S1024x512_1_0_0_1_n_n.rhsIdx i q 0).val = (q ⟨0, by decide⟩).val :=
  dot_S1024x1024_S1024x512_S1024x512_1_0_0_1_n_n.rhsIdx_val_of_single rfl i q
theorem adj512_r1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The product into the zero accumulator at entry (p, c): the sum over q of lhs (p, q) * rhs (q, c). -/
theorem adj512_apply (lhs : FVec Ideal S1024x1024 .bf16) (rhs : FVec Ideal S1024x512 .bf16) (p : Fin 1024) (c : Fin 512) :
    matmul dot_S1024x1024_S1024x512_S1024x512_1_0_0_1_n_n none lhs rhs (constant (F := Ideal) S1024x512 .f32 0x00000000#32) (ix2 p c)
      = ∑ q : Fin 1024, lhs (ix2 p q) * rhs (ix2 q c) :=
  Cert.LibDense.matmul_zero_apply dot_S1024x1024_S1024x512_S1024x512_1_0_0_1_n_n rfl rfl adj512_l0 adj512_l1 adj512_r0 adj512_r1 none lhs rhs p c

/-! The product `S1024x512 × S512x256`. -/

theorem w1_l0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem w1_l1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem w1_r0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem w1_r1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The product into the zero accumulator at entry (p, c): the sum over q of lhs (p, q) * rhs (q, c). -/
theorem w1_apply (lhs : FVec Ideal S1024x512 .bf16) (rhs : FVec Ideal S512x256 .bf16) (p : Fin 1024) (c : Fin 256) :
    matmul dot_S1024x512_S512x256_S1024x256_1_0_0_1_n_n none lhs rhs (constant (F := Ideal) S1024x256 .f32 0x00000000#32) (ix2 p c)
      = ∑ q : Fin 512, lhs (ix2 p q) * rhs (ix2 q c) :=
  Cert.LibDense.matmul_zero_apply dot_S1024x512_S512x256_S1024x256_1_0_0_1_n_n rfl rfl w1_l0 w1_l1 w1_r0 w1_r1 none lhs rhs p c

/-! The product `S1024x1024 × S1024x256`. -/

theorem adj256_l0 (i : S1024x256.Idx) (q : dot_S1024x1024_S1024x256_S1024x256_1_0_0_1_n_n.contr.Idx) : (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem adj256_l1 (i : S1024x256.Idx) (q : dot_S1024x1024_S1024x256_S1024x256_1_0_0_1_n_n.contr.Idx) : (dot_S1024x1024_S1024x256_S1024x256_1_0_0_1_n_n.lhsIdx i q 1).val = (q ⟨0, by decide⟩).val :=
  dot_S1024x1024_S1024x256_S1024x256_1_0_0_1_n_n.lhsIdx_val_of_single rfl i q
theorem adj256_r0 (i : S1024x256.Idx) (q : dot_S1024x1024_S1024x256_S1024x256_1_0_0_1_n_n.contr.Idx) : (dot_S1024x1024_S1024x256_S1024x256_1_0_0_1_n_n.rhsIdx i q 0).val = (q ⟨0, by decide⟩).val :=
  dot_S1024x1024_S1024x256_S1024x256_1_0_0_1_n_n.rhsIdx_val_of_single rfl i q
theorem adj256_r1 (i : S1024x256.Idx) (q : dot_S1024x1024_S1024x256_S1024x256_1_0_0_1_n_n.contr.Idx) : (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- The product into the zero accumulator at entry (p, c): the sum over q of lhs (p, q) * rhs (q, c). -/
theorem adj256_apply (lhs : FVec Ideal S1024x1024 .bf16) (rhs : FVec Ideal S1024x256 .bf16) (p : Fin 1024) (c : Fin 256) :
    matmul dot_S1024x1024_S1024x256_S1024x256_1_0_0_1_n_n none lhs rhs (constant (F := Ideal) S1024x256 .f32 0x00000000#32) (ix2 p c)
      = ∑ q : Fin 1024, lhs (ix2 p q) * rhs (ix2 q c) :=
  Cert.LibDense.matmul_zero_apply dot_S1024x1024_S1024x256_S1024x256_1_0_0_1_n_n rfl rfl adj256_l0 adj256_l1 adj256_r0 adj256_r1 none lhs rhs p c

/-! The product `S1024x256 × S256x40`. -/

theorem w2_l0 (i : S1024x40.Idx) (q : dot_S1024x256_S256x40_S1024x40_1_0_0_1_n_n.contr.Idx) : (dot_S1024x256_S256x40_S1024x40_1_0_0_1_n_n.lhsIdx i q 0).val = (i 0).val := by
  unfold DotDims.lhsIdx
  rw [dif_neg (show ¬(0 : Fin S1024x256.rank) ∈ dot_S1024x256_S256x40_S1024x40_1_0_0_1_n_n.lhsBatch by decide), dif_pos (show (0 : Fin S1024x256.rank) ∈ dot_S1024x256_S256x40_S1024x40_1_0_0_1_n_n.lhsNonContracting by decide)]
  rfl
theorem w2_l1 (i : S1024x40.Idx) (q : dot_S1024x256_S256x40_S1024x40_1_0_0_1_n_n.contr.Idx) : (dot_S1024x256_S256x40_S1024x40_1_0_0_1_n_n.lhsIdx i q 1).val = (q ⟨0, by decide⟩).val :=
  dot_S1024x256_S256x40_S1024x40_1_0_0_1_n_n.lhsIdx_val_of_single rfl i q
theorem w2_r0 (i : S1024x40.Idx) (q : dot_S1024x256_S256x40_S1024x40_1_0_0_1_n_n.contr.Idx) : (dot_S1024x256_S256x40_S1024x40_1_0_0_1_n_n.rhsIdx i q 0).val = (q ⟨0, by decide⟩).val :=
  dot_S1024x256_S256x40_S1024x40_1_0_0_1_n_n.rhsIdx_val_of_single rfl i q
theorem w2_r1 (i : S1024x40.Idx) (q : dot_S1024x256_S256x40_S1024x40_1_0_0_1_n_n.contr.Idx) : (dot_S1024x256_S256x40_S1024x40_1_0_0_1_n_n.rhsIdx i q 1).val = (i 1).val := by
  unfold DotDims.rhsIdx
  rw [dif_neg (show ¬(1 : Fin S256x40.rank) ∈ dot_S1024x256_S256x40_S1024x40_1_0_0_1_n_n.rhsBatch by decide), dif_pos (show (1 : Fin S256x40.rank) ∈ dot_S1024x256_S256x40_S1024x40_1_0_0_1_n_n.rhsNonContracting by decide)]
  rfl

/-- The product into the zero accumulator at entry (p, c): the sum over q of lhs (p, q) * rhs (q, c). -/
theorem w2_apply (lhs : FVec Ideal S1024x256 .bf16) (rhs : FVec Ideal S256x40 .bf16) (p : Fin 1024) (c : Fin 40) :
    matmul dot_S1024x256_S256x40_S1024x40_1_0_0_1_n_n none lhs rhs (constant (F := Ideal) S1024x40 .f32 0x00000000#32) (ix2 p c)
      = ∑ q : Fin 256, lhs (ix2 p q) * rhs (ix2 q c) :=
  Cert.LibDense.matmul_zero_apply dot_S1024x256_S256x40_S1024x40_1_0_0_1_n_n rfl rfl w2_l0 w2_l1 w2_r0 w2_r1 none lhs rhs p c

end Cert.KPay

end
-- ==== Proof.KPay0.lean ====
/-
  The first kernel body's stored values at an index, over coerced reals.

  The reset stores zero.  The accumulation stores, at row p, the running row sum plus the sum over the block's
  1024 columns of the block's row p.  The third store narrows the block's format, which changes no extended real.
-/
import proofs.«152435_j1984274891532_2_alg».proof.Proof.KPayBase
import proofs.«152435_j1984274891532_2_alg».proof.Proof.Spec

noncomputable section

open scoped BigOperators

namespace Cert.KPay

open Idealize.ShloMosaic Idealize.ShloMosaic.ValueIdx Cert.KernelIdeal Cert.KernelIdeal.Gen
open Cert.KernelIdeal.Facts₀ Cert.KernelIdeal.Facts

/-- The reset's value: zero at every row. -/
theorem k0_pay1_apply (p : Fin 1024) : Gen.k0_pay1 (F := Ideal) (ix2 p (0 : Fin 1)) = ((0 : ℝ) : EReal) := by
  unfold Gen.k0_pay1
  simp only [shapeCast_self, broadcast_apply]
  exact zero_word

/-- The accumulation's value at row p: the running sum plus the block's row sum. -/
theorem k0_pay2_apply (blk : Vec Ideal S1024x1024 .f32) (acc : Vec Ideal S1024x1 .f32)
    (br : Fin 1024 → Fin 1024 → ℝ) (accr : Fin 1024 → ℝ)
    (hblk : ∀ p j, blk (ix2 p j) = (br p j : EReal)) (hacc : ∀ p, acc (ix2 p (0 : Fin 1)) = (accr p : EReal))
    (p : Fin 1024) :
    Gen.k0_pay2 (F := Ideal) blk acc (ix2 p (0 : Fin 1)) = ((accr p + ∑ j : Fin 1024, br p j : ℝ) : EReal) := by
  unfold Gen.k0_pay2
  simp only [shapeCast_self, addf_apply]
  refine (congrArg (acc (ix2 p (0 : Fin 1)) + ·)
    ((Cert.LibLayout.shapeCast_a_a1_apply _ _ p 0).trans (rowSum_apply blk _ _ _ _ p))).trans ?_
  rw [hacc p]
  simp only [hblk]
  rw [← Cert.Consts.coe_sum, ← EReal.coe_add]

/-- The narrowed block is the block. -/
theorem k0_pay3_apply (blk : Vec Ideal S1024x1024 .f32) (p j : Fin 1024) :
    (Gen.k0_pay3 (F := Ideal) blk (ix2 p j) : EReal) = blk (ix2 p j) := rfl

end Cert.KPay

end
-- ==== Proof.LibTiles.lean ====
/-
  A sum over a long axis taken tile by tile.

  In any commutative additive monoid, the sum over c < a·b of f c is the sum over the a tiles s of the sums over the
  b positions k inside a tile of f (b·s + k): the index c is written uniquely as b·s + k.
-/
import Mathlib.Algebra.BigOperators.Fin
import Mathlib.Logic.Equiv.Fin.Basic

open scoped BigOperators

namespace Cert.LibTiles

/-- Position k of tile s lies below a·b. -/
theorem tile_lt {a b s : ℕ} (hs : s < a) (k : Fin b) : b * s + k.val < a * b :=
  calc b * s + k.val < b * s + b := Nat.add_lt_add_left k.isLt _
    _ = b * (s + 1) := (Nat.mul_succ b s).symm
    _ ≤ b * a := Nat.mul_le_mul_left _ hs
    _ = a * b := Nat.mul_comm _ _

/-- The sum over every index is the sum over the tiles of the sums inside each tile. -/
theorem sum_tiles {M : Type*} [AddCommMonoid M] (a b : ℕ) (f : Fin (a * b) → M) :
    ∑ s : Fin a, ∑ k : Fin b, f ⟨b * s.val + k.val, tile_lt s.isLt k⟩ = ∑ c : Fin (a * b), f c := by
  rw [← Fintype.sum_prod_type' (f := fun (s : Fin a) (k : Fin b) => f ⟨b * s.val + k.val, tile_lt s.isLt k⟩)]
  refine Fintype.sum_equiv finProdFinEquiv _ _ fun p => congrArg f (Fin.ext ?_)
  show b * p.1.val + p.2.val = (finProdFinEquiv p).val
  rw [finProdFinEquiv_apply_val, Nat.add_comm]

/-- The same with the tiles counted by a range. -/
theorem sum_range_tiles {M : Type*} [AddCommMonoid M] (a b : ℕ) (f : Fin (a * b) → M)
    (g : ℕ → M) (hg : ∀ s : Fin a, g s.val = ∑ k : Fin b, f ⟨b * s.val + k.val, tile_lt s.isLt k⟩) :
    ∑ s ∈ Finset.range a, g s = ∑ c : Fin (a * b), f c := by
  rw [Finset.sum_range, ← sum_tiles a b f]
  exact Finset.sum_congr rfl fun s _ => hg s

end Cert.LibTiles
-- ==== Proof.KI.R0Val.lean ====
/-
  The first region's two output arrays, read as real arrays.

  The region walks an 8 × 8 grid of 1024 × 1024 blocks of the adjacency, the column tile moving fastest. At every point
  it stores the block's copy; along a row tile it carries the running row sums of the blocks met so far, restarted at
  column tile 0, and after column tile 7 it writes them back. Here: where each block sits in its array (the index maps,
  decided once over the grid); the carried sums as real partial sums over column tiles, by induction along the grid; the
  eight tiles of 1024 regrouped into the whole row of 8192; and, whenever what the region leaves after each point are
  those payloads, the arrays after the region: the copy holds the adjacency's entries and the row-sum column holds each row's sum.
-/
import proofs.«152435_j1984274891532_2_alg».proof.Proof.KI.R0Runs
import proofs.«152435_j1984274891532_2_alg».proof.Proof.KPay0
import proofs.«152435_j1984274891532_2_alg».proof.Proof.LibTiles
import Idealize.ShloMosaic.Lib.Pipeline.Value
import Idealize.ShloMosaic.Lib.ValueIdx

set_option maxRecDepth 16384

noncomputable section

open scoped BigOperators

namespace Cert.KernelIdeal.Gen

open Idealize.ShloMosaic Idealize.ShloMosaic.TcCoe Idealize.ShloMosaic.ValueIdx
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## The index maps over the grid -/

/-- The input window's block index at point `t`: (row tile, column tile) = (t / 8, t % 8). -/
theorem idx0_0 : ∀ t : Fin cfg0.N, win0_0.index t (0 : Fin 2) = t.val / 8 ∧ win0_0.index t 1 = t.val % 8 :=
  (by decide +kernel : ∀ t : Fin grid0.N, _)
/-- The row-sum window's block index at point `t`: (t / 8, 0). -/
theorem idx0_1 : ∀ t : Fin cfg0.N, win0_1.index t (0 : Fin 2) = t.val / 8 ∧ win0_1.index t 1 = 0 :=
  (by decide +kernel : ∀ t : Fin grid0.N, _)
/-- The copy window's block index at point `t`: (t / 8, t % 8). -/
theorem idx0_2 : ∀ t : Fin cfg0.N, win0_2.index t (0 : Fin 2) = t.val / 8 ∧ win0_2.index t 1 = t.val % 8 :=
  (by decide +kernel : ∀ t : Fin grid0.N, _)

theorem N0_eq : cfg0.N = 64 := N_0

/-! ## The input block read off the array -/

set_option maxHeartbeats 100000 in
/-- The input block at point `t` reads the adjacency at row `1024 (t / 8) + p`, column `1024 (t % 8) + j`. -/
theorem iblk0_0_apply (c : Dev nD) (t : Fin cfg0.N) (p j : Fin 1024) :
    (iblk0 V c 0 t : Vec F S1024x1024 .f32) (ix2 p j)
      = V c main_arg1 (ix2 (⟨1024 * (t.val / 8) + p.val, by have := t.isLt; have h := N0_eq; omega⟩ : Fin 8192)
          (⟨1024 * (t.val % 8) + j.val, by omega⟩ : Fin 8192)) := by
  unfold iblk0
  rw [View.read_apply]
  show V c main_arg1 (((cfg0.win 0).blk t).view.emb (ix2 p j)) = V c main_arg1 _
  congr 1
  funext a
  apply Fin.ext
  match a with
  | ⟨0, _⟩ => show win0_0.index t 0 * 1024 + 1 * p.val = 1024 * (t.val / 8) + p.val; rw [(idx0_0 t).1]; omega
  | ⟨1, _⟩ => show win0_0.index t 1 * 1024 + 1 * j.val = 1024 * (t.val % 8) + j.val; rw [(idx0_0 t).2]; omega

end Cert.KernelIdeal.Gen

namespace Cert.KVal

open Idealize.ShloMosaic Idealize.ShloMosaic.TcCoe Idealize.ShloMosaic.ValueIdx
open Idealize.SL Idealize.SL.Sem
open Cert.KernelIdeal Cert.KernelIdeal.Gen

/-! ## The real side: a row of the adjacency summed tile by tile -/

variable (ar : Fin 8192 → Fin 8192 → ℝ)

/-- The adjacency's real entries over natural-number coordinates, zero outside the array. -/
def arN (r c : ℕ) : ℝ := if h : r < 8192 ∧ c < 8192 then ar ⟨r, h.1⟩ ⟨c, h.2⟩ else 0

theorem arN_of_lt {r c : ℕ} (hr : r < 8192) (hc : c < 8192) : arN ar r c = ar ⟨r, hr⟩ ⟨c, hc⟩ := dif_pos ⟨hr, hc⟩

/-- Row `r` summed over column tile `k` (1024 columns). -/
def tile (r k : ℕ) : ℝ := ∑ j : Fin 1024, arN ar r (1024 * k + j.val)

/-- Row `r` summed over the column tiles `0 … k`. -/
def part (r k : ℕ) : ℝ := ∑ k' ∈ Finset.range (k + 1), tile ar r k'

theorem part_zero (r : ℕ) : part ar r 0 = tile ar r 0 := by
  unfold part; rw [Finset.sum_range_one]

theorem part_succ (r k : ℕ) : part ar r (k + 1) = part ar r k + tile ar r (k + 1) := by
  unfold part; rw [Finset.sum_range_succ]

/-- All eight tiles: the whole row sum. -/
theorem part_seven (r : Fin 8192) : part ar r.val 7 = ∑ j, ar r j := by
  unfold part
  rw [Cert.LibTiles.sum_range_tiles 8 1024 (fun c : Fin (8 * 1024) => arN ar r.val c.val) (tile ar r.val) (fun s => rfl)]
  show ∑ c : Fin 8192, arN ar r.val c.val = _
  exact Finset.sum_congr rfl fun c _ => arN_of_lt ar r.isLt c.isLt

/-! ## The carried row sums -/

variable (V : (c : Dev nD) → (b : Ref sig .tc) → Buf (Elt Ideal) ((c : Thread nD τ).loc b)) (c : Dev nD)

/-- The input block at point `n` is a block of real numbers. -/
theorem blk_real (ha : ∀ p q, V c main_arg1 (ix2 p q) = ((ar p q : ℝ) : EReal)) (t : Fin cfg0.N) (p j : Fin 1024) :
    (iblk0 V c 0 t : Vec Ideal S1024x1024 .f32) (ix2 p j)
      = ((arN ar (1024 * (t.val / 8) + p.val) (1024 * (t.val % 8) + j.val) : ℝ) : EReal) := by
  rw [iblk0_0_apply V c t p j, ha, arN_of_lt]

/-- THE INVARIANT of the carried row sums: any family `acc` that restarts from the reset value at the points
    `n % 8 = 0` and otherwise adds the block's row sums to what the point before left holds, after point `n`, at
    row `p`, the sum of row `1024 (n / 8) + p` over the column tiles `0 … n % 8`. -/
theorem acc_real (ha : ∀ p q, V c main_arg1 (ix2 p q) = ((ar p q : ℝ) : EReal))
    (acc : (n : ℕ) → n < cfg0.N → Vec Ideal S1024x1 .f32)
    (h0 : ∀ n (hn : n < cfg0.N), n % 8 = 0 → acc n hn = k0_pay2 (F := Ideal) (iblk0 V c 0 ⟨n, hn⟩) (k0_pay1 (F := Ideal)))
    (hs : ∀ n (hn : n + 1 < cfg0.N), (n + 1) % 8 ≠ 0 →
      acc (n + 1) hn = k0_pay2 (F := Ideal) (iblk0 V c 0 ⟨n + 1, hn⟩) (acc n (Nat.lt_of_succ_lt hn))) :
    ∀ (n : ℕ) (hn : n < cfg0.N) (p : Fin 1024),
      acc n hn (ix2 p (0 : Fin 1)) = ((part ar (1024 * (n / 8) + p.val) (n % 8) : ℝ) : EReal) := by
  intro n
  induction n with
  | zero =>
    intro hn p
    rw [h0 0 hn rfl]
    refine (Cert.KPay.k0_pay2_apply _ _ (fun p j => arN ar (1024 * (0 / 8) + p.val) (1024 * (0 % 8) + j.val)) (fun _ => 0)
      (fun p j => blk_real ar V c ha ⟨0, hn⟩ p j) (fun p => Cert.KPay.k0_pay1_apply p) p).trans ?_
    rw [zero_add, show 0 % 8 = 0 from rfl, part_zero]
    rfl
  | succ n ih =>
    intro hn p
    by_cases h8 : (n + 1) % 8 = 0
    · rw [h0 (n + 1) hn h8]
      refine (Cert.KPay.k0_pay2_apply _ _ (fun p j => arN ar (1024 * ((n + 1) / 8) + p.val) (1024 * ((n + 1) % 8) + j.val)) (fun _ => 0)
        (fun p j => blk_real ar V c ha ⟨n + 1, hn⟩ p j) (fun p => Cert.KPay.k0_pay1_apply p) p).trans ?_
      rw [zero_add, h8, part_zero]
      rfl
    · rw [hs n hn h8]
      have hd : (n + 1) / 8 = n / 8 := by omega
      have hm : (n + 1) % 8 = n % 8 + 1 := by omega
      refine (Cert.KPay.k0_pay2_apply _ _ (fun p j => arN ar (1024 * ((n + 1) / 8) + p.val) (1024 * ((n + 1) % 8) + j.val))
        (fun p => part ar (1024 * (n / 8) + p.val) (n % 8))
        (fun p j => blk_real ar V c ha ⟨n + 1, hn⟩ p j) (fun p => ih (Nat.lt_of_succ_lt hn) p) p).trans ?_
      rw [hm, part_succ, hd]
      rfl

end Cert.KVal

namespace Cert.KVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (ar : Fin 8192 → Fin 8192 → ℝ)
variable (V : (c : Dev nD) → (b : Ref sig .tc) → Buf (Elt Ideal) ((c : Thread nD τ).loc b)) (c : Dev nD)

/-! ## The two output arrays as functions of the adjacency -/

/-- The row sums: at `(r, 0)` the sum of row `r`. -/
def G1 : Vec Ideal S8192x1 .f32 := fun i => ((∑ j, ar (i 0) j : ℝ) : EReal)
/-- The copy: at `(r, j)` the entry `(r, j)`. -/
def G2 : Vec Ideal S8192x8192 .bf16 := fun i => ((ar (i 0) (i 1) : ℝ) : EReal)

/-! ## Where the output blocks sit -/

/-- The row-sum block at point `t` puts its row `p` at row `1024 (t / 8) + p` of the array. -/
theorem emb1 (t : Fin cfg0.N) (p : Fin 1024) (q : Fin 1) :
    ((cfg0.win 1).blk t).view.emb (ix2 p q)
      = ix2 (⟨1024 * (t.val / 8) + p.val, by have := t.isLt; have h := N0_eq; omega⟩ : Fin 8192) (0 : Fin 1) := by
  funext a
  apply Fin.ext
  match a with
  | ⟨0, _⟩ => show win0_1.index t 0 * 1024 + 1 * p.val = 1024 * (t.val / 8) + p.val; rw [(idx0_1 t).1]; omega
  | ⟨1, _⟩ => show win0_1.index t 1 * 1 + 1 * q.val = 0; rw [(idx0_1 t).2]; omega

/-- The copy block at point `t` puts its entry `(p, q)` at `(1024 (t / 8) + p, 1024 (t % 8) + q)`. -/
theorem emb2 (t : Fin cfg0.N) (p q : Fin 1024) :
    ((cfg0.win 2).blk t).view.emb (ix2 p q)
      = ix2 (⟨1024 * (t.val / 8) + p.val, by have := t.isLt; have h := N0_eq; omega⟩ : Fin 8192)
          (⟨1024 * (t.val % 8) + q.val, by omega⟩ : Fin 8192) := by
  funext a
  apply Fin.ext
  match a with
  | ⟨0, _⟩ => show win0_2.index t 0 * 1024 + 1 * p.val = 1024 * (t.val / 8) + p.val; rw [(idx0_2 t).1]; omega
  | ⟨1, _⟩ => show win0_2.index t 1 * 1024 + 1 * q.val = 1024 * (t.val % 8) + q.val; rw [(idx0_2 t).2]; omega

theorem mem_blk1 (t : Fin cfg0.N) (i : S8192x1.Idx) :
    i ∈ ((cfg0.win 1).blk t).view.set ↔ ∀ a : Fin 2, win0_1.index t a * S1024x1.size a ≤ (i a).val ∧ (i a).val < win0_1.index t a * S1024x1.size a + S1024x1.size a := by
  show i ∈ ((View.whole main_v0_0).slice (win0_1.rect t)).set ↔ _
  rw [View.set_slice_whole, Rect.mem_set_unit]
  exact Iff.rfl

theorem mem_blk2 (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0_1).slice (win0_2.rect t)).set ↔ _
  rw [View.set_slice_whole, Rect.mem_set_unit]
  exact Iff.rfl

/-- Every row of the row-sum array is in the block written back after the last column tile of its row tile. -/
theorem cover1 (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hN := N0_eq
  have ht : 8 * ((i 0).val / 1024) + 7 < cfg0.N := by omega
  obtain ⟨e0, e1⟩ := idx0_1 ⟨8 * ((i 0).val / 1024) + 7, ht⟩
  have e0' : win0_1.index ⟨8 * ((i 0).val / 1024) + 7, ht⟩ 0 = (i 0).val / 1024 := by rw [e0]; show (8 * ((i 0).val / 1024) + 7) / 8 = _; omega
  refine ⟨⟨8 * ((i 0).val / 1024) + 7, ht⟩, (flush0_1 _).mpr (by show (8 * ((i 0).val / 1024) + 7) % 8 = 7; omega), ?_⟩
  rw [mem_blk1]
  intro a
  match a with
  | ⟨0, _⟩ =>
    show win0_1.index ⟨8 * ((i 0).val / 1024) + 7, ht⟩ 0 * 1024 ≤ (i 0).val ∧ (i 0).val < win0_1.index ⟨8 * ((i 0).val / 1024) + 7, ht⟩ 0 * 1024 + 1024
    rw [e0']; omega
  | ⟨1, _⟩ =>
    show win0_1.index ⟨8 * ((i 0).val / 1024) + 7, ht⟩ 1 * 1 ≤ (i 1).val ∧ (i 1).val < win0_1.index ⟨8 * ((i 0).val / 1024) + 7, ht⟩ 1 * 1 + 1
    rw [e1]; omega

/-- Every entry of the copy is in the block of its row tile and column tile. -/
theorem cover2 (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  have hN := N0_eq
  have ht : 8 * ((i 0).val / 1024) + (i 1).val / 1024 < cfg0.N := by omega
  obtain ⟨e0, e1⟩ := idx0_2 ⟨8 * ((i 0).val / 1024) + (i 1).val / 1024, ht⟩
  have e0' : win0_2.index ⟨8 * ((i 0).val / 1024) + (i 1).val / 1024, ht⟩ 0 = (i 0).val / 1024 := by
    rw [e0]; show (8 * ((i 0).val / 1024) + (i 1).val / 1024) / 8 = _; omega
  have e1' : win0_2.index ⟨8 * ((i 0).val / 1024) + (i 1).val / 1024, ht⟩ 1 = (i 1).val / 1024 := by
    rw [e1]; show (8 * ((i 0).val / 1024) + (i 1).val / 1024) % 8 = _; omega
  refine ⟨⟨8 * ((i 0).val / 1024) + (i 1).val / 1024, ht⟩, flush0_2 _, ?_⟩
  rw [mem_blk2]
  intro a
  match a with
  | ⟨0, _⟩ =>
    show win0_2.index ⟨8 * ((i 0).val / 1024) + (i 1).val / 1024, ht⟩ 0 * 1024 ≤ (i 0).val ∧ (i 0).val < win0_2.index ⟨8 * ((i 0).val / 1024) + (i 1).val / 1024, ht⟩ 0 * 1024 + 1024
    rw [e0']; omega
  | ⟨1, _⟩ =>
    show win0_2.index ⟨8 * ((i 0).val / 1024) + (i 1).val / 1024, ht⟩ 1 * 1024 ≤ (i 1).val ∧ (i 1).val < win0_2.index ⟨8 * ((i 0).val / 1024) + (i 1).val / 1024, ht⟩ 1 * 1024 + 1024
    rw [e1']; omega

/-! ## What the points write back, and the arrays after the region -/

variable (dat : Dat τ (Elt Ideal) Unit ℕ (UR sig nD τ) ℕ cfg0 c)

set_option maxHeartbeats 400000 in
/-- Every point writes back its block of the copy. -/
theorem flushed2_eq (ha : ∀ p q, V c main_arg1 (ix2 p q) = ((ar p q : ℝ) : EReal))
    (hafter : ∀ t, dat.after 2 t = k0_pay3 (F := Ideal) (iblk0 V c 0 t)) (t : Fin cfg0.N) :
    dat.flushed 2 t = ((cfg0.win 2).blk t).view.read (Elt Ideal) (G2 ar) := by
  show (cfg0.win 2).cut (grid0.coords t) (dat.after 2 t) = _
  rw [hafter]
  refine funext fun (y : S1024x1024.Idx) => ?_
  obtain ⟨p, q, rfl⟩ : ∃ (p q : Fin 1024), y = ix2 p q := ⟨y 0, y 1, eq_ix2 y⟩
  show (iblk0 V c 0 t : Vec Ideal S1024x1024 .f32) (ix2 p q) = G2 ar (((cfg0.win 2).blk t).view.emb (ix2 p q))
  rw [blk_real ar V c ha t p q, emb2 t p q, arN_of_lt]
  rfl

set_option maxHeartbeats 400000 in
/-- The points that write the row-sum block back (the last column tile of each row tile) write the row sums. -/
theorem flushed1_eq (ha : ∀ p q, V c main_arg1 (ix2 p q) = ((ar p q : ℝ) : EReal))
    (acc : (n : ℕ) → n < cfg0.N → Vec Ideal S1024x1 .f32)
    (h0 : ∀ n (hn : n < cfg0.N), n % 8 = 0 → acc n hn = k0_pay2 (F := Ideal) (iblk0 V c 0 ⟨n, hn⟩) (k0_pay1 (F := Ideal)))
    (hs : ∀ n (hn : n + 1 < cfg0.N), (n + 1) % 8 ≠ 0 →
      acc (n + 1) hn = k0_pay2 (F := Ideal) (iblk0 V c 0 ⟨n + 1, hn⟩) (acc n (Nat.lt_of_succ_lt hn)))
    (hafter : ∀ t : Fin cfg0.N, t.val % 8 = 7 → dat.after 1 t = acc t.val t.isLt)
    (t : Fin cfg0.N) (hf : (cfg0.win 1).flush t = true) :
    dat.flushed 1 t = ((cfg0.win 1).blk t).view.read (Elt Ideal) (G1 ar) := by
  have h7 : t.val % 8 = 7 := (flush0_1 t).mp hf
  show (cfg0.win 1).cut (grid0.coords t) (dat.after 1 t) = _
  rw [hafter t h7]
  refine funext fun (y : S1024x1.Idx) => ?_
  obtain ⟨p, q, rfl⟩ : ∃ (p : Fin 1024) (q : Fin 1), y = ix2 p q := ⟨y 0, y 1, eq_ix2 y⟩
  obtain rfl : q = 0 := Subsingleton.elim _ _
  show acc t.val t.isLt (ix2 p 0) = G1 ar (((cfg0.win 1).blk t).view.emb (ix2 p 0))
  rw [acc_real ar V c ha acc h0 hs t.val t.isLt p, emb1 t p 0, h7]
  exact congrArg (fun x : ℝ => (x : EReal))
    (part_seven ar (⟨1024 * (t.val / 8) + p.val, by have := t.isLt; have h := N0_eq; omega⟩ : Fin 8192))

/-- THE COPY after the region: the adjacency's entries. -/
theorem copy_final_of (ha : ∀ p q, V c main_arg1 (ix2 p q) = ((ar p q : ℝ) : EReal))
    (hafter : ∀ t, dat.after 2 t = k0_pay3 (F := Ideal) (iblk0 V c 0 t)) (r j : Fin 8192) :
    dat.arrAt 2 cfg0.N (ix2 r j) = ((ar r j : ℝ) : EReal) := by
  rw [dat.arrAt_eq_of_cover 2 (G2 ar) (fun t _ => flushed2_eq ar V c dat ha hafter t) cover2]
  rfl

/-- THE ROW SUMS after the region: each row of the adjacency summed. -/
theorem rowsum_final_of (ha : ∀ p q, V c main_arg1 (ix2 p q) = ((ar p q : ℝ) : EReal))
    (acc : (n : ℕ) → n < cfg0.N → Vec Ideal S1024x1 .f32)
    (h0 : ∀ n (hn : n < cfg0.N), n % 8 = 0 → acc n hn = k0_pay2 (F := Ideal) (iblk0 V c 0 ⟨n, hn⟩) (k0_pay1 (F := Ideal)))
    (hs : ∀ n (hn : n + 1 < cfg0.N), (n + 1) % 8 ≠ 0 →
      acc (n + 1) hn = k0_pay2 (F := Ideal) (iblk0 V c 0 ⟨n + 1, hn⟩) (acc n (Nat.lt_of_succ_lt hn)))
    (hafter : ∀ t : Fin cfg0.N, t.val % 8 = 7 → dat.after 1 t = acc t.val t.isLt) (r : Fin 8192) :
    dat.arrAt 1 cfg0.N (ix2 r (0 : Fin 1)) = ((∑ j, ar r j : ℝ) : EReal) := by
  rw [dat.arrAt_eq_of_cover 1 (G1 ar) (fun t hf => flushed1_eq ar V c dat ha acc h0 hs hafter t hf) cover1]
  rfl

end Cert.KVal

end
-- ==== Proof.KI.R0Vals.lean ====
/- Region 0 (the row-sum and cast call): what its proof data hold, in the payloads' own words — the cast
   window after every point is the cast of the input block; the scratch after point `n` is the running row
   sum `acc0` (restarted from zeros at each reduction index 0); the row-sum window after a point of
   reduction index 7 is that running sum. -/
import proofs.«152435_j1984274891532_2_alg».proof.Proof.KI.R0Data
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz_r0 : (![0, 0] : Fin 2 → Nat) = fun _ => 0 := funext fun a => by fin_cases a <;> rfl

/-! ## Each found piece, as its payload -/

/-- Reduction index 0: the cast window is left at the cast of the input block. -/
theorem out0_A_2_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) :
    out0_A_2 c i arg2 harg2 arg3 harg3 arg4 harg4 arg5 harg5 hc0 hc1 x0 = k0_pay3 x0 := by
  unfold out0_A_2
  rw [View.read_writes_eq_canon _ _ _ (cover0_A_2 c i arg2 harg2 arg3 harg3 arg4 harg4 arg5 harg5 hc0 hc1 x0)]
  unfold kernelRun0_A
  dsimp only
  rw [View.canon_unit_zero (S := S1024x1024) hz_r0]
  simp only [View.readAt_eq_ld, harg2.read_unread, harg5.read_unread, View.ld_unit_zero (S := S1024x1024) hz_r0, View.ld_unit_zero (S := S1024x1) hz_r0]

/-- Reduction index 0: the scratch is left at the block's row sums added to the zero fill. -/
theorem sout0_A_0_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : cond0_0 i) (hc1 : ¬cond0_1 i) (x0 : Vec F S1024x1024 .f32) (xs0 : Vec F S1024x1 .f32) :
    sout0_A_0 c i arg2 harg2 arg3 harg3 arg4 harg4 arg5 harg5 hc0 hc1 x0 xs0 = k0_pay2 x0 k0_pay1 := by
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero (S := S1024x1) hz_r0, View.readCov_unit_zero (S := S1024x1) _ hz_r0]
  simp only [View.readAt_eq_ld, harg2.read_unread, harg5.read_unread, View.ld_unit_zero (S := S1024x1024) hz_r0, View.ld_unit_zero (S := S1024x1) hz_r0]

/-- Inside the reduction: the cast window is left at the cast of the input block. -/
theorem out0_B_2_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i) (x0 : Vec F S1024x1024 .f32) (xs0 : Vec F S1024x1 .f32) :
    out0_B_2 c i arg2 harg2 arg3 harg3 arg4 harg4 arg5 harg5 hc0 hc1 x0 xs0 = k0_pay3 x0 := by
  unfold out0_B_2
  rw [View.read_writes_eq_canon _ _ _ (cover0_B_2 c i arg2 harg2 arg3 harg3 arg4 harg4 arg5 harg5 hc0 hc1 x0 xs0)]
  unfold kernelRun0_B
  dsimp only
  rw [View.canon_unit_zero (S := S1024x1024) hz_r0]
  simp only [View.readAt_eq_ld, harg2.read_unread, harg5.read_unread, View.ld_unit_zero (S := S1024x1024) hz_r0, View.ld_unit_zero (S := S1024x1) hz_r0]

/-- The one store into the scratch inside the reduction covers it. -/
theorem scover0_B_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i) (x0 : Vec F S1024x1024 .f32) (xs0 : Vec F S1024x1 .f32) (y : S1024x1.Idx) :
    ∃ pc ∈ (kernelRun0_B c i arg2 harg2 arg3 harg3 arg4 harg4 arg5 harg5 hc0 hc1 x0 xs0).2.1, y ∈ pc.1.set :=
  View.cover_of_tiledL (kernelRun0_B c i arg2 harg2 arg3 harg3 arg4 harg4 arg5 harg5 hc0 hc1 x0 xs0).2.1 S1024x1.size (by sl_kernel_rfl) y

/-- Inside the reduction: the scratch is left at the block's row sums added to what it held. -/
theorem sout0_B_0_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : ¬cond0_1 i) (x0 : Vec F S1024x1024 .f32) (xs0 : Vec F S1024x1 .f32) :
    sout0_B_0 c i arg2 harg2 arg3 harg3 arg4 harg4 arg5 harg5 hc0 hc1 x0 xs0 = k0_pay2 x0 xs0 := by
  unfold sout0_B_0
  rw [View.read_writes_eq_canon _ _ _ (scover0_B_0 c i arg2 harg2 arg3 harg3 arg4 harg4 arg5 harg5 hc0 hc1 x0 xs0)]
  unfold kernelRun0_B
  dsimp only
  rw [View.canon_unit_zero (S := S1024x1) hz_r0]
  simp only [View.readAt_eq_ld, harg2.read_unread, harg5.read_unread, View.ld_unit_zero (S := S1024x1024) hz_r0, View.ld_unit_zero (S := S1024x1) hz_r0]

/-- Reduction index 7: the cast window is left at the cast of the input block. -/
theorem out0_C_2_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) :
    out0_C_2 c i arg2 harg2 arg3 harg3 arg4 harg4 arg5 harg5 hc0 hc1 x0 xs0 = k0_pay3 x0 := by
  unfold out0_C_2
  rw [View.read_writes_eq_canon _ _ _ (cover0_C_2 c i arg2 harg2 arg3 harg3 arg4 harg4 arg5 harg5 hc0 hc1 x0 xs0)]
  unfold kernelRun0_C
  dsimp only
  rw [View.canon_unit_zero (S := S1024x1024) hz_r0]
  simp only [View.readAt_eq_ld, harg2.read_unread, harg5.read_unread, View.ld_unit_zero (S := S1024x1024) hz_r0, View.ld_unit_zero (S := S1024x1) hz_r0]

/-- The one store into the scratch at reduction index 7 covers it. -/
theorem scover0_C_0 (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) (y : S1024x1.Idx) :
    ∃ pc ∈ (kernelRun0_C c i arg2 harg2 arg3 harg3 arg4 harg4 arg5 harg5 hc0 hc1 x0 xs0).2.2.1, y ∈ pc.1.set :=
  View.cover_of_tiledL (kernelRun0_C c i arg2 harg2 arg3 harg3 arg4 harg4 arg5 harg5 hc0 hc1 x0 xs0).2.2.1 S1024x1.size (by sl_kernel_rfl) y

/-- Reduction index 7: the scratch is left at the block's row sums added to what it held, -/
theorem sout0_C_0_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) :
    sout0_C_0 c i arg2 harg2 arg3 harg3 arg4 harg4 arg5 harg5 hc0 hc1 x0 xs0 = k0_pay2 x0 xs0 := by
  unfold sout0_C_0
  rw [View.read_writes_eq_canon _ _ _ (scover0_C_0 c i arg2 harg2 arg3 harg3 arg4 harg4 arg5 harg5 hc0 hc1 x0 xs0)]
  unfold kernelRun0_C
  dsimp only
  sl_unfold_words
  rw [View.canon_unit_zero (S := S1024x1) hz_r0]
  simp only [View.readAt_eq_ld, harg2.read_unread, harg5.read_unread, View.ld_unit_zero (S := S1024x1024) hz_r0, View.ld_unit_zero (S := S1024x1) hz_r0]

/-- and the row-sum window is left at the same: the scratch copied out. -/
theorem out0_C_1_eq (c : Dev nD) (i : grid0.Coords) (arg2 : Memref sig .tc .vmem S1024x1024 .f32) (harg2 : arg2.IsWhole) (arg3 : Memref sig .tc .vmem S1024x1 .f32) (harg3 : arg3.IsWhole) (arg4 : Memref sig .tc .vmem S1024x1024 .bf16) (harg4 : arg4.IsWhole) (arg5 : Memref sig .tc .vmem S1024x1 .f32) (harg5 : arg5.IsWhole) (hc0 : ¬cond0_0 i) (hc1 : cond0_1 i) (x0 : Vec F S1024x1024 .f32) (xs0 : Vec F S1024x1 .f32) :
    out0_C_1 c i arg2 harg2 arg3 harg3 arg4 harg4 arg5 harg5 hc0 hc1 x0 xs0 = k0_pay2 x0 xs0 := by
  unfold out0_C_1
  rw [View.read_writes_eq_canon _ _ _ (cover0_C_1 c i arg2 harg2 arg3 harg3 arg4 harg4 arg5 harg5 hc0 hc1 x0 xs0)]
  unfold kernelRun0_C
  dsimp only
  sl_unfold_words
  rw [View.canon_unit_zero (S := S1024x1) hz_r0, View.readCov_unit_zero (S := S1024x1) _ hz_r0]
  simp only [View.readAt_eq_ld, harg2.read_unread, harg5.read_unread, View.ld_unit_zero (S := S1024x1024) hz_r0, View.ld_unit_zero (S := S1024x1) hz_r0]

/-! ## The body's effect at a point, as payloads -/

/-- The cast window after the body at `t`, whatever the scratch held: the cast of the input block. -/
theorem step0_cast (c : Dev nD) (t : Fin cfg0.N) (xs : Vec F S1024x1 .f32) :
    (step0 V c t xs).2.1 = k0_pay3 (iblk0 V c 0 t) := by
  by_cases h0 : t.val % 8 = 0
  · rw [step0_A V c t h0]; dsimp only
    exact out0_A_2_eq c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t)
  · by_cases h1 : t.val % 8 = 7
    · rw [step0_C V c t h0 h1]; dsimp only
      exact out0_C_2_eq c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs
    · rw [step0_B V c t h0 h1]; dsimp only
      exact out0_B_2_eq c (grid0.coords t) (ms0_0 t) (hs0_0 t) (ms0_1 t) (hs0_1 t) (ms0_2 t) (hs0_2 t) scM0_0 (Memref.isWhole_whole _) (ncond0_0 t h0) (ncond0_1 t h1) (iblk0 V c 0 t) xs

/-- The scratch after the body at a point of reduction index 0: the block's row sums over the zero fill. -/
theorem step0_scratch_reset (c : Dev nD) (t : Fin cfg0.N) (h0 : t.val % 8 = 0) (xs : Vec F S1024x1 .f32) :
    (step0 V c t xs).2.2 = k0_pay2 (iblk0 V c 0 t) k0_pay1 := by
  rw [step0_A V c t h0]; dsimp only
  exact sout0_A_0_eq c (grid0.coords t) (ms0_0 t) (hs0_0 t) (ms0_1 t) (hs0_1 t) (ms0_2 t) (hs0_2 t) scM0_0 (Memref.isWhole_whole _) ((hcond0_0 t).mpr h0) (ncond0_1_of0 t h0) (iblk0 V c 0 t) xs

/-- The scratch after the body at any other point: the block's row sums over what it held. -/
theorem step0_scratch_acc (c : Dev nD) (t : Fin cfg0.N) (h0 : ¬t.val % 8 = 0) (xs : Vec F S1024x1 .f32) :
    (step0 V c t xs).2.2 = k0_pay2 (iblk0 V c 0 t) xs := by
  by_cases h1 : t.val % 8 = 7
  · rw [step0_C V c t h0 h1]; dsimp only
    exact sout0_C_0_eq c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs
  · rw [step0_B V c t h0 h1]; dsimp only
    exact sout0_B_0_eq c (grid0.coords t) (ms0_0 t) (hs0_0 t) (ms0_1 t) (hs0_1 t) (ms0_2 t) (hs0_2 t) scM0_0 (Memref.isWhole_whole _) (ncond0_0 t h0) (ncond0_1 t h1) (iblk0 V c 0 t) xs

/-- The row-sum window after the body at a point of reduction index 7: what the scratch is left at. -/
theorem step0_rowsum (c : Dev nD) (t : Fin cfg0.N) (h1 : t.val % 8 = 7) (xs : Vec F S1024x1 .f32) :
    (step0 V c t xs).1 = k0_pay2 (iblk0 V c 0 t) xs := by
  have h0 : ¬t.val % 8 = 0 := by omega
  rw [step0_C V c t h0 h1]; dsimp only
  exact out0_C_1_eq c (grid0.coords t) (ms0_0 t) (hs0_0 t) (ms0_1 t) (hs0_1 t) (ms0_2 t) (hs0_2 t) scM0_0 (Memref.isWhole_whole _) (ncond0_0 t h0) ((hcond0_1 t).mpr h1) (iblk0 V c 0 t) xs

/-! ## The running row sum -/

/-- What the scratch holds after point `n`: at a point of reduction index 0 the block's row sums added to
    the zero fill, at any other the block's row sums added to what the point before left. -/
def acc0 (c : Dev nD) : (n : ℕ) → n < cfg0.N → Vec F S1024x1 .f32
  | 0, hn => k0_pay2 (iblk0 V c 0 ⟨0, hn⟩) k0_pay1
  | n + 1, hn =>
    if (n + 1) % 8 = 0 then k0_pay2 (iblk0 V c 0 ⟨n + 1, hn⟩) k0_pay1
    else k0_pay2 (iblk0 V c 0 ⟨n + 1, hn⟩) (acc0 c n (Nat.lt_of_succ_lt hn))

theorem acc0_zero (c : Dev nD) (hn : 0 < cfg0.N) : acc0 V c 0 hn = k0_pay2 (iblk0 V c 0 ⟨0, hn⟩) k0_pay1 := rfl

theorem acc0_reset (c : Dev nD) (n : ℕ) (hn : n + 1 < cfg0.N) (h : (n + 1) % 8 = 0) :
    acc0 V c (n + 1) hn = k0_pay2 (iblk0 V c 0 ⟨n + 1, hn⟩) k0_pay1 := by
  rw [acc0]; exact if_pos h

theorem acc0_succ (c : Dev nD) (n : ℕ) (hn : n + 1 < cfg0.N) (h : ¬(n + 1) % 8 = 0) :
    acc0 V c (n + 1) hn = k0_pay2 (iblk0 V c 0 ⟨n + 1, hn⟩) (acc0 V c n (Nat.lt_of_succ_lt hn)) := by
  rw [acc0]; exact if_neg h

/-- The scratch after point `n` is the running row sum, whatever it held before the first point. -/
theorem scratch0_eq_acc0 (c : Dev nD) (dS0 : Vec F S1024x1 .f32) : ∀ (n : ℕ) (hn : n < cfg0.N), (outsAtFrom0 V c dS0 n hn).2.2 = acc0 V c n hn
  | 0, hn => step0_scratch_reset V c ⟨0, hn⟩ (by decide : 0 % 8 = 0) dS0
  | n + 1, hn => by
    show (step0 V c ⟨n + 1, hn⟩ (outsAtFrom0 V c dS0 n (Nat.lt_of_succ_lt hn)).2.2).2.2 = _
    rw [scratch0_eq_acc0 c dS0 n (Nat.lt_of_succ_lt hn)]
    by_cases h : (n + 1) % 8 = 0
    · rw [acc0_reset V c n hn h]; exact step0_scratch_reset V c ⟨n + 1, hn⟩ h _
    · rw [acc0_succ V c n hn h]; exact step0_scratch_acc V c ⟨n + 1, hn⟩ h _

/-! ## The proof data's outputs -/

/-- The cast window after every point: the cast of the input block. -/
theorem after0_2_eq (c : Dev nD) (t : Fin cfg0.N) : (dat0 V c).after 2 t = k0_pay3 (iblk0 V c 0 t) := by
  rw [after0_2]; unfold outsAt0; rw [outsAtFrom0_eq]; exact step0_cast V c t _

/-- The row-sum window after a point of reduction index 7: the running row sum there. -/
theorem after0_1_eq (c : Dev nD) (t : Fin cfg0.N) (h1 : t.val % 8 = 7) : (dat0 V c).after 1 t = acc0 V c t.val t.isLt := by
  rw [after0_1]; unfold outsAt0; rw [outsAtFrom0_eq, step0_rowsum V c t h1]
  obtain ⟨n, hn⟩ := t
  cases n with
  | zero => exact absurd h1 (by show ¬(0 % 8 = 7); decide)
  | succ n =>
    have h0 : ¬(n + 1) % 8 = 0 := by dsimp only at h1; omega
    rw [acc0_succ V c n hn h0]
    show k0_pay2 _ (outsAtFrom0 V c _ n _).2.2 = _
    rw [scratch0_eq_acc0 V c _ n _]

end Cert.KernelIdeal.Gen

end
-- ==== Proof.KI.R0ValFin.lean ====
/-
  The first region's two output arrays after the region: the row-sum column holds each row's sum of the adjacency and
  the copy holds the adjacency's entries.
-/
import proofs.«152435_j1984274891532_2_alg».proof.Proof.KI.R0Val
import proofs.«152435_j1984274891532_2_alg».proof.Proof.KI.R0Vals

noncomputable section

open scoped BigOperators

namespace Cert.KVal

open Idealize.ShloMosaic Idealize.ShloMosaic.TcCoe Idealize.ShloMosaic.ValueIdx
open Idealize.SL Idealize.SL.Sem
open Cert.KernelIdeal Cert.KernelIdeal.Gen

variable (ar : Fin 8192 → Fin 8192 → ℝ)
variable (V : (c : Dev nD) → (b : Ref sig .tc) → Buf (Elt Ideal) ((c : Thread nD τ).loc b)) (c : Dev nD)

/-- The row-sum column after the region: at row `r` the sum of row `r` of the adjacency. -/
theorem rowsum_final (ha : ∀ p q, V c main_arg1 (ix2 p q) = ((ar p q : ℝ) : EReal)) (r : Fin 8192) :
    (dat0 V c).arrAt 1 cfg0.N (ix2 r (0 : Fin 1)) = ((∑ j, ar r j : ℝ) : EReal) :=
  rowsum_final_of ar V c (dat0 V c) ha (acc0 V c)
    (fun n hn h => by
      cases n with
      | zero => exact acc0_zero V c hn
      | succ n => exact acc0_reset V c n hn h)
    (fun n hn h => acc0_succ V c n hn h)
    (fun t h7 => after0_1_eq V c t h7) r

/-- The copy after the region: the adjacency's entries. -/
theorem copy_final (ha : ∀ p q, V c main_arg1 (ix2 p q) = ((ar p q : ℝ) : EReal)) (r j : Fin 8192) :
    (dat0 V c).arrAt 2 cfg0.N (ix2 r j) = ((ar r j : ℝ) : EReal) :=
  copy_final_of ar V c (dat0 V c) ha (fun t => after0_2_eq V c t) r j

end Cert.KVal

end
-- ==== Proof.KI.R1Vals.lean ====
/- Region 1: the found pieces read back as values, in the payloads' own words — what each case leaves in the scratch and
   in the output, the running accumulation point by point, and what the output window holds at the points that store it. -/
import proofs.«152435_j1984274891532_2_alg».proof.Proof.KI.R1Data
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when region 1 is entered: a parameter of everything below. -/
variable (V : (c : Dev nD) → (b : Ref sig .tc) → Buf (Elt F) ((c : Thread nD τ).loc b))

/-- The zero offsets of a whole-shape rectangle. -/
theorem hz1 : (![0, 0] : Fin 2 → Nat) = fun _ => 0 := funext fun a => by fin_cases a <;> rfl

/-! ## What each case leaves, in the payloads' words -/

/-- Case A (reduction coordinate 0): the body stores the zero block into the scratch, reads it back, and leaves the
    accumulation of the point's blocks over it — whatever the scratch held. -/
theorem sout1_A_0_eq (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) :
    sout1_A_0 c i arg2 harg2 arg3 harg3 arg4 harg4 arg5 harg5 arg6 harg6 arg7 harg7 arg8 harg8 hc0 hc1 x0 x1 x2 x3 x4 xs0 = k1_pay2 x1 (k1_pay1 (F := F)) x0 := by
  unfold sout1_A_0
  rw [View.read_writes_eq_canon _ _ _ (scover1_A_0 c i arg2 harg2 arg3 harg3 arg4 harg4 arg5 harg5 arg6 harg6 arg7 harg7 arg8 harg8 hc0 hc1 x0 x1 x2 x3 x4)]
  unfold kernelRun1_A
  dsimp only
  sl_unfold_words
  rw [View.canon_cons_unit_zero (S := S1024x512) hz1, View.readCov_unit_zero (S := S1024x512) _ hz1]
  simp only [View.readAt_eq_ld, harg2.read_unread, harg3.read_unread, harg4.read_unread, harg5.read_unread, harg6.read_unread, harg8.read_unread, View.ld_unit_zero (S := S1024x512) hz1, View.ld_unit_zero (S := S1024x1024) hz1, View.ld_unit_zero (S := S1024x1) hz1, View.ld_unit_zero (S := S512x256) hz1]

/-- Case B (reduction coordinate strictly between 0 and 7): the body leaves in the scratch the accumulation of the point's
    blocks over what the scratch held. -/
theorem sout1_B_0_eq (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : ¬cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) :
    sout1_B_0 c i arg2 harg2 arg3 harg3 arg4 harg4 arg5 harg5 arg6 harg6 arg7 harg7 arg8 harg8 hc0 hc1 x0 x1 x2 x3 x4 xs0 = k1_pay2 x1 xs0 x0 := by
  unfold sout1_B_0
  rw [View.read_writes_eq_canon _ _ _ (scover1_B_0 c i arg2 harg2 arg3 harg3 arg4 harg4 arg5 harg5 arg6 harg6 arg7 harg7 arg8 harg8 hc0 hc1 x0 x1 x2 x3 x4 xs0)]
  unfold kernelRun1_B
  dsimp only
  rw [View.canon_unit_zero hz1]
  simp only [View.readAt_eq_ld, harg2.read_unread, harg3.read_unread, harg4.read_unread, harg5.read_unread, harg6.read_unread, harg8.read_unread, View.ld_unit_zero (S := S1024x512) hz1, View.ld_unit_zero (S := S1024x1024) hz1, View.ld_unit_zero (S := S1024x1) hz1, View.ld_unit_zero (S := S512x256) hz1]

/-- Case C (reduction coordinate 7): likewise in the scratch, -/
theorem sout1_C_0_eq (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) :
    sout1_C_0 c i arg2 harg2 arg3 harg3 arg4 harg4 arg5 harg5 arg6 harg6 arg7 harg7 arg8 harg8 hc0 hc1 x0 x1 x2 x3 x4 xs0 = k1_pay2 x1 xs0 x0 := by
  unfold sout1_C_0
  rw [View.read_writes_eq_canon _ _ _ (scover1_C_0 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz1]
  simp only [View.readAt_eq_ld, harg2.read_unread, harg3.read_unread, harg4.read_unread, harg5.read_unread, harg6.read_unread, harg8.read_unread, View.ld_unit_zero (S := S1024x512) hz1, View.ld_unit_zero (S := S1024x1024) hz1, View.ld_unit_zero (S := S1024x1) hz1, View.ld_unit_zero (S := S512x256) hz1]

/-- and in the output the finalize payload of that accumulation (read back from the scratch), the self-loop block, the
    scale block and the weight block. -/
theorem out1_C_5_eq (c : Dev nD) (i : grid1.Coords) (arg2 : Memref sig .tc .vmem S1024x1024 .bf16) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1 .f32) (harg5 : arg5.IsWhole) (arg6 : Memref sig .tc .vmem S512x256 .f32) (harg6 : arg6.IsWhole) (arg7 : Memref sig .tc .vmem S1024x256 .f32) (harg7 : arg7.IsWhole) (arg8 : Memref sig .tc .vmem S1024x512 .f32) (harg8 : arg8.IsWhole) (hc0 : ¬cond1_0 i) (hc1 : cond1_1 i)
    (x0 : Vec F S1024x1024 .bf16) (x1 : Vec F S1024x512 .f32) (x2 : Vec F S1024x512 .f32) (x3 : Vec F S1024x1 .f32) (x4 : Vec F S512x256 .f32) (xs0 : Vec F S1024x512 .f32) :
    out1_C_5 c i arg2 harg2 arg3 harg3 arg4 harg4 arg5 harg5 arg6 harg6 arg7 harg7 arg8 harg8 hc0 hc1 x0 x1 x2 x3 x4 xs0 = k1_pay3 (k1_pay2 x1 xs0 x0) x2 x3 x4 := by
  unfold out1_C_5
  rw [View.read_writes_eq_canon _ _ _ (cover1_C_5 c i arg2 harg2 arg3 harg3 arg4 harg4 arg5 harg5 arg6 harg6 arg7 harg7 arg8 harg8 hc0 hc1 x0 x1 x2 x3 x4 xs0)]
  unfold kernelRun1_C
  dsimp only
  sl_unfold_words
  rw [View.canon_unit_zero hz1, View.readCov_unit_zero (S := S1024x512) _ hz1]
  simp only [View.readAt_eq_ld, harg2.read_unread, harg3.read_unread, harg4.read_unread, harg5.read_unread, harg6.read_unread, harg8.read_unread, View.ld_unit_zero (S := S1024x512) hz1, View.ld_unit_zero (S := S1024x1024) hz1, View.ld_unit_zero (S := S1024x1) hz1, View.ld_unit_zero (S := S512x256) hz1]

/-! ## The same at a point of the grid -/

theorem sA1_eq (c : Dev nD) (t : Fin cfg1.N) (h0 : t.val % 8 = 0) (xs0 : Vec F S1024x512 .f32) :
    sA1 V c t h0 xs0 = k1_pay2 (iblk1 V c 1 t) (k1_pay1 (F := F)) (iblk1 V c 0 t) := by
  unfold sA1; exact sout1_A_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr h0) (nc1_of0 t h0) (iblk1 V c 0 t) (iblk1 V c 1 t) (iblk1 V c 2 t) (iblk1 V c 3 t) (iblk1 V c 4 t) xs0
theorem sB1_eq (c : Dev nD) (t : Fin cfg1.N) (h0 : ¬t.val % 8 = 0) (h1 : ¬t.val % 8 = 7) (xs0 : Vec F S1024x512 .f32) :
    sB1 V c t h0 h1 xs0 = k1_pay2 (iblk1 V c 1 t) xs0 (iblk1 V c 0 t) := by
  unfold sB1; exact sout1_B_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (nc0_of t h0) (nc1_of t h1) (iblk1 V c 0 t) (iblk1 V c 1 t) (iblk1 V c 2 t) (iblk1 V c 3 t) (iblk1 V c 4 t) xs0
theorem sC1_eq (c : Dev nD) (t : Fin cfg1.N) (h1 : t.val % 8 = 7) (xs0 : Vec F S1024x512 .f32) :
    sC1 V c t h1 xs0 = k1_pay2 (iblk1 V c 1 t) xs0 (iblk1 V c 0 t) := by
  unfold sC1; exact sout1_C_0_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (nc0_of7 t h1) ((hcond1_1 t).mpr h1) (iblk1 V c 0 t) (iblk1 V c 1 t) (iblk1 V c 2 t) (iblk1 V c 3 t) (iblk1 V c 4 t) xs0
theorem oC1_eq (c : Dev nD) (t : Fin cfg1.N) (h1 : t.val % 8 = 7) (xs0 : Vec F S1024x512 .f32) :
    oC1 V c t h1 xs0 = k1_pay3 (k1_pay2 (iblk1 V c 1 t) xs0 (iblk1 V c 0 t)) (iblk1 V c 2 t) (iblk1 V c 3 t) (iblk1 V c 4 t) := by
  unfold oC1; exact out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (nc0_of7 t h1) ((hcond1_1 t).mpr h1) (iblk1 V c 0 t) (iblk1 V c 1 t) (iblk1 V c 2 t) (iblk1 V c 3 t) (iblk1 V c 4 t) xs0

/-! ## The running accumulation -/

/-- What the scratch holds after point `n`: the accumulation payload of the point's feature block and adjacency block
    over the zero block at a point with reduction coordinate 0, over what the point before left elsewhere. -/
def acc1 (c : Dev nD) : (n : ℕ) → n < cfg1.N → Vec F S1024x512 .f32
  | 0, hn => k1_pay2 (iblk1 V c 1 ⟨0, hn⟩) (k1_pay1 (F := F)) (iblk1 V c 0 ⟨0, hn⟩)
  | n + 1, hn => k1_pay2 (iblk1 V c 1 ⟨n + 1, hn⟩)
      (if (n + 1) % 8 = 0 then k1_pay1 (F := F) else acc1 c n (Nat.lt_of_succ_lt hn)) (iblk1 V c 0 ⟨n + 1, hn⟩)

theorem acc1_first (c : Dev nD) (t : Fin cfg1.N) (h0 : t.val % 8 = 0) :
    acc1 V c t.val t.isLt = k1_pay2 (iblk1 V c 1 t) (k1_pay1 (F := F)) (iblk1 V c 0 t) := by
  obtain ⟨n, hn⟩ := t
  cases n with
  | zero => rfl
  | succ n =>
    show k1_pay2 _ (if (n + 1) % 8 = 0 then _ else _) _ = _
    rw [if_pos h0]

theorem acc1_later (c : Dev nD) (t : Fin cfg1.N) (h0 : ¬t.val % 8 = 0) :
    acc1 V c t.val t.isLt = k1_pay2 (iblk1 V c 1 t) (acc1 V c (t.val - 1) (Nat.lt_of_le_of_lt (Nat.sub_le _ _) t.isLt)) (iblk1 V c 0 t) := by
  obtain ⟨n, hn⟩ := t
  cases n with
  | zero => exact absurd (Nat.zero_mod _) h0
  | succ n =>
    show k1_pay2 _ (if (n + 1) % 8 = 0 then _ else _) _ = _
    rw [if_neg h0]; rfl

/-- What the scratch holds after each point (the recursion over the cases' found pieces) IS the running accumulation,
    whatever the scratch held before the first point — by induction on the point. -/
theorem scrFrom1_eq_acc1 (c : Dev nD) (dS0 : Vec F S1024x512 .f32) :
    ∀ (n : ℕ) (hn : n < cfg1.N), scrFrom1 V c dS0 n hn = acc1 V c n hn
  | 0, hn => (scrFrom1_A V c dS0 ⟨0, hn⟩ (Nat.zero_mod _)).trans
      ((sA1_eq V c ⟨0, hn⟩ (Nat.zero_mod _) _).trans (acc1_first V c ⟨0, hn⟩ (Nat.zero_mod _)).symm)
  | n + 1, hn => by
    by_cases h0 : (n + 1) % 8 = 0
    · exact (scrFrom1_A V c dS0 ⟨n + 1, hn⟩ h0).trans ((sA1_eq V c ⟨n + 1, hn⟩ h0 _).trans (acc1_first V c ⟨n + 1, hn⟩ h0).symm)
    · have ih := scrFrom1_eq_acc1 c dS0 n (Nat.lt_of_succ_lt hn)
      have hl := acc1_later V c ⟨n + 1, hn⟩ h0
      by_cases h1 : (n + 1) % 8 = 7
      · refine (scrFrom1_C V c dS0 ⟨n + 1, hn⟩ h1).trans ((sC1_eq V c ⟨n + 1, hn⟩ h1 _).trans ?_)
        refine Eq.trans ?_ hl.symm
        show k1_pay2 _ (scrFrom1 V c dS0 n _) _ = k1_pay2 _ (acc1 V c n _) _
        rw [ih]
      · refine (scrFrom1_B V c dS0 ⟨n + 1, hn⟩ h0 h1).trans ((sB1_eq V c ⟨n + 1, hn⟩ h0 h1 _).trans ?_)
        refine Eq.trans ?_ hl.symm
        show k1_pay2 _ (scrFrom1 V c dS0 n _) _ = k1_pay2 _ (acc1 V c n _) _
        rw [ih]

/-- What a later point finds in the scratch is the running accumulation after the point before. -/
theorem prevFrom1_eq_acc1 (c : Dev nD) (dS0 : Vec F S1024x512 .f32) (t : Fin cfg1.N) (hpos : 0 < t.val) :
    prevFrom1 V c dS0 t.val (Nat.le_of_lt t.isLt) = acc1 V c (t.val - 1) (Nat.lt_of_le_of_lt (Nat.sub_le _ _) t.isLt) := by
  obtain ⟨n, hn⟩ := t
  cases n with
  | zero => exact absurd hpos (Nat.lt_irrefl _)
  | succ n => exact scrFrom1_eq_acc1 V c dS0 n _

/-! ## What the output window holds where it is stored -/

/-- At a point with reduction coordinate 7 the output window's staging buffer holds the finalize payload of the running
    accumulation there, the self-loop block (window 2), the scale block (window 3) and the weight block (window 4). -/
theorem after1_5_C (c : Dev nD) (t : Fin cfg1.N) (h1 : t.val % 8 = 7) :
    (dat1 V c).after 5 t = k1_pay3 (acc1 V c t.val t.isLt) (iblk1 V c 2 t) (iblk1 V c 3 t) (iblk1 V c 4 t) := by
  have h0 : ¬t.val % 8 = 0 := by omega
  rw [after1_5, outAt1_C V c dJ1 t h1, oC1_eq, acc1_later V c t h0, prevFrom1_eq_acc1 V c dJ1 t (by omega)]

end Cert.KernelIdeal.Gen

end
-- ==== Proof.KPay1.lean ====
/-
  The second kernel body's stored values at an index, over coerced reals.

  The reset stores zero.  The accumulation stores, at (p, f), the running value plus the sum over the block's 1024
  columns j of the adjacency block's entry (p, j) times the scaled features' entry (j, f).  The last store adds the
  self-loop block to the accumulated value, scales row p by its degree factor, multiplies by the weights and
  clamps below at zero.
-/
import proofs.«152435_j1984274891532_2_alg».proof.Proof.KPayBase
import proofs.«152435_j1984274891532_2_alg».proof.Proof.Spec

noncomputable section

open scoped BigOperators

namespace Cert.KPay

open Idealize.ShloMosaic Idealize.ShloMosaic.ValueIdx Cert.KernelIdeal Cert.KernelIdeal.Gen
open Cert.KernelIdeal.Facts₀ Cert.KernelIdeal.Facts

/-- The reset's value: zero everywhere. -/
theorem k1_pay1_apply (p : Fin 1024) (f : Fin 512) : Gen.k1_pay1 (F := Ideal) (ix2 p f) = ((0 : ℝ) : EReal) := by
  unfold Gen.k1_pay1
  simp only [shapeCast_self, broadcast_apply]
  exact zero_word

/-- The accumulation's value at (p, f): the running value plus row p of the adjacency block times column f of the
    scaled features. -/
theorem k1_pay2_apply (y acc : Vec Ideal S1024x512 .f32) (ab : Vec Ideal S1024x1024 .bf16)
    (yr accr : Fin 1024 → Fin 512 → ℝ) (abr : Fin 1024 → Fin 1024 → ℝ)
    (hy : ∀ j f, y (ix2 j f) = (yr j f : EReal)) (hacc : ∀ p f, acc (ix2 p f) = (accr p f : EReal))
    (hab : ∀ p j, ab (ix2 p j) = (abr p j : EReal)) (p : Fin 1024) (f : Fin 512) :
    Gen.k1_pay2 (F := Ideal) y acc ab (ix2 p f)
      = ((accr p f + ∑ j : Fin 1024, abr p j * yr j f : ℝ) : EReal) := by
  unfold Gen.k1_pay2
  simp only [shapeCast_self, addf_apply]
  refine (congrArg (acc (ix2 p f) + ·) (adj512_apply ab (truncf .bf16 y _) p f)).trans ?_
  simp only [truncf_apply, hab, hy, hacc]
  rw [coe_sum_mul, ← EReal.coe_add]

/-- The finishing store's value at (p, c): the dense layer with relu applied to row p of the scaled sum. -/
theorem k1_pay3_apply (acc yd : Vec Ideal S1024x512 .f32) (d : Vec Ideal S1024x1 .f32) (w : Vec Ideal S512x256 .f32)
    (accr ydr : Fin 1024 → Fin 512 → ℝ) (dr : Fin 1024 → ℝ) (wr : Fin 512 → Fin 256 → ℝ)
    (hacc : ∀ p f, acc (ix2 p f) = (accr p f : EReal)) (hyd : ∀ p f, yd (ix2 p f) = (ydr p f : EReal))
    (hd : ∀ p, d (ix2 p (0 : Fin 1)) = (dr p : EReal)) (hw : ∀ f c, w (ix2 f c) = (wr f c : EReal))
    (p : Fin 1024) (c : Fin 256) :
    Gen.k1_pay3 (F := Ideal) acc yd d w (ix2 p c)
      = ((max (∑ f : Fin 512, (dr p * (accr p f + ydr p f)) * wr f c) 0 : ℝ) : EReal) := by
  unfold Gen.k1_pay3
  simp only [shapeCast_self, maximumf_apply, broadcast_apply]
  refine (congrArg (max · _) (w1_apply _ _ p c)).trans ?_
  simp only [truncf_apply, mulf_apply, addf_apply, Cert.LibLayout.broadcastTo_a1_ab_apply, hacc, hyd, hd, hw]
  rw [zero_word]
  simp only [← EReal.coe_add, ← EReal.coe_mul]
  rw [← Cert.Consts.coe_sum, ← coe_max]

end Cert.KPay

end
-- ==== Proof.KI.R1Val.lean ====
/-
  What the first graph-convolution layer's output array holds after its region, in real form.

  Point t of the 8 × 8 grid has row-block t / 8 and reduction step t % 8; a block's entry is the array's entry at block
  index times block size plus the coordinate inside the block.  The scratch after point 8 i + k holds at (p, f) the
  first k + 1 column tiles of the adjacency's row 1024 i + p against the features' column f; eight tiles of 1024 are
  the whole row of 8192.  The blocks written back at k = 7 tile the output, which ends holding the hidden features.
-/
import proofs.«152435_j1984274891532_2_alg».proof.Proof.KI.R1Vals
import proofs.«152435_j1984274891532_2_alg».proof.Proof.KPay1
import proofs.«152435_j1984274891532_2_alg».proof.Proof.LibTiles
import Idealize.ShloMosaic.Lib.ValueIdx
import Idealize.ShloMosaic.Lib.Pipeline.Value

set_option maxRecDepth 16384

noncomputable section

open scoped BigOperators

namespace Cert.KVal.R1

open Idealize.ShloMosaic Idealize.ShloMosaic.TcCoe Idealize.ShloMosaic.ValueIdx Idealize.SL.Sem
open Idealize.ShloMosaic.Pipeline (Dat)
open Cert.KernelIdeal Cert.KernelIdeal.Gen

/-! ## The index maps over the grid -/

/-- The windows' block indices at point t, decided over the 64 points. -/
theorem idx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val / 8 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0 :=
  (by decide +kernel : ∀ t : Fin grid1.N, _)

theorem lt64 (t : Fin cfg1.N) : t.val < 64 := by
  have h : cfg1.N = 64 := N_1
  have := t.isLt
  omega

/-- Row `1024 b + p` of an array of 8192 rows, for a block index `b < 8`. -/
abbrev row (b : ℕ) (hb : b < 8) (p : Fin 1024) : Fin 8192 := ⟨1024 * b + p.val, by have := p.isLt; omega⟩

theorem div8_lt (t : Fin cfg1.N) : t.val / 8 < 8 := by have := lt64 t; omega
theorem mod8_lt (t : Fin cfg1.N) : t.val % 8 < 8 := Nat.mod_lt _ (by decide)

/-! ## The blocks at explicit coordinates -/

section Blocks

variable {F : FTy → Type} [FloatOps F]
variable (V : (c : Dev nD) → (b : Ref sig .tc) → Buf (Elt F) ((c : Thread nD τ).loc b))

/-- The adjacency block at point t: rows of row-block t / 8, columns of column-block t % 8. -/
theorem blk1_0 (c : Dev nD) (t : Fin cfg1.N) (p j : Fin 1024) :
    iblk1 V c 0 t (ix2 p j)
      = V c main_v0_1 (ix2 (row (t.val / 8) (div8_lt t) p) (row (t.val % 8) (mod8_lt t) j)) := by
  obtain ⟨e0, e1, -⟩ := idx1 t
  unfold iblk1
  rw [View.read_apply]
  show V c main_v0_1 _ = V c main_v0_1 _
  refine congrArg (V c main_v0_1) (funext fun a => Fin.ext ?_)
  match a with
  | ⟨0, _⟩ => show win1_0.index t (0 : Fin 2) * 1024 + 1 * p.val = 1024 * (t.val / 8) + p.val; rw [e0]; omega
  | ⟨1, _⟩ => show win1_0.index t (1 : Fin 2) * 1024 + 1 * j.val = 1024 * (t.val % 8) + j.val; rw [e1]; omega

/-- The feature block at point t: rows of row-block t % 8. -/
theorem blk1_1 (c : Dev nD) (t : Fin cfg1.N) (j : Fin 1024) (f : Fin 512) :
    iblk1 V c 1 t (ix2 j f) = V c main_v7 (ix2 (row (t.val % 8) (mod8_lt t) j) f) := by
  obtain ⟨-, -, e0, e1, -⟩ := idx1 t
  unfold iblk1
  rw [View.read_apply]
  show V c main_v7 _ = V c main_v7 _
  refine congrArg (V c main_v7) (funext fun a => Fin.ext ?_)
  match a with
  | ⟨0, _⟩ => show win1_1.index t (0 : Fin 2) * 1024 + 1 * j.val = 1024 * (t.val % 8) + j.val; rw [e0]; omega
  | ⟨1, _⟩ => show win1_1.index t (1 : Fin 2) * 512 + 1 * f.val = f.val; rw [e1]; omega

/-- The self-loop block at point t: the features' rows of row-block t / 8. -/
theorem blk1_2 (c : Dev nD) (t : Fin cfg1.N) (p : Fin 1024) (f : Fin 512) :
    iblk1 V c 2 t (ix2 p f) = V c main_v7 (ix2 (row (t.val / 8) (div8_lt t) p) f) := by
  obtain ⟨-, -, -, -, e0, e1, -⟩ := idx1 t
  unfold iblk1
  rw [View.read_apply]
  show V c main_v7 _ = V c main_v7 _
  refine congrArg (V c main_v7) (funext fun a => Fin.ext ?_)
  match a with
  | ⟨0, _⟩ => show win1_2.index t (0 : Fin 2) * 1024 + 1 * p.val = 1024 * (t.val / 8) + p.val; rw [e0]; omega
  | ⟨1, _⟩ => show win1_2.index t (1 : Fin 2) * 512 + 1 * f.val = f.val; rw [e1]; omega

/-- The degree-factor block at point t: rows of row-block t / 8. -/
theorem blk1_3 (c : Dev nD) (t : Fin cfg1.N) (p : Fin 1024) :
    iblk1 V c 3 t (ix2 p (0 : Fin 1)) = V c main_v5 (ix2 (row (t.val / 8) (div8_lt t) p) (0 : Fin 1)) := by
  obtain ⟨-, -, -, -, -, -, e0, e1, -⟩ := idx1 t
  unfold iblk1
  rw [View.read_apply]
  show V c main_v5 _ = V c main_v5 _
  refine congrArg (V c main_v5) (funext fun a => Fin.ext ?_)
  match a with
  | ⟨0, _⟩ => show win1_3.index t (0 : Fin 2) * 1024 + 1 * p.val = 1024 * (t.val / 8) + p.val; rw [e0]; omega
  | ⟨1, _⟩ => show win1_3.index t (1 : Fin 2) * 1 + 1 * 0 = 0; rw [e1]

/-- The weight block at every point: the whole array. -/
theorem blk1_4 (c : Dev nD) (t : Fin cfg1.N) (f : Fin 512) (c' : Fin 256) :
    iblk1 V c 4 t (ix2 f c') = V c main_arg2 (ix2 f c') := by
  obtain ⟨-, -, -, -, -, -, -, -, e0, e1, -⟩ := idx1 t
  unfold iblk1
  rw [View.read_apply]
  show V c main_arg2 _ = V c main_arg2 _
  refine congrArg (V c main_arg2) (funext fun a => Fin.ext ?_)
  match a with
  | ⟨0, _⟩ => show win1_4.index t (0 : Fin 2) * 512 + 1 * f.val = f.val; rw [e0]; omega
  | ⟨1, _⟩ => show win1_4.index t (1 : Fin 2) * 256 + 1 * c'.val = c'.val; rw [e1]; omega

end Blocks

/-! ## The long sum, tile by tile -/

/-- Row `1024 s + j`, reduced below 8192 so that it names a row for every `s`. -/
def rowAt (s : ℕ) (j : Fin 1024) : Fin 8192 := ⟨(1024 * s + j.val) % 8192, Nat.mod_lt _ (by decide)⟩

theorem rowAt_eq_row (b : ℕ) (hb : b < 8) (p : Fin 1024) : rowAt b p = row b hb p :=
  Fin.ext (Nat.mod_eq_of_lt (by have := p.isLt; omega))

/-- Column tile `s` of row `r` of the adjacency against column `f` of the features. -/
def tile (ar : Fin 8192 → Fin 8192 → ℝ) (yr : Fin 8192 → Fin 512 → ℝ) (r : Fin 8192) (f : Fin 512) (s : ℕ) : ℝ :=
  ∑ j : Fin 1024, ar r (rowAt s j) * yr (rowAt s j) f

/-- The first `k + 1` tiles. -/
def partSum (ar : Fin 8192 → Fin 8192 → ℝ) (yr : Fin 8192 → Fin 512 → ℝ) (r : Fin 8192) (f : Fin 512) (k : ℕ) : ℝ :=
  ∑ s ∈ Finset.range (k + 1), tile ar yr r f s

/-- All eight tiles are the whole row. -/
theorem partSum_seven (ar : Fin 8192 → Fin 8192 → ℝ) (yr : Fin 8192 → Fin 512 → ℝ) (r : Fin 8192) (f : Fin 512) :
    partSum ar yr r f 7 = ∑ j : Fin 8192, ar r j * yr j f := by
  unfold partSum
  refine (Cert.LibTiles.sum_range_tiles 8 1024 (fun c : Fin (8 * 1024) => ar r c * yr c f) (tile ar yr r f)
    fun s => ?_).trans rfl
  unfold tile
  refine Finset.sum_congr rfl fun k _ => ?_
  have e : rowAt s.val k = (⟨1024 * s.val + k.val, Cert.LibTiles.tile_lt s.isLt k⟩ : Fin (8 * 1024)) :=
    Fin.ext (Nat.mod_eq_of_lt (by have := s.isLt; have := k.isLt; omega))
  rw [e]

/-! ## The scratch and the output block in real form -/

section Value

variable (V : (c : Dev nD) → (b : Ref sig .tc) → Buf (Elt Ideal) ((c : Thread nD τ).loc b)) (c : Dev nD)
variable (ar : Fin 8192 → Fin 8192 → ℝ) (yr : Fin 8192 → Fin 512 → ℝ) (dr : Fin 8192 → ℝ) (wr : Fin 512 → Fin 256 → ℝ)

/-- One accumulation step at point t over an accumulator in real form. -/
theorem step_real (ha : ∀ p q, V c main_v0_1 (ix2 p q) = ((ar p q : ℝ) : EReal))
    (hy : ∀ j f, V c main_v7 (ix2 j f) = ((yr j f : ℝ) : EReal))
    (t : Fin cfg1.N) (acc : Vec Ideal S1024x512 .f32) (accr : Fin 1024 → Fin 512 → ℝ)
    (hacc : ∀ p f, acc (ix2 p f) = ((accr p f : ℝ) : EReal)) (p : Fin 1024) (f : Fin 512) :
    k1_pay2 (F := Ideal) (iblk1 V c 1 t) acc (iblk1 V c 0 t) (ix2 p f)
      = ((accr p f + tile ar yr (rowAt (t.val / 8) p) f (t.val % 8) : ℝ) : EReal) := by
  refine (Cert.KPay.k1_pay2_apply (iblk1 V c 1 t) acc (iblk1 V c 0 t)
    (fun j f => yr (row (t.val % 8) (mod8_lt t) j) f) accr
    (fun p j => ar (row (t.val / 8) (div8_lt t) p) (row (t.val % 8) (mod8_lt t) j))
    (fun j f => (blk1_1 V c t j f).trans (hy _ _)) hacc
    (fun p j => (blk1_0 V c t p j).trans (ha _ _)) p f).trans ?_
  unfold tile
  simp only [rowAt_eq_row _ (mod8_lt t), rowAt_eq_row _ (div8_lt t)]

/-- The scratch after point n, at (p, f): the first n % 8 + 1 tiles of row 1024 (n / 8) + p. -/
theorem acc_real (ha : ∀ p q, V c main_v0_1 (ix2 p q) = ((ar p q : ℝ) : EReal))
    (hy : ∀ j f, V c main_v7 (ix2 j f) = ((yr j f : ℝ) : EReal)) :
    ∀ (n : ℕ) (hn : n < cfg1.N) (p : Fin 1024) (f : Fin 512),
      acc1 V c n hn (ix2 p f) = ((partSum ar yr (rowAt (n / 8) p) f (n % 8) : ℝ) : EReal) := by
  have hz : ∀ p f, k1_pay1 (F := Ideal) (ix2 p f) = (((fun _ _ => 0 : Fin 1024 → Fin 512 → ℝ) p f : ℝ) : EReal) :=
    fun p f => Cert.KPay.k1_pay1_apply p f
  intro n
  induction n with
  | zero =>
    intro hn p f
    rw [acc1_first V c ⟨0, hn⟩ (Nat.zero_mod _), step_real V c ar yr ha hy ⟨0, hn⟩ _ _ hz p f]
    show ((0 + tile ar yr (rowAt (0 / 8) p) f (0 % 8) : ℝ) : EReal) = _
    unfold partSum
    rw [zero_add, Finset.sum_range_one]
  | succ n ih =>
    intro hn p f
    by_cases h0 : (n + 1) % 8 = 0
    · rw [acc1_first V c ⟨n + 1, hn⟩ h0, step_real V c ar yr ha hy ⟨n + 1, hn⟩ _ _ hz p f]
      show ((0 + tile ar yr (rowAt ((n + 1) / 8) p) f ((n + 1) % 8) : ℝ) : EReal) = _
      unfold partSum
      rw [zero_add, h0, Finset.sum_range_one]
    · rw [acc1_later V c ⟨n + 1, hn⟩ h0]
      have hn' : n < cfg1.N := Nat.lt_of_succ_lt hn
      show k1_pay2 (F := Ideal) (iblk1 V c 1 ⟨n + 1, hn⟩) (acc1 V c n hn') (iblk1 V c 0 ⟨n + 1, hn⟩) (ix2 p f) = _
      rw [step_real V c ar yr ha hy ⟨n + 1, hn⟩ (acc1 V c n hn')
        (fun p f => partSum ar yr (rowAt (n / 8) p) f (n % 8)) (fun p f => ih hn' p f) p f]
      show ((partSum ar yr (rowAt (n / 8) p) f (n % 8) + tile ar yr (rowAt ((n + 1) / 8) p) f ((n + 1) % 8) : ℝ) : EReal) = _
      have e1 : (n + 1) / 8 = n / 8 := by omega
      have e2 : (n + 1) % 8 = n % 8 + 1 := by omega
      rw [e1, e2]
      unfold partSum
      rw [Finset.sum_range_succ _ (n % 8 + 1)]

/-- The first layer's hidden features in the kernel's arrangement, over the reals. -/
def hidReal (r : Fin 8192) (c' : Fin 256) : ℝ :=
  max (∑ f : Fin 512, (dr r * ((∑ j : Fin 8192, ar r j * yr j f) + yr r f)) * wr f c') 0

/-- The finishing store's value at a point with k = 7, at (p, c'): the hidden features of row 1024 (t / 8) + p. -/
theorem out_real (ha : ∀ p q, V c main_v0_1 (ix2 p q) = ((ar p q : ℝ) : EReal))
    (hy : ∀ j f, V c main_v7 (ix2 j f) = ((yr j f : ℝ) : EReal))
    (hd : ∀ r, V c main_v5 (ix2 r (0 : Fin 1)) = ((dr r : ℝ) : EReal))
    (hw : ∀ f c', V c main_arg2 (ix2 f c') = ((wr f c' : ℝ) : EReal))
    (t : Fin cfg1.N) (h7 : t.val % 8 = 7) (p : Fin 1024) (c' : Fin 256) :
    k1_pay3 (F := Ideal) (acc1 V c t.val t.isLt) (iblk1 V c 2 t) (iblk1 V c 3 t) (iblk1 V c 4 t) (ix2 p c')
      = ((hidReal ar yr dr wr (row (t.val / 8) (div8_lt t) p) c' : ℝ) : EReal) := by
  refine (Cert.KPay.k1_pay3_apply (acc1 V c t.val t.isLt) (iblk1 V c 2 t) (iblk1 V c 3 t) (iblk1 V c 4 t)
    (fun p f => partSum ar yr (rowAt (t.val / 8) p) f (t.val % 8))
    (fun p f => yr (row (t.val / 8) (div8_lt t) p) f) (fun p => dr (row (t.val / 8) (div8_lt t) p)) wr
    (acc_real V c ar yr ha hy t.val t.isLt) (fun p f => (blk1_2 V c t p f).trans (hy _ _))
    (fun p => (blk1_3 V c t p).trans (hd _)) (fun f c' => (blk1_4 V c t f c').trans (hw _ _)) p c').trans ?_
  unfold hidReal
  simp only [h7, partSum_seven, rowAt_eq_row _ (div8_lt t)]

/-! ## From the blocks to the array -/

/-- An index of the output array is in point t's block iff each coordinate is in the block's range on its axis. -/
theorem mem_blk1_5 (t : Fin cfg1.N) (i : S8192x256.Idx) :
    i ∈ ((cfg1.win 5).blk t).view.set ↔ ∀ a : Fin 2, win1_5.index t a * S1024x256.size a ≤ (i a).val
      ∧ (i a).val < win1_5.index t a * S1024x256.size a + S1024x256.size a := by
  show i ∈ ((View.whole main_v8).slice (win1_5.rect t)).set ↔ _
  rw [View.set_slice_whole, Rect.mem_set_unit]
  exact Iff.rfl

/-- The last point of row-block q. -/
def lastPt (q : ℕ) (hq : q < 8) : Fin cfg1.N := ⟨8 * q + 7, by rw [show cfg1.N = 64 from N_1]; omega⟩

/-- Every index of the output array is in the block written back at the last point of its row-block. -/
theorem cover1_5 (i : S8192x256.Idx) :
    ∃ t : Fin cfg1.N, (cfg1.win 5).flush t = true ∧ i ∈ ((cfg1.win 5).blk t).view.set := by
  have hi0 : (i 0).val < 8192 := (i 0).isLt
  have hi1 : (i 1).val < 256 := (i 1).isLt
  have hq : (i 0).val / 1024 < 8 := by omega
  have hv : (lastPt ((i 0).val / 1024) hq).val = 8 * ((i 0).val / 1024) + 7 := rfl
  refine ⟨lastPt ((i 0).val / 1024) hq, (flush1_5 _).mpr (by rw [hv]; omega), ?_⟩
  obtain ⟨-, -, -, -, -, -, -, -, -, -, e0, e1⟩ := idx1 (lastPt ((i 0).val / 1024) hq)
  rw [mem_blk1_5]
  intro a
  match a with
  | ⟨0, _⟩ =>
    show win1_5.index (lastPt ((i 0).val / 1024) hq) (0 : Fin 2) * 1024 ≤ (i 0).val
      ∧ (i 0).val < win1_5.index (lastPt ((i 0).val / 1024) hq) (0 : Fin 2) * 1024 + 1024
    rw [e0, hv]; omega
  | ⟨1, _⟩ =>
    show win1_5.index (lastPt ((i 0).val / 1024) hq) (1 : Fin 2) * 256 ≤ (i 1).val
      ∧ (i 1).val < win1_5.index (lastPt ((i 0).val / 1024) hq) (1 : Fin 2) * 256 + 256
    rw [e1]; omega

/-- What a point with k = 7 writes back is its block of the hidden features. -/
theorem flushed1_5 (ha : ∀ p q, V c main_v0_1 (ix2 p q) = ((ar p q : ℝ) : EReal))
    (hy : ∀ j f, V c main_v7 (ix2 j f) = ((yr j f : ℝ) : EReal))
    (hd : ∀ r, V c main_v5 (ix2 r (0 : Fin 1)) = ((dr r : ℝ) : EReal))
    (hw : ∀ f c', V c main_arg2 (ix2 f c') = ((wr f c' : ℝ) : EReal))
    (t : Fin cfg1.N) (hf : (cfg1.win 5).flush t = true) :
    (dat1 V c).flushed 5 t = ((cfg1.win 5).blk t).view.read (Elt Ideal)
      (fun i : S8192x256.Idx => ((hidReal ar yr dr wr (i 0) (i 1) : ℝ) : EReal)) := by
  have h7 : t.val % 8 = 7 := (flush1_5 t).mp hf
  obtain ⟨-, -, -, -, -, -, -, -, -, -, e0, e1⟩ := idx1 t
  show (cfg1.win 5).cut (grid1.coords t) ((dat1 V c).after 5 t) = _
  rw [after1_5_C V c t h7]
  funext y
  obtain ⟨p, c', rfl⟩ : ∃ (p : Fin 1024) (c' : Fin 256), y = ix2 p c' := ⟨y 0, y 1, eq_ix2 y⟩
  rw [View.read_apply]
  have hemb : ((cfg1.win 5).blk t).view.emb (ix2 p c') = ix2 (row (t.val / 8) (div8_lt t) p) c' := by
    funext a; apply Fin.ext
    match a with
    | ⟨0, _⟩ => show win1_5.index t (0 : Fin 2) * 1024 + 1 * p.val = 1024 * (t.val / 8) + p.val; rw [e0]; omega
    | ⟨1, _⟩ => show win1_5.index t (1 : Fin 2) * 256 + 1 * c'.val = c'.val; rw [e1]; omega
  show k1_pay3 (F := Ideal) (acc1 V c t.val t.isLt) (iblk1 V c 2 t) (iblk1 V c 3 t) (iblk1 V c 4 t) (ix2 p c')
    = (fun i : S8192x256.Idx => ((hidReal ar yr dr wr (i 0) (i 1) : ℝ) : EReal)) (((cfg1.win 5).blk t).view.emb (ix2 p c'))
  rw [hemb, out_real V c ar yr dr wr ha hy hd hw t h7 p c']

/-- THE OUTPUT ARRAY after the region: the first layer's hidden features in the kernel's arrangement. -/
theorem hid_final (ha : ∀ p q, V c main_v0_1 (ix2 p q) = ((ar p q : ℝ) : EReal))
    (hy : ∀ j f, V c main_v7 (ix2 j f) = ((yr j f : ℝ) : EReal))
    (hd : ∀ r, V c main_v5 (ix2 r (0 : Fin 1)) = ((dr r : ℝ) : EReal))
    (hw : ∀ f c', V c main_arg2 (ix2 f c') = ((wr f c' : ℝ) : EReal))
    (r : Fin 8192) (c' : Fin 256) :
    (dat1 V c).arrAt 5 cfg1.N (ix2 r c')
      = ((max (∑ f : Fin 512, (dr r * ((∑ j : Fin 8192, ar r j * yr j f) + yr r f)) * wr f c') 0 : ℝ) : EReal) :=
  congrFun ((dat1 V c).arrAt_eq_of_cover 5 (fun i : S8192x256.Idx => ((hidReal ar yr dr wr (i 0) (i 1) : ℝ) : EReal))
    (flushed1_5 V c ar yr dr wr ha hy hd hw) cover1_5) (ix2 r c')

end Value

end Cert.KVal.R1

end
-- ==== Proof.KI.R2Value.lean ====
/- The third kernel (the second graph-convolution layer with its log-softmax): the VALUES of what its body leaves, in
   the payloads' own words. At k = 0 the accumulator is left at the point's product added to the zero block; at
   k > 0 at the product added to what the point before left; at k = 7 the output window is left at the finalize
   payload of the accumulator, the self-loop block, the row scales and the weights. So the accumulator after point n
   is a fold of the accumulation payload over the points of n's row of the grid (`acc2`). -/
import proofs.«152435_j1984274891532_2_alg».proof.Proof.KI.R2Data
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/- The contents of core `c`'s TensorCore buffers when the third kernel's region is entered. -/
variable (V : (c : Dev nD) → (b : Ref sig .tc) → Buf (Elt F) ((c : Thread nD τ).loc b))

theorem hz2 : (![0, 0] : Fin 2 → Nat) = fun _ => 0 := funext fun a => by fin_cases a <;> rfl

/-- Case 0 < k < 7: the accumulator, handed at `xs0`, is left at the accumulation payload of the feature block
    `x1`, `xs0` and the adjacency block `x0`. -/
theorem sout2_B_val (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : ¬cond2_1 i) (x0 : Vec F S1024x1024 .bf16) (x1 : Vec F S1024x256 .f32) (x2 : Vec F S1024x256 .f32) (x3 : Vec F S1024x1 .f32) (x4 : Vec F S256x40 .f32) (xs0 : Vec F S1024x256 .f32) :
    sout2_B_0 c i arg2 harg2 arg3 harg3 arg4 harg4 arg5 harg5 arg6 harg6 arg7 harg7 arg8 harg8 hc0 hc1 x0 x1 x2 x3 x4 xs0 = k2_pay2 x1 xs0 x0 := by
  unfold sout2_B_0
  rw [View.read_writes_junk_eq_canon]
  unfold kernelRun2_B
  dsimp only
  rw [View.canon_unit_zero hz2]
  simp only [View.readAt_eq_ld, harg2.read_unread, harg3.read_unread, harg8.read_unread,
    View.ld_unit_zero (S := S1024x256) hz2, View.ld_unit_zero (S := S1024x1024) hz2]

/-- Case k = 0: the accumulator is left at the accumulation payload over the zero block. -/
theorem sout2_A_val (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : cond2_0 i) (hc1 : ¬cond2_1 i) (x0 : Vec F S1024x1024 .bf16) (x1 : Vec F S1024x256 .f32) (x2 : Vec F S1024x256 .f32) (x3 : Vec F S1024x1 .f32) (x4 : Vec F S256x40 .f32) :
    sout2_A_0 c i arg2 harg2 arg3 harg3 arg4 harg4 arg5 harg5 arg6 harg6 arg7 harg7 arg8 harg8 hc0 hc1 x0 x1 x2 x3 x4 = k2_pay2 x1 (k2_pay1 (F := F)) x0 := by
  unfold sout2_A_0
  rw [View.read_writes_junk_eq_canon]
  unfold kernelRun2_A
  dsimp only
  sl_unfold_words
  rw [View.canon_cons_unit_zero (S := S1024x256) hz2, View.readCov_unit_zero (S := S1024x256) _ hz2]
  simp only [View.readAt_eq_ld, harg2.read_unread, harg3.read_unread,
    View.ld_unit_zero (S := S1024x256) hz2, View.ld_unit_zero (S := S1024x1024) hz2]

/-- Case k = 7: the accumulator is left as in the case before, -/
theorem sout2_C_val (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) :
    sout2_C_0 c i arg2 harg2 arg3 harg3 arg4 harg4 arg5 harg5 arg6 harg6 arg7 harg7 arg8 harg8 hc0 hc1 x0 x1 x2 x3 x4 xs0 = k2_pay2 x1 xs0 x0 := by
  unfold sout2_C_0
  rw [View.read_writes_junk_eq_canon]
  unfold kernelRun2_C
  dsimp only
  sl_unfold_words
  rw [View.canon_unit_zero hz2]
  simp only [View.readAt_eq_ld, harg2.read_unread, harg3.read_unread, harg8.read_unread,
    View.ld_unit_zero (S := S1024x256) hz2, View.ld_unit_zero (S := S1024x1024) hz2]

/-- and the output window at the finalize payload of that accumulator, the self-loop block `x2`, the row scales
    `x3` and the weights `x4`. -/
theorem out2_C_val (c : Dev nD) (i : grid2.Coords) (arg2 : Memref sig .tc .vmem S1024x1024 .bf16) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x1 .f32) (harg5 : arg5.IsWhole) (arg6 : Memref sig .tc .vmem S256x40 .f32) (harg6 : arg6.IsWhole) (arg7 : Memref sig .tc .vmem S1024x40 .f32) (harg7 : arg7.IsWhole) (arg8 : Memref sig .tc .vmem S1024x256 .f32) (harg8 : arg8.IsWhole) (hc0 : ¬cond2_0 i) (hc1 : cond2_1 i) (x0 : Vec F S1024x1024 .bf16) (x1 : Vec F S1024x256 .f32) (x2 : Vec F S1024x256 .f32) (x3 : Vec F S1024x1 .f32) (x4 : Vec F S256x40 .f32) (xs0 : Vec F S1024x256 .f32) :
    out2_C_5 c i arg2 harg2 arg3 harg3 arg4 harg4 arg5 harg5 arg6 harg6 arg7 harg7 arg8 harg8 hc0 hc1 x0 x1 x2 x3 x4 xs0 = k2_pay3 (k2_pay2 x1 xs0 x0) x2 x3 x4 := by
  unfold out2_C_5
  rw [View.read_writes_junk_eq_canon]
  unfold kernelRun2_C
  dsimp only
  sl_unfold_words
  rw [View.canon_unit_zero hz2, View.readCov_unit_zero (S := S1024x256) _ hz2]
  simp only [View.readAt_eq_ld, harg2.read_unread, harg3.read_unread, harg4.read_unread, harg5.read_unread, harg6.read_unread, harg8.read_unread,
    View.ld_unit_zero (S := S1024x256) hz2, View.ld_unit_zero (S := S1024x1024) hz2, View.ld_unit_zero (S := S1024x1) hz2, View.ld_unit_zero (S := S256x40) hz2]

/-! ## The accumulator after each point, in the payloads' words -/

/-- What the accumulator holds after point `n`: at the first point of a row of the grid (n ≡ 0 mod 8) the point's
    product over the zero block, elsewhere the point's product over what the point before left. -/
def acc2 (c : Dev nD) : (n : ℕ) → n < cfg2.N → Vec F S1024x256 .f32
  | 0, hn => k2_pay2 (iblk2 V c 1 ⟨0, hn⟩) (k2_pay1 (F := F)) (iblk2 V c 0 ⟨0, hn⟩)
  | n + 1, hn =>
    if (n + 1) % 8 = 0 then k2_pay2 (iblk2 V c 1 ⟨n + 1, hn⟩) (k2_pay1 (F := F)) (iblk2 V c 0 ⟨n + 1, hn⟩)
    else k2_pay2 (iblk2 V c 1 ⟨n + 1, hn⟩) (acc2 c n (Nat.lt_of_succ_lt hn)) (iblk2 V c 0 ⟨n + 1, hn⟩)

theorem acc2_zero (c : Dev nD) (hn : 0 < cfg2.N) :
    acc2 V c 0 hn = k2_pay2 (iblk2 V c 1 ⟨0, hn⟩) (k2_pay1 (F := F)) (iblk2 V c 0 ⟨0, hn⟩) := rfl
theorem acc2_succ (c : Dev nD) (n : ℕ) (hn : n + 1 < cfg2.N) :
    acc2 V c (n + 1) hn = if (n + 1) % 8 = 0 then k2_pay2 (iblk2 V c 1 ⟨n + 1, hn⟩) (k2_pay1 (F := F)) (iblk2 V c 0 ⟨n + 1, hn⟩)
      else k2_pay2 (iblk2 V c 1 ⟨n + 1, hn⟩) (acc2 V c n (Nat.lt_of_succ_lt hn)) (iblk2 V c 0 ⟨n + 1, hn⟩) := rfl

/-- The accumulator the proof data carries IS that fold — by induction on the point. -/
theorem accAt2_eq (c : Dev nD) : ∀ (n : ℕ) (hn : n < cfg2.N), accAt2 V c n hn = acc2 V c n hn
  | 0, hn => sout2_A_val (F := F) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2_0 (Memref.isWhole_whole _) (hc2_0_of ⟨0, hn⟩ rfl) (hnc2_1_of ⟨0, hn⟩ (show ¬(0 % 8 = 7) from by decide)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => by
    have ih := accAt2_eq c n (Nat.lt_of_succ_lt hn)
    rw [acc2_succ]
    by_cases h0 : (n + 1) % 8 = 0
    · have h7 : ¬(n + 1) % 8 = 7 := by omega
      rw [if_pos h0, accAt2_A V c ⟨n + 1, hn⟩ h0 h7]
      exact sout2_A_val (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (hc2_0_of ⟨n + 1, hn⟩ h0) (hnc2_1_of ⟨n + 1, hn⟩ h7) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
    · rw [if_neg h0]
      by_cases h7 : (n + 1) % 8 = 7
      · rw [accAt2_C V c ⟨n + 1, hn⟩ h0 h7]
        refine (sout2_C_val (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (hnc2_0_of ⟨n + 1, hn⟩ h0) (hc2_1_of ⟨n + 1, hn⟩ h7) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (prev2 V c (n + 1) (Nat.le_of_lt hn))).trans ?_
        show k2_pay2 _ (accAt2 V c n _) _ = _
        rw [ih]
      · rw [accAt2_B V c ⟨n + 1, hn⟩ h0 h7]
        refine (sout2_B_val (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2_0 (Memref.isWhole_whole _) (hnc2_0_of ⟨n + 1, hn⟩ h0) (hnc2_1_of ⟨n + 1, hn⟩ h7) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (prev2 V c (n + 1) (Nat.le_of_lt hn))).trans ?_
        show k2_pay2 _ (accAt2 V c n _) _ = _
        rw [ih]

/-- At a point that is not the first of its row, the fold's last step is the accumulation payload over what the point
    before left. -/
theorem acc2_step (c : Dev nD) (t : Fin cfg2.N) (h0 : ¬t.val % 8 = 0) :
    k2_pay2 (iblk2 V c 1 t) (prev2 V c t.val (Nat.le_of_lt t.isLt)) (iblk2 V c 0 t) = acc2 V c t.val t.isLt := by
  obtain ⟨n, hn⟩ := t
  cases n with
  | zero => exact absurd rfl h0
  | succ n =>
    show k2_pay2 _ (accAt2 V c n _) _ = acc2 V c (n + 1) hn
    rw [acc2_succ, if_neg h0, accAt2_eq]

/-- THE OUTPUT WINDOW at the points that store it (k = 7): the finalize payload of the accumulator after the point,
    the self-loop block (window 2), the row scales (window 3) and the weights (window 4). -/
theorem after2_5_val (c : Dev nD) (t : Fin cfg2.N) (h7 : t.val % 8 = 7) :
    (dat2 V c).after 5 t = k2_pay3 (acc2 V c t.val t.isLt) (iblk2 V c 2 t) (iblk2 V c 3 t) (iblk2 V c 4 t) := by
  have h0 : ¬t.val % 8 = 0 := by omega
  rw [after2_5]
  unfold outAt2
  rw [dif_pos h7]
  refine (out2_C_val (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) (hnc2_0_of t h0) (hc2_1_of t h7) (iblk2 V c 0 t) (iblk2 V c 1 t) (iblk2 V c 2 t) (iblk2 V c 3 t) (iblk2 V c 4 t) (prev2 V c t.val (Nat.le_of_lt t.isLt))).trans ?_
  rw [acc2_step V c t h0]

/-- The input windows' staging buffers are left at their blocks. -/
theorem after2_0_val (c : Dev nD) (t : Fin cfg2.N) : (dat2 V c).after 0 t = iblk2 V c 0 t := after2_0 V c t
theorem after2_1_val (c : Dev nD) (t : Fin cfg2.N) : (dat2 V c).after 1 t = iblk2 V c 1 t := after2_1 V c t
theorem after2_2_val (c : Dev nD) (t : Fin cfg2.N) : (dat2 V c).after 2 t = iblk2 V c 2 t := after2_2 V c t
theorem after2_3_val (c : Dev nD) (t : Fin cfg2.N) : (dat2 V c).after 3 t = iblk2 V c 3 t := after2_3 V c t
theorem after2_4_val (c : Dev nD) (t : Fin cfg2.N) : (dat2 V c).after 4 t = iblk2 V c 4 t := after2_4 V c t

end Cert.KernelIdeal.Gen

end
-- ==== Proof.KI.R2Blocks.lean ====
/-
  The third kernel's windows over the 8 × 8 grid, in coordinates.

  At point t the row-block index is i = t / 8 and the reduction index is k = t mod 8.  The adjacency window is block
  (i, k) of the [8192, 8192] array, the feature window block (k, 0) of the [8192, 256] array, the self-loop window
  block (i, 0) of the same array, the row-scale window block (i, 0) of the [8192, 1] array, the weight window the whole
  [256, 40] array, and the output window block (i, 0) of the [8192, 40] array, written back exactly at k = 7.  A block's
  entry (p, j) is the array's entry (1024 · row-block + p, 1024 · column-block + j).
-/
import proofs.«152435_j1984274891532_2_alg».proof.Proof.KI.R2Runs
import Idealize.ShloMosaic.Lib.Pipeline.Value
import Idealize.ShloMosaic.Lib.ValueIdx

set_option maxRecDepth 16384

noncomputable section

namespace Cert.KVal

open Idealize.ShloMosaic Idealize.ShloMosaic.TcCoe Idealize.ShloMosaic.ValueIdx Idealize.SL.Sem
open Cert.KernelIdeal Cert.KernelIdeal.Gen

variable {F : FTy → Type} [FloatOps F]
variable (V : (c : Dev nD) → (b : Ref sig .tc) → Buf (Elt F) ((c : Thread nD τ).loc b)) (c : Dev nD)

/-- The grid has 64 points. -/
theorem N2 : cfg2.N = 64 := by decide

/-- The windows' block indices at point t, decided over the grid. -/
theorem idx2 : ∀ t : Fin cfg2.N,
    win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0
    ∧ win2_3.index t (0 : Fin 2) = t.val / 8 ∧ win2_3.index t (1 : Fin 2) = 0
    ∧ win2_4.index t (0 : Fin 2) = 0 ∧ win2_4.index t (1 : Fin 2) = 0
    ∧ win2_5.index t (0 : Fin 2) = t.val / 8 ∧ win2_5.index t (1 : Fin 2) = 0 :=
  (by decide +kernel : ∀ t : Fin grid2.N, _)

/-- The output window is written back exactly at the points with k = 7. -/
theorem flush2_5_iff : ∀ t : Fin cfg2.N, (cfg2.win 5).flush t = true ↔ t.val % 8 = 7 :=
  (by decide +kernel : ∀ t : Fin grid2.N, (cfg2.win 5).flush t = true ↔ t.val % 8 = 7)

/-- The adjacency window at point t: entry (p, j) of block (t / 8, t mod 8). -/
theorem blk2_0 (t : Fin cfg2.N) (p : Fin 1024) (j : Fin 1024) (r : Fin 8192) (q : Fin 8192)
    (hr : r.val = 1024 * (t.val / 8) + p.val) (hq : q.val = 1024 * (t.val % 8) + j.val) :
    iblk2 V c 0 t (ix2 p j) = V c main_v0_1 (ix2 r q) := by
  obtain ⟨e00, e01, e10, e11, e20, e21, e30, e31, e40, e41, e50, e51⟩ := idx2 t
  show V c main_v0_1 (((cfg2.win 0).blk t).view.emb (ix2 p j)) = V c main_v0_1 (ix2 r q)
  refine congrArg (V c main_v0_1) (funext fun a => Fin.ext ?_)
  match a with
  | ⟨0, _⟩ => show win2_0.index t (0 : Fin 2) * 1024 + 1 * p.val = r.val; rw [e00, hr]; omega
  | ⟨1, _⟩ => show win2_0.index t (1 : Fin 2) * 1024 + 1 * j.val = q.val; rw [e01, hq]; omega

/-- The feature window at point t: entry (j, f) of row block t mod 8. -/
theorem blk2_1 (t : Fin cfg2.N) (p : Fin 1024) (j : Fin 256) (r : Fin 8192) (q : Fin 256)
    (hr : r.val = 1024 * (t.val % 8) + p.val) (hq : q.val = j.val) :
    iblk2 V c 1 t (ix2 p j) = V c main_v10 (ix2 r q) := by
  obtain ⟨e00, e01, e10, e11, e20, e21, e30, e31, e40, e41, e50, e51⟩ := idx2 t
  show V c main_v10 (((cfg2.win 1).blk t).view.emb (ix2 p j)) = V c main_v10 (ix2 r q)
  refine congrArg (V c main_v10) (funext fun a => Fin.ext ?_)
  match a with
  | ⟨0, _⟩ => show win2_1.index t (0 : Fin 2) * 1024 + 1 * p.val = r.val; rw [e10, hr]; omega
  | ⟨1, _⟩ => show win2_1.index t (1 : Fin 2) * 256 + 1 * j.val = q.val; rw [e11, hq]; omega

/-- The self-loop window at point t: entry (p, f) of row block t / 8. -/
theorem blk2_2 (t : Fin cfg2.N) (p : Fin 1024) (j : Fin 256) (r : Fin 8192) (q : Fin 256)
    (hr : r.val = 1024 * (t.val / 8) + p.val) (hq : q.val = j.val) :
    iblk2 V c 2 t (ix2 p j) = V c main_v10 (ix2 r q) := by
  obtain ⟨e00, e01, e10, e11, e20, e21, e30, e31, e40, e41, e50, e51⟩ := idx2 t
  show V c main_v10 (((cfg2.win 2).blk t).view.emb (ix2 p j)) = V c main_v10 (ix2 r q)
  refine congrArg (V c main_v10) (funext fun a => Fin.ext ?_)
  match a with
  | ⟨0, _⟩ => show win2_2.index t (0 : Fin 2) * 1024 + 1 * p.val = r.val; rw [e20, hr]; omega
  | ⟨1, _⟩ => show win2_2.index t (1 : Fin 2) * 256 + 1 * j.val = q.val; rw [e21, hq]; omega

/-- The row-scale window at point t: entry (p, 0) of row block t / 8. -/
theorem blk2_3 (t : Fin cfg2.N) (p : Fin 1024) (j : Fin 1) (r : Fin 8192) (q : Fin 1)
    (hr : r.val = 1024 * (t.val / 8) + p.val) (hq : q.val = j.val) :
    iblk2 V c 3 t (ix2 p j) = V c main_v5 (ix2 r q) := by
  obtain ⟨e00, e01, e10, e11, e20, e21, e30, e31, e40, e41, e50, e51⟩ := idx2 t
  show V c main_v5 (((cfg2.win 3).blk t).view.emb (ix2 p j)) = V c main_v5 (ix2 r q)
  refine congrArg (V c main_v5) (funext fun a => Fin.ext ?_)
  match a with
  | ⟨0, _⟩ => show win2_3.index t (0 : Fin 2) * 1024 + 1 * p.val = r.val; rw [e30, hr]; omega
  | ⟨1, _⟩ => show win2_3.index t (1 : Fin 2) * 1 + 1 * j.val = q.val; rw [e31, hq]; omega

/-- The weight window at every point: the whole array. -/
theorem blk2_4 (t : Fin cfg2.N) (p : Fin 256) (j : Fin 40) (r : Fin 256) (q : Fin 40)
    (hr : r.val = p.val) (hq : q.val = j.val) :
    iblk2 V c 4 t (ix2 p j) = V c main_arg3 (ix2 r q) := by
  obtain ⟨e00, e01, e10, e11, e20, e21, e30, e31, e40, e41, e50, e51⟩ := idx2 t
  show V c main_arg3 (((cfg2.win 4).blk t).view.emb (ix2 p j)) = V c main_arg3 (ix2 r q)
  refine congrArg (V c main_arg3) (funext fun a => Fin.ext ?_)
  match a with
  | ⟨0, _⟩ => show win2_4.index t (0 : Fin 2) * 256 + 1 * p.val = r.val; rw [e40, hr]; omega
  | ⟨1, _⟩ => show win2_4.index t (1 : Fin 2) * 40 + 1 * j.val = q.val; rw [e41, hq]; omega

end Cert.KVal

end
-- ==== Proof.KPay2.lean ====
/-
  The third kernel body's stored values at an index, over coerced reals.

  The reset and the accumulation are the second body's at width 256.  The last store forms the logits (the dense
  layer with relu applied to the scaled sum) and then a row-wise log-softmax: with M the largest logit of the row
  and S the sum over the row of exp (logit - M), a positive real, it stores logit - (M + log S).  The maximum of a
  row of coerced reals, folded from minus infinity, is the coercion of the reals' supremum.
-/
import proofs.«152435_j1984274891532_2_alg».proof.Proof.KPayBase
import proofs.«152435_j1984274891532_2_alg».proof.Proof.Spec

noncomputable section

open scoped BigOperators

namespace Cert.KPay

open Idealize.ShloMosaic Idealize.ShloMosaic.ValueIdx Cert.KernelIdeal Cert.KernelIdeal.Gen
open Cert.KernelIdeal.Facts₀ Cert.KernelIdeal.Facts

/-- The fold of max from minus infinity over a row of coerced reals is the coercion of their supremum. -/
theorem fold_max_coe (g : Fin 40 → ℝ) :
    (Finset.univ : Finset (Fin 40)).fold max (Ideal.ofBits .f32 0xFF800000#32) (fun k => (g k : EReal))
      = ((Finset.univ.sup' Finset.univ_nonempty g : ℝ) : EReal) := by
  have hb : Ideal.ofBits .f32 0xFF800000#32 = (⊥ : EReal) := by simp [Ideal.ofBits, Ideal.ieee]
  rw [hb, Finset.apply_sup'_eq_sup'_comp Finset.univ_nonempty (fun r : ℝ => (r : EReal)) coe_max,
    Finset.sup'_eq_sup]
  rfl

/-- The reset's value: zero everywhere. -/
theorem k2_pay1_apply (p : Fin 1024) (c : Fin 256) : Gen.k2_pay1 (F := Ideal) (ix2 p c) = ((0 : ℝ) : EReal) := by
  unfold Gen.k2_pay1
  simp only [shapeCast_self, broadcast_apply]
  exact zero_word

/-- The accumulation's value at (p, c): the running value plus row p of the adjacency block times column c of the
    scaled features. -/
theorem k2_pay2_apply (y acc : Vec Ideal S1024x256 .f32) (ab : Vec Ideal S1024x1024 .bf16)
    (yr accr : Fin 1024 → Fin 256 → ℝ) (abr : Fin 1024 → Fin 1024 → ℝ)
    (hy : ∀ j c, y (ix2 j c) = (yr j c : EReal)) (hacc : ∀ p c, acc (ix2 p c) = (accr p c : EReal))
    (hab : ∀ p j, ab (ix2 p j) = (abr p j : EReal)) (p : Fin 1024) (c : Fin 256) :
    Gen.k2_pay2 (F := Ideal) y acc ab (ix2 p c)
      = ((accr p c + ∑ j : Fin 1024, abr p j * yr j c : ℝ) : EReal) := by
  unfold Gen.k2_pay2
  simp only [shapeCast_self, addf_apply]
  refine (congrArg (acc (ix2 p c) + ·) (adj256_apply ab (truncf .bf16 y _) p c)).trans ?_
  simp only [truncf_apply, hab, hy, hacc]
  rw [coe_sum_mul, ← EReal.coe_add]

/-! ## The last store, in two parts: the logits, then the row-wise log-softmax -/

/-- The logits: the dense layer with relu applied to the scaled sum. -/
def k2_logits (acc yd : Vec Ideal S1024x256 .f32) (d : Vec Ideal S1024x1 .f32) (w : Vec Ideal S256x40 .f32) :
    FVec Ideal S1024x40 .f32 :=
  maximumf
    (matmul dot_S1024x256_S256x40_S1024x40_1_0_0_1_n_n none
      (truncf .bf16 (mulf (broadcastTo S1024x256 (shapeCast S1024x1 d Gen.shapeCasts_S1024x1_S1024x1) Gen.broadcasts_S1024x1_S1024x256)
        (addf acc (shapeCast S1024x256 yd Gen.shapeCasts_S1024x256_S1024x256))) Gen.bitsLt_bf16_f32)
      (truncf .bf16 w Gen.bitsLt_bf16_f32) (constant S1024x40 .f32 0x00000000#32))
    (broadcast S1024x40 (Scalar.ofBits .f32 0x00000000#32))

/-- The row maxima, as a column. -/
def rowMaxCol (v : FVec Ideal S1024x40 .f32) : FVec Ideal S1024x1 .f32 :=
  shapeCast S1024x1 (multiReduction .maximumf [1] S1024 v 0xFF800000#32 Gen.reduces_S1024x40_S1024 (.inl rfl) rfl)
    Gen.shapeCasts_S1024_S1024x1

/-- The exponentials of the entries less their row's maximum. -/
def shiftedExp (v : FVec Ideal S1024x40 .f32) : FVec Ideal S1024x40 .f32 :=
  exp (subf v (broadcastTo S1024x40 (rowMaxCol v) Gen.broadcasts_S1024x1_S1024x40))

/-- The logarithms of the rows' sums of exponentials, as a column. -/
def logSumCol (v : FVec Ideal S1024x40 .f32) : FVec Ideal S1024x1 .f32 :=
  log (shapeCast S1024x1 (multiReduction .add [1] S1024 (shiftedExp v) 0x00000000#32 Gen.reduces_S1024x40_S1024 (.inl rfl) rfl)
    Gen.shapeCasts_S1024_S1024x1)

/-- The row-wise log-softmax as the body spells it. -/
def lsmTail (v : FVec Ideal S1024x40 .f32) : FVec Ideal S1024x40 .f32 :=
  subf v (broadcastTo S1024x40 (addf (rowMaxCol v) (logSumCol v)) Gen.broadcasts_S1024x1_S1024x40)

/-- The last store is the log-softmax of the logits. -/
theorem k2_pay3_eq (acc yd : Vec Ideal S1024x256 .f32) (d : Vec Ideal S1024x1 .f32) (w : Vec Ideal S256x40 .f32) :
    Gen.k2_pay3 (F := Ideal) acc yd d w = lsmTail (k2_logits acc yd d w) := rfl

/-- The logits at (p, k). -/
theorem k2_logits_apply (acc yd : Vec Ideal S1024x256 .f32) (d : Vec Ideal S1024x1 .f32) (w : Vec Ideal S256x40 .f32)
    (accr ydr : Fin 1024 → Fin 256 → ℝ) (dr : Fin 1024 → ℝ) (wr : Fin 256 → Fin 40 → ℝ)
    (hacc : ∀ p c, acc (ix2 p c) = (accr p c : EReal)) (hyd : ∀ p c, yd (ix2 p c) = (ydr p c : EReal))
    (hd : ∀ p, d (ix2 p (0 : Fin 1)) = (dr p : EReal)) (hw : ∀ c k, w (ix2 c k) = (wr c k : EReal))
    (p : Fin 1024) (k : Fin 40) :
    k2_logits acc yd d w (ix2 p k)
      = ((max (∑ c : Fin 256, (dr p * (accr p c + ydr p c)) * wr c k) 0 : ℝ) : EReal) := by
  unfold k2_logits
  simp only [shapeCast_self, maximumf_apply, broadcast_apply]
  refine (congrArg (max · _) (w2_apply _ _ p k)).trans ?_
  simp only [truncf_apply, mulf_apply, addf_apply, Cert.LibLayout.broadcastTo_a1_ab_apply, hacc, hyd, hd, hw]
  rw [zero_word]
  simp only [← EReal.coe_add, ← EReal.coe_mul]
  rw [← Cert.Consts.coe_sum, ← coe_max]

/-- The row maximum of a row of coerced reals. -/
theorem rowMaxCol_apply (v : FVec Ideal S1024x40 .f32) (p : Fin 1024) (Lp : Fin 40 → ℝ)
    (hv : ∀ k, v (ix2 p k) = (Lp k : EReal)) (u : Fin 1) :
    rowMaxCol v (ix2 p u) = ((Finset.univ.sup' Finset.univ_nonempty Lp : ℝ) : EReal) := by
  unfold rowMaxCol
  refine ((Cert.LibLayout.shapeCast_a_a1_apply _ _ p u).trans (Cert.LibRowReduce.rowMax_apply v _ _ _ _ p)).trans ?_
  simp only [hv]
  exact fold_max_coe Lp

theorem shiftedExp_apply (v : FVec Ideal S1024x40 .f32) (p : Fin 1024) (Lp : Fin 40 → ℝ)
    (hv : ∀ k, v (ix2 p k) = (Lp k : EReal)) (k : Fin 40) :
    shiftedExp v (ix2 p k) = ((Real.exp (Lp k - Finset.univ.sup' Finset.univ_nonempty Lp) : ℝ) : EReal) := by
  unfold shiftedExp
  show Ideal.exp (v (ix2 p k) - broadcastTo S1024x40 (rowMaxCol v) Gen.broadcasts_S1024x1_S1024x40 (ix2 p k)) = _
  rw [Cert.LibLayout.broadcastTo_a1_ab_apply, hv, rowMaxCol_apply v p Lp hv, ← EReal.coe_sub]
  rfl

theorem logSumCol_apply (v : FVec Ideal S1024x40 .f32) (p : Fin 1024) (Lp : Fin 40 → ℝ)
    (hv : ∀ k, v (ix2 p k) = (Lp k : EReal)) (u : Fin 1) :
    logSumCol v (ix2 p u)
      = ((Real.log (∑ k : Fin 40, Real.exp (Lp k - Finset.univ.sup' Finset.univ_nonempty Lp)) : ℝ) : EReal) := by
  have hpos : 0 < ∑ k : Fin 40, Real.exp (Lp k - Finset.univ.sup' Finset.univ_nonempty Lp) :=
    Finset.sum_pos (fun _ _ => Real.exp_pos _) Finset.univ_nonempty
  unfold logSumCol
  refine (congrArg Ideal.log
    ((Cert.LibLayout.shapeCast_a_a1_apply _ _ p u).trans (rowSum_apply (shiftedExp v) _ _ _ _ p))).trans ?_
  simp only [shiftedExp_apply v p Lp hv]
  rw [← Cert.Consts.coe_sum, Ideal.log_coe, if_neg (not_le.mpr hpos)]

/-- The log-softmax of a row of coerced reals, at (p, k): logit - (M + log S). -/
theorem lsmTail_apply (v : FVec Ideal S1024x40 .f32) (p : Fin 1024) (Lp : Fin 40 → ℝ)
    (hv : ∀ k, v (ix2 p k) = (Lp k : EReal)) (k : Fin 40) :
    lsmTail v (ix2 p k)
      = ((Lp k - (Finset.univ.sup' Finset.univ_nonempty Lp
          + Real.log (∑ k' : Fin 40, Real.exp (Lp k' - Finset.univ.sup' Finset.univ_nonempty Lp))) : ℝ) : EReal) := by
  unfold lsmTail
  rw [subf_apply, Cert.LibLayout.broadcastTo_a1_ab_apply, addf_apply, hv, rowMaxCol_apply v p Lp hv,
    logSumCol_apply v p Lp hv, ← EReal.coe_add, ← EReal.coe_sub]

/-- The last store's value at (p, k), for the row of logits `Lp` of row p. -/
theorem k2_pay3_apply (acc yd : Vec Ideal S1024x256 .f32) (d : Vec Ideal S1024x1 .f32) (w : Vec Ideal S256x40 .f32)
    (accr ydr : Fin 1024 → Fin 256 → ℝ) (dr : Fin 1024 → ℝ) (wr : Fin 256 → Fin 40 → ℝ)
    (hacc : ∀ p c, acc (ix2 p c) = (accr p c : EReal)) (hyd : ∀ p c, yd (ix2 p c) = (ydr p c : EReal))
    (hd : ∀ p, d (ix2 p (0 : Fin 1)) = (dr p : EReal)) (hw : ∀ c k, w (ix2 c k) = (wr c k : EReal))
    (p : Fin 1024) (Lp : Fin 40 → ℝ)
    (hL : ∀ k, Lp k = max (∑ c : Fin 256, (dr p * (accr p c + ydr p c)) * wr c k) 0) (k : Fin 40) :
    Gen.k2_pay3 (F := Ideal) acc yd d w (ix2 p k)
      = ((Lp k - (Finset.univ.sup' Finset.univ_nonempty Lp
          + Real.log (∑ k' : Fin 40, Real.exp (Lp k' - Finset.univ.sup' Finset.univ_nonempty Lp))) : ℝ) : EReal) := by
  rw [k2_pay3_eq]
  exact lsmTail_apply _ p Lp
    (fun k' => (k2_logits_apply acc yd d w accr ydr dr wr hacc hyd hd hw p k').trans (by rw [hL k'])) k

/-- The same with the row of logits taken from an array `l` over all 8192 rows at row `i`: the stored value is the
    specification's log-softmax of `l` at (i, k). -/
theorem k2_pay3_lsmK (acc yd : Vec Ideal S1024x256 .f32) (d : Vec Ideal S1024x1 .f32) (w : Vec Ideal S256x40 .f32)
    (accr ydr : Fin 1024 → Fin 256 → ℝ) (dr : Fin 1024 → ℝ) (wr : Fin 256 → Fin 40 → ℝ)
    (hacc : ∀ p c, acc (ix2 p c) = (accr p c : EReal)) (hyd : ∀ p c, yd (ix2 p c) = (ydr p c : EReal))
    (hd : ∀ p, d (ix2 p (0 : Fin 1)) = (dr p : EReal)) (hw : ∀ c k, w (ix2 c k) = (wr c k : EReal))
    (p : Fin 1024) (l : Fin 8192 → Fin 40 → ℝ) (i : Fin 8192)
    (hL : ∀ k, l i k = max (∑ c : Fin 256, (dr p * (accr p c + ydr p c)) * wr c k) 0) (k : Fin 40) :
    Gen.k2_pay3 (F := Ideal) acc yd d w (ix2 p k) = ((Cert.Spec.lsmK l i k : ℝ) : EReal) :=
  k2_pay3_apply acc yd d w accr ydr dr wr hacc hyd hd hw p (l i) hL k

end Cert.KPay

end
-- ==== Proof.KI.R2Val.lean ====
/-
  What the third kernel leaves in its output array, in real form.

  The region walks an 8 × 8 grid; at point t = 8·i + k it adds to a [1024, 256] accumulator the product of block
  (i, k) of the adjacency with row block k of the scaled hidden features, starting from zero at k = 0, and at k = 7
  stores the log-softmax of the logits formed from the accumulator, the self-loop block, the row scales and the
  weights.  When the four arrays hold real numbers, the accumulator after point t holds at (p, f) the real sum over the
  column tiles 0 … k of Σ_j a (1024·i + p) (1024·s + j) · y (1024·s + j) f; at k = 7 the eight tiles are the whole sum over
  the 8192 columns; so row block i of the output holds the specification's log-softmax of the logits, and the eight row
  blocks cover the array.
-/
import proofs.«152435_j1984274891532_2_alg».proof.Proof.KI.R2Value
import proofs.«152435_j1984274891532_2_alg».proof.Proof.KI.R2Blocks
import proofs.«152435_j1984274891532_2_alg».proof.Proof.KPay2
import proofs.«152435_j1984274891532_2_alg».proof.Proof.LibTiles
import proofs.«152435_j1984274891532_2_alg».proof.Proof.Spec
import Idealize.ShloMosaic.Lib.Pipeline.Value
import Idealize.ShloMosaic.Lib.ValueIdx

set_option maxRecDepth 16384

noncomputable section

open scoped BigOperators

namespace Cert.KVal.R2

open Idealize.ShloMosaic Idealize.ShloMosaic.TcCoe Idealize.ShloMosaic.ValueIdx Idealize.SL.Sem
open Idealize.ShloMosaic.Pipeline (Dat)
open Cert.KernelIdeal Cert.KernelIdeal.Gen

/-! ## Rows of a row block, and the column tiles of a product's entry -/

/-- Row p of row block i (for i < 8: row 1024·i + p). -/
def rowN (i : ℕ) (p : Fin 1024) : Fin 8192 := ⟨(1024 * i + p.val) % 8192, Nat.mod_lt _ (by decide)⟩

theorem rowN_val (i : ℕ) (hi : i < 8) (p : Fin 1024) : (rowN i p).val = 1024 * i + p.val := by
  show (1024 * i + p.val) % 8192 = _
  have := p.isLt
  omega

section Tiles
variable (ar : Fin 8192 → Fin 8192 → ℝ) {n : ℕ} (yr : Fin 8192 → Fin n → ℝ)

/-- The part of the product's entry (r, f) that comes from column tile s. -/
def tile (r : Fin 8192) (f : Fin n) (s : ℕ) : ℝ := ∑ j : Fin 1024, ar r (rowN s j) * yr (rowN s j) f

/-- The eight column tiles make the whole sum over the 8192 columns. -/
theorem tiles_all (r : Fin 8192) (f : Fin n) :
    ∑ s ∈ Finset.range 8, tile ar yr r f s = ∑ j : Fin 8192, ar r j * yr j f := by
  refine Cert.LibTiles.sum_range_tiles 8 1024 (fun j : Fin (8 * 1024) => ar r j * yr j f) (tile ar yr r f) fun s => ?_
  unfold tile
  refine Finset.sum_congr rfl fun k _ => ?_
  have e : rowN s.val k = (⟨1024 * s.val + k.val, Cert.LibTiles.tile_lt s.isLt k⟩ : Fin (8 * 1024)) :=
    Fin.ext (rowN_val s.val s.isLt k)
  rw [e]

end Tiles

/-! ## The region on real arrays -/

section Region
variable (V : (c : Dev nD) → (b : Ref sig .tc) → Buf (Elt Ideal) ((c : Thread nD τ).loc b)) (c : Dev nD)
  (ar : Fin 8192 → Fin 8192 → ℝ) (yr : Fin 8192 → Fin 256 → ℝ) (dr : Fin 8192 → ℝ) (wr : Fin 256 → Fin 40 → ℝ)
  (ha : ∀ p q, V c main_v0_1 (ix2 p q) = ((ar p q : ℝ) : EReal))
  (hy : ∀ j f, V c main_v10 (ix2 j f) = ((yr j f : ℝ) : EReal))
  (hd : ∀ r, V c main_v5 (ix2 r (0 : Fin 1)) = ((dr r : ℝ) : EReal))
  (hw : ∀ f k, V c main_arg3 (ix2 f k) = ((wr f k : ℝ) : EReal))

theorem div8_lt (t : Fin cfg2.N) : t.val / 8 < 8 := by
  have h : t.val < cfg2.N := t.isLt
  have hN : cfg2.N = 64 := N2
  omega

include ha hy in
/-- One accumulation step at point t: the incoming real accumulator plus column tile t mod 8 of row block t / 8. -/
theorem step2_apply (t : Fin cfg2.N) (acc : Vec Ideal S1024x256 .f32) (accr : Fin 1024 → Fin 256 → ℝ)
    (hacc : ∀ p f, acc (ix2 p f) = ((accr p f : ℝ) : EReal)) (p : Fin 1024) (f : Fin 256) :
    k2_pay2 (iblk2 V c 1 t) acc (iblk2 V c 0 t) (ix2 p f)
      = ((accr p f + tile ar yr (rowN (t.val / 8) p) f (t.val % 8) : ℝ) : EReal) := by
  have hk : t.val % 8 < 8 := Nat.mod_lt _ (by decide)
  have hi : t.val / 8 < 8 := div8_lt t
  exact Cert.KPay.k2_pay2_apply (iblk2 V c 1 t) acc (iblk2 V c 0 t)
    (fun j f => yr (rowN (t.val % 8) j) f) accr (fun p j => ar (rowN (t.val / 8) p) (rowN (t.val % 8) j))
    (fun j f => (blk2_1 V c t j f (rowN (t.val % 8) j) f (rowN_val _ hk j) rfl).trans (hy _ _)) hacc
    (fun p j => (blk2_0 V c t p j (rowN (t.val / 8) p) (rowN (t.val % 8) j) (rowN_val _ hi p) (rowN_val _ hk j)).trans
      (ha _ _)) p f

include ha hy in
/-- The accumulator after point n, at (p, f): the column tiles 0 … n mod 8 of row block n / 8. -/
theorem acc2_apply : ∀ (n : ℕ) (hn : n < cfg2.N) (p : Fin 1024) (f : Fin 256),
    acc2 V c n hn (ix2 p f)
      = ((∑ s ∈ Finset.range (n % 8 + 1), tile ar yr (rowN (n / 8) p) f s : ℝ) : EReal)
  | 0, hn, p, f => by
    rw [acc2_zero]
    refine (step2_apply V c ar yr ha hy ⟨0, hn⟩ (k2_pay1 (F := Ideal)) (fun _ _ => 0)
      (fun p f => Cert.KPay.k2_pay1_apply p f) p f).trans ?_
    show (((0 : ℝ) + tile ar yr (rowN (0 / 8) p) f (0 % 8) : ℝ) : EReal) = _
    rw [zero_add, show (0 % 8 + 1 : ℕ) = 1 from rfl, Finset.sum_range_one]
  | n + 1, hn, p, f => by
    rw [acc2_succ]
    by_cases h0 : (n + 1) % 8 = 0
    · rw [if_pos h0]
      refine (step2_apply V c ar yr ha hy ⟨n + 1, hn⟩ (k2_pay1 (F := Ideal)) (fun _ _ => 0)
        (fun p f => Cert.KPay.k2_pay1_apply p f) p f).trans ?_
      show (((0 : ℝ) + tile ar yr (rowN ((n + 1) / 8) p) f ((n + 1) % 8) : ℝ) : EReal) = _
      rw [zero_add, h0, Finset.sum_range_one]
    · rw [if_neg h0]
      have hdiv : (n + 1) / 8 = n / 8 := by omega
      have hmod : (n + 1) % 8 = n % 8 + 1 := by omega
      refine (step2_apply V c ar yr ha hy ⟨n + 1, hn⟩ (acc2 V c n (Nat.lt_of_succ_lt hn))
        (fun p f => ∑ s ∈ Finset.range (n % 8 + 1), tile ar yr (rowN (n / 8) p) f s)
        (fun p f => acc2_apply n (Nat.lt_of_succ_lt hn) p f) p f).trans ?_
      show ((((∑ s ∈ Finset.range (n % 8 + 1), tile ar yr (rowN (n / 8) p) f s)
        + tile ar yr (rowN ((n + 1) / 8) p) f ((n + 1) % 8) : ℝ)) : EReal) = _
      rw [hdiv, hmod, Finset.sum_range_succ _ (n % 8 + 1)]

variable (l : Fin 8192 → Fin 40 → ℝ)
  (hL : ∀ r k, l r k = max (∑ c' : Fin 256, (dr r * ((∑ j, ar r j * yr j c') + yr r c')) * wr c' k) 0)

include ha hy hd hw hL in
/-- What a point with k = 7 stores, at (p, k): the log-softmax of the logits at row 1024·(t / 8) + p. -/
theorem out2_point (t : Fin cfg2.N) (h7 : t.val % 8 = 7) (p : Fin 1024) (k : Fin 40) :
    k2_pay3 (acc2 V c t.val t.isLt) (iblk2 V c 2 t) (iblk2 V c 3 t) (iblk2 V c 4 t) (ix2 p k)
      = ((Cert.Spec.lsmK l (rowN (t.val / 8) p) k : ℝ) : EReal) := by
  have hi : t.val / 8 < 8 := div8_lt t
  refine Cert.KPay.k2_pay3_lsmK (acc2 V c t.val t.isLt) (iblk2 V c 2 t) (iblk2 V c 3 t) (iblk2 V c 4 t)
    (fun p f => ∑ s ∈ Finset.range (t.val % 8 + 1), tile ar yr (rowN (t.val / 8) p) f s)
    (fun p f => yr (rowN (t.val / 8) p) f) (fun p => dr (rowN (t.val / 8) p)) wr
    (fun p f => acc2_apply V c ar yr ha hy t.val t.isLt p f)
    (fun p f => (blk2_2 V c t p f (rowN (t.val / 8) p) f (rowN_val _ hi p) rfl).trans (hy _ _))
    (fun p => (blk2_3 V c t p (0 : Fin 1) (rowN (t.val / 8) p) (0 : Fin 1) (rowN_val _ hi p) rfl).trans (hd _))
    (fun f k => (blk2_4 V c t f k f k rfl rfl).trans (hw _ _))
    p l (rowN (t.val / 8) p) (fun k => ?_) k
  rw [hL]
  show _ = max (∑ c' : Fin 256, (dr (rowN (t.val / 8) p)
    * ((∑ s ∈ Finset.range (t.val % 8 + 1), tile ar yr (rowN (t.val / 8) p) c' s) + yr (rowN (t.val / 8) p) c')) * wr c' k) 0
  rw [h7]
  simp only [show (7 + 1 : ℕ) = 8 from rfl, tiles_all]

/-! ## From the row blocks to the array -/

/-- The array the region leaves: the specification's log-softmax of the logits, entry by entry. -/
def outG : S8192x40.Idx → Elt Ideal .f32 :=
  fun i => ((Cert.Spec.lsmK l ⟨(i 0).val, idx2_lt0 i⟩ ⟨(i 1).val, idx2_lt1 i⟩ : ℝ) : EReal)

theorem outG_at (i : S8192x40.Idx) (r : Fin 8192) (k : Fin 40) (h0 : (i 0).val = r.val) (h1 : (i 1).val = k.val) :
    outG l i = ((Cert.Spec.lsmK l r k : ℝ) : EReal) := by
  have e0 : (⟨(i 0).val, idx2_lt0 i⟩ : Fin 8192) = r := Fin.ext h0
  have e1 : (⟨(i 1).val, idx2_lt1 i⟩ : Fin 40) = k := Fin.ext h1
  unfold outG
  rw [e0, e1]

include ha hy hd hw hL in
/-- What a point that writes back writes is its block of that array. -/
theorem flushed2_5_eq (t : Fin cfg2.N) (hf : (cfg2.win 5).flush t = true) :
    (dat2 V c).flushed 5 t = ((cfg2.win 5).blk t).view.read (Elt Ideal) (outG l) := by
  have h7 : t.val % 8 = 7 := (flush2_5_iff t).mp hf
  have hi : t.val / 8 < 8 := div8_lt t
  obtain ⟨e00, e01, e10, e11, e20, e21, e30, e31, e40, e41, e50, e51⟩ := idx2 t
  show (cfg2.win 5).cut (grid2.coords t) ((dat2 V c).after 5 t) = _
  rw [after2_5_val V c t h7]
  refine funext fun (y : S1024x40.Idx) => ?_
  obtain ⟨p, k, rfl⟩ : ∃ (p : Fin 1024) (k : Fin 40), y = ix2 p k := ⟨y 0, y 1, eq_ix2 y⟩
  show k2_pay3 (acc2 V c t.val t.isLt) (iblk2 V c 2 t) (iblk2 V c 3 t) (iblk2 V c 4 t) (ix2 p k)
    = outG l (((cfg2.win 5).blk t).view.emb (ix2 p k))
  rw [out2_point V c ar yr dr wr ha hy hd hw l hL t h7 p k]
  refine (outG_at l _ (rowN (t.val / 8) p) k ?_ ?_).symm
  · show win2_5.index t (0 : Fin 2) * 1024 + 1 * p.val = (rowN (t.val / 8) p).val
    rw [e50, rowN_val _ hi p]; omega
  · show win2_5.index t (1 : Fin 2) * 40 + 1 * k.val = k.val
    rw [e51]; omega

/-- An index of the array is in point t's block iff each coordinate is in the block's range on its axis. -/
theorem mem_blk2_5 (t : Fin cfg2.N) (i : S8192x40.Idx) :
    i ∈ ((cfg2.win 5).blk t).view.set ↔ ∀ a : Fin 2, win2_5.index t a * S1024x40.size a ≤ (i a).val
      ∧ (i a).val < win2_5.index t a * S1024x40.size a + S1024x40.size a := by
  show i ∈ ((View.whole main_v11).slice (win2_5.rect t)).set ↔ _
  rw [View.set_slice_whole, Rect.mem_set_unit]
  exact Iff.rfl

/-- Every index of the array is in the block of the point that closes its row block. -/
theorem cover2_5 (i : S8192x40.Idx) :
    ∃ t : Fin cfg2.N, (cfg2.win 5).flush t = true ∧ i ∈ ((cfg2.win 5).blk t).view.set := by
  have h0 : (i 0).val < 8192 := idx2_lt0 i
  have h1 : (i 1).val < 40 := idx2_lt1 i
  have hlt : 8 * ((i 0).val / 1024) + 7 < cfg2.N := by rw [N2]; omega
  obtain ⟨e00, e01, e10, e11, e20, e21, e30, e31, e40, e41, e50, e51⟩ := idx2 ⟨8 * ((i 0).val / 1024) + 7, hlt⟩
  refine ⟨⟨8 * ((i 0).val / 1024) + 7, hlt⟩, (flush2_5_iff _).mpr (by show (8 * ((i 0).val / 1024) + 7) % 8 = 7; omega), ?_⟩
  rw [mem_blk2_5]
  intro a
  match a with
  | ⟨0, _⟩ =>
    show win2_5.index ⟨8 * ((i 0).val / 1024) + 7, hlt⟩ (0 : Fin 2) * 1024 ≤ (i 0).val
      ∧ (i 0).val < win2_5.index ⟨8 * ((i 0).val / 1024) + 7, hlt⟩ (0 : Fin 2) * 1024 + 1024
    rw [e50]
    show (8 * ((i 0).val / 1024) + 7) / 8 * 1024 ≤ (i 0).val ∧ (i 0).val < (8 * ((i 0).val / 1024) + 7) / 8 * 1024 + 1024
    omega
  | ⟨1, _⟩ =>
    show win2_5.index ⟨8 * ((i 0).val / 1024) + 7, hlt⟩ (1 : Fin 2) * 40 ≤ (i 1).val
      ∧ (i 1).val < win2_5.index ⟨8 * ((i 0).val / 1024) + 7, hlt⟩ (1 : Fin 2) * 40 + 40
    rw [e51]
    omega

include ha hy hd hw hL in
/-- THE OUTPUT ARRAY after the region: the specification's log-softmax of the logits. -/
theorem out_final (r : Fin 8192) (k : Fin 40) :
    (dat2 V c).arrAt 5 cfg2.N (ix2 r k) = ((Cert.Spec.lsmK l r k : ℝ) : EReal) := by
  rw [(dat2 V c).arrAt_eq_of_cover 5 (outG l)
    (fun t hf => flushed2_5_eq V c ar yr dr wr ha hy hd hw l hL t hf) cover2_5]
  exact outG_at l (ix2 r k) r k rfl rfl

end Region

end Cert.KVal.R2

end
-- ==== Proof.KClaim.lean ====
/-
  The kernel program's half of the algebraic claim: the contents carried through its three regions and the host operations
  between them, in real form.

  From argument arrays that are arrays of real numbers with positive degrees: the first region leaves the row sums of the
  adjacency and its copy; the host operations form the scale column `d = 1/√deg` and the scaled features `d · x`; the second
  region leaves the first layer's hidden features in the kernel's arrangement; two host operations scale them by `d`; the
  third region leaves the log-softmax of the second layer's logits.  That is the specification's `out`, entry by entry, so
  the result array is the common result.  Each region's value is taken here as a fact about that region's array after the
  region, for the contents the region is entered with.
-/
import proofs.«152435_j1984274891532_2_alg».proof.Proof.KI.Assembly
import proofs.«152435_j1984274891532_2_alg».proof.Proof.KI.HostGlue
import proofs.«152435_j1984274891532_2_alg».proof.Proof.KI.Inst
import proofs.«152435_j1984274891532_2_alg».proof.Proof.KI.R0ValFin
import proofs.«152435_j1984274891532_2_alg».proof.Proof.KI.R1Val
import proofs.«152435_j1984274891532_2_alg».proof.Proof.KI.R2Val
import proofs.«152435_j1984274891532_2_alg».proof.Proof.RefClaim

noncomputable section

open scoped BigOperators

namespace Cert.Proof

open Idealize.ShloMosaic Idealize.ShloMosaic.TcCoe Idealize.ShloMosaic.ValueIdx
open Idealize.SL Idealize.SL.Sem
open Idealize.ShloMosaic.Rounds
open Idealize.ShloMosaic.Pipeline (Dat)
open Cert.KernelIdeal Cert.KernelIdeal.Gen

section Chain

variable (dat0 : Cont Ideal → (c : Dev nD) → Dat τ (Elt Ideal) Unit ℕ (UR sig nD τ) ℕ cfg0 c)
  (dat1 : Cont Ideal → (c : Dev nD) → Dat τ (Elt Ideal) Unit ℕ (UR sig nD τ) ℕ cfg1 c)
  (dat2 : Cont Ideal → (c : Dev nD) → Dat τ (Elt Ideal) Unit ℕ (UR sig nD τ) ℕ cfg2 c)
variable (m : (ℓ : Loc nD τ sig) → Buf (Elt Ideal) ℓ) (ρ : Dev nD → PrngReg) (c : Dev nD)
variable (xr : Fin 8192 → Fin 512 → ℝ) (ar : Fin 8192 → Fin 8192 → ℝ) (w1r : Fin 512 → Fin 256 → ℝ) (w2r : Fin 256 → Fin 40 → ℝ)

/-- The scaled features going into the first layer, over the reals. -/
def y1r : Fin 8192 → Fin 512 → ℝ := fun j f => Cert.Spec.dinv ar j * xr j f
/-- The scaled hidden features going into the second layer, over the reals. -/
def y2r : Fin 8192 → Fin 256 → ℝ := fun j c' => Cert.Spec.dinv ar j * Cert.Spec.hid ar xr w1r j c'

/-- The hidden features are the first layer's formula on the scaled features. -/
theorem hid_formula (r : Fin 8192) (c' : Fin 256) :
    max (∑ f : Fin 512, (Cert.Spec.dinv ar r * ((∑ j : Fin 8192, ar r j * y1r xr ar j f) + y1r xr ar r f)) * w1r f c') 0
      = Cert.Spec.hid ar xr w1r r c' := rfl

/-- The logits are the second layer's formula on the scaled hidden features. -/
theorem logit_formula (r : Fin 8192) (k : Fin 40) :
    Cert.Spec.logit ar xr w1r w2r r k
      = max (∑ c' : Fin 256, (Cert.Spec.dinv ar r * ((∑ j, ar r j * y2r xr ar w1r j c') + y2r xr ar w1r r c')) * w2r c' k) 0 := rfl

/-! ### At launch -/

theorem C0_eq (b : Ref sig .tc) : C0 m ρ c b = m ((c : Thread nD τ).loc b) := rfl

/-! ### After the first region -/

theorem W1_rowsum (h0rs : ∀ r, (dat0 (C0 m ρ) c).arrAt 1 cfg0.N (ix2 r (0 : Fin 1)) = ((∑ j, ar r j : ℝ) : EReal)) (r : Fin 8192) :
    W1 dat0 m ρ c (Proc.devRef .tc main_v0_0) (ix2 r (0 : Fin 1)) = ((∑ j, ar r j : ℝ) : EReal) := by
  rw [show W1 dat0 m ρ c (Proc.devRef .tc main_v0_0) = (dat0 (C0 m ρ) c).arrAt 1 cfg0.N from W1_arr dat0 m ρ c 1]
  exact h0rs r

theorem W1_copy (h0cp : ∀ r j, (dat0 (C0 m ρ) c).arrAt 2 cfg0.N (ix2 r j) = ((ar r j : ℝ) : EReal)) (r j : Fin 8192) :
    W1 dat0 m ρ c (Proc.devRef .tc main_v0_1) (ix2 r j) = ((ar r j : ℝ) : EReal) := by
  rw [show W1 dat0 m ρ c (Proc.devRef .tc main_v0_1) = (dat0 (C0 m ρ) c).arrAt 2 cfg0.N from W1_arr dat0 m ρ c 2]
  exact h0cp r j

theorem W1_arg0 : W1 dat0 m ρ c (Proc.devRef .tc main_arg0) = m ((c : Thread nD τ).loc main_arg0) :=
  W1_of_ne dat0 m ρ c main_arg0 (by decide)
theorem W1_arg2 : W1 dat0 m ρ c (Proc.devRef .tc main_arg2) = m ((c : Thread nD τ).loc main_arg2) :=
  W1_of_ne dat0 m ρ c main_arg2 (by decide)
theorem W1_arg3 : W1 dat0 m ρ c (Proc.devRef .tc main_arg3) = m ((c : Thread nD τ).loc main_arg3) :=
  W1_of_ne dat0 m ρ c main_arg3 (by decide)

/-! ### After the first stretch of host operations -/

theorem W2_keep (b : Ref sig .tc) (h : b ∉ hostOps1_W) :
    W2 dat0 m ρ c (Proc.devRef .tc b) = W1 dat0 m ρ c (Proc.devRef .tc b) :=
  StableHlo.after_of_writes_sub hostOps1 _ hostOps1_writes h

theorem W2_d (h0rs : ∀ r, (dat0 (C0 m ρ) c).arrAt 1 cfg0.N (ix2 r (0 : Fin 1)) = ((∑ j, ar r j : ℝ) : EReal))
    (hdeg : ∀ i, 0 < Cert.Spec.degR ar i) (r : Fin 8192) :
    W2 dat0 m ρ c (Proc.devRef .tc main_v5) (ix2 r (0 : Fin 1)) = ((Cert.Spec.dinv ar r : ℝ) : EReal) := by
  rw [show W2 dat0 m ρ c (Proc.devRef .tc main_v5) = dOf (F := Ideal) (W1 dat0 m ρ c (Proc.devRef .tc main_v0_0)) from after1_v5 (F := Ideal) (W1 dat0 m ρ c)]
  exact Cert.KHost.dOf_real _ ar (W1_rowsum dat0 m ρ c ar h0rs) hdeg r

theorem W2_y (h0rs : ∀ r, (dat0 (C0 m ρ) c).arrAt 1 cfg0.N (ix2 r (0 : Fin 1)) = ((∑ j, ar r j : ℝ) : EReal))
    (hdeg : ∀ i, 0 < Cert.Spec.degR ar i)
    (hx : ∀ p q, m ((c : Thread nD τ).loc main_arg0) (ix2 p q) = ((xr p q : ℝ) : EReal)) (r : Fin 8192) (f : Fin 512) :
    W2 dat0 m ρ c (Proc.devRef .tc main_v7) (ix2 r f) = ((y1r xr ar r f : ℝ) : EReal) := by
  rw [show W2 dat0 m ρ c (Proc.devRef .tc main_v7)
      = scale512 (F := Ideal) (dOf (F := Ideal) (W1 dat0 m ρ c (Proc.devRef .tc main_v0_0))) (W1 dat0 m ρ c (Proc.devRef .tc main_arg0)) from after1_v7 (F := Ideal) (W1 dat0 m ρ c)]
  exact Cert.KHost.scale512_real _ _ (Cert.Spec.dinv ar) xr
    (Cert.KHost.dOf_real _ ar (W1_rowsum dat0 m ρ c ar h0rs) hdeg)
    (fun p q => by rw [W1_arg0]; exact hx p q) r f

/-! ### After the second region -/

theorem W3_keep (b : Ref sig .tc) (h : b ≠ main_v8) :
    W3 dat0 dat1 m ρ c (Proc.devRef .tc b) = W2 dat0 m ρ c (Proc.devRef .tc b) := W3_of_ne dat0 dat1 m ρ c b h

theorem W3_hid (h1 : ∀ r c', (dat1 (C2 dat0 m ρ) c).arrAt 5 cfg1.N (ix2 r c')
      = ((max (∑ f : Fin 512, (Cert.Spec.dinv ar r * ((∑ j : Fin 8192, ar r j * y1r xr ar j f) + y1r xr ar r f)) * w1r f c') 0 : ℝ) : EReal))
    (r : Fin 8192) (c' : Fin 256) :
    W3 dat0 dat1 m ρ c (Proc.devRef .tc main_v8) (ix2 r c') = ((Cert.Spec.hid ar xr w1r r c' : ℝ) : EReal) := by
  rw [show W3 dat0 dat1 m ρ c (Proc.devRef .tc main_v8) = (dat1 (C2 dat0 m ρ) c).arrAt 5 cfg1.N from W3_out dat0 dat1 m ρ c, h1 r c',
    hid_formula]

/-! ### After the second stretch of host operations -/

theorem W4_keep (b : Ref sig .tc) (h : b ∉ hostOps2_W) :
    W4 dat0 dat1 m ρ c (Proc.devRef .tc b) = W3 dat0 dat1 m ρ c (Proc.devRef .tc b) :=
  StableHlo.after_of_writes_sub hostOps2 _ hostOps2_writes h

theorem W4_y (hd3 : ∀ r, W3 dat0 dat1 m ρ c (Proc.devRef .tc main_v5) (ix2 r (0 : Fin 1)) = ((Cert.Spec.dinv ar r : ℝ) : EReal))
    (hh3 : ∀ r c', W3 dat0 dat1 m ρ c (Proc.devRef .tc main_v8) (ix2 r c') = ((Cert.Spec.hid ar xr w1r r c' : ℝ) : EReal))
    (r : Fin 8192) (c' : Fin 256) :
    W4 dat0 dat1 m ρ c (Proc.devRef .tc main_v10) (ix2 r c') = ((y2r xr ar w1r r c' : ℝ) : EReal) := by
  rw [show W4 dat0 dat1 m ρ c (Proc.devRef .tc main_v10)
      = scale256 (F := Ideal) (W3 dat0 dat1 m ρ c (Proc.devRef .tc main_v5)) (W3 dat0 dat1 m ρ c (Proc.devRef .tc main_v8)) from after2_v10 (F := Ideal) (W3 dat0 dat1 m ρ c)]
  exact Cert.KHost.scale256_real _ _ (Cert.Spec.dinv ar) (Cert.Spec.hid ar xr w1r) hd3 hh3 r c'

/-! ### The result array -/

/-- THE CHAIN on one device: from argument arrays in real form with positive degrees, and each region's value for the
    contents it is entered with, the result array after the third region is the common result. -/
theorem result_real
    (hx : ∀ p q, m ((c : Thread nD τ).loc main_arg0) (ix2 p q) = ((xr p q : ℝ) : EReal))
    (ha : ∀ p q, m ((c : Thread nD τ).loc main_arg1) (ix2 p q) = ((ar p q : ℝ) : EReal))
    (hw1 : ∀ p q, m ((c : Thread nD τ).loc main_arg2) (ix2 p q) = ((w1r p q : ℝ) : EReal))
    (hw2 : ∀ p q, m ((c : Thread nD τ).loc main_arg3) (ix2 p q) = ((w2r p q : ℝ) : EReal))
    (hdeg : ∀ i, 0 < Cert.Spec.degR ar i)
    (R0rs : (∀ p q, C0 m ρ c main_arg1 (ix2 p q) = ((ar p q : ℝ) : EReal)) →
      ∀ r, (dat0 (C0 m ρ) c).arrAt 1 cfg0.N (ix2 r (0 : Fin 1)) = ((∑ j, ar r j : ℝ) : EReal))
    (R0cp : (∀ p q, C0 m ρ c main_arg1 (ix2 p q) = ((ar p q : ℝ) : EReal)) →
      ∀ r j, (dat0 (C0 m ρ) c).arrAt 2 cfg0.N (ix2 r j) = ((ar r j : ℝ) : EReal))
    (R1 : (∀ p q, C2 dat0 m ρ c main_v0_1 (ix2 p q) = ((ar p q : ℝ) : EReal)) →
      (∀ j f, C2 dat0 m ρ c main_v7 (ix2 j f) = ((y1r xr ar j f : ℝ) : EReal)) →
      (∀ r, C2 dat0 m ρ c main_v5 (ix2 r (0 : Fin 1)) = ((Cert.Spec.dinv ar r : ℝ) : EReal)) →
      (∀ f c', C2 dat0 m ρ c main_arg2 (ix2 f c') = ((w1r f c' : ℝ) : EReal)) →
      ∀ r c', (dat1 (C2 dat0 m ρ) c).arrAt 5 cfg1.N (ix2 r c')
        = ((max (∑ f : Fin 512, (Cert.Spec.dinv ar r * ((∑ j : Fin 8192, ar r j * y1r xr ar j f) + y1r xr ar r f)) * w1r f c') 0 : ℝ) : EReal))
    (R2 : (∀ p q, C4 dat0 dat1 m ρ c main_v0_1 (ix2 p q) = ((ar p q : ℝ) : EReal)) →
      (∀ j f, C4 dat0 dat1 m ρ c main_v10 (ix2 j f) = ((y2r xr ar w1r j f : ℝ) : EReal)) →
      (∀ r, C4 dat0 dat1 m ρ c main_v5 (ix2 r (0 : Fin 1)) = ((Cert.Spec.dinv ar r : ℝ) : EReal)) →
      (∀ f k, C4 dat0 dat1 m ρ c main_arg3 (ix2 f k) = ((w2r f k : ℝ) : EReal)) →
      (∀ r k, Cert.Spec.logit ar xr w1r w2r r k
        = max (∑ c' : Fin 256, (Cert.Spec.dinv ar r * ((∑ j, ar r j * y2r xr ar w1r j c') + y2r xr ar w1r r c')) * w2r c' k) 0) →
      ∀ r k, (dat2 (C4 dat0 dat1 m ρ) c).arrAt 5 cfg2.N (ix2 r k) = ((Cert.Spec.lsmK (Cert.Spec.logit ar xr w1r w2r) r k : ℝ) : EReal)) :
    (dat2 (C4 dat0 dat1 m ρ) c).arrAt 5 cfg2.N = specArr ar xr w1r w2r := by
  have h0rs := R0rs ha
  have h0cp := R0cp ha
  have a2 : ∀ p q, C2 dat0 m ρ c main_v0_1 (ix2 p q) = ((ar p q : ℝ) : EReal) := fun p q => by
    show W2 dat0 m ρ c (Proc.devRef .tc main_v0_1) (ix2 p q) = _
    rw [W2_keep dat0 m ρ c main_v0_1 (by decide)]
    exact W1_copy dat0 m ρ c ar h0cp p q
  have y2 : ∀ j f, C2 dat0 m ρ c main_v7 (ix2 j f) = ((y1r xr ar j f : ℝ) : EReal) := W2_y dat0 m ρ c xr ar h0rs hdeg hx
  have d2 : ∀ r, C2 dat0 m ρ c main_v5 (ix2 r (0 : Fin 1)) = ((Cert.Spec.dinv ar r : ℝ) : EReal) := W2_d dat0 m ρ c ar h0rs hdeg
  have w2 : ∀ f c', C2 dat0 m ρ c main_arg2 (ix2 f c') = ((w1r f c' : ℝ) : EReal) := fun f c' => by
    show W2 dat0 m ρ c (Proc.devRef .tc main_arg2) (ix2 f c') = _
    rw [W2_keep dat0 m ρ c main_arg2 (by decide), W1_arg2]
    exact hw1 f c'
  have h1 := R1 a2 y2 d2 w2
  have hh3 := W3_hid dat0 dat1 m ρ c xr ar w1r h1
  have hd3 : ∀ r, W3 dat0 dat1 m ρ c (Proc.devRef .tc main_v5) (ix2 r (0 : Fin 1)) = ((Cert.Spec.dinv ar r : ℝ) : EReal) := fun r => by
    rw [W3_keep dat0 dat1 m ρ c main_v5 (by decide)]
    exact d2 r
  have a4 : ∀ p q, C4 dat0 dat1 m ρ c main_v0_1 (ix2 p q) = ((ar p q : ℝ) : EReal) := fun p q => by
    show W4 dat0 dat1 m ρ c (Proc.devRef .tc main_v0_1) (ix2 p q) = _
    rw [W4_keep dat0 dat1 m ρ c main_v0_1 (by decide), W3_keep dat0 dat1 m ρ c main_v0_1 (by decide)]
    exact a2 p q
  have y4 : ∀ j f, C4 dat0 dat1 m ρ c main_v10 (ix2 j f) = ((y2r xr ar w1r j f : ℝ) : EReal) := W4_y dat0 dat1 m ρ c xr ar w1r hd3 hh3
  have d4 : ∀ r, C4 dat0 dat1 m ρ c main_v5 (ix2 r (0 : Fin 1)) = ((Cert.Spec.dinv ar r : ℝ) : EReal) := fun r => by
    show W4 dat0 dat1 m ρ c (Proc.devRef .tc main_v5) (ix2 r (0 : Fin 1)) = _
    rw [W4_keep dat0 dat1 m ρ c main_v5 (by decide)]
    exact hd3 r
  have w4 : ∀ f k, C4 dat0 dat1 m ρ c main_arg3 (ix2 f k) = ((w2r f k : ℝ) : EReal) := fun f k => by
    show W4 dat0 dat1 m ρ c (Proc.devRef .tc main_arg3) (ix2 f k) = _
    rw [W4_keep dat0 dat1 m ρ c main_arg3 (by decide), W3_keep dat0 dat1 m ρ c main_arg3 (by decide),
      W2_keep dat0 m ρ c main_arg3 (by decide), W1_arg3]
    exact hw2 f k
  exact eq_specArr ar xr w1r w2r _ (R2 a4 y4 d4 w4 (logit_formula xr ar w1r w2r))

end Chain

/-! ## The kernel program's half of the algebraic claim -/

/-- A run of the kernel program that ends with its result at what the third region's write-backs leave, from argument
    arrays that are arrays of real numbers with positive degrees, ends with its result at the common result. -/
theorem kernel_half_of_run (m : (ℓ : Loc Cert.KernelIdeal.nD Cert.KernelIdeal.τ Cert.KernelIdeal.sig) → Buf (Elt Ideal) ℓ) (ρ : Dev Cert.KernelIdeal.nD → PrngReg)
    (xr : Dev Cert.KernelIdeal.nD → Fin 8192 → Fin 512 → ℝ) (ar : Dev Cert.KernelIdeal.nD → Fin 8192 → Fin 8192 → ℝ)
    (w1r : Dev Cert.KernelIdeal.nD → Fin 512 → Fin 256 → ℝ) (w2r : Dev Cert.KernelIdeal.nD → Fin 256 → Fin 40 → ℝ)
    (hx : ∀ (c : Dev Cert.KernelIdeal.nD) (p : Fin 8192) (q : Fin 512), m ((c.tc : Thread Cert.KernelIdeal.nD Cert.KernelIdeal.τ).loc Cert.KernelIdeal.main_arg0) (ix2 p q) = ((xr c p q : ℝ) : EReal))
    (ha : ∀ (c : Dev Cert.KernelIdeal.nD) (p : Fin 8192) (q : Fin 8192), m ((c.tc : Thread Cert.KernelIdeal.nD Cert.KernelIdeal.τ).loc Cert.KernelIdeal.main_arg1) (ix2 p q) = ((ar c p q : ℝ) : EReal))
    (hw1 : ∀ (c : Dev Cert.KernelIdeal.nD) (p : Fin 512) (q : Fin 256), m ((c.tc : Thread Cert.KernelIdeal.nD Cert.KernelIdeal.τ).loc Cert.KernelIdeal.main_arg2) (ix2 p q) = ((w1r c p q : ℝ) : EReal))
    (hw2 : ∀ (c : Dev Cert.KernelIdeal.nD) (p : Fin 256) (q : Fin 40), m ((c.tc : Thread Cert.KernelIdeal.nD Cert.KernelIdeal.τ).loc Cert.KernelIdeal.main_arg3) (ix2 p q) = ((w2r c p q : ℝ) : EReal))
    (hdeg : ∀ (c : Dev Cert.KernelIdeal.nD) (i : Fin 8192), 0 < Cert.Spec.degR (ar c) i)
    (hrun : θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread Cert.KernelIdeal.nD Cert.KernelIdeal.τ).loc Cert.KernelIdeal.main_v11) = (dat2 (F := Ideal) (C4 (dat0 (F := Ideal)) (dat1 (F := Ideal)) m ρ) c).arrAt 5 cfg2.N
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread Cert.KernelIdeal.nD Cert.KernelIdeal.τ).loc Cert.KernelIdeal.main_v11) = specArr (ar c) (xr c) (w1r c) (w2r c)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run Cert.KernelIdeal.defs _ _).mono
    (fun _ h c => ⟨(h c).1.trans
        (result_real (dat0 (F := Ideal)) (dat1 (F := Ideal)) (dat2 (F := Ideal)) m ρ c (xr c) (ar c) (w1r c) (w2r c)
          (hx c) (ha c) (hw1 c) (hw2 c) (hdeg c)
          (Cert.KVal.rowsum_final (ar c) (C0 m ρ) c)
          (Cert.KVal.copy_final (ar c) (C0 m ρ) c)
          (Cert.KVal.R1.hid_final (C2 (dat0 (F := Ideal)) m ρ) c (ar c) (y1r (xr c) (ar c)) (Cert.Spec.dinv (ar c)) (w1r c))
          (fun a y d w hL => Cert.KVal.R2.out_final (C4 (dat0 (F := Ideal)) (dat1 (F := Ideal)) m ρ) c (ar c)
            (y2r (xr c) (ar c) (w1r c)) (Cert.Spec.dinv (ar c)) (w2r c) a y d w
            (Cert.Spec.logit (ar c) (xr c) (w1r c) (w2r c)) hL)),
      (h c).2⟩)
    hrun

/-- From a memory whose argument arrays are arrays of real numbers with positive degrees, the kernel program ends with its
    result at the common result and its arguments unchanged. -/
theorem kernel_half (m : (ℓ : Loc Cert.KernelIdeal.nD Cert.KernelIdeal.τ Cert.KernelIdeal.sig) → Buf (Elt Ideal) ℓ) (ρ : Dev Cert.KernelIdeal.nD → PrngReg)
    (xr : Dev Cert.KernelIdeal.nD → Fin 8192 → Fin 512 → ℝ) (ar : Dev Cert.KernelIdeal.nD → Fin 8192 → Fin 8192 → ℝ)
    (w1r : Dev Cert.KernelIdeal.nD → Fin 512 → Fin 256 → ℝ) (w2r : Dev Cert.KernelIdeal.nD → Fin 256 → Fin 40 → ℝ)
    (hx : ∀ (c : Dev Cert.KernelIdeal.nD) (p : Fin 8192) (q : Fin 512), m ((c.tc : Thread Cert.KernelIdeal.nD Cert.KernelIdeal.τ).loc Cert.KernelIdeal.main_arg0) (ix2 p q) = ((xr c p q : ℝ) : EReal))
    (ha : ∀ (c : Dev Cert.KernelIdeal.nD) (p : Fin 8192) (q : Fin 8192), m ((c.tc : Thread Cert.KernelIdeal.nD Cert.KernelIdeal.τ).loc Cert.KernelIdeal.main_arg1) (ix2 p q) = ((ar c p q : ℝ) : EReal))
    (hw1 : ∀ (c : Dev Cert.KernelIdeal.nD) (p : Fin 512) (q : Fin 256), m ((c.tc : Thread Cert.KernelIdeal.nD Cert.KernelIdeal.τ).loc Cert.KernelIdeal.main_arg2) (ix2 p q) = ((w1r c p q : ℝ) : EReal))
    (hw2 : ∀ (c : Dev Cert.KernelIdeal.nD) (p : Fin 256) (q : Fin 40), m ((c.tc : Thread Cert.KernelIdeal.nD Cert.KernelIdeal.τ).loc Cert.KernelIdeal.main_arg3) (ix2 p q) = ((w2r c p q : ℝ) : EReal))
    (hdeg : ∀ (c : Dev Cert.KernelIdeal.nD) (i : Fin 8192), 0 < Cert.Spec.degR (ar c) i) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread Cert.KernelIdeal.nD Cert.KernelIdeal.τ).loc Cert.KernelIdeal.main_v11) = specArr (ar c) (xr c) (w1r c) (w2r c)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  kernel_half_of_run m ρ xr ar w1r w2r hx ha hw1 hw2 hdeg (Cert.KernelIdeal.Gen.run (F := Ideal) m ρ)

end Cert.Proof

end
-- ==== Proof.lean ====
/-
  A two-layer graph convolution with symmetric degree normalisation, followed by a row-wise log-softmax, on 8192 nodes:
  with Â = A + I, deg i = Σ_j Â i j and d i = deg i ^ (-1/2), a layer sends features v to relu ((D Â D v) W).

  The reference forms the normalised matrix (d i · Â i j) · d j and multiplies. The kernel program works in three
  grid regions: the first sums the rows of A over eight column tiles (and copies A), the host then forms
  d = 1 / √(rowsum + 1) and scales the features, y = d · x; the second accumulates Σ_j A i j · y j over the eight tiles
  in a scratch carried across the grid, adds the node's own row y i, scales the row by d i, multiplies by W1 and
  applies relu; the host scales again, y₂ = d · h; the third does the same with W2 and ends in the log-softmax.

  Under the precondition every input is a real number and every row sum of Â is positive, so d is a positive real,
  every intermediate value is a real number, and both programs compute the same real function of the inputs:
  Σ_j (d i · Â i j · d j) · v j = d i · (Σ_j A i j · (d j · v j) + d i · v i) by distributing the product over the sum,
  and (l − M) − log Σ exp (l − M) = l − (M + log Σ exp (l − M)).

  The frames: each region runs its 64 grid points from the windows' arrays taken out of the core's buffers and puts
  them back (the feature array, read through two windows, in two half shares); the reference is a straight line of host
  operations. The idealization rewrote no operation, so nothing is owed for it.
-/
import proofs.«152435_j1984274891532_2_alg».proof.Defs
import proofs.«152435_j1984274891532_2_alg».proof.Proof.Gen.Kernel
import proofs.«152435_j1984274891532_2_alg».proof.Proof.Gen.KernelIdeal
import proofs.«152435_j1984274891532_2_alg».proof.Proof.Gen.ReferenceIdeal
import proofs.«152435_j1984274891532_2_alg».proof.Proof.Gen.Pre_finite_inputs
import proofs.«152435_j1984274891532_2_alg».proof.Proof.K.Inst
import proofs.«152435_j1984274891532_2_alg».proof.Proof.KI.Inst
import proofs.«152435_j1984274891532_2_alg».proof.Proof.RefClaim
import proofs.«152435_j1984274891532_2_alg».proof.Proof.KClaim
import Idealize.ShloMosaic.Adequacy
import Idealize.ShloMosaic.Init

noncomputable section

namespace Cert.Proof

open Idealize.ShloMosaic Idealize.SL.Sem

/-- The two idealized programs, from memories that agree on the arguments, end with the same result array: the
    kernel's arrangement over the reals, which the reference's arrangement equals where the degrees are positive. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  obtain ⟨xr, ar, w1r, w2r, hx, ha, hw1, hw2, hdeg⟩ := Cert.Proof.pre_real m hpre
  exact ⟨fun c => Cert.Proof.specArr (ar c) (xr c) (w1r c) (w2r c),
    Cert.Proof.kernel_half m ρ xr ar w1r w2r hx ha hw1 hw2 hdeg,
    Cert.Proof.ref_half_of_agree m m' ρ' hagree xr ar w1r w2r hx ha hw1 hw2 hdeg⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.frame_ri,
  trivial,
  Cert.Proof.algebraic⟩

end Cert.Proof

end
